-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S256x256x128 : Shape := ⟨3, ![256, 256, 128]⟩
abbrev S256x256 : Shape := ⟨2, ![256, 256]⟩
abbrev S35840x1024 : Shape := ⟨2, ![35840, 1024]⟩
abbrev S1024 : Shape := ⟨1, ![1024]⟩
abbrev S1024x128 : Shape := ⟨2, ![1024, 128]⟩
abbrev S128 : Shape := ⟨1, ![128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S256x256x128 : S_.BroadcastsInDim S256x256x128 (![] : Fin 0 → Fin S256x256x128.rank)
  reducesTo_S256x256x128_S_d0_1_2 : S256x256x128.ReducesTo [0, 1, 2] S_
  bcast_S_S256x256 : S_.BroadcastsInDim S256x256 (![] : Fin 0 → Fin S256x256.rank)
  reducesTo_S256x256_S_d0_1 : S256x256.ReducesTo [0, 1] S_
  bcast_S_S35840x1024 : S_.BroadcastsInDim S35840x1024 (![] : Fin 0 → Fin S35840x1024.rank)
  reducesTo_S35840x1024_S_d0_1 : S35840x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S1024 .f32) (main_arg9 : FVec F S1024x128 .f32) (main_arg10 : FVec F S128 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x128 .f32 := Host.absf main_arg9
  let main_cst_14 : FVec F S_ .f32 := constant S_ .f32 0x7F800000#32
  let main_v40 : FVec F S1024x128 .f32 := broadcastInDim S1024x128 ![] bcast_S_S1024x128 main_cst_14
  let main_v41 : IVec S1024x128 1 := cmpf .olt main_v39 main_v40
  let main_c_15 : IVec S_ 1 := constantI S_ 1 1#1
  let main_v42 : IVec S_ 1 := (fun x v => Host.reduce IntOp.andi x v reducesTo_S1024x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S35840x1024 .f32) (main_arg6 : FVec F S1024 .f32) (main_arg7 : FVec F S35840x1024 .f32) (main_arg8 : FVec F S1024 .f32) (main_arg9 : FVec F S1024x128 .f32) (main_arg10 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S35840x1024 .f32 := Host.absf main_arg5
  let main_cst_6 : FVec F S_ .f32 := constant S_ .f32 0x7F800000#32
  let main_v20 : FVec F S35840x1024 .f32 := broadcastInDim S35840x1024 ![] bcast_S_S35840x1024 main_cst_6
  let main_v21 : IVec S35840x1024 1 := cmpf .olt main_v19 main_v20
  let main_c_7 : IVec S_ 1 := constantI S_ 1 1#1
  let main_v22 : IVec S_ 1 := (fun x v => Host.reduce IntOp.andi x v reducesTo_S35840x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S35840x1024 .f32 := Host.absf main_arg7
  let main_cst_10 : FVec F S_ .f32 := constant S_ .f32 0x7F800000#32
  let main_v30 : FVec F S35840x1024 .f32 := broadcastInDim S35840x1024 ![] bcast_S_S35840x1024 main_cst_10
  let main_v31 : IVec S35840x1024 1 := cmpf .olt main_v29 main_v30
  let main_c_11 : IVec S_ 1 := constantI S_ 1 1#1
  let main_v32 : IVec S_ 1 := (fun x v => Host.reduce IntOp.andi x v reducesTo_S35840x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S256x128 .f32) (main_arg1 : FVec F S256x256x128 .f32) (main_arg2 : IVec S256x256 32) (main_arg3 : FVec F S256x256 .f32) (main_arg4 : FVec F S256x128 .f32) (main_arg5 : FVec F S35840x1024 .f32) (main_arg6 : FVec F S1024 .f32) (main_arg7 : FVec F S35840x1024 .f32) (main_arg8 : FVec F S1024 .f32) (main_arg9 : FVec F S1024x128 .f32) (main_arg10 : FVec F S128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S256x256x128 .f32 := Host.absf main_arg1
  let main_cst_0 : FVec F S_ .f32 := constant S_ .f32 0x7F800000#32
  let main_v5 : FVec F S256x256x128 .f32 := broadcastInDim S256x256x128 ![] bcast_S_S256x256x128 main_cst_0
  let main_v6 : IVec S256x256x128 1 := cmpf .olt main_v4 main_v5
  let main_c_1 : IVec S_ 1 := constantI S_ 1 1#1
  let main_v7 : IVec S_ 1 := (fun x v => Host.reduce IntOp.andi x v reducesTo_S256x256x128_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_v13 main_v16
-- ==== Kernel.lean ====
abbrev S256x128 : Shape := ⟨2, ![256, 128]⟩
abbrev S256x256x128 : Shape := ⟨3, ![256, 256, 128]⟩
abbrev S256x256 : Shape := ⟨2, ![256, 256]⟩
abbrev S35840x1024 : Shape := ⟨2, ![35840, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S256 : Shape := ⟨1, ![256]⟩
abbrev S256x1x128 : Shape := ⟨3, ![256, 1, 128]⟩
abbrev S256x255x128 : Shape := ⟨3, ![256, 255, 128]⟩
abbrev S1 : Shape := ⟨1, ![1]⟩
abbrev S256x1 : Shape := ⟨2, ![256, 1]⟩
abbrev S256x255 : Shape := ⟨2, ![256, 255]⟩
abbrev S256x256x1 : Shape := ⟨3, ![256, 256, 1]⟩
abbrev S1x1x1 : Shape := ⟨3, ![1, 1, 1]⟩
abbrev S10 : Shape := ⟨1, ![10]⟩
abbrev S1x1x10 : Shape := ⟨3, ![1, 1, 10]⟩
abbrev S256x256x10 : Shape := ⟨3, ![256, 256, 10]⟩
abbrev S256x32768 : Shape := ⟨2, ![256, 32768]⟩
abbrev S256x2560 : Shape := ⟨2, ![256, 2560]⟩
abbrev S256x35840 : Shape := ⟨2, ![256, 35840]⟩
abbrev S1x1024 : Shape := ⟨2, ![1, 1024]⟩
abbrev S2x256x128 : Shape := ⟨3, ![2, 256, 128]⟩
abbrev S1x256x128 : Shape := ⟨3, ![1, 256, 128]⟩
abbrev S1x128 : Shape := ⟨2, ![1, 128]⟩
abbrev S256x1280 : Shape := ⟨2, ![256, 1280]⟩
abbrev S1280x512 : Shape := ⟨2, ![1280, 512]⟩
abbrev S512x128 : Shape := ⟨2, ![512, 128]⟩
abbrev S1x512 : Shape := ⟨2, ![1, 512]⟩
abbrev S256x512 : Shape := ⟨2, ![256, 512]⟩

abbrev nBuf : Space → Nat
  | .hbm => 278
  | .vmem => 12
  | .smem => 0
  | _ => 0

abbrev hbmTy0_0 (i : Nat) : BufTy := match i % 128 with
  | 0 => ⟨S256x128, .f32⟩
  | 1 => ⟨S256x256x128, .f32⟩
  | 2 => ⟨S256x256, .i32⟩
  | 3 => ⟨S256x256, .f32⟩
  | 4 => ⟨S256x128, .f32⟩
  | 5 => ⟨S35840x1024, .f32⟩
  | 6 => ⟨S1024, .f32⟩
  | 7 => ⟨S35840x1024, .f32⟩
  | 8 => ⟨S1024, .f32⟩
  | 9 => ⟨S1024x128, .f32⟩
  | 10 => ⟨S128, .f32⟩
  | 11 => ⟨S256x128, .f32⟩
  | 12 => ⟨S_, .f32⟩
  | 13 => ⟨S256, .f32⟩
  | 14 => ⟨S_, .f32⟩
  | 15 => ⟨S256, .f32⟩
  | 16 => ⟨S256, .f32⟩
  | 17 => ⟨S256, .f32⟩
  | 18 => ⟨S256, .f32⟩
  | 19 => ⟨S_, .i32⟩
  | 20 => ⟨S256x256, .i32⟩
  | 21 => ⟨S256x256, .i32⟩
  | 22 => ⟨S_, .f32⟩
  | 23 => ⟨S256x256, .f32⟩
  | 24 => ⟨S256x256, .f32⟩
  | 25 => ⟨S256x1x128, .f32⟩
  | 26 => ⟨S256x255x128, .f32⟩
  | 27 => ⟨S256x256x128, .f32⟩
  | 28 => ⟨S_, .i32⟩
  | 29 => ⟨S1, .i32⟩
  | 30 => ⟨S256x256x128, .f32⟩
  | 31 => ⟨S256x1, .i32⟩
  | 32 => ⟨S256x255, .i32⟩
  | 33 => ⟨S256x256, .i32⟩
  | 34 => ⟨S_, .i32⟩
  | 35 => ⟨S1, .i32⟩
  | 36 => ⟨S_, .i32⟩
  | 37 => ⟨S256, .i32⟩
  | 38 => ⟨S256x256, .i32⟩
  | 39 => ⟨S256x1, .f32⟩
  | 40 => ⟨S256x255, .f32⟩
  | 41 => ⟨S256x256, .f32⟩
  | 42 => ⟨S_, .i32⟩
  | 43 => ⟨S1, .i32⟩
  | 44 => ⟨S256x256, .f32⟩
  | 45 => ⟨S256x256, .i32⟩
  | 46 => ⟨S256x256, .i32⟩
  | 47 => ⟨S256x256, .i32⟩
  | 48 => ⟨S_, .i32⟩
  | 49 => ⟨S256x256, .i32⟩
  | 50 => ⟨S256x256, .i1⟩
  | 51 => ⟨S_, .i32⟩
  | 52 => ⟨S256x256, .i32⟩
  | 53 => ⟨S256x256, .i32⟩
  | 54 => ⟨S256x256, .i32⟩
  | 55 => ⟨S256x256x1, .i32⟩
  | 56 => ⟨S1, .i32⟩
  | 57 => ⟨S_, .i32⟩
  | 58 => ⟨S256x256x1, .i32⟩
  | 59 => ⟨S256x256x1, .i1⟩
  | 60 => ⟨S1x1x1, .i32⟩
  | 61 => ⟨S256x256x1, .i32⟩
  | 62 => ⟨S256x256x1, .i1⟩
  | 63 => ⟨S256x256x1, .i1⟩
  | 64 => ⟨S_, .i1⟩
  | 65 => ⟨S256x256, .i1⟩
  | 66 => ⟨S256x256, .i32⟩
  | 67 => ⟨S_, .i32⟩
  | 68 => ⟨S256x256, .i32⟩
  | 69 => ⟨S256x256, .i32⟩
  | 70 => ⟨S256x256x1, .i32⟩
  | 71 => ⟨S_, .i32⟩
  | 72 => ⟨S256x256x1, .i32⟩
  | 73 => ⟨S256x256x1, .i1⟩
  | 74 => ⟨S_, .i32⟩
  | 75 => ⟨S256x256x1, .i32⟩
  | 76 => ⟨S256x256x1, .i32⟩
  | 77 => ⟨S256x256x1, .i32⟩
  | 78 => ⟨S1, .i32⟩
  | 79 => ⟨S_, .i32⟩
  | 80 => ⟨S256x256x1, .i32⟩
  | 81 => ⟨S256x256x1, .i1⟩
  | 82 => ⟨S1x1x1, .i32⟩
  | 83 => ⟨S256x256x1, .i32⟩
  | 84 => ⟨S256x256x1, .i1⟩
  | 85 => ⟨S256x256x1, .i1⟩
  | 86 => ⟨S_, .i1⟩
  | 87 => ⟨S256x256, .i1⟩
  | 88 => ⟨S256x256x128, .f32⟩
  | 89 => ⟨S256x256x128, .i1⟩
  | 90 => ⟨S_, .f32⟩
  | 91 => ⟨S256x256x128, .f32⟩
  | 92 => ⟨S256x256x128, .f32⟩
  | 93 => ⟨S_, .i32⟩
  | 94 => ⟨S256x256, .i32⟩
  | 95 => ⟨S256x256, .i1⟩
  | 96 => ⟨S_, .i32⟩
  | 97 => ⟨S256x256, .i32⟩
  | 98 => ⟨S256x256, .i32⟩
  | 99 => ⟨S256x256, .i32⟩
  | 100 => ⟨S256x256x1, .i32⟩
  | 101 => ⟨S1, .i32⟩
  | 102 => ⟨S_, .i32⟩
  | 103 => ⟨S256x256x1, .i32⟩
  | 104 => ⟨S256x256x1, .i1⟩
  | 105 => ⟨S1x1x1, .i32⟩
  | 106 => ⟨S256x256x1, .i32⟩
  | 107 => ⟨S256x256x1, .i1⟩
  | 108 => ⟨S256x256x1, .i1⟩
  | 109 => ⟨S_, .i1⟩
  | 110 => ⟨S256x256, .i1⟩
  | 111 => ⟨S256x256, .f32⟩
  | 112 => ⟨S_, .f32⟩
  | 113 => ⟨S256x256, .f32⟩
  | 114 => ⟨S256x256, .f32⟩
  | 115 => ⟨S10, .i32⟩
  | 116 => ⟨S_, .i32⟩
  | 117 => ⟨S_, .i32⟩
  | 118 => ⟨S_, .i1⟩
  | 119 => ⟨S_, .i32⟩
  | 120 => ⟨S10, .i32⟩
  | 121 => ⟨S10, .i1⟩
  | 122 => ⟨S10, .i1⟩
  | 123 => ⟨S10, .i1⟩
  | 124 => ⟨S_, .i32⟩
  | 125 => ⟨S_, .i32⟩
  | 126 => ⟨S10, .i32⟩
  | 127 => ⟨S10, .i32⟩
  | _ => ⟨S256x128, .f32⟩

abbrev hbmTy0_1 (i : Nat) : BufTy := match i % 128 with
  | 0 => ⟨S10, .i32⟩
  | 1 => ⟨S_, .i32⟩
  | 2 => ⟨S10, .i32⟩
  | 3 => ⟨S10, .i32⟩
  | 4 => ⟨S_, .i32⟩
  | 5 => ⟨S10, .i32⟩
  | 6 => ⟨S10, .i32⟩
  | 7 => ⟨S_, .i32⟩
  | 8 => ⟨S10, .i32⟩
  | 9 => ⟨S10, .i1⟩
  | 10 => ⟨S10, .i32⟩
  | 11 => ⟨S_, .i32⟩
  | 12 => ⟨S_, .i32⟩
  | 13 => ⟨S_, .i32⟩
  | 14 => ⟨S_, .i32⟩
  | 15 => ⟨S10, .i32⟩
  | 16 => ⟨S10, .i32⟩
  | 17 => ⟨S_, .i32⟩
  | 18 => ⟨S10, .i32⟩
  | 19 => ⟨S10, .i32⟩
  | 20 => ⟨S10, .i32⟩
  | 21 => ⟨S10, .i32⟩
  | 22 => ⟨S_, .i32⟩
  | 23 => ⟨S10, .i32⟩
  | 24 => ⟨S10, .i1⟩
  | 25 => ⟨S10, .i32⟩
  | 26 => ⟨S_, .i32⟩
  | 27 => ⟨S_, .i32⟩
  | 28 => ⟨S10, .i32⟩
  | 29 => ⟨S10, .i32⟩
  | 30 => ⟨S_, .i32⟩
  | 31 => ⟨S10, .i32⟩
  | 32 => ⟨S10, .i32⟩
  | 33 => ⟨S10, .i32⟩
  | 34 => ⟨S10, .i32⟩
  | 35 => ⟨S_, .i32⟩
  | 36 => ⟨S10, .i32⟩
  | 37 => ⟨S10, .i1⟩
  | 38 => ⟨S10, .i32⟩
  | 39 => ⟨S_, .i32⟩
  | 40 => ⟨S_, .i32⟩
  | 41 => ⟨S10, .i32⟩
  | 42 => ⟨S10, .i32⟩
  | 43 => ⟨S_, .i32⟩
  | 44 => ⟨S10, .i32⟩
  | 45 => ⟨S10, .i32⟩
  | 46 => ⟨S10, .i32⟩
  | 47 => ⟨S10, .i32⟩
  | 48 => ⟨S_, .i32⟩
  | 49 => ⟨S10, .i32⟩
  | 50 => ⟨S10, .i1⟩
  | 51 => ⟨S10, .i32⟩
  | 52 => ⟨S_, .i32⟩
  | 53 => ⟨S_, .i32⟩
  | 54 => ⟨S10, .i32⟩
  | 55 => ⟨S10, .i32⟩
  | 56 => ⟨S_, .i32⟩
  | 57 => ⟨S10, .i32⟩
  | 58 => ⟨S10, .i32⟩
  | 59 => ⟨S10, .i32⟩
  | 60 => ⟨S10, .i32⟩
  | 61 => ⟨S_, .i32⟩
  | 62 => ⟨S10, .i32⟩
  | 63 => ⟨S10, .i1⟩
  | 64 => ⟨S10, .i32⟩
  | 65 => ⟨S_, .i32⟩
  | 66 => ⟨S_, .i32⟩
  | 67 => ⟨S10, .i32⟩
  | 68 => ⟨S10, .i32⟩
  | 69 => ⟨S_, .i32⟩
  | 70 => ⟨S10, .i32⟩
  | 71 => ⟨S10, .i32⟩
  | 72 => ⟨S10, .i32⟩
  | 73 => ⟨S10, .i32⟩
  | 74 => ⟨S_, .i32⟩
  | 75 => ⟨S10, .i32⟩
  | 76 => ⟨S10, .i1⟩
  | 77 => ⟨S10, .i32⟩
  | 78 => ⟨S_, .i32⟩
  | 79 => ⟨S_, .i32⟩
  | 80 => ⟨S10, .i32⟩
  | 81 => ⟨S10, .i32⟩
  | 82 => ⟨S256x256x1, .i32⟩
  | 83 => ⟨S1x1x10, .i32⟩
  | 84 => ⟨S256x256x10, .i32⟩
  | 85 => ⟨S256x256x10, .i32⟩
  | 86 => ⟨S256x256x10, .i32⟩
  | 87 => ⟨S256x256x1, .i32⟩
  | 88 => ⟨S1x1x10, .i32⟩
  | 89 => ⟨S256x256x10, .i32⟩
  | 90 => ⟨S256x256x10, .i32⟩
  | 91 => ⟨S256x256x10, .i1⟩
  | 92 => ⟨S256x256x10, .i32⟩
  | 93 => ⟨S256x256x10, .i32⟩
  | 94 => ⟨S256x256x10, .i32⟩
  | 95 => ⟨S_, .i32⟩
  | 96 => ⟨S256x256x10, .i32⟩
  | 97 => ⟨S256x256x10, .i1⟩
  | 98 => ⟨S256x256x10, .i1⟩
  | 99 => ⟨S_, .i32⟩
  | 100 => ⟨S256x256x10, .i32⟩
  | 101 => ⟨S256x256x10, .i32⟩
  | 102 => ⟨S256x256x10, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S256x256x10, .i32⟩
  | 110 => ⟨S256x256x10, .i32⟩
  | 111 => ⟨S_, .i32⟩
  | 112 => ⟨S256x256x10, .i32⟩
  | 113 => ⟨S256x256x10, .i1⟩
  | 114 => ⟨S_, .i32⟩
  | 115 => ⟨S256x256x10, .i32⟩
  | 116 => ⟨S256x256x10, .i1⟩
  | 117 => ⟨S_, .i32⟩
  | 118 => ⟨S_, .i1⟩
  | 119 => ⟨S256x256x10, .i1⟩
  | 120 => ⟨S256x256x10, .i1⟩
  | 121 => ⟨S256x256x10, .i1⟩
  | 122 => ⟨S256x256x10, .i32⟩
  | 123 => ⟨S256x256x10, .i32⟩
  | 124 => ⟨S256x256x10, .i32⟩
  | 125 => ⟨S256x256x10, .f32⟩
  | 126 => ⟨S256x256, .f32⟩
  | 127 => ⟨S_, .i32⟩
  | _ => ⟨S256x128, .f32⟩

abbrev hbmTy0_2 (i : Nat) : BufTy := match i % 128 with
  | 0 => ⟨S256, .i32⟩
  | 1 => ⟨S256x1, .i32⟩
  | 2 => ⟨S256x1, .f32⟩
  | 3 => ⟨S_, .f32⟩
  | 4 => ⟨S256x1, .f32⟩
  | 5 => ⟨S256x1, .f32⟩
  | 6 => ⟨S256x256, .f32⟩
  | 7 => ⟨S256x256, .f32⟩
  | 8 => ⟨S256x32768, .f32⟩
  | 9 => ⟨S256x2560, .f32⟩
  | 10 => ⟨S256x35840, .f32⟩
  | 11 => ⟨S1x1024, .f32⟩
  | 12 => ⟨S1x1024, .f32⟩
  | 13 => ⟨S2x256x128, .f32⟩
  | 14 => ⟨S1x256x128, .f32⟩
  | 15 => ⟨S256x128, .f32⟩
  | 16 => ⟨S1x256x128, .f32⟩
  | 17 => ⟨S256x128, .f32⟩
  | 18 => ⟨S256x128, .f32⟩
  | 19 => ⟨S1x128, .f32⟩
  | 20 => ⟨S256x128, .f32⟩
  | 21 => ⟨S256x128, .f32⟩
  | _ => ⟨S256x128, .f32⟩

abbrev hbmTy (i : Nat) : BufTy := match i / 128 with
  | 0 => hbmTy0_0 i
  | 1 => hbmTy0_1 i
  | 2 => hbmTy0_2 i
  | _ => ⟨S256x128, .f32⟩

abbrev bufTy : (tb : Table) → Fin (tcTables nBuf tb) → BufTy
  | .hbm, ⟨i, _⟩ => hbmTy i
  | .local _ .vmem, ⟨0, _⟩ => ⟨S256x1280, .f32⟩
  | .local _ .vmem, ⟨1, _⟩ => ⟨S256x1280, .f32⟩
  | .local _ .vmem, ⟨2, _⟩ => ⟨S1280x512, .f32⟩
  | .local _ .vmem, ⟨3, _⟩ => ⟨S1280x512, .f32⟩
  | .local _ .vmem, ⟨4, _⟩ => ⟨S1280x512, .f32⟩
  | .local _ .vmem, ⟨5, _⟩ => ⟨S1280x512, .f32⟩
  | .local _ .vmem, ⟨6, _⟩ => ⟨S512x128, .f32⟩
  | .local _ .vmem, ⟨7, _⟩ => ⟨S1x512, .f32⟩
  | .local _ .vmem, ⟨8, _⟩ => ⟨S1x512, .f32⟩
  | .local _ .vmem, ⟨9, _⟩ => ⟨S1x256x128, .f32⟩
  | .local _ .vmem, ⟨10, _⟩ => ⟨S256x512, .f32⟩
  | .local _ .vmem, ⟨11, _⟩ => ⟨S256x512, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_call2_v0 : Ref sig .tc := ⟨.hbm, 39, rfl⟩
abbrev main_call2_v1 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_v1_0 : Ref sig .tc := ⟨.hbm, 46, rfl⟩
abbrev main_v20 : Ref sig .tc := ⟨.hbm, 47, rfl⟩
abbrev main_call4_c : Ref sig .tc := ⟨.hbm, 48, rfl⟩
abbrev main_call4_v0 : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_v5 : Ref sig .tc := ⟨.hbm, 55, rfl⟩
abbrev main_call4_c_1 : Ref sig .tc := ⟨.hbm, 56, rfl⟩
abbrev main_call4_c_2 : Ref sig .tc := ⟨.hbm, 57, rfl⟩
abbrev main_call4_v6 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_call4_v11 : Ref sig .tc := ⟨.hbm, 63, rfl⟩
abbrev main_call4_c_3 : Ref sig .tc := ⟨.hbm, 64, rfl⟩
abbrev main_call4_v12 : Ref sig .tc := ⟨.hbm, 65, rfl⟩
abbrev main_call4_v13 : Ref sig .tc := ⟨.hbm, 66, rfl⟩
abbrev main_call4_c_4 : Ref sig .tc := ⟨.hbm, 67, rfl⟩
abbrev main_call4_v14 : Ref sig .tc := ⟨.hbm, 68, rfl⟩
abbrev main_v21 : Ref sig .tc := ⟨.hbm, 69, rfl⟩
abbrev main_v22 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_c_1 : Ref sig .tc := ⟨.hbm, 78, rfl⟩
abbrev main_call5_c_2 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_3 : Ref sig .tc := ⟨.hbm, 86, rfl⟩
abbrev main_call5_v11 : Ref sig .tc := ⟨.hbm, 87, rfl⟩
abbrev main_call5_v12 : Ref sig .tc := ⟨.hbm, 88, rfl⟩
abbrev main_call5_v13 : Ref sig .tc := ⟨.hbm, 89, rfl⟩
abbrev main_call5_cst : Ref sig .tc := ⟨.hbm, 90, rfl⟩
abbrev main_call5_v14 : Ref sig .tc := ⟨.hbm, 91, rfl⟩
abbrev main_v23 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_cst : Ref sig .tc := ⟨.hbm, 112, rfl⟩
abbrev main_call6_v14 : Ref sig .tc := ⟨.hbm, 113, rfl⟩
abbrev main_v24 : Ref sig .tc := ⟨.hbm, 114, rfl⟩
abbrev main_v25 : Ref sig .tc := ⟨.hbm, 115, rfl⟩
abbrev main_c_6 : Ref sig .tc := ⟨.hbm, 116, rfl⟩
abbrev main_c_7 : Ref sig .tc := ⟨.hbm, 117, rfl⟩
abbrev main_v26 : Ref sig .tc := ⟨.hbm, 118, rfl⟩
abbrev main_c_8 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_c_9 : Ref sig .tc := ⟨.hbm, 124, rfl⟩
abbrev main_c_10 : Ref sig .tc := ⟨.hbm, 125, rfl⟩
abbrev main_call7_v0 : Ref sig .tc := ⟨.hbm, 126, rfl⟩
abbrev main_call7_v1 : Ref sig .tc := ⟨.hbm, 127, rfl⟩
abbrev main_v31 : Ref sig .tc := ⟨.hbm, 128, rfl⟩
abbrev main_c_11 : Ref sig .tc := ⟨.hbm, 129, rfl⟩
abbrev main_v32 : Ref sig .tc := ⟨.hbm, 130, rfl⟩
abbrev main_v33 : Ref sig .tc := ⟨.hbm, 131, rfl⟩
abbrev main_c_12 : Ref sig .tc := ⟨.hbm, 132, rfl⟩
abbrev main_v34 : Ref sig .tc := ⟨.hbm, 133, rfl⟩
abbrev main_v35 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_v36 : Ref sig .tc := ⟨.hbm, 138, rfl⟩
abbrev main_c_13 : Ref sig .tc := ⟨.hbm, 139, rfl⟩
abbrev main_c_14 : Ref sig .tc := ⟨.hbm, 140, rfl⟩
abbrev main_v37 : Ref sig .tc := ⟨.hbm, 141, rfl⟩
abbrev main_c_15 : Ref sig .tc := ⟨.hbm, 142, rfl⟩
abbrev main_v38 : Ref sig .tc := ⟨.hbm, 143, rfl⟩
abbrev main_v39 : Ref sig .tc := ⟨.hbm, 144, rfl⟩
abbrev main_c_16 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_call9_c : Ref sig .tc := ⟨.hbm, 150, rfl⟩
abbrev main_call9_v0 : Ref sig .tc := ⟨.hbm, 151, rfl⟩
abbrev main_call9_v1 : Ref sig .tc := ⟨.hbm, 152, rfl⟩
abbrev main_v44 : Ref sig .tc := ⟨.hbm, 153, rfl⟩
abbrev main_v45 : Ref sig .tc := ⟨.hbm, 154, rfl⟩
abbrev main_c_17 : Ref sig .tc := ⟨.hbm, 155, rfl⟩
abbrev main_v46 : Ref sig .tc := ⟨.hbm, 156, rfl⟩
abbrev main_v47 : Ref sig .tc := ⟨.hbm, 157, rfl⟩
abbrev main_c_18 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_call10_c : Ref sig .tc := ⟨.hbm, 163, rfl⟩
abbrev main_call10_v0 : Ref sig .tc := ⟨.hbm, 164, rfl⟩
abbrev main_call10_v1 : Ref sig .tc := ⟨.hbm, 165, rfl⟩
abbrev main_v52 : Ref sig .tc := ⟨.hbm, 166, rfl⟩
abbrev main_v53 : Ref sig .tc := ⟨.hbm, 167, rfl⟩
abbrev main_c_19 : Ref sig .tc := ⟨.hbm, 168, rfl⟩
abbrev main_v54 : Ref sig .tc := ⟨.hbm, 169, rfl⟩
abbrev main_v55 : Ref sig .tc := ⟨.hbm, 170, rfl⟩
abbrev main_c_20 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_call11_c : Ref sig .tc := ⟨.hbm, 176, rfl⟩
abbrev main_call11_v0 : Ref sig .tc := ⟨.hbm, 177, rfl⟩
abbrev main_call11_v1 : Ref sig .tc := ⟨.hbm, 178, rfl⟩
abbrev main_v60 : Ref sig .tc := ⟨.hbm, 179, rfl⟩
abbrev main_v61 : Ref sig .tc := ⟨.hbm, 180, rfl⟩
abbrev main_c_21 : Ref sig .tc := ⟨.hbm, 181, rfl⟩
abbrev main_v62 : Ref sig .tc := ⟨.hbm, 182, rfl⟩
abbrev main_v63 : Ref sig .tc := ⟨.hbm, 183, rfl⟩
abbrev main_c_22 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_call12_c : Ref sig .tc := ⟨.hbm, 189, rfl⟩
abbrev main_call12_v0 : Ref sig .tc := ⟨.hbm, 190, rfl⟩
abbrev main_call12_v1 : Ref sig .tc := ⟨.hbm, 191, rfl⟩
abbrev main_v68 : Ref sig .tc := ⟨.hbm, 192, rfl⟩
abbrev main_v69 : Ref sig .tc := ⟨.hbm, 193, rfl⟩
abbrev main_c_23 : Ref sig .tc := ⟨.hbm, 194, rfl⟩
abbrev main_v70 : Ref sig .tc := ⟨.hbm, 195, rfl⟩
abbrev main_v71 : Ref sig .tc := ⟨.hbm, 196, rfl⟩
abbrev main_c_24 : Ref sig .tc := ⟨.hbm, 197, rfl⟩
abbrev main_v72 : Ref sig .tc := ⟨.hbm, 198, rfl⟩
abbrev main_v73 : Ref sig .tc := ⟨.hbm, 199, rfl⟩
abbrev main_v74 : Ref sig .tc := ⟨.hbm, 200, rfl⟩
abbrev main_v75 : Ref sig .tc := ⟨.hbm, 201, rfl⟩
abbrev main_call13_c : Ref sig .tc := ⟨.hbm, 202, rfl⟩
abbrev main_call13_v0 : Ref sig .tc := ⟨.hbm, 203, rfl⟩
abbrev main_call13_v1 : Ref sig .tc := ⟨.hbm, 204, rfl⟩
abbrev main_v76 : Ref sig .tc := ⟨.hbm, 205, rfl⟩
abbrev main_v77 : Ref sig .tc := ⟨.hbm, 206, rfl⟩
abbrev main_c_25 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_call14_v0 : Ref sig .tc := ⟨.hbm, 211, rfl⟩
abbrev main_call14_v1 : Ref sig .tc := ⟨.hbm, 212, rfl⟩
abbrev main_call14_v2 : Ref sig .tc := ⟨.hbm, 213, rfl⟩
abbrev main_call14_v3 : Ref sig .tc := ⟨.hbm, 214, rfl⟩
abbrev main_call14_v4 : Ref sig .tc := ⟨.hbm, 215, rfl⟩
abbrev main_call14_v5 : Ref sig .tc := ⟨.hbm, 216, rfl⟩
abbrev main_call14_v6 : Ref sig .tc := ⟨.hbm, 217, rfl⟩
abbrev main_call14_v7 : Ref sig .tc := ⟨.hbm, 218, rfl⟩
abbrev main_call14_v8 : Ref sig .tc := ⟨.hbm, 219, rfl⟩
abbrev main_call14_v9 : Ref sig .tc := ⟨.hbm, 220, rfl⟩
abbrev main_call14_v10 : Ref sig .tc := ⟨.hbm, 221, rfl⟩
abbrev main_call14_v11 : Ref sig .tc := ⟨.hbm, 222, rfl⟩
abbrev main_call14_c : Ref sig .tc := ⟨.hbm, 223, rfl⟩
abbrev main_call14_v12 : Ref sig .tc := ⟨.hbm, 224, rfl⟩
abbrev main_call14_v13 : Ref sig .tc := ⟨.hbm, 225, rfl⟩
abbrev main_call14_v14 : Ref sig .tc := ⟨.hbm, 226, rfl⟩
abbrev main_call14_c_0 : Ref sig .tc := ⟨.hbm, 227, rfl⟩
abbrev main_call14_v15 : Ref sig .tc := ⟨.hbm, 228, rfl⟩
abbrev main_call14_v16 : Ref sig .tc := ⟨.hbm, 229, rfl⟩
abbrev main_v81 : Ref sig .tc := ⟨.hbm, 230, rfl⟩
abbrev main_c_26 : Ref sig .tc := ⟨.hbm, 231, rfl⟩
abbrev main_call15_v0 : Ref sig .tc := ⟨.hbm, 232, rfl⟩
abbrev main_call15_c : Ref sig .tc := ⟨.hbm, 233, rfl⟩
abbrev main_call15_v1 : Ref sig .tc := ⟨.hbm, 234, rfl⟩
abbrev main_call15_c_0 : Ref sig .tc := ⟨.hbm, 235, rfl⟩
abbrev main_call15_v2 : Ref sig .tc := ⟨.hbm, 236, rfl⟩
abbrev main_call15_v3 : Ref sig .tc := ⟨.hbm, 237, rfl⟩
abbrev main_call15_v4 : Ref sig .tc := ⟨.hbm, 238, rfl⟩
abbrev main_call15_c_1 : Ref sig .tc := ⟨.hbm, 239, rfl⟩
abbrev main_call15_v5 : Ref sig .tc := ⟨.hbm, 240, rfl⟩
abbrev main_call15_v6 : Ref sig .tc := ⟨.hbm, 241, rfl⟩
abbrev main_call15_c_2 : Ref sig .tc := ⟨.hbm, 242, rfl⟩
abbrev main_call15_v7 : Ref sig .tc := ⟨.hbm, 243, rfl⟩
abbrev main_call15_v8 : Ref sig .tc := ⟨.hbm, 244, rfl⟩
abbrev main_call15_c_3 : Ref sig .tc := ⟨.hbm, 245, rfl⟩
abbrev main_call15_v9 : Ref sig .tc := ⟨.hbm, 246, rfl⟩
abbrev main_call15_v10 : Ref sig .tc := ⟨.hbm, 247, rfl⟩
abbrev main_call15_v11 : Ref sig .tc := ⟨.hbm, 248, rfl⟩
abbrev main_call15_v12 : Ref sig .tc := ⟨.hbm, 249, rfl⟩
abbrev main_call15_v13 : Ref sig .tc := ⟨.hbm, 250, rfl⟩
abbrev main_call15_v14 : Ref sig .tc := ⟨.hbm, 251, rfl⟩
abbrev main_v82 : Ref sig .tc := ⟨.hbm, 252, rfl⟩
abbrev main_v83 : Ref sig .tc := ⟨.hbm, 253, rfl⟩
abbrev main_v84 : Ref sig .tc := ⟨.hbm, 254, rfl⟩
abbrev main_c_27 : Ref sig .tc := ⟨.hbm, 255, rfl⟩
abbrev main_v85 : Ref sig .tc := ⟨.hbm, 256, rfl⟩
abbrev main_v86 : Ref sig .tc := ⟨.hbm, 257, rfl⟩
abbrev main_v87 : Ref sig .tc := ⟨.hbm, 258, rfl⟩
abbrev main_cst_28 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_call16_v0 : Ref sig .tc := ⟨.hbm, 267, rfl⟩
abbrev main_call16_v1 : Ref sig .tc := ⟨.hbm, 268, rfl⟩
abbrev main_call16_v2 : Ref sig .tc := ⟨.hbm, 269, rfl⟩
abbrev main_call16_v3 : Ref sig .tc := ⟨.hbm, 270, rfl⟩
abbrev main_call16_v4 : Ref sig .tc := ⟨.hbm, 271, rfl⟩
abbrev main_call16_v5 : Ref sig .tc := ⟨.hbm, 272, rfl⟩
abbrev main_call16_v6 : Ref sig .tc := ⟨.hbm, 273, rfl⟩
abbrev main_call16_v7 : Ref sig .tc := ⟨.hbm, 274, rfl⟩
abbrev main_call16_v8 : Ref sig .tc := ⟨.hbm, 275, rfl⟩
abbrev main_call16_v9 : Ref sig .tc := ⟨.hbm, 276, rfl⟩
abbrev main_v95 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![2, 28], ![false, false]⟩

def k0_cond2 (i : grid0.Coords) : BitVec 1 :=
  let arg1 : BitVec 32 := BitVec.ofNat 32 (i 1).val
  let c27_i32 : BitVec 32 := 27#32
  let v22 : BitVec 1 := Scalar.cmpi .eq arg1 c27_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

class Facts₀ : Prop where
  reducesTo_S256x128_S256_d1 : S256x128.ReducesTo [1] S256
  h_S_ : 0 < S_.numel
  bcast_S_S256 : S_.BroadcastsInDim S256 (![] : Fin 0 → Fin S256.rank)
  bcast_S_S256x256 : S_.BroadcastsInDim S256x256 (![] : Fin 0 → Fin S256x256.rank)
  slices_S256x256x128_S256x1x128_0_255_0 : S256x256x128.Slices ![0, 255, 0] S256x1x128
  slices_S256x256x128_S256x255x128_0_0_0 : S256x256x128.Slices ![0, 0, 0] S256x255x128
  concatenates_S256x1x128_S256x255x128_S256x256x128_d1 : Shape.Concatenates [S256x1x128, S256x255x128] S256x256x128 1
  bcast_S_S1 : S_.BroadcastsInDim S1 (![] : Fin 0 → Fin S1.rank)
  slices_S256x256_S256x1_0_255 : S256x256.Slices ![0, 255] S256x1
  slices_S256x256_S256x255_0_0 : S256x256.Slices ![0, 0] S256x255
  concatenates_S256x1_S256x255_S256x256_d1 : Shape.Concatenates [S256x1, S256x255] S256x256 1
  shapeCasts_S256x256_S256x256x1 : S256x256.ShapeCasts S256x256x1
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  bcast_S256x256_S256x256x1_0_1 : S256x256.BroadcastsInDim S256x256x1 (![0, 1] : Fin 2 → Fin S256x256x1.rank)
  bcast_S256x256_S256x256x128_0_1 : S256x256.BroadcastsInDim S256x256x128 (![0, 1] : Fin 2 → Fin S256x256x128.rank)
  bcast_S_S256x256x128 : S_.BroadcastsInDim S256x256x128 (![] : Fin 0 → Fin S256x256x128.rank)
  bcast_S_S10 : S_.BroadcastsInDim S10 (![] : Fin 0 → Fin S10.rank)
  bcast_S10_S1x1x10_2 : S10.BroadcastsInDim S1x1x10 (![2] : Fin 1 → Fin S1x1x10.rank)
  bcast_S256x256x1_S256x256x10_0_1_2 : S256x256x1.BroadcastsInDim S256x256x10 (![0, 1, 2] : Fin 3 → Fin S256x256x10.rank)
  bcast_S1x1x10_S256x256x10_0_1_2 : S1x1x10.BroadcastsInDim S256x256x10 (![0, 1, 2] : Fin 3 → Fin S256x256x10.rank)
  bcast_S_S256x256x10 : S_.BroadcastsInDim S256x256x10 (![] : Fin 0 → Fin S256x256x10.rank)
  reducesTo_S256x256_S256_d1 : S256x256.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  shapeCasts_S256x256x128_S256x32768 : S256x256x128.ShapeCasts S256x32768
  shapeCasts_S256x256x10_S256x2560 : S256x256x10.ShapeCasts S256x2560
  concatenates_S256x32768_S256x2560_S256x256_S256x256_S256x35840_d1 : Shape.Concatenates [S256x32768, S256x2560, S256x256, S256x256] S256x35840 1
  shapeCasts_S1024_S1x1024 : S1024.ShapeCasts S1x1024
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  shapeCasts_S128_S1x128 : S128.ShapeCasts S1x128
  bcast_S1x128_S256x128_0_1 : S1x128.BroadcastsInDim S256x128 (![0, 1] : Fin 2 → Fin S256x128.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  bitsLt_bf16_f32 : FTy.bits .bf16 < FTy.bits .f32
  inb_S1280x512_S1280x512_0_0 : ∀ a, (![0, 0] : Fin 2 → Nat) a + S1280x512.size a ≤ S1280x512.size a
  h_S1280x512 : 0 < S1280x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  inb_S1x256x128_S1x256x128_0_0_0 : ∀ a, (![0, 0, 0] : Fin 3 → Nat) a + S1x256x128.size a ≤ S1x256x128.size a
  h_S1x256x128 : 0 < S1x256x128.numel
  shapeCasts_S256x128_S1x256x128 : S256x128.ShapeCasts S1x256x128
  scatter_S256x256x128_S1_S256x128_01_1_1_0_wf : ScatterDims.WF S256x256x128 S1 S256x128 [0, 1] [1] [1] 0
  scatter_S256x256_S1_S256_0_1_1_0_wf : ScatterDims.WF S256x256 S1 S256 [0] [1] [1] 0
  gather_S256x256_S256x256x1_S256x256_n_1_0_0_1_2_11_wf : GatherDims.WF S256x256 S256x256x1 S256x256 [] [1] [0] [1] [0] 2 ![1, 1]
  gather_S256x256x128_S256x256x1_S256x256x128_2_1_0_0_1_2_11128_wf : GatherDims.WF S256x256x128 S256x256x1 S256x256x128 [2] [1] [0] [1] [0] 2 ![1, 1, 128]
  dot_S256x1280_S1280x512_S256x512_1_0_0_1_n_n_wf : DotDims.WF S256x1280 S1280x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S256x35840.size a
  hwx0_0 : ∀ i : grid0.Coords, EltTy.bits .f32 = 32 ∨ (Rect.block (s := S256x35840) S256x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S35840x1024.size a
  hwx0_1 : ∀ i : grid0.Coords, EltTy.bits .f32 = 32 ∨ (Rect.block (s := S35840x1024) S1280x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S35840x1024.size a
  hwx0_2 : ∀ i : grid0.Coords, EltTy.bits .f32 = 32 ∨ (Rect.block (s := S35840x1024) S1280x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S1024x128.size a
  hwx0_3 : ∀ i : grid0.Coords, EltTy.bits .f32 = 32 ∨ (Rect.block (s := S1024x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x1024.size a
  hwx0_5 : ∀ i : grid0.Coords, EltTy.bits .f32 = 32 ∨ (Rect.block (s := S1x1024) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256x128.size a ≤ S2x256x128.size a
  hwx0_6 : ∀ i : grid0.Coords, EltTy.bits .f32 = 32 ∨ (Rect.block (s := S2x256x128) S1x256x128.size (cc0_transform_6 i) (hinb0_6 i)).WholeWords (EltTy.packing .f32)

variable [Facts₀]

def scatter_S256x256x128_S1_S256x128_01_1_1_0 : ScatterDims S256x256x128 S1 S256x128 where
  updateWindowDims := [0, 1]
  insertedWindowDims := [1]
  scatterDimsToOperandDims := [1]
  indexVectorDim := 0
  wf := scatter_S256x256x128_S1_S256x128_01_1_1_0_wf
def scatter_S256x256_S1_S256_0_1_1_0 : ScatterDims S256x256 S1 S256 where
  updateWindowDims := [0]
  insertedWindowDims := [1]
  scatterDimsToOperandDims := [1]
  indexVectorDim := 0
  wf := scatter_S256x256_S1_S256_0_1_1_0_wf
def comparator_i32_i32_d1 : BitVec 32 × BitVec 32 → BitVec 32 × BitVec 32 → BitVec 1 :=
  fun l r =>
    let v2 := IntOp.cmpi .slt l.1 r.1
    v2
def gather_S256x256_S256x256x1_S256x256_n_1_0_0_1_2_11 : GatherDims S256x256 S256x256x1 S256x256 where
  offsetDims := []
  collapsedSliceDims := [1]
  operandBatchingDims := [0]
  startIndicesBatchingDims := [0]
  startIndexMap := [1]
  indexVectorDim := 2
  sliceSizes := ![1, 1]
  wf := gather_S256x256_S256x256x1_S256x256_n_1_0_0_1_2_11_wf
def gather_S256x256x128_S256x256x1_S256x256x128_2_1_0_0_1_2_11128 : GatherDims S256x256x128 S256x256x1 S256x256x128 where
  offsetDims := [2]
  collapsedSliceDims := [1]
  operandBatchingDims := [0]
  startIndicesBatchingDims := [0]
  startIndexMap := [1]
  indexVectorDim := 2
  sliceSizes := ![1, 1, 128]
  wf := gather_S256x256x128_S256x256x1_S256x256x128_2_1_0_0_1_2_11128_wf
def dot_S256x1280_S1280x512_S256x512_1_0_0_1_n_n : DotDims S256x1280 S1280x512 S256x512 where
  lhsContracting := [1]
  rhsContracting := [0]
  lhsNonContracting := [0]
  rhsNonContracting := [1]
  lhsBatch := []
  rhsBatch := []
  wf := dot_S256x1280_S1280x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v94) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1280x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call16_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call16_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call16_v2) S1x256x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x128 : Shape := ⟨2, ![256, 128]⟩
abbrev S256x256x128 : Shape := ⟨3, ![256, 256, 128]⟩
abbrev S256x256 : Shape := ⟨2, ![256, 256]⟩
abbrev S35840x1024 : Shape := ⟨2, ![35840, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S256 : Shape := ⟨1, ![256]⟩
abbrev S256x1x128 : Shape := ⟨3, ![256, 1, 128]⟩
abbrev S256x255x128 : Shape := ⟨3, ![256, 255, 128]⟩
abbrev S1 : Shape := ⟨1, ![1]⟩
abbrev S256x1 : Shape := ⟨2, ![256, 1]⟩
abbrev S256x255 : Shape := ⟨2, ![256, 255]⟩
abbrev S256x256x1 : Shape := ⟨3, ![256, 256, 1]⟩
abbrev S1x1x1 : Shape := ⟨3, ![1, 1, 1]⟩
abbrev S10 : Shape := ⟨1, ![10]⟩
abbrev S1x1x10 : Shape := ⟨3, ![1, 1, 10]⟩
abbrev S256x256x10 : Shape := ⟨3, ![256, 256, 10]⟩
abbrev S256x32768 : Shape := ⟨2, ![256, 32768]⟩
abbrev S256x2560 : Shape := ⟨2, ![256, 2560]⟩
abbrev S256x35840 : Shape := ⟨2, ![256, 35840]⟩
abbrev S256x1024 : Shape := ⟨2, ![256, 1024]⟩
abbrev S1x1024 : Shape := ⟨2, ![1, 1024]⟩
abbrev S1x128 : Shape := ⟨2, ![1, 128]⟩

abbrev nBuf : Space → Nat
  | .hbm => 288
  | .vmem => 0
  | .smem => 0
  | _ => 0

abbrev hbmTy0_0 (i : Nat) : BufTy := match i % 128 with
  | 0 => ⟨S256x128, .f32⟩
  | 1 => ⟨S256x256x128, .f32⟩
  | 2 => ⟨S256x256, .i32⟩
  | 3 => ⟨S256x256, .f32⟩
  | 4 => ⟨S256x128, .f32⟩
  | 5 => ⟨S35840x1024, .f32⟩
  | 6 => ⟨S1024, .f32⟩
  | 7 => ⟨S35840x1024, .f32⟩
  | 8 => ⟨S1024, .f32⟩
  | 9 => ⟨S1024x128, .f32⟩
  | 10 => ⟨S128, .f32⟩
  | 11 => ⟨S256x128, .f32⟩
  | 12 => ⟨S_, .f32⟩
  | 13 => ⟨S256, .f32⟩
  | 14 => ⟨S_, .f32⟩
  | 15 => ⟨S256, .f32⟩
  | 16 => ⟨S256, .f32⟩
  | 17 => ⟨S256, .f32⟩
  | 18 => ⟨S256, .f32⟩
  | 19 => ⟨S_, .i32⟩
  | 20 => ⟨S256x256, .i32⟩
  | 21 => ⟨S256x256, .i32⟩
  | 22 => ⟨S_, .f32⟩
  | 23 => ⟨S256x256, .f32⟩
  | 24 => ⟨S256x256, .f32⟩
  | 25 => ⟨S256x1x128, .f32⟩
  | 26 => ⟨S256x255x128, .f32⟩
  | 27 => ⟨S256x256x128, .f32⟩
  | 28 => ⟨S_, .i32⟩
  | 29 => ⟨S1, .i32⟩
  | 30 => ⟨S256x256x128, .f32⟩
  | 31 => ⟨S256x1, .i32⟩
  | 32 => ⟨S256x255, .i32⟩
  | 33 => ⟨S256x256, .i32⟩
  | 34 => ⟨S_, .i32⟩
  | 35 => ⟨S1, .i32⟩
  | 36 => ⟨S_, .i32⟩
  | 37 => ⟨S256, .i32⟩
  | 38 => ⟨S256x256, .i32⟩
  | 39 => ⟨S256x1, .f32⟩
  | 40 => ⟨S256x255, .f32⟩
  | 41 => ⟨S256x256, .f32⟩
  | 42 => ⟨S_, .i32⟩
  | 43 => ⟨S1, .i32⟩
  | 44 => ⟨S256x256, .f32⟩
  | 45 => ⟨S256x256, .i32⟩
  | 46 => ⟨S256x256, .i32⟩
  | 47 => ⟨S256x256, .i32⟩
  | 48 => ⟨S_, .i32⟩
  | 49 => ⟨S256x256, .i32⟩
  | 50 => ⟨S256x256, .i1⟩
  | 51 => ⟨S_, .i32⟩
  | 52 => ⟨S256x256, .i32⟩
  | 53 => ⟨S256x256, .i32⟩
  | 54 => ⟨S256x256, .i32⟩
  | 55 => ⟨S256x256x1, .i32⟩
  | 56 => ⟨S1, .i32⟩
  | 57 => ⟨S_, .i32⟩
  | 58 => ⟨S256x256x1, .i32⟩
  | 59 => ⟨S256x256x1, .i1⟩
  | 60 => ⟨S1x1x1, .i32⟩
  | 61 => ⟨S256x256x1, .i32⟩
  | 62 => ⟨S256x256x1, .i1⟩
  | 63 => ⟨S256x256x1, .i1⟩
  | 64 => ⟨S_, .i1⟩
  | 65 => ⟨S256x256, .i1⟩
  | 66 => ⟨S256x256, .i32⟩
  | 67 => ⟨S_, .i32⟩
  | 68 => ⟨S256x256, .i32⟩
  | 69 => ⟨S256x256, .i32⟩
  | 70 => ⟨S256x256x1, .i32⟩
  | 71 => ⟨S_, .i32⟩
  | 72 => ⟨S256x256x1, .i32⟩
  | 73 => ⟨S256x256x1, .i1⟩
  | 74 => ⟨S_, .i32⟩
  | 75 => ⟨S256x256x1, .i32⟩
  | 76 => ⟨S256x256x1, .i32⟩
  | 77 => ⟨S256x256x1, .i32⟩
  | 78 => ⟨S1, .i32⟩
  | 79 => ⟨S_, .i32⟩
  | 80 => ⟨S256x256x1, .i32⟩
  | 81 => ⟨S256x256x1, .i1⟩
  | 82 => ⟨S1x1x1, .i32⟩
  | 83 => ⟨S256x256x1, .i32⟩
  | 84 => ⟨S256x256x1, .i1⟩
  | 85 => ⟨S256x256x1, .i1⟩
  | 86 => ⟨S_, .i1⟩
  | 87 => ⟨S256x256, .i1⟩
  | 88 => ⟨S256x256x128, .f32⟩
  | 89 => ⟨S256x256x128, .i1⟩
  | 90 => ⟨S_, .f32⟩
  | 91 => ⟨S256x256x128, .f32⟩
  | 92 => ⟨S256x256x128, .f32⟩
  | 93 => ⟨S_, .i32⟩
  | 94 => ⟨S256x256, .i32⟩
  | 95 => ⟨S256x256, .i1⟩
  | 96 => ⟨S_, .i32⟩
  | 97 => ⟨S256x256, .i32⟩
  | 98 => ⟨S256x256, .i32⟩
  | 99 => ⟨S256x256, .i32⟩
  | 100 => ⟨S256x256x1, .i32⟩
  | 101 => ⟨S1, .i32⟩
  | 102 => ⟨S_, .i32⟩
  | 103 => ⟨S256x256x1, .i32⟩
  | 104 => ⟨S256x256x1, .i1⟩
  | 105 => ⟨S1x1x1, .i32⟩
  | 106 => ⟨S256x256x1, .i32⟩
  | 107 => ⟨S256x256x1, .i1⟩
  | 108 => ⟨S256x256x1, .i1⟩
  | 109 => ⟨S_, .i1⟩
  | 110 => ⟨S256x256, .i1⟩
  | 111 => ⟨S256x256, .f32⟩
  | 112 => ⟨S_, .f32⟩
  | 113 => ⟨S256x256, .f32⟩
  | 114 => ⟨S256x256, .f32⟩
  | 115 => ⟨S10, .i32⟩
  | 116 => ⟨S_, .i32⟩
  | 117 => ⟨S_, .i32⟩
  | 118 => ⟨S_, .i1⟩
  | 119 => ⟨S_, .i32⟩
  | 120 => ⟨S10, .i32⟩
  | 121 => ⟨S10, .i1⟩
  | 122 => ⟨S10, .i1⟩
  | 123 => ⟨S10, .i1⟩
  | 124 => ⟨S_, .i32⟩
  | 125 => ⟨S_, .i32⟩
  | 126 => ⟨S10, .i32⟩
  | 127 => ⟨S10, .i32⟩
  | _ => ⟨S256x128, .f32⟩

abbrev hbmTy0_1 (i : Nat) : BufTy := match i % 128 with
  | 0 => ⟨S10, .i32⟩
  | 1 => ⟨S_, .i32⟩
  | 2 => ⟨S10, .i32⟩
  | 3 => ⟨S10, .i32⟩
  | 4 => ⟨S_, .i32⟩
  | 5 => ⟨S10, .i32⟩
  | 6 => ⟨S10, .i32⟩
  | 7 => ⟨S_, .i32⟩
  | 8 => ⟨S10, .i32⟩
  | 9 => ⟨S10, .i1⟩
  | 10 => ⟨S10, .i32⟩
  | 11 => ⟨S_, .i32⟩
  | 12 => ⟨S_, .i32⟩
  | 13 => ⟨S_, .i32⟩
  | 14 => ⟨S_, .i32⟩
  | 15 => ⟨S10, .i32⟩
  | 16 => ⟨S10, .i32⟩
  | 17 => ⟨S_, .i32⟩
  | 18 => ⟨S10, .i32⟩
  | 19 => ⟨S10, .i32⟩
  | 20 => ⟨S10, .i32⟩
  | 21 => ⟨S10, .i32⟩
  | 22 => ⟨S_, .i32⟩
  | 23 => ⟨S10, .i32⟩
  | 24 => ⟨S10, .i1⟩
  | 25 => ⟨S10, .i32⟩
  | 26 => ⟨S_, .i32⟩
  | 27 => ⟨S_, .i32⟩
  | 28 => ⟨S10, .i32⟩
  | 29 => ⟨S10, .i32⟩
  | 30 => ⟨S_, .i32⟩
  | 31 => ⟨S10, .i32⟩
  | 32 => ⟨S10, .i32⟩
  | 33 => ⟨S10, .i32⟩
  | 34 => ⟨S10, .i32⟩
  | 35 => ⟨S_, .i32⟩
  | 36 => ⟨S10, .i32⟩
  | 37 => ⟨S10, .i1⟩
  | 38 => ⟨S10, .i32⟩
  | 39 => ⟨S_, .i32⟩
  | 40 => ⟨S_, .i32⟩
  | 41 => ⟨S10, .i32⟩
  | 42 => ⟨S10, .i32⟩
  | 43 => ⟨S_, .i32⟩
  | 44 => ⟨S10, .i32⟩
  | 45 => ⟨S10, .i32⟩
  | 46 => ⟨S10, .i32⟩
  | 47 => ⟨S10, .i32⟩
  | 48 => ⟨S_, .i32⟩
  | 49 => ⟨S10, .i32⟩
  | 50 => ⟨S10, .i1⟩
  | 51 => ⟨S10, .i32⟩
  | 52 => ⟨S_, .i32⟩
  | 53 => ⟨S_, .i32⟩
  | 54 => ⟨S10, .i32⟩
  | 55 => ⟨S10, .i32⟩
  | 56 => ⟨S_, .i32⟩
  | 57 => ⟨S10, .i32⟩
  | 58 => ⟨S10, .i32⟩
  | 59 => ⟨S10, .i32⟩
  | 60 => ⟨S10, .i32⟩
  | 61 => ⟨S_, .i32⟩
  | 62 => ⟨S10, .i32⟩
  | 63 => ⟨S10, .i1⟩
  | 64 => ⟨S10, .i32⟩
  | 65 => ⟨S_, .i32⟩
  | 66 => ⟨S_, .i32⟩
  | 67 => ⟨S10, .i32⟩
  | 68 => ⟨S10, .i32⟩
  | 69 => ⟨S_, .i32⟩
  | 70 => ⟨S10, .i32⟩
  | 71 => ⟨S10, .i32⟩
  | 72 => ⟨S10, .i32⟩
  | 73 => ⟨S10, .i32⟩
  | 74 => ⟨S_, .i32⟩
  | 75 => ⟨S10, .i32⟩
  | 76 => ⟨S10, .i1⟩
  | 77 => ⟨S10, .i32⟩
  | 78 => ⟨S_, .i32⟩
  | 79 => ⟨S_, .i32⟩
  | 80 => ⟨S10, .i32⟩
  | 81 => ⟨S10, .i32⟩
  | 82 => ⟨S256x256x1, .i32⟩
  | 83 => ⟨S1x1x10, .i32⟩
  | 84 => ⟨S256x256x10, .i32⟩
  | 85 => ⟨S256x256x10, .i32⟩
  | 86 => ⟨S256x256x10, .i32⟩
  | 87 => ⟨S256x256x1, .i32⟩
  | 88 => ⟨S1x1x10, .i32⟩
  | 89 => ⟨S256x256x10, .i32⟩
  | 90 => ⟨S256x256x10, .i32⟩
  | 91 => ⟨S256x256x10, .i1⟩
  | 92 => ⟨S256x256x10, .i32⟩
  | 93 => ⟨S256x256x10, .i32⟩
  | 94 => ⟨S256x256x10, .i32⟩
  | 95 => ⟨S_, .i32⟩
  | 96 => ⟨S256x256x10, .i32⟩
  | 97 => ⟨S256x256x10, .i1⟩
  | 98 => ⟨S256x256x10, .i1⟩
  | 99 => ⟨S_, .i32⟩
  | 100 => ⟨S256x256x10, .i32⟩
  | 101 => ⟨S256x256x10, .i32⟩
  | 102 => ⟨S256x256x10, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S256x256x10, .i32⟩
  | 110 => ⟨S256x256x10, .i32⟩
  | 111 => ⟨S_, .i32⟩
  | 112 => ⟨S256x256x10, .i32⟩
  | 113 => ⟨S256x256x10, .i1⟩
  | 114 => ⟨S_, .i32⟩
  | 115 => ⟨S256x256x10, .i32⟩
  | 116 => ⟨S256x256x10, .i1⟩
  | 117 => ⟨S_, .i32⟩
  | 118 => ⟨S_, .i1⟩
  | 119 => ⟨S256x256x10, .i1⟩
  | 120 => ⟨S256x256x10, .i1⟩
  | 121 => ⟨S256x256x10, .i1⟩
  | 122 => ⟨S256x256x10, .i32⟩
  | 123 => ⟨S256x256x10, .i32⟩
  | 124 => ⟨S256x256x10, .i32⟩
  | 125 => ⟨S256x256x10, .f32⟩
  | 126 => ⟨S256x256, .f32⟩
  | 127 => ⟨S_, .i32⟩
  | _ => ⟨S256x128, .f32⟩

abbrev hbmTy0_2 (i : Nat) : BufTy := match i % 128 with
  | 0 => ⟨S256, .i32⟩
  | 1 => ⟨S256x1, .i32⟩
  | 2 => ⟨S256x1, .f32⟩
  | 3 => ⟨S_, .f32⟩
  | 4 => ⟨S256x1, .f32⟩
  | 5 => ⟨S256x1, .f32⟩
  | 6 => ⟨S256x256, .f32⟩
  | 7 => ⟨S256x256, .f32⟩
  | 8 => ⟨S256x32768, .f32⟩
  | 9 => ⟨S256x2560, .f32⟩
  | 10 => ⟨S256x35840, .f32⟩
  | 11 => ⟨S256x1024, .f32⟩
  | 12 => ⟨S1x1024, .f32⟩
  | 13 => ⟨S256x1024, .f32⟩
  | 14 => ⟨S256x1024, .f32⟩
  | 15 => ⟨S256x1024, .f32⟩
  | 16 => ⟨S1x1024, .f32⟩
  | 17 => ⟨S256x1024, .f32⟩
  | 18 => ⟨S256x1024, .f32⟩
  | 19 => ⟨S256x1024, .f32⟩
  | 20 => ⟨S256x1024, .f32⟩
  | 21 => ⟨S_, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S256x1024, .f32⟩
  | 28 => ⟨S256x128, .f32⟩
  | 29 => ⟨S1x128, .f32⟩
  | 30 => ⟨S256x128, .f32⟩
  | 31 => ⟨S256x128, .f32⟩
  | _ => ⟨S256x128, .f32⟩

abbrev hbmTy (i : Nat) : BufTy := match i / 128 with
  | 0 => hbmTy0_0 i
  | 1 => hbmTy0_1 i
  | 2 => hbmTy0_2 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_call2_v0 : Ref sig .tc := ⟨.hbm, 39, rfl⟩
abbrev main_call2_v1 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_v1_0 : Ref sig .tc := ⟨.hbm, 46, rfl⟩
abbrev main_v20 : Ref sig .tc := ⟨.hbm, 47, rfl⟩
abbrev main_call4_c : Ref sig .tc := ⟨.hbm, 48, rfl⟩
abbrev main_call4_v0 : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_v5 : Ref sig .tc := ⟨.hbm, 55, rfl⟩
abbrev main_call4_c_1 : Ref sig .tc := ⟨.hbm, 56, rfl⟩
abbrev main_call4_c_2 : Ref sig .tc := ⟨.hbm, 57, rfl⟩
abbrev main_call4_v6 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_call4_v11 : Ref sig .tc := ⟨.hbm, 63, rfl⟩
abbrev main_call4_c_3 : Ref sig .tc := ⟨.hbm, 64, rfl⟩
abbrev main_call4_v12 : Ref sig .tc := ⟨.hbm, 65, rfl⟩
abbrev main_call4_v13 : Ref sig .tc := ⟨.hbm, 66, rfl⟩
abbrev main_call4_c_4 : Ref sig .tc := ⟨.hbm, 67, rfl⟩
abbrev main_call4_v14 : Ref sig .tc := ⟨.hbm, 68, rfl⟩
abbrev main_v21 : Ref sig .tc := ⟨.hbm, 69, rfl⟩
abbrev main_v22 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_c_1 : Ref sig .tc := ⟨.hbm, 78, rfl⟩
abbrev main_call5_c_2 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_3 : Ref sig .tc := ⟨.hbm, 86, rfl⟩
abbrev main_call5_v11 : Ref sig .tc := ⟨.hbm, 87, rfl⟩
abbrev main_call5_v12 : Ref sig .tc := ⟨.hbm, 88, rfl⟩
abbrev main_call5_v13 : Ref sig .tc := ⟨.hbm, 89, rfl⟩
abbrev main_call5_cst : Ref sig .tc := ⟨.hbm, 90, rfl⟩
abbrev main_call5_v14 : Ref sig .tc := ⟨.hbm, 91, rfl⟩
abbrev main_v23 : Ref sig .tc := ⟨.hbm, 92, rfl⟩
abbrev main_call6_c : Ref sig .tc := ⟨.hbm, 93, rfl⟩
abbrev main_call6_v0 : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_v5 : Ref sig .tc := ⟨.hbm, 100, rfl⟩
abbrev main_call6_c_1 : Ref sig .tc := ⟨.hbm, 101, rfl⟩
abbrev main_call6_c_2 : Ref sig .tc := ⟨.hbm, 102, rfl⟩
abbrev main_call6_v6 : Ref sig .tc := ⟨.hbm, 103, rfl⟩
abbrev main_call6_v7 : Ref sig .tc := ⟨.hbm, 104, rfl⟩
abbrev main_call6_v8 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_c_3 : Ref sig .tc := ⟨.hbm, 109, rfl⟩
abbrev main_call6_v12 : Ref sig .tc := ⟨.hbm, 110, rfl⟩
abbrev main_call6_v13 : Ref sig .tc := ⟨.hbm, 111, rfl⟩
abbrev main_call6_cst : Ref sig .tc := ⟨.hbm, 112, rfl⟩
abbrev main_call6_v14 : Ref sig .tc := ⟨.hbm, 113, rfl⟩
abbrev main_v24 : Ref sig .tc := ⟨.hbm, 114, rfl⟩
abbrev main_v25 : Ref sig .tc := ⟨.hbm, 115, rfl⟩
abbrev main_c_6 : Ref sig .tc := ⟨.hbm, 116, rfl⟩
abbrev main_c_7 : Ref sig .tc := ⟨.hbm, 117, rfl⟩
abbrev main_v26 : Ref sig .tc := ⟨.hbm, 118, rfl⟩
abbrev main_c_8 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_c_9 : Ref sig .tc := ⟨.hbm, 124, rfl⟩
abbrev main_c_10 : Ref sig .tc := ⟨.hbm, 125, rfl⟩
abbrev main_call7_v0 : Ref sig .tc := ⟨.hbm, 126, rfl⟩
abbrev main_call7_v1 : Ref sig .tc := ⟨.hbm, 127, rfl⟩
abbrev main_v31 : Ref sig .tc := ⟨.hbm, 128, rfl⟩
abbrev main_c_11 : Ref sig .tc := ⟨.hbm, 129, rfl⟩
abbrev main_v32 : Ref sig .tc := ⟨.hbm, 130, rfl⟩
abbrev main_v33 : Ref sig .tc := ⟨.hbm, 131, rfl⟩
abbrev main_c_12 : Ref sig .tc := ⟨.hbm, 132, rfl⟩
abbrev main_v34 : Ref sig .tc := ⟨.hbm, 133, rfl⟩
abbrev main_v35 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_v36 : Ref sig .tc := ⟨.hbm, 138, rfl⟩
abbrev main_c_13 : Ref sig .tc := ⟨.hbm, 139, rfl⟩
abbrev main_c_14 : Ref sig .tc := ⟨.hbm, 140, rfl⟩
abbrev main_v37 : Ref sig .tc := ⟨.hbm, 141, rfl⟩
abbrev main_c_15 : Ref sig .tc := ⟨.hbm, 142, rfl⟩
abbrev main_v38 : Ref sig .tc := ⟨.hbm, 143, rfl⟩
abbrev main_v39 : Ref sig .tc := ⟨.hbm, 144, rfl⟩
abbrev main_c_16 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_call9_c : Ref sig .tc := ⟨.hbm, 150, rfl⟩
abbrev main_call9_v0 : Ref sig .tc := ⟨.hbm, 151, rfl⟩
abbrev main_call9_v1 : Ref sig .tc := ⟨.hbm, 152, rfl⟩
abbrev main_v44 : Ref sig .tc := ⟨.hbm, 153, rfl⟩
abbrev main_v45 : Ref sig .tc := ⟨.hbm, 154, rfl⟩
abbrev main_c_17 : Ref sig .tc := ⟨.hbm, 155, rfl⟩
abbrev main_v46 : Ref sig .tc := ⟨.hbm, 156, rfl⟩
abbrev main_v47 : Ref sig .tc := ⟨.hbm, 157, rfl⟩
abbrev main_c_18 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_call10_c : Ref sig .tc := ⟨.hbm, 163, rfl⟩
abbrev main_call10_v0 : Ref sig .tc := ⟨.hbm, 164, rfl⟩
abbrev main_call10_v1 : Ref sig .tc := ⟨.hbm, 165, rfl⟩
abbrev main_v52 : Ref sig .tc := ⟨.hbm, 166, rfl⟩
abbrev main_v53 : Ref sig .tc := ⟨.hbm, 167, rfl⟩
abbrev main_c_19 : Ref sig .tc := ⟨.hbm, 168, rfl⟩
abbrev main_v54 : Ref sig .tc := ⟨.hbm, 169, rfl⟩
abbrev main_v55 : Ref sig .tc := ⟨.hbm, 170, rfl⟩
abbrev main_c_20 : Ref sig .tc := ⟨.hbm, 171, rfl⟩
abbrev main_v56 : Ref sig .tc := ⟨.hbm, 172, rfl⟩
abbrev main_v57 : Ref sig .tc := ⟨.hbm, 173, rfl⟩
abbrev main_v58 : Ref sig .tc := ⟨.hbm, 174, rfl⟩
abbrev main_v59 : Ref sig .tc := ⟨.hbm, 175, rfl⟩
abbrev main_call11_c : Ref sig .tc := ⟨.hbm, 176, rfl⟩
abbrev main_call11_v0 : Ref sig .tc := ⟨.hbm, 177, rfl⟩
abbrev main_call11_v1 : Ref sig .tc := ⟨.hbm, 178, rfl⟩
abbrev main_v60 : Ref sig .tc := ⟨.hbm, 179, rfl⟩
abbrev main_v61 : Ref sig .tc := ⟨.hbm, 180, rfl⟩
abbrev main_c_21 : Ref sig .tc := ⟨.hbm, 181, rfl⟩
abbrev main_v62 : Ref sig .tc := ⟨.hbm, 182, rfl⟩
abbrev main_v63 : Ref sig .tc := ⟨.hbm, 183, rfl⟩
abbrev main_c_22 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_call12_c : Ref sig .tc := ⟨.hbm, 189, rfl⟩
abbrev main_call12_v0 : Ref sig .tc := ⟨.hbm, 190, rfl⟩
abbrev main_call12_v1 : Ref sig .tc := ⟨.hbm, 191, rfl⟩
abbrev main_v68 : Ref sig .tc := ⟨.hbm, 192, rfl⟩
abbrev main_v69 : Ref sig .tc := ⟨.hbm, 193, rfl⟩
abbrev main_c_23 : Ref sig .tc := ⟨.hbm, 194, rfl⟩
abbrev main_v70 : Ref sig .tc := ⟨.hbm, 195, rfl⟩
abbrev main_v71 : Ref sig .tc := ⟨.hbm, 196, rfl⟩
abbrev main_c_24 : Ref sig .tc := ⟨.hbm, 197, rfl⟩
abbrev main_v72 : Ref sig .tc := ⟨.hbm, 198, rfl⟩
abbrev main_v73 : Ref sig .tc := ⟨.hbm, 199, rfl⟩
abbrev main_v74 : Ref sig .tc := ⟨.hbm, 200, rfl⟩
abbrev main_v75 : Ref sig .tc := ⟨.hbm, 201, rfl⟩
abbrev main_call13_c : Ref sig .tc := ⟨.hbm, 202, rfl⟩
abbrev main_call13_v0 : Ref sig .tc := ⟨.hbm, 203, rfl⟩
abbrev main_call13_v1 : Ref sig .tc := ⟨.hbm, 204, rfl⟩
abbrev main_v76 : Ref sig .tc := ⟨.hbm, 205, rfl⟩
abbrev main_v77 : Ref sig .tc := ⟨.hbm, 206, rfl⟩
abbrev main_c_25 : Ref sig .tc := ⟨.hbm, 207, rfl⟩
abbrev main_v78 : Ref sig .tc := ⟨.hbm, 208, rfl⟩
abbrev main_v79 : Ref sig .tc := ⟨.hbm, 209, rfl⟩
abbrev main_v80 : Ref sig .tc := ⟨.hbm, 210, rfl⟩
abbrev main_call14_v0 : Ref sig .tc := ⟨.hbm, 211, rfl⟩
abbrev main_call14_v1 : Ref sig .tc := ⟨.hbm, 212, rfl⟩
abbrev main_call14_v2 : Ref sig .tc := ⟨.hbm, 213, rfl⟩
abbrev main_call14_v3 : Ref sig .tc := ⟨.hbm, 214, rfl⟩
abbrev main_call14_v4 : Ref sig .tc := ⟨.hbm, 215, rfl⟩
abbrev main_call14_v5 : Ref sig .tc := ⟨.hbm, 216, rfl⟩
abbrev main_call14_v6 : Ref sig .tc := ⟨.hbm, 217, rfl⟩
abbrev main_call14_v7 : Ref sig .tc := ⟨.hbm, 218, rfl⟩
abbrev main_call14_v8 : Ref sig .tc := ⟨.hbm, 219, rfl⟩
abbrev main_call14_v9 : Ref sig .tc := ⟨.hbm, 220, rfl⟩
abbrev main_call14_v10 : Ref sig .tc := ⟨.hbm, 221, rfl⟩
abbrev main_call14_v11 : Ref sig .tc := ⟨.hbm, 222, rfl⟩
abbrev main_call14_c : Ref sig .tc := ⟨.hbm, 223, rfl⟩
abbrev main_call14_v12 : Ref sig .tc := ⟨.hbm, 224, rfl⟩
abbrev main_call14_v13 : Ref sig .tc := ⟨.hbm, 225, rfl⟩
abbrev main_call14_v14 : Ref sig .tc := ⟨.hbm, 226, rfl⟩
abbrev main_call14_c_0 : Ref sig .tc := ⟨.hbm, 227, rfl⟩
abbrev main_call14_v15 : Ref sig .tc := ⟨.hbm, 228, rfl⟩
abbrev main_call14_v16 : Ref sig .tc := ⟨.hbm, 229, rfl⟩
abbrev main_v81 : Ref sig .tc := ⟨.hbm, 230, rfl⟩
abbrev main_c_26 : Ref sig .tc := ⟨.hbm, 231, rfl⟩
abbrev main_call15_v0 : Ref sig .tc := ⟨.hbm, 232, rfl⟩
abbrev main_call15_c : Ref sig .tc := ⟨.hbm, 233, rfl⟩
abbrev main_call15_v1 : Ref sig .tc := ⟨.hbm, 234, rfl⟩
abbrev main_call15_c_0 : Ref sig .tc := ⟨.hbm, 235, rfl⟩
abbrev main_call15_v2 : Ref sig .tc := ⟨.hbm, 236, rfl⟩
abbrev main_call15_v3 : Ref sig .tc := ⟨.hbm, 237, rfl⟩
abbrev main_call15_v4 : Ref sig .tc := ⟨.hbm, 238, rfl⟩
abbrev main_call15_c_1 : Ref sig .tc := ⟨.hbm, 239, rfl⟩
abbrev main_call15_v5 : Ref sig .tc := ⟨.hbm, 240, rfl⟩
abbrev main_call15_v6 : Ref sig .tc := ⟨.hbm, 241, rfl⟩
abbrev main_call15_c_2 : Ref sig .tc := ⟨.hbm, 242, rfl⟩
abbrev main_call15_v7 : Ref sig .tc := ⟨.hbm, 243, rfl⟩
abbrev main_call15_v8 : Ref sig .tc := ⟨.hbm, 244, rfl⟩
abbrev main_call15_c_3 : Ref sig .tc := ⟨.hbm, 245, rfl⟩
abbrev main_call15_v9 : Ref sig .tc := ⟨.hbm, 246, rfl⟩
abbrev main_call15_v10 : Ref sig .tc := ⟨.hbm, 247, rfl⟩
abbrev main_call15_v11 : Ref sig .tc := ⟨.hbm, 248, rfl⟩
abbrev main_call15_v12 : Ref sig .tc := ⟨.hbm, 249, rfl⟩
abbrev main_call15_v13 : Ref sig .tc := ⟨.hbm, 250, rfl⟩
abbrev main_call15_v14 : Ref sig .tc := ⟨.hbm, 251, rfl⟩
abbrev main_v82 : Ref sig .tc := ⟨.hbm, 252, rfl⟩
abbrev main_v83 : Ref sig .tc := ⟨.hbm, 253, rfl⟩
abbrev main_v84 : Ref sig .tc := ⟨.hbm, 254, rfl⟩
abbrev main_c_27 : Ref sig .tc := ⟨.hbm, 255, rfl⟩
abbrev main_v85 : Ref sig .tc := ⟨.hbm, 256, rfl⟩
abbrev main_v86 : Ref sig .tc := ⟨.hbm, 257, rfl⟩
abbrev main_v87 : Ref sig .tc := ⟨.hbm, 258, rfl⟩
abbrev main_cst_28 : Ref sig .tc := ⟨.hbm, 259, rfl⟩
abbrev main_v88 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev main_v99 : Ref sig .tc := ⟨.hbm, 271, rfl⟩
abbrev main_v100 : Ref sig .tc := ⟨.hbm, 272, rfl⟩
abbrev main_v101 : Ref sig .tc := ⟨.hbm, 273, rfl⟩
abbrev main_v102 : Ref sig .tc := ⟨.hbm, 274, rfl⟩
abbrev main_v103 : Ref sig .tc := ⟨.hbm, 275, rfl⟩
abbrev main_v104 : Ref sig .tc := ⟨.hbm, 276, rfl⟩
abbrev main_cst_29 : Ref sig .tc := ⟨.hbm, 277, rfl⟩
abbrev main_v105 : Ref sig .tc := ⟨.hbm, 278, rfl⟩
abbrev main_v106 : Ref sig .tc := ⟨.hbm, 279, rfl⟩
abbrev main_cst_30 : Ref sig .tc := ⟨.hbm, 280, rfl⟩
abbrev main_v107 : Ref sig .tc := ⟨.hbm, 281, rfl⟩
abbrev main_v108 : Ref sig .tc := ⟨.hbm, 282, rfl⟩
abbrev main_v109 : Ref sig .tc := ⟨.hbm, 283, rfl⟩
abbrev main_v110 : Ref sig .tc := ⟨.hbm, 284, rfl⟩
abbrev main_v111 : Ref sig .tc := ⟨.hbm, 285, rfl⟩
abbrev main_v112 : Ref sig .tc := ⟨.hbm, 286, rfl⟩
abbrev main_v113 : Ref sig .tc := ⟨.hbm, 287, rfl⟩

abbrev nD : Nat := 1
abbrev τ : Topo := Topo.v7x

variable {F : FTy → Type} [FloatOps F]

class Facts₀ : Prop where
  reducesTo_S256x128_S256_d1 : S256x128.ReducesTo [1] S256
  h_S_ : 0 < S_.numel
  bcast_S_S256 : S_.BroadcastsInDim S256 (![] : Fin 0 → Fin S256.rank)
  bcast_S_S256x256 : S_.BroadcastsInDim S256x256 (![] : Fin 0 → Fin S256x256.rank)
  slices_S256x256x128_S256x1x128_0_255_0 : S256x256x128.Slices ![0, 255, 0] S256x1x128
  slices_S256x256x128_S256x255x128_0_0_0 : S256x256x128.Slices ![0, 0, 0] S256x255x128
  concatenates_S256x1x128_S256x255x128_S256x256x128_d1 : Shape.Concatenates [S256x1x128, S256x255x128] S256x256x128 1
  bcast_S_S1 : S_.BroadcastsInDim S1 (![] : Fin 0 → Fin S1.rank)
  slices_S256x256_S256x1_0_255 : S256x256.Slices ![0, 255] S256x1
  slices_S256x256_S256x255_0_0 : S256x256.Slices ![0, 0] S256x255
  concatenates_S256x1_S256x255_S256x256_d1 : Shape.Concatenates [S256x1, S256x255] S256x256 1
  shapeCasts_S256x256_S256x256x1 : S256x256.ShapeCasts S256x256x1
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  bcast_S256x256_S256x256x1_0_1 : S256x256.BroadcastsInDim S256x256x1 (![0, 1] : Fin 2 → Fin S256x256x1.rank)
  bcast_S256x256_S256x256x128_0_1 : S256x256.BroadcastsInDim S256x256x128 (![0, 1] : Fin 2 → Fin S256x256x128.rank)
  bcast_S_S256x256x128 : S_.BroadcastsInDim S256x256x128 (![] : Fin 0 → Fin S256x256x128.rank)
  bcast_S_S10 : S_.BroadcastsInDim S10 (![] : Fin 0 → Fin S10.rank)
  bcast_S10_S1x1x10_2 : S10.BroadcastsInDim S1x1x10 (![2] : Fin 1 → Fin S1x1x10.rank)
  bcast_S256x256x1_S256x256x10_0_1_2 : S256x256x1.BroadcastsInDim S256x256x10 (![0, 1, 2] : Fin 3 → Fin S256x256x10.rank)
  bcast_S1x1x10_S256x256x10_0_1_2 : S1x1x10.BroadcastsInDim S256x256x10 (![0, 1, 2] : Fin 3 → Fin S256x256x10.rank)
  bcast_S_S256x256x10 : S_.BroadcastsInDim S256x256x10 (![] : Fin 0 → Fin S256x256x10.rank)
  reducesTo_S256x256_S256_d1 : S256x256.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  shapeCasts_S256x256x128_S256x32768 : S256x256x128.ShapeCasts S256x32768
  shapeCasts_S256x256x10_S256x2560 : S256x256x10.ShapeCasts S256x2560
  concatenates_S256x32768_S256x2560_S256x256_S256x256_S256x35840_d1 : Shape.Concatenates [S256x32768, S256x2560, S256x256, S256x256] S256x35840 1
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  scatter_S256x256x128_S1_S256x128_01_1_1_0_wf : ScatterDims.WF S256x256x128 S1 S256x128 [0, 1] [1] [1] 0
  scatter_S256x256_S1_S256_0_1_1_0_wf : ScatterDims.WF S256x256 S1 S256 [0] [1] [1] 0
  gather_S256x256_S256x256x1_S256x256_n_1_0_0_1_2_11_wf : GatherDims.WF S256x256 S256x256x1 S256x256 [] [1] [0] [1] [0] 2 ![1, 1]
  gather_S256x256x128_S256x256x1_S256x256x128_2_1_0_0_1_2_11128_wf : GatherDims.WF S256x256x128 S256x256x1 S256x256x128 [2] [1] [0] [1] [0] 2 ![1, 1, 128]
  dot_S256x35840_S35840x1024_S256x1024_1_0_0_1_n_n_wf : DotDims.WF S256x35840 S35840x1024 S256x1024 [1] [0] [0] [1] [] []
  dot_S256x1024_S1024x128_S256x128_1_0_0_1_n_n_wf : DotDims.WF S256x1024 S1024x128 S256x128 [1] [0] [0] [1] [] []

variable [Facts₀]

def scatter_S256x256x128_S1_S256x128_01_1_1_0 : ScatterDims S256x256x128 S1 S256x128 where
  updateWindowDims := [0, 1]
  insertedWindowDims := [1]
  scatterDimsToOperandDims := [1]
  indexVectorDim := 0
  wf := scatter_S256x256x128_S1_S256x128_01_1_1_0_wf
def scatter_S256x256_S1_S256_0_1_1_0 : ScatterDims S256x256 S1 S256 where
  updateWindowDims := [0]
  insertedWindowDims := [1]
  scatterDimsToOperandDims := [1]
  indexVectorDim := 0
  wf := scatter_S256x256_S1_S256_0_1_1_0_wf
def comparator_i32_i32_d1 : BitVec 32 × BitVec 32 → BitVec 32 × BitVec 32 → BitVec 1 :=
  fun l r =>
    let v2 := IntOp.cmpi .slt l.1 r.1
    v2
def gather_S256x256_S256x256x1_S256x256_n_1_0_0_1_2_11 : GatherDims S256x256 S256x256x1 S256x256 where
  offsetDims := []
  collapsedSliceDims := [1]
  operandBatchingDims := [0]
  startIndicesBatchingDims := [0]
  startIndexMap := [1]
  indexVectorDim := 2
  sliceSizes := ![1, 1]
  wf := gather_S256x256_S256x256x1_S256x256_n_1_0_0_1_2_11_wf
def gather_S256x256x128_S256x256x1_S256x256x128_2_1_0_0_1_2_11128 : GatherDims S256x256x128 S256x256x1 S256x256x128 where
  offsetDims := [2]
  collapsedSliceDims := [1]
  operandBatchingDims := [0]
  startIndicesBatchingDims := [0]
  startIndexMap := [1]
  indexVectorDim := 2
  sliceSizes := ![1, 1, 128]
  wf := gather_S256x256x128_S256x256x1_S256x256x128_2_1_0_0_1_2_11128_wf
def dot_S256x35840_S35840x1024_S256x1024_1_0_0_1_n_n : DotDims S256x35840 S35840x1024 S256x1024 where
  lhsContracting := [1]
  rhsContracting := [0]
  lhsNonContracting := [0]
  rhsNonContracting := [1]
  lhsBatch := []
  rhsBatch := []
  wf := dot_S256x35840_S35840x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

class Facts : Prop extends Facts₀ where

variable [Facts]
-- ==== Proof.RegionB.lean ====
/-
  The gated two-layer network's region, seen from @main.

  @main is: the host lines that build the network's input P = pred_input (f32[256, 35840]) and reshape the
  two hidden biases to rows; ONE region on the grid (c, k) ∈ 2 × 28 — c the half of the 1024 hidden units the
  point works on, k the step of the reduction over P's 35840 columns, 1280 at a time —; and eight host lines
  that add the two halves' partial outputs and the output bias.  This module fixes what the region is entered
  with (the fold of the earlier lines over the launch memory, never opened here), states @main in the shape the
  frame run takes (the lines before, the region, the lines after), and names what the body is run on at a
  grid point: each window's block of its array, the staging memrefs, the two accumulators the kernel keeps
  between points, and the two conditions of the body — "k = 0", under which the accumulators are zeroed, and
  "k = 27", under which the gated hidden layer is formed, multiplied into the output block and stored.
-/
import proofs.«103122_j77446850281992_2_alg».proof.Proof.Gen.Kernel.Launch
import proofs.«103122_j77446850281992_2_alg».proof.Proof.Gen.Kernel.Skeleton
import proofs.«103122_j77446850281992_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch (a module-local function's lines are a stretch of their own). -/
abbrev glue : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

/-- What core `c`'s buffers hold when the region is entered: the earlier lines folded over the launch memory. -/
abbrev entry (c : Dev nD) : Valuation τ sig (Elt F) := StableHlo.after (List.flatten (glue (F := F))) (fun b => m (c, b))
/-- The same, read at a TensorCore reference. -/
abbrev entryAt (c : Dev nD) (b : Ref sig .tc) : Buf (Elt F) ((c : Thread nD τ).loc b) := entry m c (Proc.devRef .tc b)

/-- The earlier lines touch TensorCore references only. -/
theorem glue_sub : (glue (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub⟩

/-- No host line allocates. -/
theorem glue_fresh : (glue (F := F)).Forall fun ops => ops.Forall fun op => op.fresh = ∅ := by
  simp only [List.Forall]; repeat' constructor

theorem tail_fresh0 : (hostOps1 : List (HloOp τ sig (Elt F))).Forall fun op => op.fresh = ∅ := by
  simp only [List.Forall]; repeat' constructor

/-- @main is the earlier lines, the region, the eight later lines: it reduces to the region continued by the later lines. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main (glue (F := F)) [hostOps1] glue_sub glue_fresh main_chain

/-- The later lines touch only the region's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop

/-- None of them writes an array of the region: each writes its own result, which is none of the seven. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals intro w; fin_cases w <;> (intro hmem; exact absurd (Finset.mem_singleton.mp hmem) (StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's current staging buffer holds its block at every point, whether the point fetches it or
    the index has not moved since the last fetch (the three small operands are fetched only at k = 0). -/
theorem held0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions -/

/-- "k = 0": the accumulators are zeroed first. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 28 = 0 :=
  (by decide +kernel : ∀ t : Fin grid0.N, atFirst (grid0.coords t) ↔ t.val % 28 = 0)

/-- "k = 27": the output block is formed and stored. -/
abbrev atLast (i : grid0.Coords) : Prop := k0_cond2 i = 1#1
theorem atLast_iff : ∀ t : Fin cfg0.N, atLast (grid0.coords t) ↔ t.val % 28 = 27 :=
  (by decide +kernel : ∀ t : Fin grid0.N, atLast (grid0.coords t) ↔ t.val % 28 = 27)

/-! ## Where the output window is idle -/

/-- Away from k = 27 nothing is stored into the output block's buffer, and the block is not written back. -/
theorem out_idle : ∀ t : Fin cfg0.N, ¬atLast (grid0.coords t) → cfg0.idle 6 (grid0.coords t) = true := by decide +kernel
theorem out_unflushed : ∀ t : Fin cfg0.N, ¬atLast (grid0.coords t) → (cfg0.win 6).flush t = false := by decide +kernel
theorem out_live : ∀ t : Fin cfg0.N, atLast (grid0.coords t) → cfg0.idle 6 (grid0.coords t) = false := by decide +kernel

/-! ## The memrefs the body is run on -/

abbrev stg0 (t : Fin cfg0.N) : Memref sig .tc .vmem S256x1280 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1280x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1280x512 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S512x128 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x256x128 .f32 := win0_6.stage (cfg0.slots t 6)
abbrev hstg6 (t : Fin cfg0.N) : (stg6 t).IsWhole := hstage0_6 ((cfg0.slots t 6).cast nbuf0_6)

/-- The two accumulators: scoped buffers of the kernel's own, kept from point to point. -/
abbrev accM : Memref sig .tc .vmem S256x512 .f32 := Memref.whole cc0_scratch0
abbrev gateM : Memref sig .tc .vmem S256x512 .f32 := Memref.whole cc0_scratch1
abbrev accV : View sig .tc .vmem S256x512 .f32 := (accM).view
abbrev gateV : View sig .tc .vmem S256x512 .f32 := (gateM).view
/-- One staging buffer of the output window, through which its contents are stated. -/
abbrev outV : View sig .tc .vmem S1x256x128 .f32 := (Memref.whole cc0_stg6_0 : Memref sig .tc .vmem S1x256x128 .f32).view

/-- What the launch hands the body besides the windows: the two accumulators at some contents, and the generator register. -/
theorem rest_eq (c : Dev nD) :
    (Pipeline.ΦA spec0 c : sProp 𝕄)
      = iprop(iprop((∃ d, owns (c : Thread nD τ) accM fullShare d) ∗ (∃ d, owns (c : Thread nD τ) gateM fullShare d)) ∗ (∃ r, prngReg c r)) := by
  unfold Pipeline.ΦA; rw [scopedRest0_eq]; simp only [accM, gateM, owns_whole]; try rfl

end Cert.Kernel.Hand

end
-- ==== Proof.RunFirstB.lean ====
/-
  The kernel's body run at a grid point where the reduction starts (k = 0).
-/
import proofs.«103122_j77446850281992_2_alg».proof.Proof.RegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with k = 0 (and k ≠ 27): both accumulators are stored zero and then, read back, stored again with the step's product added — two pieces each, found by running the body; every window's buffer is handed back as it was. -/
noncomputable def runFirst (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : atFirst i) (hL : ¬atLast i)
    (x0 : Vec F S256x1280 .f32) (x1 : Vec F S1280x512 .f32) (x2 : Vec F S1280x512 .f32) :
    Σ' (LA : List (View.Piece (Elt F) S256x512 .f32)), { LG : List (View.Piece (Elt F) S256x512 .f32) //
      ∀ (x3 : Vec F S512x128 .f32) (x4 : Vec F S1x512 .f32) (x5 : Vec F S1x512 .f32) (x6 : Vec F S1x256x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, fun x3 x4 x5 x6 E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.Kernel.Hand

end
-- ==== Proof.RunMidB.lean ====
/-
  The kernel's body run at a grid point inside the reduction (0 < k < 27).
-/
import proofs.«103122_j77446850281992_2_alg».proof.Proof.RegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with 0 < k < 27: each accumulator, at what the point before left, is stored with the step's product added — one piece each. -/
noncomputable def runMid (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : ¬atFirst i) (hL : ¬atLast i)
    (x0 : Vec F S256x1280 .f32) (x1 : Vec F S1280x512 .f32) (x2 : Vec F S1280x512 .f32) (x7 : Vec F S256x512 .f32) (x8 : Vec F S256x512 .f32) :
    Σ' (LA : List (View.Piece (Elt F) S256x512 .f32)), { LG : List (View.Piece (Elt F) S256x512 .f32) //
      ∀ (x3 : Vec F S512x128 .f32) (x4 : Vec F S1x512 .f32) (x5 : Vec F S1x512 .f32) (x6 : Vec F S1x256x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, fun x3 x4 x5 x6 E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.Kernel.Hand

end
-- ==== Proof.RunLastB.lean ====
/-
  The kernel's body run at a grid point where the reduction ends (k = 27).
-/
import proofs.«103122_j77446850281992_2_alg».proof.Proof.RegionB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with k = 27: the accumulators take the last step's product, and the output block's buffer is stored with the gated hidden layer multiplied by the second layer's block — one piece for each of the three. -/
noncomputable def runLast (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : ¬atFirst i) (hL : atLast i)
    (x0 : Vec F S256x1280 .f32) (x1 : Vec F S1280x512 .f32) (x2 : Vec F S1280x512 .f32) (x3 : Vec F S512x128 .f32) (x4 : Vec F S1x512 .f32) (x5 : Vec F S1x512 .f32) (x7 : Vec F S256x512 .f32) (x8 : Vec F S256x512 .f32) :
    Σ' (LO : List (View.Piece (Elt F) S1x256x128 .f32)), Σ' (LA : List (View.Piece (Elt F) S256x512 .f32)), { LG : List (View.Piece (Elt F) S256x512 .f32) //
      ∀  (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare x7 ∗ owns (c : Thread nD τ) a10 fullShare x8
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, ?_, fun  E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; iexact H6
    isplitl [H7]
    · iexists _; iexact H7
    iexists _; iexact H8

end Cert.Kernel.Hand

end
-- ==== Proof.PointsB.lean ====
/-
  The region's frame run, point by point.

  At a grid point t (k = t mod 28 the reduction step, c = t div 28 the hidden half) the body finds the two
  accumulators at what the point before left, and leaves: at k = 0 the step's product added to zero; at
  0 < k < 27 the step's product added to what it found; at k = 27 the same, and in the output block's buffer
  the gated hidden layer multiplied by the second layer's block.  `leftAt` is that recursion; the region's
  invariant carries the two accumulators' contents from point to point; every input window's buffer holds its
  block of the array the region was entered with.  From these the body obligation, the run of @main, and the
  frame: the eleven argument arrays end as they began.
-/
import proofs.«103122_j77446850281992_2_alg».proof.Proof.RunFirstB
import proofs.«103122_j77446850281992_2_alg».proof.Proof.RunMidB
import proofs.«103122_j77446850281992_2_alg».proof.Proof.RunLastB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a grid point -/

abbrev firstAt (c : Dev nD) (t : Fin cfg0.N) (hF : atFirst (grid0.coords t)) (hL : ¬atLast (grid0.coords t))
    (x0 : Vec F S256x1280 .f32) (x1 x2 : Vec F S1280x512 .f32) :=
  runFirst (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2
abbrev midAt (c : Dev nD) (t : Fin cfg0.N) (hF : ¬atFirst (grid0.coords t)) (hL : ¬atLast (grid0.coords t))
    (x0 : Vec F S256x1280 .f32) (x1 x2 : Vec F S1280x512 .f32) (sA sG : Vec F S256x512 .f32) :=
  runMid (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2 sA sG
abbrev lastAt (c : Dev nD) (t : Fin cfg0.N) (hF : ¬atFirst (grid0.coords t)) (hL : atLast (grid0.coords t))
    (x0 : Vec F S256x1280 .f32) (x1 x2 : Vec F S1280x512 .f32) (x3 : Vec F S512x128 .f32) (x4 x5 : Vec F S1x512 .f32) (sA sG : Vec F S256x512 .f32) :=
  runLast (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2 x3 x4 x5 sA sG

/-! ## What each case leaves: its pieces cover the buffer, so they read back as one value -/

theorem firstAcc_cover (c : Dev nD) (t : Fin cfg0.N) (hF : atFirst (grid0.coords t)) (hL : ¬atLast (grid0.coords t)) (x0 : Vec F S256x1280 .f32) (x1 x2 : Vec F S1280x512 .f32) (y : S256x512.Idx) : ∃ pc ∈ (firstAt (F := F) c t hF hL x0 x1 x2).1, y ∈ pc.1.set :=
  View.cover_of_tiledL (firstAt (F := F) c t hF hL x0 x1 x2).1 S256x512.size (by sl_kernel_rfl) y
theorem firstGate_cover (c : Dev nD) (t : Fin cfg0.N) (hF : atFirst (grid0.coords t)) (hL : ¬atLast (grid0.coords t)) (x0 : Vec F S256x1280 .f32) (x1 x2 : Vec F S1280x512 .f32) (y : S256x512.Idx) : ∃ pc ∈ (firstAt (F := F) c t hF hL x0 x1 x2).2.1, y ∈ pc.1.set :=
  View.cover_of_tiledL (firstAt (F := F) c t hF hL x0 x1 x2).2.1 S256x512.size (by sl_kernel_rfl) y
def firstAcc (c : Dev nD) (t : Fin cfg0.N) (hF : atFirst (grid0.coords t)) (hL : ¬atLast (grid0.coords t)) (x0 : Vec F S256x1280 .f32) (x1 x2 : Vec F S1280x512 .f32) : Vec F S256x512 .f32 :=
  accV.read (Elt F) (accV.writes (Elt F) accV.junk (firstAt (F := F) c t hF hL x0 x1 x2).1)
def firstGate (c : Dev nD) (t : Fin cfg0.N) (hF : atFirst (grid0.coords t)) (hL : ¬atLast (grid0.coords t)) (x0 : Vec F S256x1280 .f32) (x1 x2 : Vec F S1280x512 .f32) : Vec F S256x512 .f32 :=
  gateV.read (Elt F) (gateV.writes (Elt F) gateV.junk (firstAt (F := F) c t hF hL x0 x1 x2).2.1)

theorem midAcc_cover (c : Dev nD) (t : Fin cfg0.N) (hF : ¬atFirst (grid0.coords t)) (hL : ¬atLast (grid0.coords t)) (x0 : Vec F S256x1280 .f32) (x1 x2 : Vec F S1280x512 .f32) (sA sG : Vec F S256x512 .f32) (y : S256x512.Idx) : ∃ pc ∈ (midAt (F := F) c t hF hL x0 x1 x2 sA sG).1, y ∈ pc.1.set :=
  View.cover_of_tiledL (midAt (F := F) c t hF hL x0 x1 x2 sA sG).1 S256x512.size (by sl_kernel_rfl) y
theorem midGate_cover (c : Dev nD) (t : Fin cfg0.N) (hF : ¬atFirst (grid0.coords t)) (hL : ¬atLast (grid0.coords t)) (x0 : Vec F S256x1280 .f32) (x1 x2 : Vec F S1280x512 .f32) (sA sG : Vec F S256x512 .f32) (y : S256x512.Idx) : ∃ pc ∈ (midAt (F := F) c t hF hL x0 x1 x2 sA sG).2.1, y ∈ pc.1.set :=
  View.cover_of_tiledL (midAt (F := F) c t hF hL x0 x1 x2 sA sG).2.1 S256x512.size (by sl_kernel_rfl) y
def midAcc (c : Dev nD) (t : Fin cfg0.N) (hF : ¬atFirst (grid0.coords t)) (hL : ¬atLast (grid0.coords t)) (x0 : Vec F S256x1280 .f32) (x1 x2 : Vec F S1280x512 .f32) (sA sG : Vec F S256x512 .f32) : Vec F S256x512 .f32 :=
  accV.read (Elt F) (accV.writes (Elt F) accV.junk (midAt (F := F) c t hF hL x0 x1 x2 sA sG).1)
def midGate (c : Dev nD) (t : Fin cfg0.N) (hF : ¬atFirst (grid0.coords t)) (hL : ¬atLast (grid0.coords t)) (x0 : Vec F S256x1280 .f32) (x1 x2 : Vec F S1280x512 .f32) (sA sG : Vec F S256x512 .f32) : Vec F S256x512 .f32 :=
  gateV.read (Elt F) (gateV.writes (Elt F) gateV.junk (midAt (F := F) c t hF hL x0 x1 x2 sA sG).2.1)

theorem lastOut_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S1x256x128.Idx) : ∃ pc ∈ (lastAt (F := F) c t hF hL x0 x1 x2 x3 x4 x5 sA sG).1, y ∈ pc.1.set :=
  View.cover_of_tiledL (lastAt (F := F) c t hF hL x0 x1 x2 x3 x4 x5 sA sG).1 S1x256x128.size (by sl_kernel_rfl) y
theorem lastAcc_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S256x512.Idx) : ∃ pc ∈ (lastAt (F := F) c t hF hL x0 x1 x2 x3 x4 x5 sA sG).2.1, y ∈ pc.1.set :=
  View.cover_of_tiledL (lastAt (F := F) c t hF hL x0 x1 x2 x3 x4 x5 sA sG).2.1 S256x512.size (by sl_kernel_rfl) y
theorem lastGate_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S256x512.Idx) : ∃ pc ∈ (lastAt (F := F) c t hF hL x0 x1 x2 x3 x4 x5 sA sG).2.2.1, y ∈ pc.1.set :=
  View.cover_of_tiledL (lastAt (F := F) c t hF hL x0 x1 x2 x3 x4 x5 sA sG).2.2.1 S256x512.size (by sl_kernel_rfl) y
def lastOut (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S1x256x128 .f32 :=
  outV.read (Elt F) (outV.writes (Elt F) outV.junk (lastAt (F := F) c t hF hL x0 x1 x2 x3 x4 x5 sA sG).1)
def lastAcc (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S256x512 .f32 :=
  accV.read (Elt F) (accV.writes (Elt F) accV.junk (lastAt (F := F) c t hF hL x0 x1 x2 x3 x4 x5 sA sG).2.1)
def lastGate (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S256x512 .f32 :=
  gateV.read (Elt F) (gateV.writes (Elt F) gateV.junk (lastAt (F := F) c t hF hL x0 x1 x2 x3 x4 x5 sA sG).2.2.1)

/-- Away from k = 27 nothing is stored into the output block's buffer and nothing consults what it holds. -/
def unstored : Vec F S1x256x128 .f32 := outV.read (Elt F) outV.junk

theorem notLast_of_first (t : Fin cfg0.N) (h0 : t.val % 28 = 0) : ¬atLast (grid0.coords t) :=
  fun h => by have := (atLast_iff t).mp h; omega

/-! ## The recursion over the grid's points -/

/-- What the output block's buffer and the two accumulators hold after the body at position `n`. -/
def leftAt (c : Dev nD) : (n : ℕ) → n < cfg0.N → Vec F S1x256x128 .f32 × Vec F S256x512 .f32 × Vec F S256x512 .f32
  | 0, hn =>
    let t : Fin cfg0.N := ⟨0, hn⟩
    (unstored, firstAcc c t ((atFirst_iff t).mpr (Nat.zero_mod _)) (notLast_of_first t (Nat.zero_mod _)) (blockAt m c 0 t) (blockAt m c 1 t) (blockAt m c 2 t),
      firstGate c t ((atFirst_iff t).mpr (Nat.zero_mod _)) (notLast_of_first t (Nat.zero_mod _)) (blockAt m c 0 t) (blockAt m c 1 t) (blockAt m c 2 t))
  | n + 1, hn =>
    let t : Fin cfg0.N := ⟨n + 1, hn⟩
    if h0 : (n + 1) % 28 = 0 then
      (unstored, firstAcc c t ((atFirst_iff t).mpr h0) (notLast_of_first t h0) (blockAt m c 0 t) (blockAt m c 1 t) (blockAt m c 2 t),
        firstGate c t ((atFirst_iff t).mpr h0) (notLast_of_first t h0) (blockAt m c 0 t) (blockAt m c 1 t) (blockAt m c 2 t))
    else
      if h1 : (n + 1) % 28 = 27 then
        (lastOut c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2,
          lastAcc c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2,
          lastGate c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2)
      else
        (unstored, midAcc c t (fun h => h0 ((atFirst_iff t).mp h)) (fun h => h1 ((atLast_iff t).mp h)) (blockAt m c 0 t) (blockAt m c 1 t) (blockAt m c 2 t) (leftAt c n (Nat.lt_of_succ_lt hn)).2.1 (leftAt c n (Nat.lt_of_succ_lt hn)).2.2,
          midGate c t (fun h => h0 ((atFirst_iff t).mp h)) (fun h => h1 ((atLast_iff t).mp h)) (blockAt m c 0 t) (blockAt m c 1 t) (blockAt m c 2 t) (leftAt c n (Nat.lt_of_succ_lt hn)).2.1 (leftAt c n (Nat.lt_of_succ_lt hn)).2.2)

/-- The point before `t`. -/
abbrev prevLt (t : Fin cfg0.N) : t.val - 1 < cfg0.N := Nat.lt_of_le_of_lt (Nat.sub_le _ _) t.isLt

theorem leftAt_first (c : Dev nD) (t : Fin cfg0.N) (h0 : t.val % 28 = 0) :
    leftAt m c t.val t.isLt = (unstored, firstAcc c t ((atFirst_iff t).mpr h0) (notLast_of_first t h0) (blockAt m c 0 t) (blockAt m c 1 t) (blockAt m c 2 t),
      firstGate c t ((atFirst_iff t).mpr h0) (notLast_of_first t h0) (blockAt m c 0 t) (blockAt m c 1 t) (blockAt m c 2 t)) := by
  obtain ⟨n, hn⟩ := t
  cases n with
  | zero => exact rfl
  | succ n => exact (dif_pos h0).trans rfl

theorem leftAt_mid (c : Dev nD) (t : Fin cfg0.N) (h0 : ¬t.val % 28 = 0) (h1 : ¬t.val % 28 = 27) :
    leftAt m c t.val t.isLt = (unstored, midAcc c t (fun h => h0 ((atFirst_iff t).mp h)) (fun h => h1 ((atLast_iff t).mp h)) (blockAt m c 0 t) (blockAt m c 1 t) (blockAt m c 2 t) (leftAt m c (t.val - 1) (prevLt t)).2.1 (leftAt m c (t.val - 1) (prevLt t)).2.2,
      midGate c t (fun h => h0 ((atFirst_iff t).mp h)) (fun h => h1 ((atLast_iff t).mp h)) (blockAt m c 0 t) (blockAt m c 1 t) (blockAt m c 2 t) (leftAt m c (t.val - 1) (prevLt t)).2.1 (leftAt m c (t.val - 1) (prevLt t)).2.2) := by
  obtain ⟨n, hn⟩ := t
  cases n with
  | zero => exact absurd (Nat.zero_mod _) h0
  | succ n => exact (dif_neg h0).trans ((dif_neg h1).trans rfl)

theorem leftAt_last (c : Dev nD) (t : Fin cfg0.N) (h0 : ¬t.val % 28 = 0) (h1 : t.val % 28 = 27) :
    leftAt m c t.val t.isLt = (lastOut c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2,
      lastAcc c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2,
      lastGate c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2) := by
  obtain ⟨n, hn⟩ := t
  cases n with
  | zero => exact absurd (Nat.zero_mod _) h0
  | succ n => exact (dif_neg h0).trans ((dif_pos h1).trans rfl)

/-! ## The region's invariant -/

/-- Before position `n`: at the region's entry the accumulators hold anything; afterwards what the point before left. -/
def carried (c : Dev nD) : (n : ℕ) → n ≤ cfg0.N → sProp 𝕄
  | 0, _ => Pipeline.ΦA spec0 c
  | n + 1, hn => iprop(iprop(owns (c : Thread nD τ) accM fullShare ((leftAt m c n hn).2.1) ∗ owns (c : Thread nD τ) gateM fullShare ((leftAt m c n hn).2.2)) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) accM fullShare ((leftAt m c n hn).2.1) ∗ owns (c : Thread nD τ) gateM fullShare ((leftAt m c n hn).2.2)) ∗ (∃ r, prngReg c r)) := rfl
theorem carried_pos (c : Dev nD) (n : ℕ) (h : n ≤ cfg0.N) (hz : n ≠ 0) :
    carried m c n h = iprop(iprop(owns (c : Thread nD τ) accM fullShare ((leftAt m c (n - 1) (by omega)).2.1) ∗ owns (c : Thread nD τ) gateM fullShare ((leftAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => (leftAt m c t.val t.isLt).1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = (leftAt m c t.val t.isLt).1 := by dsimp only [dats]

theorem before0 (c : Dev nD) (t : Fin cfg0.N) (d) : (dats m 0 c).before 0 t d = blockAt m c 0 t :=
  held0_of m (dats m 0 c) (A_eq m c 0) (after0 m c) t d
theorem before1 (c : Dev nD) (t : Fin cfg0.N) (d) : (dats m 0 c).before 1 t d = blockAt m c 1 t :=
  held1_of m (dats m 0 c) (A_eq m c 1) (after1 m c) t d
theorem before2 (c : Dev nD) (t : Fin cfg0.N) (d) : (dats m 0 c).before 2 t d = blockAt m c 2 t :=
  held2_of m (dats m 0 c) (A_eq m c 2) (after2 m c) t d
theorem before3 (c : Dev nD) (t : Fin cfg0.N) (d) : (dats m 0 c).before 3 t d = blockAt m c 3 t :=
  held3_of m (dats m 0 c) (A_eq m c 3) (after3 m c) t d
theorem before4 (c : Dev nD) (t : Fin cfg0.N) (d) : (dats m 0 c).before 4 t d = blockAt m c 4 t :=
  held4_of m (dats m 0 c) (A_eq m c 4) (after4 m c) t d
theorem before5 (c : Dev nD) (t : Fin cfg0.N) (d) : (dats m 0 c).before 5 t d = blockAt m c 5 t :=
  held5_of m (dats m 0 c) (A_eq m c 5) (after5 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

end Cert.Kernel.Hand

end
-- ==== Proof.BodyB.lean ====
/-
  The body obligation at every grid point, and the run of @main around the region.

  At a point the body is handed the invariant (the two accumulators at what the point before left — at
  anything at the very first point), each input window's buffer at its block, and the output block's buffer;
  it hands back the invariant at this point's contents.  Which of the three runs applies is decided by
  k = t mod 28.  The launch then gives the run of @main: every array of the region at what the proof data
  computes, every other buffer as the eight later lines leave it.
-/
import proofs.«103122_j77446850281992_2_alg».proof.Proof.PointsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = carried m c (t.val + 1) t.isLt from rfl, carried_succ]
  have hN : t.val < 56 := lt_of_lt_of_eq t.isLt (show cfg0.N = 56 from N_0)
  by_cases h0 : t.val % 28 = 0
  ·
    have h1 : ¬t.val % 28 = 27 := by omega
    rw [show (dats m 0 c).leavesExact 0 t = owns (c : Thread nD τ) (stg0 t) fullShare ((dats m 0 c).after 0 t) from by
      unfold Dat.leavesExact; rw [live0 t], after0]
    rw [show (dats m 0 c).leavesExact 1 t = owns (c : Thread nD τ) (stg1 t) fullShare ((dats m 0 c).after 1 t) from by
      unfold Dat.leavesExact; rw [live1 t], after1]
    rw [show (dats m 0 c).leavesExact 2 t = owns (c : Thread nD τ) (stg2 t) fullShare ((dats m 0 c).after 2 t) from by
      unfold Dat.leavesExact; rw [live2 t], after2]
    rw [show (dats m 0 c).leavesExact 3 t = owns (c : Thread nD τ) (stg3 t) fullShare ((dats m 0 c).after 3 t) from by
      unfold Dat.leavesExact; rw [live3 t], after3]
    rw [show (dats m 0 c).leavesExact 4 t = owns (c : Thread nD τ) (stg4 t) fullShare ((dats m 0 c).after 4 t) from by
      unfold Dat.leavesExact; rw [live4 t], after4]
    rw [show (dats m 0 c).leavesExact 5 t = owns (c : Thread nD τ) (stg5 t) fullShare ((dats m 0 c).after 5 t) from by
      unfold Dat.leavesExact; rw [live5 t], after5]
    rw [Dat.leavesExact_idle (dats m 0 c) 6 t (out_idle t (notLast_of_first t h0)) (out_unflushed t (notLast_of_first t h0))]
    rw [leftAt_first m c t h0]
    unfold firstAcc firstGate; (try dsimp only)
    by_cases hz : t.val = 0
    · rw [carried_castSucc m c t, carried_zero m c _ _ hz, rest_eq]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t ((atFirst_iff t).mpr h0) (notLast_of_first t h0) (blockAt m c 0 t) (blockAt m c 1 t) (blockAt m c 2 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HG]; · iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (firstAcc_cover c t _ _ _ _ _)
          · unfold owns; iexists _; isplitr
            swap; · iexact HG
            ipureintro; exact View.read_writes_of_cover _ _ _ _ _ (firstGate_cover c t _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t ((atFirst_iff t).mpr h0) (notLast_of_first t h0) (blockAt m c 0 t) (blockAt m c 1 t) (blockAt m c 2 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HG]; · iexists _; iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (firstAcc_cover c t _ _ _ _ _)
          · unfold owns; iexists _; isplitr
            swap; · iexact HG
            ipureintro; exact View.read_writes_of_cover _ _ _ _ _ (firstGate_cover c t _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 28 = 27
    ·
      rw [show (dats m 0 c).leavesExact 0 t = owns (c : Thread nD τ) (stg0 t) fullShare ((dats m 0 c).after 0 t) from by
        unfold Dat.leavesExact; rw [live0 t], after0]
      rw [show (dats m 0 c).leavesExact 1 t = owns (c : Thread nD τ) (stg1 t) fullShare ((dats m 0 c).after 1 t) from by
        unfold Dat.leavesExact; rw [live1 t], after1]
      rw [show (dats m 0 c).leavesExact 2 t = owns (c : Thread nD τ) (stg2 t) fullShare ((dats m 0 c).after 2 t) from by
        unfold Dat.leavesExact; rw [live2 t], after2]
      rw [show (dats m 0 c).leavesExact 3 t = owns (c : Thread nD τ) (stg3 t) fullShare ((dats m 0 c).after 3 t) from by
        unfold Dat.leavesExact; rw [live3 t], after3]
      rw [show (dats m 0 c).leavesExact 4 t = owns (c : Thread nD τ) (stg4 t) fullShare ((dats m 0 c).after 4 t) from by
        unfold Dat.leavesExact; rw [live4 t], after4]
      rw [show (dats m 0 c).leavesExact 5 t = owns (c : Thread nD τ) (stg5 t) fullShare ((dats m 0 c).after 5 t) from by
        unfold Dat.leavesExact; rw [live5 t], after5]
      rw [show (dats m 0 c).leavesExact 6 t = owns (c : Thread nD τ) (stg6 t) fullShare ((dats m 0 c).after 6 t) from by
        unfold Dat.leavesExact; rw [out_live t ((atLast_iff t).mpr h1)], after6]
      rw [leftAt_last m c t h0 h1]
      unfold lastOut lastAcc lastGate; (try dsimp only)
      rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt c t (fun h => h0 ((atFirst_iff t).mp h)) ((atLast_iff t).mpr h1) (blockAt m c 0 t) (blockAt m c 1 t) (blockAt m c 2 t) (blockAt m c 3 t) (blockAt m c 4 t) (blockAt m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HG]; · iexact HG
      iintro ⟨H0, H1, H2, H3, H4, H5, ⟨%e6, H6⟩, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (lastAcc_cover c t _ _ _ _ _ _ _ _ _ _)
          · unfold owns; iexists _; isplitr
            swap; · iexact HG
            ipureintro; exact View.read_writes_of_cover _ _ _ _ _ (lastGate_cover c t _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lastOut_cover c t _ _ _ _ _ _ _ _ _ _)
    ·
      rw [show (dats m 0 c).leavesExact 0 t = owns (c : Thread nD τ) (stg0 t) fullShare ((dats m 0 c).after 0 t) from by
        unfold Dat.leavesExact; rw [live0 t], after0]
      rw [show (dats m 0 c).leavesExact 1 t = owns (c : Thread nD τ) (stg1 t) fullShare ((dats m 0 c).after 1 t) from by
        unfold Dat.leavesExact; rw [live1 t], after1]
      rw [show (dats m 0 c).leavesExact 2 t = owns (c : Thread nD τ) (stg2 t) fullShare ((dats m 0 c).after 2 t) from by
        unfold Dat.leavesExact; rw [live2 t], after2]
      rw [show (dats m 0 c).leavesExact 3 t = owns (c : Thread nD τ) (stg3 t) fullShare ((dats m 0 c).after 3 t) from by
        unfold Dat.leavesExact; rw [live3 t], after3]
      rw [show (dats m 0 c).leavesExact 4 t = owns (c : Thread nD τ) (stg4 t) fullShare ((dats m 0 c).after 4 t) from by
        unfold Dat.leavesExact; rw [live4 t], after4]
      rw [show (dats m 0 c).leavesExact 5 t = owns (c : Thread nD τ) (stg5 t) fullShare ((dats m 0 c).after 5 t) from by
        unfold Dat.leavesExact; rw [live5 t], after5]
      rw [Dat.leavesExact_idle (dats m 0 c) 6 t (out_idle t (fun h => h1 ((atLast_iff t).mp h))) (out_unflushed t (fun h => h1 ((atLast_iff t).mp h)))]
      rw [leftAt_mid m c t h0 h1]
      unfold midAcc midGate; (try dsimp only)
      rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((midAt c t (fun h => h0 ((atFirst_iff t).mp h)) (fun h => h1 ((atLast_iff t).mp h)) (blockAt m c 0 t) (blockAt m c 1 t) (blockAt m c 2 t) _ _).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HG]; · iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (midAcc_cover c t _ _ _ _ _ _ _)
          · unfold owns; iexists _; isplitr
            swap; · iexact HG
            ipureintro; exact View.read_writes_of_cover _ _ _ _ _ (midGate_cover c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 56 := N_0; omega
  rw [show (dats m 0 c).Φ (Fin.last cfg0.N) = carried m c (Fin.last cfg0.N).val (Nat.le_of_lt_succ (Fin.last cfg0.N).isLt) from rfl, carried_pos m c _ _ hne, rest_eq]
  iintro ⟨⟨HA, HG⟩, Hg⟩
  isplitl [HA HG]
  · isplitl [HA]
    · iexists _; iexact HA
    · iexists _; iexact HG
  iexact Hg

/-! ## The run -/

set_option backward.isDefEq.respectTransparency.types false in
/-- Every weakly fair execution of @main terminates; at the end every array of the region holds what the proof data
    computes and every other buffer what the eight later lines leave. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := hmain m Variants.none) (hA := A_eq m) (hin := hin m) (hout := hout m)

end Cert.Kernel.Hand

end
-- ==== Proof.GlueKeepB.lean ====
import proofs.«103122_j77446850281992_2_alg».proof.Proof.Gen.Kernel.Launch

/-! The host operations before the region (the thirty-two stretches `hostOps0`, `hostOps0_1`, …, `hostOps0_31`, run in order)
    write only buffers of their own: every argument array keeps its contents, and the last stretch's two operations
    leave in `main_call16_v0` and `main_call16_v1` the row reshapes `[1024] → [1, 1024]` of the arguments
    `main_arg6` and `main_arg8`. Stated for every valuation and every float instance. -/

noncomputable section

namespace Cert.Kernel.Hand

open Idealize.ShloMosaic Idealize.ShloMosaic.TcCoe Cert.Kernel.Gen

variable {F : FTy → Type} [FloatOps F]

/-- Every reference an operation before the region writes, in the operations' order. -/
abbrev glueWrites : List (Ref sig .tc) :=
  [
    main_v0, main_cst, main_v1, main_cst_0, main_v2, main_v3, main_v4, main_v5,
    main_c, main_v6, main_v7, main_cst_1, main_v8, main_v9, main_call0_v0, main_call0_v1,
    main_v10, main_c_2, main_v11, main_v12, main_call1_v0, main_call1_v1, main_v13, main_c_3,
    main_v14, main_c_4, main_v15, main_v16, main_call2_v0, main_call2_v1, main_v17, main_c_5,
    main_v18, main_v19, main_call3_v0, main_call3_v1_0, main_v20, main_call4_c, main_call4_v0, main_call4_v1,
    main_call4_c_0, main_call4_v2, main_call4_v3, main_call4_v4, main_call4_v5, main_call4_c_1, main_call4_c_2, main_call4_v6,
    main_call4_v7, main_call4_v8, main_call4_v9, main_call4_v10, main_call4_v11, main_call4_c_3, main_call4_v12, main_call4_v13,
    main_call4_c_4, main_call4_v14, main_v21, main_v22, main_call5_c, main_call5_v0, main_call5_v1, main_call5_c_0,
    main_call5_v2, main_call5_v3, main_call5_v4, main_call5_c_1, main_call5_c_2, main_call5_v5, main_call5_v6, main_call5_v7,
    main_call5_v8, main_call5_v9, main_call5_v10, main_call5_c_3, main_call5_v11, main_call5_v12, main_call5_v13, main_call5_cst,
    main_call5_v14, main_v23, main_call6_c, main_call6_v0, main_call6_v1, main_call6_c_0, main_call6_v2, main_call6_v3,
    main_call6_v4, main_call6_v5, main_call6_c_1, main_call6_c_2, main_call6_v6, main_call6_v7, main_call6_v8, main_call6_v9,
    main_call6_v10, main_call6_v11, main_call6_c_3, main_call6_v12, main_call6_v13, main_call6_cst, main_call6_v14, main_v24,
    main_v25, main_c_6, main_c_7, main_v26, main_c_8, main_v27, main_v28, main_v29,
    main_v30, main_c_9, main_c_10, main_call7_v0, main_call7_v1, main_v31, main_c_11, main_v32,
    main_v33, main_c_12, main_v34, main_v35, main_call8_c, main_call8_v0, main_call8_v1, main_v36,
    main_c_13, main_c_14, main_v37, main_c_15, main_v38, main_v39, main_c_16, main_v40,
    main_v41, main_v42, main_v43, main_call9_c, main_call9_v0, main_call9_v1, main_v44, main_v45,
    main_c_17, main_v46, main_v47, main_c_18, main_v48, main_v49, main_v50, main_v51,
    main_call10_c, main_call10_v0, main_call10_v1, main_v52, main_v53, main_c_19, main_v54, main_v55,
    main_c_20, main_v56, main_v57, main_v58, main_v59, main_call11_c, main_call11_v0, main_call11_v1,
    main_v60, main_v61, main_c_21, main_v62, main_v63, main_c_22, main_v64, main_v65,
    main_v66, main_v67, main_call12_c, main_call12_v0, main_call12_v1, main_v68, main_v69, main_c_23,
    main_v70, main_v71, main_c_24, main_v72, main_v73, main_v74, main_v75, main_call13_c,
    main_call13_v0, main_call13_v1, main_v76, main_v77, main_c_25, main_v78, main_v79, main_v80,
    main_call14_v0, main_call14_v1, main_call14_v2, main_call14_v3, main_call14_v4, main_call14_v5, main_call14_v6, main_call14_v7,
    main_call14_v8, main_call14_v9, main_call14_v10, main_call14_v11, main_call14_c, main_call14_v12, main_call14_v13, main_call14_v14,
    main_call14_c_0, main_call14_v15, main_call14_v16, main_v81, main_c_26, main_call15_v0, main_call15_c, main_call15_v1,
    main_call15_c_0, main_call15_v2, main_call15_v3, main_call15_v4, main_call15_c_1, main_call15_v5, main_call15_v6, main_call15_c_2,
    main_call15_v7, main_call15_v8, main_call15_c_3, main_call15_v9, main_call15_v10, main_call15_v11, main_call15_v12, main_call15_v13,
    main_call15_v14, main_v82, main_v83, main_v84, main_c_27, main_v85, main_v86, main_v87,
    main_cst_28, main_v88, main_v89, main_v90, main_v91, main_v92, main_v93, main_v94,
    main_call16_v0, main_call16_v1 ]

/-- A written reference's buffer, as a singleton, lies among the written buffers. -/
theorem glueWrites_sub {y : Ref sig .tc} (h : y ∈ glueWrites) :
    ({Proc.devRef .tc y} : Finset (DevRef τ sig)) ⊆ (glueWrites.map (Proc.devRef (τ := τ) .tc)).toFinset :=
  Finset.singleton_subset_iff.mpr (List.mem_toFinset.mpr (List.mem_map_of_mem h))

/-- Each operation of a stretch writes one buffer, and it is listed: the stretch's operations taken one by one. -/
macro "glue_writes_tac" : tactic =>
  `(tactic| (simp only [List.Forall]
             repeat' apply And.intro
             all_goals exact glueWrites_sub (by decide)))

theorem hostOps0_writes : (hostOps0 : List (HloOp τ sig (Elt F))).Forall fun op => op.writes ⊆ (glueWrites.map (Proc.devRef (τ := τ) .tc)).toFinset := by
  glue_writes_tac
theorem hostOps0_1_writes : (hostOps0_1 : List (HloOp τ sig (Elt F))).Forall fun op => op.writes ⊆ (glueWrites.map (Proc.devRef (τ := τ) .tc)).toFinset := by
  glue_writes_tac
theorem hostOps0_2_writes : (hostOps0_2 : List (HloOp τ sig (Elt F))).Forall fun op => op.writes ⊆ (glueWrites.map (Proc.devRef (τ := τ) .tc)).toFinset := by
  glue_writes_tac
theorem hostOps0_3_writes : (hostOps0_3 : List (HloOp τ sig (Elt F))).Forall fun op => op.writes ⊆ (glueWrites.map (Proc.devRef (τ := τ) .tc)).toFinset := by
  glue_writes_tac
theorem hostOps0_4_writes : (hostOps0_4 : List (HloOp τ sig (Elt F))).Forall fun op => op.writes ⊆ (glueWrites.map (Proc.devRef (τ := τ) .tc)).toFinset := by
  glue_writes_tac
theorem hostOps0_5_writes : (hostOps0_5 : List (HloOp τ sig (Elt F))).Forall fun op => op.writes ⊆ (glueWrites.map (Proc.devRef (τ := τ) .tc)).toFinset := by
  glue_writes_tac
theorem hostOps0_6_writes : (hostOps0_6 : List (HloOp τ sig (Elt F))).Forall fun op => op.writes ⊆ (glueWrites.map (Proc.devRef (τ := τ) .tc)).toFinset := by
  glue_writes_tac
theorem hostOps0_7_writes : (hostOps0_7 : List (HloOp τ sig (Elt F))).Forall fun op => op.writes ⊆ (glueWrites.map (Proc.devRef (τ := τ) .tc)).toFinset := by
  glue_writes_tac
theorem hostOps0_8_writes : (hostOps0_8 : List (HloOp τ sig (Elt F))).Forall fun op => op.writes ⊆ (glueWrites.map (Proc.devRef (τ := τ) .tc)).toFinset := by
  glue_writes_tac
theorem hostOps0_9_writes : (hostOps0_9 : List (HloOp τ sig (Elt F))).Forall fun op => op.writes ⊆ (glueWrites.map (Proc.devRef (τ := τ) .tc)).toFinset := by
  glue_writes_tac
theorem hostOps0_10_writes : (hostOps0_10 : List (HloOp τ sig (Elt F))).Forall fun op => op.writes ⊆ (glueWrites.map (Proc.devRef (τ := τ) .tc)).toFinset := by
  glue_writes_tac
theorem hostOps0_11_writes : (hostOps0_11 : List (HloOp τ sig (Elt F))).Forall fun op => op.writes ⊆ (glueWrites.map (Proc.devRef (τ := τ) .tc)).toFinset := by
  glue_writes_tac
theorem hostOps0_12_writes : (hostOps0_12 : List (HloOp τ sig (Elt F))).Forall fun op => op.writes ⊆ (glueWrites.map (Proc.devRef (τ := τ) .tc)).toFinset := by
  glue_writes_tac
theorem hostOps0_13_writes : (hostOps0_13 : List (HloOp τ sig (Elt F))).Forall fun op => op.writes ⊆ (glueWrites.map (Proc.devRef (τ := τ) .tc)).toFinset := by
  glue_writes_tac
theorem hostOps0_14_writes : (hostOps0_14 : List (HloOp τ sig (Elt F))).Forall fun op => op.writes ⊆ (glueWrites.map (Proc.devRef (τ := τ) .tc)).toFinset := by
  glue_writes_tac
theorem hostOps0_15_writes : (hostOps0_15 : List (HloOp τ sig (Elt F))).Forall fun op => op.writes ⊆ (glueWrites.map (Proc.devRef (τ := τ) .tc)).toFinset := by
  glue_writes_tac
theorem hostOps0_16_writes : (hostOps0_16 : List (HloOp τ sig (Elt F))).Forall fun op => op.writes ⊆ (glueWrites.map (Proc.devRef (τ := τ) .tc)).toFinset := by
  glue_writes_tac
theorem hostOps0_17_writes : (hostOps0_17 : List (HloOp τ sig (Elt F))).Forall fun op => op.writes ⊆ (glueWrites.map (Proc.devRef (τ := τ) .tc)).toFinset := by
  glue_writes_tac
theorem hostOps0_18_writes : (hostOps0_18 : List (HloOp τ sig (Elt F))).Forall fun op => op.writes ⊆ (glueWrites.map (Proc.devRef (τ := τ) .tc)).toFinset := by
  glue_writes_tac
theorem hostOps0_19_writes : (hostOps0_19 : List (HloOp τ sig (Elt F))).Forall fun op => op.writes ⊆ (glueWrites.map (Proc.devRef (τ := τ) .tc)).toFinset := by
  glue_writes_tac
theorem hostOps0_20_writes : (hostOps0_20 : List (HloOp τ sig (Elt F))).Forall fun op => op.writes ⊆ (glueWrites.map (Proc.devRef (τ := τ) .tc)).toFinset := by
  glue_writes_tac
theorem hostOps0_21_writes : (hostOps0_21 : List (HloOp τ sig (Elt F))).Forall fun op => op.writes ⊆ (glueWrites.map (Proc.devRef (τ := τ) .tc)).toFinset := by
  glue_writes_tac
theorem hostOps0_22_writes : (hostOps0_22 : List (HloOp τ sig (Elt F))).Forall fun op => op.writes ⊆ (glueWrites.map (Proc.devRef (τ := τ) .tc)).toFinset := by
  glue_writes_tac
theorem hostOps0_23_writes : (hostOps0_23 : List (HloOp τ sig (Elt F))).Forall fun op => op.writes ⊆ (glueWrites.map (Proc.devRef (τ := τ) .tc)).toFinset := by
  glue_writes_tac
theorem hostOps0_24_writes : (hostOps0_24 : List (HloOp τ sig (Elt F))).Forall fun op => op.writes ⊆ (glueWrites.map (Proc.devRef (τ := τ) .tc)).toFinset := by
  glue_writes_tac
theorem hostOps0_25_writes : (hostOps0_25 : List (HloOp τ sig (Elt F))).Forall fun op => op.writes ⊆ (glueWrites.map (Proc.devRef (τ := τ) .tc)).toFinset := by
  glue_writes_tac
theorem hostOps0_26_writes : (hostOps0_26 : List (HloOp τ sig (Elt F))).Forall fun op => op.writes ⊆ (glueWrites.map (Proc.devRef (τ := τ) .tc)).toFinset := by
  glue_writes_tac
theorem hostOps0_27_writes : (hostOps0_27 : List (HloOp τ sig (Elt F))).Forall fun op => op.writes ⊆ (glueWrites.map (Proc.devRef (τ := τ) .tc)).toFinset := by
  glue_writes_tac
theorem hostOps0_28_writes : (hostOps0_28 : List (HloOp τ sig (Elt F))).Forall fun op => op.writes ⊆ (glueWrites.map (Proc.devRef (τ := τ) .tc)).toFinset := by
  glue_writes_tac
theorem hostOps0_29_writes : (hostOps0_29 : List (HloOp τ sig (Elt F))).Forall fun op => op.writes ⊆ (glueWrites.map (Proc.devRef (τ := τ) .tc)).toFinset := by
  glue_writes_tac
theorem hostOps0_30_writes : (hostOps0_30 : List (HloOp τ sig (Elt F))).Forall fun op => op.writes ⊆ (glueWrites.map (Proc.devRef (τ := τ) .tc)).toFinset := by
  glue_writes_tac
theorem hostOps0_31_writes : (hostOps0_31 : List (HloOp τ sig (Elt F))).Forall fun op => op.writes ⊆ (glueWrites.map (Proc.devRef (τ := τ) .tc)).toFinset := by
  glue_writes_tac

/-- The stretches before the last one, in order. -/
abbrev glueInit : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- All the stretches are the earlier ones followed by the last. -/
theorem glue_split :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) = glueInit ++ hostOps0_31 := by
  simp only [glueInit, List.flatten_cons, List.flatten_nil, List.append_nil, List.append_assoc]

theorem glueInit_writes : (glueInit : List (HloOp τ sig (Elt F))).Forall fun op => op.writes ⊆ (glueWrites.map (Proc.devRef (τ := τ) .tc)).toFinset := by
  simp only [glueInit, List.flatten_cons, List.flatten_nil, List.append_nil, List.forall_append]
  exact ⟨hostOps0_writes, hostOps0_1_writes, hostOps0_2_writes, hostOps0_3_writes, hostOps0_4_writes, hostOps0_5_writes, hostOps0_6_writes, hostOps0_7_writes, hostOps0_8_writes, hostOps0_9_writes, hostOps0_10_writes, hostOps0_11_writes, hostOps0_12_writes, hostOps0_13_writes, hostOps0_14_writes, hostOps0_15_writes, hostOps0_16_writes, hostOps0_17_writes, hostOps0_18_writes, hostOps0_19_writes, hostOps0_20_writes, hostOps0_21_writes, hostOps0_22_writes, hostOps0_23_writes, hostOps0_24_writes, hostOps0_25_writes, hostOps0_26_writes, hostOps0_27_writes, hostOps0_28_writes, hostOps0_29_writes, hostOps0_30_writes⟩

theorem glue_writes : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))).Forall fun op => op.writes ⊆ (glueWrites.map (Proc.devRef (τ := τ) .tc)).toFinset := by
  rw [glue_split, List.forall_append]
  exact ⟨glueInit_writes, hostOps0_31_writes⟩

/-- Running two lines of operations in a row is running the second from where the first ends. -/
theorem after_append' : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, after_append' l₁ l₂]

variable (V : Valuation τ sig (Elt F))

/-- No operation before the region writes `main_arg0`. -/
theorem glue_keep_0 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg0) = V (Proc.devRef .tc main_arg0) :=
  StableHlo.after_of_writes_sub _ V glue_writes (by decide)
/-- No operation before the region writes `main_arg1`. -/
theorem glue_keep_1 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg1) = V (Proc.devRef .tc main_arg1) :=
  StableHlo.after_of_writes_sub _ V glue_writes (by decide)
/-- No operation before the region writes `main_arg2`. -/
theorem glue_keep_2 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg2) = V (Proc.devRef .tc main_arg2) :=
  StableHlo.after_of_writes_sub _ V glue_writes (by decide)
/-- No operation before the region writes `main_arg3`. -/
theorem glue_keep_3 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg3) = V (Proc.devRef .tc main_arg3) :=
  StableHlo.after_of_writes_sub _ V glue_writes (by decide)
/-- No operation before the region writes `main_arg4`. -/
theorem glue_keep_4 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg4) = V (Proc.devRef .tc main_arg4) :=
  StableHlo.after_of_writes_sub _ V glue_writes (by decide)
/-- No operation before the region writes `main_arg5`. -/
theorem glue_keep_5 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg5) = V (Proc.devRef .tc main_arg5) :=
  StableHlo.after_of_writes_sub _ V glue_writes (by decide)
/-- No operation before the region writes `main_arg6`. -/
theorem glue_keep_6 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg6) = V (Proc.devRef .tc main_arg6) :=
  StableHlo.after_of_writes_sub _ V glue_writes (by decide)
/-- No operation before the region writes `main_arg7`. -/
theorem glue_keep_7 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg7) = V (Proc.devRef .tc main_arg7) :=
  StableHlo.after_of_writes_sub _ V glue_writes (by decide)
/-- No operation before the region writes `main_arg8`. -/
theorem glue_keep_8 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg8) = V (Proc.devRef .tc main_arg8) :=
  StableHlo.after_of_writes_sub _ V glue_writes (by decide)
/-- No operation before the region writes `main_arg9`. -/
theorem glue_keep_9 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg9) = V (Proc.devRef .tc main_arg9) :=
  StableHlo.after_of_writes_sub _ V glue_writes (by decide)
/-- No operation before the region writes `main_arg10`. -/
theorem glue_keep_10 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg10) = V (Proc.devRef .tc main_arg10) :=
  StableHlo.after_of_writes_sub _ V glue_writes (by decide)

/-- `main_call16_v0` ends holding `main_arg6`'s contents as one row. -/
theorem glue_b1 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_call16_v0)
      = shapeCast S1x1024 (V (Proc.devRef .tc main_arg6)) shapeCasts_S1024_S1x1024 := by
  rw [glue_split, after_append']
  have h6 : StableHlo.after glueInit V (Proc.devRef .tc main_arg6) = V (Proc.devRef .tc main_arg6) :=
    StableHlo.after_of_writes_sub _ V glueInit_writes (by decide)
  generalize StableHlo.after glueInit V = W at h6
  rw [← h6]
  after_results_simp
  rfl

/-- `main_call16_v1` ends holding `main_arg8`'s contents as one row. -/
theorem glue_bg :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_call16_v1)
      = shapeCast S1x1024 (V (Proc.devRef .tc main_arg8)) shapeCasts_S1024_S1x1024 := by
  rw [glue_split, after_append']
  have h8 : StableHlo.after glueInit V (Proc.devRef .tc main_arg8) = V (Proc.devRef .tc main_arg8) :=
    StableHlo.after_of_writes_sub _ V glueInit_writes (by decide)
  generalize StableHlo.after glueInit V = W at h8
  rw [← h8]
  after_results_simp
  rfl

end Cert.Kernel.Hand

end
-- ==== Proof.FrameB.lean ====
/-
  The frame: the eleven argument arrays end as they began.

  Three of them (the two first-layer weight matrices and the second layer's) are arrays of the region's input
  windows, which the region only reads; the other eight bypass the region and are written by none of the host
  lines, before or after.
-/
import proofs.«103122_j77446850281992_2_alg».proof.Proof.BodyB
import proofs.«103122_j77446850281992_2_alg».proof.Proof.GlueKeepB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region write their own results only: an argument is entered as launched. -/
theorem entry_arg0 (c : Dev nD) : entryAt m c main_arg0 = m ((c : Thread nD τ).loc main_arg0) := glue_keep_0 (fun b => m (c, b))
theorem entry_arg1 (c : Dev nD) : entryAt m c main_arg1 = m ((c : Thread nD τ).loc main_arg1) := glue_keep_1 (fun b => m (c, b))
theorem entry_arg2 (c : Dev nD) : entryAt m c main_arg2 = m ((c : Thread nD τ).loc main_arg2) := glue_keep_2 (fun b => m (c, b))
theorem entry_arg3 (c : Dev nD) : entryAt m c main_arg3 = m ((c : Thread nD τ).loc main_arg3) := glue_keep_3 (fun b => m (c, b))
theorem entry_arg4 (c : Dev nD) : entryAt m c main_arg4 = m ((c : Thread nD τ).loc main_arg4) := glue_keep_4 (fun b => m (c, b))
theorem entry_arg5 (c : Dev nD) : entryAt m c main_arg5 = m ((c : Thread nD τ).loc main_arg5) := glue_keep_5 (fun b => m (c, b))
theorem entry_arg6 (c : Dev nD) : entryAt m c main_arg6 = m ((c : Thread nD τ).loc main_arg6) := glue_keep_6 (fun b => m (c, b))
theorem entry_arg7 (c : Dev nD) : entryAt m c main_arg7 = m ((c : Thread nD τ).loc main_arg7) := glue_keep_7 (fun b => m (c, b))
theorem entry_arg8 (c : Dev nD) : entryAt m c main_arg8 = m ((c : Thread nD τ).loc main_arg8) := glue_keep_8 (fun b => m (c, b))
theorem entry_arg9 (c : Dev nD) : entryAt m c main_arg9 = m ((c : Thread nD τ).loc main_arg9) := glue_keep_9 (fun b => m (c, b))
theorem entry_arg10 (c : Dev nD) : entryAt m c main_arg10 = m ((c : Thread nD τ).loc main_arg10) := glue_keep_10 (fun b => m (c, b))

/-- Neither do the eight lines after it, and an argument that is no array of the region is untouched by the region. -/
theorem tail_arg0 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg0)
      = m ((c : Thread nD τ).loc main_arg0) := by
  rw [StableHlo.after_of_forall_not_mem _ _ (fun op hop => ?_)]
  · exact (Pipeline.withArrays_of_ne spec0 c _ _ main_arg0 (by decide)).trans (entry_arg0 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg1 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg1)
      = m ((c : Thread nD τ).loc main_arg1) := by
  rw [StableHlo.after_of_forall_not_mem _ _ (fun op hop => ?_)]
  · exact (Pipeline.withArrays_of_ne spec0 c _ _ main_arg1 (by decide)).trans (entry_arg1 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg2 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg2)
      = m ((c : Thread nD τ).loc main_arg2) := by
  rw [StableHlo.after_of_forall_not_mem _ _ (fun op hop => ?_)]
  · exact (Pipeline.withArrays_of_ne spec0 c _ _ main_arg2 (by decide)).trans (entry_arg2 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg3 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg3)
      = m ((c : Thread nD τ).loc main_arg3) := by
  rw [StableHlo.after_of_forall_not_mem _ _ (fun op hop => ?_)]
  · exact (Pipeline.withArrays_of_ne spec0 c _ _ main_arg3 (by decide)).trans (entry_arg3 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg4 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg4)
      = m ((c : Thread nD τ).loc main_arg4) := by
  rw [StableHlo.after_of_forall_not_mem _ _ (fun op hop => ?_)]
  · exact (Pipeline.withArrays_of_ne spec0 c _ _ main_arg4 (by decide)).trans (entry_arg4 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg6 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg6)
      = m ((c : Thread nD τ).loc main_arg6) := by
  rw [StableHlo.after_of_forall_not_mem _ _ (fun op hop => ?_)]
  · exact (Pipeline.withArrays_of_ne spec0 c _ _ main_arg6 (by decide)).trans (entry_arg6 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg8 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg8)
      = m ((c : Thread nD τ).loc main_arg8) := by
  rw [StableHlo.after_of_forall_not_mem _ _ (fun op hop => ?_)]
  · exact (Pipeline.withArrays_of_ne spec0 c _ _ main_arg8 (by decide)).trans (entry_arg8 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg10 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg10)
      = m ((c : Thread nD τ).loc main_arg10) := by
  rw [StableHlo.after_of_forall_not_mem _ _ (fun op hop => ?_)]
  · exact (Pipeline.withArrays_of_ne spec0 c _ _ main_arg10 (by decide)).trans (entry_arg10 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 rfl (by decide))).trans (tail_arg0 m c _),
    ((h c).2 main_arg1 (Pipeline.mem_restRefs_of main_arg1 rfl (by decide))).trans (tail_arg1 m c _),
    ((h c).2 main_arg2 (Pipeline.mem_restRefs_of main_arg2 rfl (by decide))).trans (tail_arg2 m c _),
    ((h c).2 main_arg3 (Pipeline.mem_restRefs_of main_arg3 rfl (by decide))).trans (tail_arg3 m c _),
    ((h c).2 main_arg4 (Pipeline.mem_restRefs_of main_arg4 rfl (by decide))).trans (tail_arg4 m c _),
    ((h c).1 1).trans (((dats m 0 c).arrAt_in 1 rfl _).trans ((A_eq m c 1).trans (entry_arg5 m c))),
    ((h c).2 main_arg6 (Pipeline.mem_restRefs_of main_arg6 rfl (by decide))).trans (tail_arg6 m c _),
    ((h c).1 2).trans (((dats m 0 c).arrAt_in 2 rfl _).trans ((A_eq m c 2).trans (entry_arg7 m c))),
    ((h c).2 main_arg8 (Pipeline.mem_restRefs_of main_arg8 rfl (by decide))).trans (tail_arg8 m c _),
    ((h c).1 3).trans (((dats m 0 c).arrAt_in 3 rfl _).trans ((A_eq m c 3).trans (entry_arg9 m c))),
    ((h c).2 main_arg10 (Pipeline.mem_restRefs_of main_arg10 rfl (by decide))).trans (tail_arg10 m c _)⟩)
    (run_main m ρ)

end Cert.Kernel.Hand

end
-- ==== Proof.RegionI.lean ====
/-
  The gated two-layer network's region, seen from @main.

  @main is: the host lines that build the network's input P = pred_input (f32[256, 35840]) and reshape the
  two hidden biases to rows; ONE region on the grid (c, k) ∈ 2 × 28 — c the half of the 1024 hidden units the
  point works on, k the step of the reduction over P's 35840 columns, 1280 at a time —; and eight host lines
  that add the two halves' partial outputs and the output bias.  This module fixes what the region is entered
  with (the fold of the earlier lines over the launch memory, never opened here), states @main in the shape the
  frame run takes (the lines before, the region, the lines after), and names what the body is run on at a
  grid point: each window's block of its array, the staging memrefs, the two accumulators the kernel keeps
  between points, and the two conditions of the body — "k = 0", under which the accumulators are zeroed, and
  "k = 27", under which the gated hidden layer is formed, multiplied into the output block and stored.
-/
import proofs.«103122_j77446850281992_2_alg».proof.Proof.Gen.KernelIdeal.Launch
import proofs.«103122_j77446850281992_2_alg».proof.Proof.Gen.KernelIdeal.Skeleton
import proofs.«103122_j77446850281992_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch (a module-local function's lines are a stretch of their own). -/
abbrev glue : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

/-- What core `c`'s buffers hold when the region is entered: the earlier lines folded over the launch memory. -/
abbrev entry (c : Dev nD) : Valuation τ sig (Elt F) := StableHlo.after (List.flatten (glue (F := F))) (fun b => m (c, b))
/-- The same, read at a TensorCore reference. -/
abbrev entryAt (c : Dev nD) (b : Ref sig .tc) : Buf (Elt F) ((c : Thread nD τ).loc b) := entry m c (Proc.devRef .tc b)

/-- The earlier lines touch TensorCore references only. -/
theorem glue_sub : (glue (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub⟩

/-- No host line allocates. -/
theorem glue_fresh : (glue (F := F)).Forall fun ops => ops.Forall fun op => op.fresh = ∅ := by
  simp only [List.Forall]; repeat' constructor

theorem tail_fresh0 : (hostOps1 : List (HloOp τ sig (Elt F))).Forall fun op => op.fresh = ∅ := by
  simp only [List.Forall]; repeat' constructor

/-- @main is the earlier lines, the region, the eight later lines: it reduces to the region continued by the later lines. -/
theorem hmain (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main (glue (F := F)) [hostOps1] glue_sub glue_fresh main_chain

/-- The later lines touch only the region's arrays and buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop

/-- None of them writes an array of the region: each writes its own result, which is none of the seven. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl
  all_goals intro w; fin_cases w <;> (intro hmem; exact absurd (Finset.mem_singleton.mp hmem) (StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's current staging buffer holds its block at every point, whether the point fetches it or
    the index has not moved since the last fetch (the three small operands are fetched only at k = 0). -/
theorem held0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions -/

/-- "k = 0": the accumulators are zeroed first. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 28 = 0 :=
  (by decide +kernel : ∀ t : Fin grid0.N, atFirst (grid0.coords t) ↔ t.val % 28 = 0)

/-- "k = 27": the output block is formed and stored. -/
abbrev atLast (i : grid0.Coords) : Prop := k0_cond2 i = 1#1
theorem atLast_iff : ∀ t : Fin cfg0.N, atLast (grid0.coords t) ↔ t.val % 28 = 27 :=
  (by decide +kernel : ∀ t : Fin grid0.N, atLast (grid0.coords t) ↔ t.val % 28 = 27)

/-! ## Where the output window is idle -/

/-- Away from k = 27 nothing is stored into the output block's buffer, and the block is not written back. -/
theorem out_idle : ∀ t : Fin cfg0.N, ¬atLast (grid0.coords t) → cfg0.idle 6 (grid0.coords t) = true := by decide +kernel
theorem out_unflushed : ∀ t : Fin cfg0.N, ¬atLast (grid0.coords t) → (cfg0.win 6).flush t = false := by decide +kernel
theorem out_live : ∀ t : Fin cfg0.N, atLast (grid0.coords t) → cfg0.idle 6 (grid0.coords t) = false := by decide +kernel

/-! ## The memrefs the body is run on -/

abbrev stg0 (t : Fin cfg0.N) : Memref sig .tc .vmem S256x1280 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1280x512 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1280x512 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S512x128 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x512 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S1x512 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S1x256x128 .f32 := win0_6.stage (cfg0.slots t 6)
abbrev hstg6 (t : Fin cfg0.N) : (stg6 t).IsWhole := hstage0_6 ((cfg0.slots t 6).cast nbuf0_6)

/-- The two accumulators: scoped buffers of the kernel's own, kept from point to point. -/
abbrev accM : Memref sig .tc .vmem S256x512 .f32 := Memref.whole cc0_scratch0
abbrev gateM : Memref sig .tc .vmem S256x512 .f32 := Memref.whole cc0_scratch1
abbrev accV : View sig .tc .vmem S256x512 .f32 := (accM).view
abbrev gateV : View sig .tc .vmem S256x512 .f32 := (gateM).view
/-- One staging buffer of the output window, through which its contents are stated. -/
abbrev outV : View sig .tc .vmem S1x256x128 .f32 := (Memref.whole cc0_stg6_0 : Memref sig .tc .vmem S1x256x128 .f32).view

/-- What the launch hands the body besides the windows: the two accumulators at some contents, and the generator register. -/
theorem rest_eq (c : Dev nD) :
    (Pipeline.ΦA spec0 c : sProp 𝕄)
      = iprop(iprop((∃ d, owns (c : Thread nD τ) accM fullShare d) ∗ (∃ d, owns (c : Thread nD τ) gateM fullShare d)) ∗ (∃ r, prngReg c r)) := by
  unfold Pipeline.ΦA; rw [scopedRest0_eq]; simp only [accM, gateM, owns_whole]; try rfl

end Cert.KernelIdeal.Hand

end
-- ==== Proof.RunFirstI.lean ====
/-
  The kernel's body run at a grid point where the reduction starts (k = 0).
-/
import proofs.«103122_j77446850281992_2_alg».proof.Proof.RegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with k = 0 (and k ≠ 27): both accumulators are stored zero and then, read back, stored again with the step's product added — two pieces each, found by running the body; every window's buffer is handed back as it was. -/
noncomputable def runFirst (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : atFirst i) (hL : ¬atLast i)
    (x0 : Vec F S256x1280 .f32) (x1 : Vec F S1280x512 .f32) (x2 : Vec F S1280x512 .f32) :
    Σ' (LA : List (View.Piece (Elt F) S256x512 .f32)), { LG : List (View.Piece (Elt F) S256x512 .f32) //
      ∀ (x3 : Vec F S512x128 .f32) (x4 : Vec F S1x512 .f32) (x5 : Vec F S1x512 .f32) (x6 : Vec F S1x256x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, fun x3 x4 x5 x6 E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.KernelIdeal.Hand

end
-- ==== Proof.RunMidI.lean ====
/-
  The kernel's body run at a grid point inside the reduction (0 < k < 27).
-/
import proofs.«103122_j77446850281992_2_alg».proof.Proof.RegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with 0 < k < 27: each accumulator, at what the point before left, is stored with the step's product added — one piece each. -/
noncomputable def runMid (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : ¬atFirst i) (hL : ¬atLast i)
    (x0 : Vec F S256x1280 .f32) (x1 : Vec F S1280x512 .f32) (x2 : Vec F S1280x512 .f32) (x7 : Vec F S256x512 .f32) (x8 : Vec F S256x512 .f32) :
    Σ' (LA : List (View.Piece (Elt F) S256x512 .f32)), { LG : List (View.Piece (Elt F) S256x512 .f32) //
      ∀ (x3 : Vec F S512x128 .f32) (x4 : Vec F S1x512 .f32) (x5 : Vec F S1x512 .f32) (x6 : Vec F S1x256x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, fun x3 x4 x5 x6 E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; iexact H7
    iexists _; iexact H8

end Cert.KernelIdeal.Hand

end
-- ==== Proof.RunLastI.lean ====
/-
  The kernel's body run at a grid point where the reduction ends (k = 27).
-/
import proofs.«103122_j77446850281992_2_alg».proof.Proof.RegionI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with k = 27: the accumulators take the last step's product, and the output block's buffer is stored with the gated hidden layer multiplied by the second layer's block — one piece for each of the three. -/
noncomputable def runLast (c : Dev nD) (i : grid0.Coords) (a2 : Memref sig .tc .vmem S256x1280 .f32) (h2 : a2.IsWhole) (a3 : Memref sig .tc .vmem S1280x512 .f32) (h3 : a3.IsWhole) (a4 : Memref sig .tc .vmem S1280x512 .f32) (h4 : a4.IsWhole) (a5 : Memref sig .tc .vmem S512x128 .f32) (h5 : a5.IsWhole) (a6 : Memref sig .tc .vmem S1x512 .f32) (h6 : a6.IsWhole) (a7 : Memref sig .tc .vmem S1x512 .f32) (h7 : a7.IsWhole) (a8 : Memref sig .tc .vmem S1x256x128 .f32) (h8 : a8.IsWhole) (a9 : Memref sig .tc .vmem S256x512 .f32) (h9 : a9.IsWhole) (a10 : Memref sig .tc .vmem S256x512 .f32) (h10 : a10.IsWhole) (hF : ¬atFirst i) (hL : atLast i)
    (x0 : Vec F S256x1280 .f32) (x1 : Vec F S1280x512 .f32) (x2 : Vec F S1280x512 .f32) (x3 : Vec F S512x128 .f32) (x4 : Vec F S1x512 .f32) (x5 : Vec F S1x512 .f32) (x7 : Vec F S256x512 .f32) (x8 : Vec F S256x512 .f32) :
    Σ' (LO : List (View.Piece (Elt F) S1x256x128 .f32)), Σ' (LA : List (View.Piece (Elt F) S256x512 .f32)), { LG : List (View.Piece (Elt F) S256x512 .f32) //
      ∀  (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare x7 ∗ owns (c : Thread nD τ) a10 fullShare x8
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LA) ∗ (∃ f, a10.view.loc (c : Thread nD τ) ↦[a10.view.set]{fullShare} a10.view.writes (Elt F) f LG)) -∗ K ⟨⟩))
          ⊢ wp frame (wpE (defs₀ (F := F)) Variants.none c none) E (cc0__gated_mlp_kernel i a2 h2 a3 h3 a4 h4 a5 h5 a6 h6 a7 h7 a8 h8 a9 h9 a10 h10) K } := by
  refine ⟨?_, ?_, ?_, fun  E K => ?run⟩
  case run =>
    simp only [cc0__gated_mlp_kernel_eq_skeleton]; unfold cc0__gated_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h9.eq_unread hf7; obtain rfl := h10.eq_unread hf8
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; iexact H6
    isplitl [H7]
    · iexists _; iexact H7
    iexists _; iexact H8

end Cert.KernelIdeal.Hand

end
-- ==== Proof.PointsI.lean ====
/-
  The region's frame run, point by point.

  At a grid point t (k = t mod 28 the reduction step, c = t div 28 the hidden half) the body finds the two
  accumulators at what the point before left, and leaves: at k = 0 the step's product added to zero; at
  0 < k < 27 the step's product added to what it found; at k = 27 the same, and in the output block's buffer
  the gated hidden layer multiplied by the second layer's block.  `leftAt` is that recursion; the region's
  invariant carries the two accumulators' contents from point to point; every input window's buffer holds its
  block of the array the region was entered with.  From these the body obligation, the run of @main, and the
  frame: the eleven argument arrays end as they began.
-/
import proofs.«103122_j77446850281992_2_alg».proof.Proof.RunFirstI
import proofs.«103122_j77446850281992_2_alg».proof.Proof.RunMidI
import proofs.«103122_j77446850281992_2_alg».proof.Proof.RunLastI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a grid point -/

abbrev firstAt (c : Dev nD) (t : Fin cfg0.N) (hF : atFirst (grid0.coords t)) (hL : ¬atLast (grid0.coords t))
    (x0 : Vec F S256x1280 .f32) (x1 x2 : Vec F S1280x512 .f32) :=
  runFirst (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2
abbrev midAt (c : Dev nD) (t : Fin cfg0.N) (hF : ¬atFirst (grid0.coords t)) (hL : ¬atLast (grid0.coords t))
    (x0 : Vec F S256x1280 .f32) (x1 x2 : Vec F S1280x512 .f32) (sA sG : Vec F S256x512 .f32) :=
  runMid (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2 sA sG
abbrev lastAt (c : Dev nD) (t : Fin cfg0.N) (hF : ¬atFirst (grid0.coords t)) (hL : atLast (grid0.coords t))
    (x0 : Vec F S256x1280 .f32) (x1 x2 : Vec F S1280x512 .f32) (x3 : Vec F S512x128 .f32) (x4 x5 : Vec F S1x512 .f32) (sA sG : Vec F S256x512 .f32) :=
  runLast (F := F) c (grid0.coords t) (stg0 t) (hstg0 t) (stg1 t) (hstg1 t) (stg2 t) (hstg2 t) (stg3 t) (hstg3 t) (stg4 t) (hstg4 t) (stg5 t) (hstg5 t) (stg6 t) (hstg6 t) accM (Memref.isWhole_whole _) gateM (Memref.isWhole_whole _) hF hL x0 x1 x2 x3 x4 x5 sA sG

/-! ## What each case leaves: its pieces cover the buffer, so they read back as one value -/

theorem firstAcc_cover (c : Dev nD) (t : Fin cfg0.N) (hF : atFirst (grid0.coords t)) (hL : ¬atLast (grid0.coords t)) (x0 : Vec F S256x1280 .f32) (x1 x2 : Vec F S1280x512 .f32) (y : S256x512.Idx) : ∃ pc ∈ (firstAt (F := F) c t hF hL x0 x1 x2).1, y ∈ pc.1.set :=
  View.cover_of_tiledL (firstAt (F := F) c t hF hL x0 x1 x2).1 S256x512.size (by sl_kernel_rfl) y
theorem firstGate_cover (c : Dev nD) (t : Fin cfg0.N) (hF : atFirst (grid0.coords t)) (hL : ¬atLast (grid0.coords t)) (x0 : Vec F S256x1280 .f32) (x1 x2 : Vec F S1280x512 .f32) (y : S256x512.Idx) : ∃ pc ∈ (firstAt (F := F) c t hF hL x0 x1 x2).2.1, y ∈ pc.1.set :=
  View.cover_of_tiledL (firstAt (F := F) c t hF hL x0 x1 x2).2.1 S256x512.size (by sl_kernel_rfl) y
def firstAcc (c : Dev nD) (t : Fin cfg0.N) (hF : atFirst (grid0.coords t)) (hL : ¬atLast (grid0.coords t)) (x0 : Vec F S256x1280 .f32) (x1 x2 : Vec F S1280x512 .f32) : Vec F S256x512 .f32 :=
  accV.read (Elt F) (accV.writes (Elt F) accV.junk (firstAt (F := F) c t hF hL x0 x1 x2).1)
def firstGate (c : Dev nD) (t : Fin cfg0.N) (hF : atFirst (grid0.coords t)) (hL : ¬atLast (grid0.coords t)) (x0 : Vec F S256x1280 .f32) (x1 x2 : Vec F S1280x512 .f32) : Vec F S256x512 .f32 :=
  gateV.read (Elt F) (gateV.writes (Elt F) gateV.junk (firstAt (F := F) c t hF hL x0 x1 x2).2.1)

theorem midAcc_cover (c : Dev nD) (t : Fin cfg0.N) (hF : ¬atFirst (grid0.coords t)) (hL : ¬atLast (grid0.coords t)) (x0 : Vec F S256x1280 .f32) (x1 x2 : Vec F S1280x512 .f32) (sA sG : Vec F S256x512 .f32) (y : S256x512.Idx) : ∃ pc ∈ (midAt (F := F) c t hF hL x0 x1 x2 sA sG).1, y ∈ pc.1.set :=
  View.cover_of_tiledL (midAt (F := F) c t hF hL x0 x1 x2 sA sG).1 S256x512.size (by sl_kernel_rfl) y
theorem midGate_cover (c : Dev nD) (t : Fin cfg0.N) (hF : ¬atFirst (grid0.coords t)) (hL : ¬atLast (grid0.coords t)) (x0 : Vec F S256x1280 .f32) (x1 x2 : Vec F S1280x512 .f32) (sA sG : Vec F S256x512 .f32) (y : S256x512.Idx) : ∃ pc ∈ (midAt (F := F) c t hF hL x0 x1 x2 sA sG).2.1, y ∈ pc.1.set :=
  View.cover_of_tiledL (midAt (F := F) c t hF hL x0 x1 x2 sA sG).2.1 S256x512.size (by sl_kernel_rfl) y
def midAcc (c : Dev nD) (t : Fin cfg0.N) (hF : ¬atFirst (grid0.coords t)) (hL : ¬atLast (grid0.coords t)) (x0 : Vec F S256x1280 .f32) (x1 x2 : Vec F S1280x512 .f32) (sA sG : Vec F S256x512 .f32) : Vec F S256x512 .f32 :=
  accV.read (Elt F) (accV.writes (Elt F) accV.junk (midAt (F := F) c t hF hL x0 x1 x2 sA sG).1)
def midGate (c : Dev nD) (t : Fin cfg0.N) (hF : ¬atFirst (grid0.coords t)) (hL : ¬atLast (grid0.coords t)) (x0 : Vec F S256x1280 .f32) (x1 x2 : Vec F S1280x512 .f32) (sA sG : Vec F S256x512 .f32) : Vec F S256x512 .f32 :=
  gateV.read (Elt F) (gateV.writes (Elt F) gateV.junk (midAt (F := F) c t hF hL x0 x1 x2 sA sG).2.1)

theorem lastOut_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S1x256x128.Idx) : ∃ pc ∈ (lastAt (F := F) c t hF hL x0 x1 x2 x3 x4 x5 sA sG).1, y ∈ pc.1.set :=
  View.cover_of_tiledL (lastAt (F := F) c t hF hL x0 x1 x2 x3 x4 x5 sA sG).1 S1x256x128.size (by sl_kernel_rfl) y
theorem lastAcc_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S256x512.Idx) : ∃ pc ∈ (lastAt (F := F) c t hF hL x0 x1 x2 x3 x4 x5 sA sG).2.1, y ∈ pc.1.set :=
  View.cover_of_tiledL (lastAt (F := F) c t hF hL x0 x1 x2 x3 x4 x5 sA sG).2.1 S256x512.size (by sl_kernel_rfl) y
theorem lastGate_cover (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) (y : S256x512.Idx) : ∃ pc ∈ (lastAt (F := F) c t hF hL x0 x1 x2 x3 x4 x5 sA sG).2.2.1, y ∈ pc.1.set :=
  View.cover_of_tiledL (lastAt (F := F) c t hF hL x0 x1 x2 x3 x4 x5 sA sG).2.2.1 S256x512.size (by sl_kernel_rfl) y
def lastOut (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S1x256x128 .f32 :=
  outV.read (Elt F) (outV.writes (Elt F) outV.junk (lastAt (F := F) c t hF hL x0 x1 x2 x3 x4 x5 sA sG).1)
def lastAcc (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S256x512 .f32 :=
  accV.read (Elt F) (accV.writes (Elt F) accV.junk (lastAt (F := F) c t hF hL x0 x1 x2 x3 x4 x5 sA sG).2.1)
def lastGate (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : Vec F S256x512 .f32 :=
  gateV.read (Elt F) (gateV.writes (Elt F) gateV.junk (lastAt (F := F) c t hF hL x0 x1 x2 x3 x4 x5 sA sG).2.2.1)

/-- Away from k = 27 nothing is stored into the output block's buffer and nothing consults what it holds. -/
def unstored : Vec F S1x256x128 .f32 := outV.read (Elt F) outV.junk

theorem notLast_of_first (t : Fin cfg0.N) (h0 : t.val % 28 = 0) : ¬atLast (grid0.coords t) :=
  fun h => by have := (atLast_iff t).mp h; omega

/-! ## The recursion over the grid's points -/

/-- What the output block's buffer and the two accumulators hold after the body at position `n`. -/
def leftAt (c : Dev nD) : (n : ℕ) → n < cfg0.N → Vec F S1x256x128 .f32 × Vec F S256x512 .f32 × Vec F S256x512 .f32
  | 0, hn =>
    let t : Fin cfg0.N := ⟨0, hn⟩
    (unstored, firstAcc c t ((atFirst_iff t).mpr (Nat.zero_mod _)) (notLast_of_first t (Nat.zero_mod _)) (blockAt m c 0 t) (blockAt m c 1 t) (blockAt m c 2 t),
      firstGate c t ((atFirst_iff t).mpr (Nat.zero_mod _)) (notLast_of_first t (Nat.zero_mod _)) (blockAt m c 0 t) (blockAt m c 1 t) (blockAt m c 2 t))
  | n + 1, hn =>
    let t : Fin cfg0.N := ⟨n + 1, hn⟩
    if h0 : (n + 1) % 28 = 0 then
      (unstored, firstAcc c t ((atFirst_iff t).mpr h0) (notLast_of_first t h0) (blockAt m c 0 t) (blockAt m c 1 t) (blockAt m c 2 t),
        firstGate c t ((atFirst_iff t).mpr h0) (notLast_of_first t h0) (blockAt m c 0 t) (blockAt m c 1 t) (blockAt m c 2 t))
    else
      if h1 : (n + 1) % 28 = 27 then
        (lastOut c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2,
          lastAcc c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2,
          lastGate c t (fun h => h0 ((atFirst_iff t).mp h)) ((atLast_iff t).mpr h1) (blockAt m c 0 t) (blockAt m c 1 t) (blockAt m c 2 t) (blockAt m c 3 t) (blockAt m c 4 t) (blockAt m c 5 t) (leftAt c n (Nat.lt_of_succ_lt hn)).2.1 (leftAt c n (Nat.lt_of_succ_lt hn)).2.2)
      else
        (unstored, midAcc c t (fun h => h0 ((atFirst_iff t).mp h)) (fun h => h1 ((atLast_iff t).mp h)) (blockAt m c 0 t) (blockAt m c 1 t) (blockAt m c 2 t) (leftAt c n (Nat.lt_of_succ_lt hn)).2.1 (leftAt c n (Nat.lt_of_succ_lt hn)).2.2,
          midGate c t (fun h => h0 ((atFirst_iff t).mp h)) (fun h => h1 ((atLast_iff t).mp h)) (blockAt m c 0 t) (blockAt m c 1 t) (blockAt m c 2 t) (leftAt c n (Nat.lt_of_succ_lt hn)).2.1 (leftAt c n (Nat.lt_of_succ_lt hn)).2.2)

/-- The point before `t`. -/
abbrev prevLt (t : Fin cfg0.N) : t.val - 1 < cfg0.N := Nat.lt_of_le_of_lt (Nat.sub_le _ _) t.isLt

theorem leftAt_first (c : Dev nD) (t : Fin cfg0.N) (h0 : t.val % 28 = 0) :
    leftAt m c t.val t.isLt = (unstored, firstAcc c t ((atFirst_iff t).mpr h0) (notLast_of_first t h0) (blockAt m c 0 t) (blockAt m c 1 t) (blockAt m c 2 t),
      firstGate c t ((atFirst_iff t).mpr h0) (notLast_of_first t h0) (blockAt m c 0 t) (blockAt m c 1 t) (blockAt m c 2 t)) := by
  obtain ⟨n, hn⟩ := t
  cases n with
  | zero => exact rfl
  | succ n => exact (dif_pos h0).trans rfl

theorem leftAt_mid (c : Dev nD) (t : Fin cfg0.N) (h0 : ¬t.val % 28 = 0) (h1 : ¬t.val % 28 = 27) :
    leftAt m c t.val t.isLt = (unstored, midAcc c t (fun h => h0 ((atFirst_iff t).mp h)) (fun h => h1 ((atLast_iff t).mp h)) (blockAt m c 0 t) (blockAt m c 1 t) (blockAt m c 2 t) (leftAt m c (t.val - 1) (prevLt t)).2.1 (leftAt m c (t.val - 1) (prevLt t)).2.2,
      midGate c t (fun h => h0 ((atFirst_iff t).mp h)) (fun h => h1 ((atLast_iff t).mp h)) (blockAt m c 0 t) (blockAt m c 1 t) (blockAt m c 2 t) (leftAt m c (t.val - 1) (prevLt t)).2.1 (leftAt m c (t.val - 1) (prevLt t)).2.2) := by
  obtain ⟨n, hn⟩ := t
  cases n with
  | zero => exact absurd (Nat.zero_mod _) h0
  | succ n => exact (dif_neg h0).trans ((dif_neg h1).trans rfl)

theorem leftAt_last (c : Dev nD) (t : Fin cfg0.N) (h0 : ¬t.val % 28 = 0) (h1 : t.val % 28 = 27) :
    leftAt m c t.val t.isLt = (lastOut c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2,
      lastAcc c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2,
      lastGate c t (fun h => h0 ((atFirst_iff t).mp h)) ((atLast_iff t).mpr h1) (blockAt m c 0 t) (blockAt m c 1 t) (blockAt m c 2 t) (blockAt m c 3 t) (blockAt m c 4 t) (blockAt m c 5 t) (leftAt m c (t.val - 1) (prevLt t)).2.1 (leftAt m c (t.val - 1) (prevLt t)).2.2) := by
  obtain ⟨n, hn⟩ := t
  cases n with
  | zero => exact absurd (Nat.zero_mod _) h0
  | succ n => exact (dif_neg h0).trans ((dif_pos h1).trans rfl)

/-! ## The region's invariant -/

/-- Before position `n`: at the region's entry the accumulators hold anything; afterwards what the point before left. -/
def carried (c : Dev nD) : (n : ℕ) → n ≤ cfg0.N → sProp 𝕄
  | 0, _ => Pipeline.ΦA spec0 c
  | n + 1, hn => iprop(iprop(owns (c : Thread nD τ) accM fullShare ((leftAt m c n hn).2.1) ∗ owns (c : Thread nD τ) gateM fullShare ((leftAt m c n hn).2.2)) ∗ (∃ r, prngReg c r))

theorem carried_zero (c : Dev nD) (n : ℕ) (h : n ≤ cfg0.N) (hz : n = 0) : carried m c n h = Pipeline.ΦA spec0 c := by
  subst hz; rfl
theorem carried_succ (c : Dev nD) (n : ℕ) (hn : n < cfg0.N) :
    carried m c (n + 1) hn = iprop(iprop(owns (c : Thread nD τ) accM fullShare ((leftAt m c n hn).2.1) ∗ owns (c : Thread nD τ) gateM fullShare ((leftAt m c n hn).2.2)) ∗ (∃ r, prngReg c r)) := rfl
theorem carried_pos (c : Dev nD) (n : ℕ) (h : n ≤ cfg0.N) (hz : n ≠ 0) :
    carried m c n h = iprop(iprop(owns (c : Thread nD τ) accM fullShare ((leftAt m c (n - 1) (by omega)).2.1) ∗ owns (c : Thread nD τ) gateM fullShare ((leftAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => (leftAt m c t.val t.isLt).1
  Φ t := carried m c t.val (Nat.le_of_lt_succ t.isLt)
  q _ := fullShare
  owed _ := 0

theorem A_eq (c : Dev nD) (w : Fin cfg0.W) : (dats m 0 c).A w = entryAt m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = (leftAt m c t.val t.isLt).1 := by dsimp only [dats]

theorem before0 (c : Dev nD) (t : Fin cfg0.N) (d) : (dats m 0 c).before 0 t d = blockAt m c 0 t :=
  held0_of m (dats m 0 c) (A_eq m c 0) (after0 m c) t d
theorem before1 (c : Dev nD) (t : Fin cfg0.N) (d) : (dats m 0 c).before 1 t d = blockAt m c 1 t :=
  held1_of m (dats m 0 c) (A_eq m c 1) (after1 m c) t d
theorem before2 (c : Dev nD) (t : Fin cfg0.N) (d) : (dats m 0 c).before 2 t d = blockAt m c 2 t :=
  held2_of m (dats m 0 c) (A_eq m c 2) (after2 m c) t d
theorem before3 (c : Dev nD) (t : Fin cfg0.N) (d) : (dats m 0 c).before 3 t d = blockAt m c 3 t :=
  held3_of m (dats m 0 c) (A_eq m c 3) (after3 m c) t d
theorem before4 (c : Dev nD) (t : Fin cfg0.N) (d) : (dats m 0 c).before 4 t d = blockAt m c 4 t :=
  held4_of m (dats m 0 c) (A_eq m c 4) (after4 m c) t d
theorem before5 (c : Dev nD) (t : Fin cfg0.N) (d) : (dats m 0 c).before 5 t d = blockAt m c 5 t :=
  held5_of m (dats m 0 c) (A_eq m c 5) (after5 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

end Cert.KernelIdeal.Hand

end
-- ==== Proof.BodyI.lean ====
/-
  The body obligation at every grid point, and the run of @main around the region.

  At a point the body is handed the invariant (the two accumulators at what the point before left — at
  anything at the very first point), each input window's buffer at its block, and the output block's buffer;
  it hands back the invariant at this point's contents.  Which of the three runs applies is decided by
  k = t mod 28.  The launch then gives the run of @main: every array of the region at what the proof data
  computes, every other buffer as the eight later lines leave it.
-/
import proofs.«103122_j77446850281992_2_alg».proof.Proof.PointsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = carried m c (t.val + 1) t.isLt from rfl, carried_succ]
  have hN : t.val < 56 := lt_of_lt_of_eq t.isLt (show cfg0.N = 56 from N_0)
  by_cases h0 : t.val % 28 = 0
  ·
    have h1 : ¬t.val % 28 = 27 := by omega
    rw [show (dats m 0 c).leavesExact 0 t = owns (c : Thread nD τ) (stg0 t) fullShare ((dats m 0 c).after 0 t) from by
      unfold Dat.leavesExact; rw [live0 t], after0]
    rw [show (dats m 0 c).leavesExact 1 t = owns (c : Thread nD τ) (stg1 t) fullShare ((dats m 0 c).after 1 t) from by
      unfold Dat.leavesExact; rw [live1 t], after1]
    rw [show (dats m 0 c).leavesExact 2 t = owns (c : Thread nD τ) (stg2 t) fullShare ((dats m 0 c).after 2 t) from by
      unfold Dat.leavesExact; rw [live2 t], after2]
    rw [show (dats m 0 c).leavesExact 3 t = owns (c : Thread nD τ) (stg3 t) fullShare ((dats m 0 c).after 3 t) from by
      unfold Dat.leavesExact; rw [live3 t], after3]
    rw [show (dats m 0 c).leavesExact 4 t = owns (c : Thread nD τ) (stg4 t) fullShare ((dats m 0 c).after 4 t) from by
      unfold Dat.leavesExact; rw [live4 t], after4]
    rw [show (dats m 0 c).leavesExact 5 t = owns (c : Thread nD τ) (stg5 t) fullShare ((dats m 0 c).after 5 t) from by
      unfold Dat.leavesExact; rw [live5 t], after5]
    rw [Dat.leavesExact_idle (dats m 0 c) 6 t (out_idle t (notLast_of_first t h0)) (out_unflushed t (notLast_of_first t h0))]
    rw [leftAt_first m c t h0]
    unfold firstAcc firstGate; (try dsimp only)
    by_cases hz : t.val = 0
    · rw [carried_castSucc m c t, carried_zero m c _ _ hz, rest_eq]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t ((atFirst_iff t).mpr h0) (notLast_of_first t h0) (blockAt m c 0 t) (blockAt m c 1 t) (blockAt m c 2 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HG]; · iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (firstAcc_cover c t _ _ _ _ _)
          · unfold owns; iexists _; isplitr
            swap; · iexact HG
            ipureintro; exact View.read_writes_of_cover _ _ _ _ _ (firstGate_cover c t _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt c t ((atFirst_iff t).mpr h0) (notLast_of_first t h0) (blockAt m c 0 t) (blockAt m c 1 t) (blockAt m c 2 t)).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexists _; iexact HA
      isplitl [HG]; · iexists _; iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (firstAcc_cover c t _ _ _ _ _)
          · unfold owns; iexists _; isplitr
            swap; · iexact HG
            ipureintro; exact View.read_writes_of_cover _ _ _ _ _ (firstGate_cover c t _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 28 = 27
    ·
      rw [show (dats m 0 c).leavesExact 0 t = owns (c : Thread nD τ) (stg0 t) fullShare ((dats m 0 c).after 0 t) from by
        unfold Dat.leavesExact; rw [live0 t], after0]
      rw [show (dats m 0 c).leavesExact 1 t = owns (c : Thread nD τ) (stg1 t) fullShare ((dats m 0 c).after 1 t) from by
        unfold Dat.leavesExact; rw [live1 t], after1]
      rw [show (dats m 0 c).leavesExact 2 t = owns (c : Thread nD τ) (stg2 t) fullShare ((dats m 0 c).after 2 t) from by
        unfold Dat.leavesExact; rw [live2 t], after2]
      rw [show (dats m 0 c).leavesExact 3 t = owns (c : Thread nD τ) (stg3 t) fullShare ((dats m 0 c).after 3 t) from by
        unfold Dat.leavesExact; rw [live3 t], after3]
      rw [show (dats m 0 c).leavesExact 4 t = owns (c : Thread nD τ) (stg4 t) fullShare ((dats m 0 c).after 4 t) from by
        unfold Dat.leavesExact; rw [live4 t], after4]
      rw [show (dats m 0 c).leavesExact 5 t = owns (c : Thread nD τ) (stg5 t) fullShare ((dats m 0 c).after 5 t) from by
        unfold Dat.leavesExact; rw [live5 t], after5]
      rw [show (dats m 0 c).leavesExact 6 t = owns (c : Thread nD τ) (stg6 t) fullShare ((dats m 0 c).after 6 t) from by
        unfold Dat.leavesExact; rw [out_live t ((atLast_iff t).mpr h1)], after6]
      rw [leftAt_last m c t h0 h1]
      unfold lastOut lastAcc lastGate; (try dsimp only)
      rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt c t (fun h => h0 ((atFirst_iff t).mp h)) ((atLast_iff t).mpr h1) (blockAt m c 0 t) (blockAt m c 1 t) (blockAt m c 2 t) (blockAt m c 3 t) (blockAt m c 4 t) (blockAt m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HG]; · iexact HG
      iintro ⟨H0, H1, H2, H3, H4, H5, ⟨%e6, H6⟩, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (lastAcc_cover c t _ _ _ _ _ _ _ _ _ _)
          · unfold owns; iexists _; isplitr
            swap; · iexact HG
            ipureintro; exact View.read_writes_of_cover _ _ _ _ _ (lastGate_cover c t _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (lastOut_cover c t _ _ _ _ _ _ _ _ _ _)
    ·
      rw [show (dats m 0 c).leavesExact 0 t = owns (c : Thread nD τ) (stg0 t) fullShare ((dats m 0 c).after 0 t) from by
        unfold Dat.leavesExact; rw [live0 t], after0]
      rw [show (dats m 0 c).leavesExact 1 t = owns (c : Thread nD τ) (stg1 t) fullShare ((dats m 0 c).after 1 t) from by
        unfold Dat.leavesExact; rw [live1 t], after1]
      rw [show (dats m 0 c).leavesExact 2 t = owns (c : Thread nD τ) (stg2 t) fullShare ((dats m 0 c).after 2 t) from by
        unfold Dat.leavesExact; rw [live2 t], after2]
      rw [show (dats m 0 c).leavesExact 3 t = owns (c : Thread nD τ) (stg3 t) fullShare ((dats m 0 c).after 3 t) from by
        unfold Dat.leavesExact; rw [live3 t], after3]
      rw [show (dats m 0 c).leavesExact 4 t = owns (c : Thread nD τ) (stg4 t) fullShare ((dats m 0 c).after 4 t) from by
        unfold Dat.leavesExact; rw [live4 t], after4]
      rw [show (dats m 0 c).leavesExact 5 t = owns (c : Thread nD τ) (stg5 t) fullShare ((dats m 0 c).after 5 t) from by
        unfold Dat.leavesExact; rw [live5 t], after5]
      rw [Dat.leavesExact_idle (dats m 0 c) 6 t (out_idle t (fun h => h1 ((atLast_iff t).mp h))) (out_unflushed t (fun h => h1 ((atLast_iff t).mp h)))]
      rw [leftAt_mid m c t h0 h1]
      unfold midAcc midGate; (try dsimp only)
      rw [carried_castSucc m c t, carried_pos m c _ _ hz]
      iintro ⟨⟨⟨HA, HG⟩, Hg⟩, Ho, ⟨%d0, H0⟩, ⟨%d1, H1⟩, ⟨%d2, H2⟩, ⟨%d3, H3⟩, ⟨%d4, H4⟩, ⟨%d5, H5⟩, ⟨%d6, H6⟩⟩
      iapply ((midAt c t (fun h => h0 ((atFirst_iff t).mp h)) (fun h => h1 ((atLast_iff t).mp h)) (blockAt m c 0 t) (blockAt m c 1 t) (blockAt m c 2 t) _ _).2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HG]; · iexact HG
      iintro ⟨H0, H1, H2, H3, H4, H5, H6, ⟨%eA, HA⟩, ⟨%eG, HG⟩⟩
      isplitl [HA HG Hg]
      · isplitl [HA HG]
        · isplitl [HA]
          · unfold owns; iexists _; isplitr
            swap; · iexact HA
            ipureintro; exact View.read_writes_of_cover _ _ _ _ _ (midAcc_cover c t _ _ _ _ _ _ _)
          · unfold owns; iexists _; isplitr
            swap; · iexact HG
            ipureintro; exact View.read_writes_of_cover _ _ _ _ _ (midGate_cover c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the accumulators' contents are forgotten. -/
theorem hout (c : Dev nD) : (dats m 0 c).Φ (Fin.last cfg0.N) ⊢ Pipeline.ΦA spec0 c := by
  have hne : (Fin.last cfg0.N).val ≠ 0 := by rw [Fin.val_last]; have : cfg0.N = 56 := N_0; omega
  rw [show (dats m 0 c).Φ (Fin.last cfg0.N) = carried m c (Fin.last cfg0.N).val (Nat.le_of_lt_succ (Fin.last cfg0.N).isLt) from rfl, carried_pos m c _ _ hne, rest_eq]
  iintro ⟨⟨HA, HG⟩, Hg⟩
  isplitl [HA HG]
  · isplitl [HA]
    · iexists _; iexact HA
    · iexists _; iexact HG
  iexact Hg

/-! ## The run -/

set_option backward.isDefEq.respectTransparency.types false in
/-- Every weakly fair execution of @main terminates; at the end every array of the region holds what the proof data
    computes and every other buffer what the eight later lines leave. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := tail_sub) (hfresh := tail_fresh) (hkeep := tail_keeps)
    (hmain := hmain m Variants.none) (hA := A_eq m) (hin := hin m) (hout := hout m)

end Cert.KernelIdeal.Hand

end
-- ==== Proof.GlueKeepI.lean ====
import proofs.«103122_j77446850281992_2_alg».proof.Proof.Gen.KernelIdeal.Launch

/-! The host operations before the region (the thirty-two stretches `hostOps0`, `hostOps0_1`, …, `hostOps0_31`, run in order)
    write only buffers of their own: every argument array keeps its contents, and the last stretch's two operations
    leave in `main_call16_v0` and `main_call16_v1` the row reshapes `[1024] → [1, 1024]` of the arguments
    `main_arg6` and `main_arg8`. Stated for every valuation and every float instance. -/

noncomputable section

namespace Cert.KernelIdeal.Hand

open Idealize.ShloMosaic Idealize.ShloMosaic.TcCoe Cert.KernelIdeal.Gen

variable {F : FTy → Type} [FloatOps F]

/-- Every reference an operation before the region writes, in the operations' order. -/
abbrev glueWrites : List (Ref sig .tc) :=
  [
    main_v0, main_cst, main_v1, main_cst_0, main_v2, main_v3, main_v4, main_v5,
    main_c, main_v6, main_v7, main_cst_1, main_v8, main_v9, main_call0_v0, main_call0_v1,
    main_v10, main_c_2, main_v11, main_v12, main_call1_v0, main_call1_v1, main_v13, main_c_3,
    main_v14, main_c_4, main_v15, main_v16, main_call2_v0, main_call2_v1, main_v17, main_c_5,
    main_v18, main_v19, main_call3_v0, main_call3_v1_0, main_v20, main_call4_c, main_call4_v0, main_call4_v1,
    main_call4_c_0, main_call4_v2, main_call4_v3, main_call4_v4, main_call4_v5, main_call4_c_1, main_call4_c_2, main_call4_v6,
    main_call4_v7, main_call4_v8, main_call4_v9, main_call4_v10, main_call4_v11, main_call4_c_3, main_call4_v12, main_call4_v13,
    main_call4_c_4, main_call4_v14, main_v21, main_v22, main_call5_c, main_call5_v0, main_call5_v1, main_call5_c_0,
    main_call5_v2, main_call5_v3, main_call5_v4, main_call5_c_1, main_call5_c_2, main_call5_v5, main_call5_v6, main_call5_v7,
    main_call5_v8, main_call5_v9, main_call5_v10, main_call5_c_3, main_call5_v11, main_call5_v12, main_call5_v13, main_call5_cst,
    main_call5_v14, main_v23, main_call6_c, main_call6_v0, main_call6_v1, main_call6_c_0, main_call6_v2, main_call6_v3,
    main_call6_v4, main_call6_v5, main_call6_c_1, main_call6_c_2, main_call6_v6, main_call6_v7, main_call6_v8, main_call6_v9,
    main_call6_v10, main_call6_v11, main_call6_c_3, main_call6_v12, main_call6_v13, main_call6_cst, main_call6_v14, main_v24,
    main_v25, main_c_6, main_c_7, main_v26, main_c_8, main_v27, main_v28, main_v29,
    main_v30, main_c_9, main_c_10, main_call7_v0, main_call7_v1, main_v31, main_c_11, main_v32,
    main_v33, main_c_12, main_v34, main_v35, main_call8_c, main_call8_v0, main_call8_v1, main_v36,
    main_c_13, main_c_14, main_v37, main_c_15, main_v38, main_v39, main_c_16, main_v40,
    main_v41, main_v42, main_v43, main_call9_c, main_call9_v0, main_call9_v1, main_v44, main_v45,
    main_c_17, main_v46, main_v47, main_c_18, main_v48, main_v49, main_v50, main_v51,
    main_call10_c, main_call10_v0, main_call10_v1, main_v52, main_v53, main_c_19, main_v54, main_v55,
    main_c_20, main_v56, main_v57, main_v58, main_v59, main_call11_c, main_call11_v0, main_call11_v1,
    main_v60, main_v61, main_c_21, main_v62, main_v63, main_c_22, main_v64, main_v65,
    main_v66, main_v67, main_call12_c, main_call12_v0, main_call12_v1, main_v68, main_v69, main_c_23,
    main_v70, main_v71, main_c_24, main_v72, main_v73, main_v74, main_v75, main_call13_c,
    main_call13_v0, main_call13_v1, main_v76, main_v77, main_c_25, main_v78, main_v79, main_v80,
    main_call14_v0, main_call14_v1, main_call14_v2, main_call14_v3, main_call14_v4, main_call14_v5, main_call14_v6, main_call14_v7,
    main_call14_v8, main_call14_v9, main_call14_v10, main_call14_v11, main_call14_c, main_call14_v12, main_call14_v13, main_call14_v14,
    main_call14_c_0, main_call14_v15, main_call14_v16, main_v81, main_c_26, main_call15_v0, main_call15_c, main_call15_v1,
    main_call15_c_0, main_call15_v2, main_call15_v3, main_call15_v4, main_call15_c_1, main_call15_v5, main_call15_v6, main_call15_c_2,
    main_call15_v7, main_call15_v8, main_call15_c_3, main_call15_v9, main_call15_v10, main_call15_v11, main_call15_v12, main_call15_v13,
    main_call15_v14, main_v82, main_v83, main_v84, main_c_27, main_v85, main_v86, main_v87,
    main_cst_28, main_v88, main_v89, main_v90, main_v91, main_v92, main_v93, main_v94,
    main_call16_v0, main_call16_v1 ]

/-- A written reference's buffer, as a singleton, lies among the written buffers. -/
theorem glueWrites_sub {y : Ref sig .tc} (h : y ∈ glueWrites) :
    ({Proc.devRef .tc y} : Finset (DevRef τ sig)) ⊆ (glueWrites.map (Proc.devRef (τ := τ) .tc)).toFinset :=
  Finset.singleton_subset_iff.mpr (List.mem_toFinset.mpr (List.mem_map_of_mem h))

/-- Each operation of a stretch writes one buffer, and it is listed: the stretch's operations taken one by one. -/
macro "glue_writes_tac" : tactic =>
  `(tactic| (simp only [List.Forall]
             repeat' apply And.intro
             all_goals exact glueWrites_sub (by decide)))

theorem hostOps0_writes : (hostOps0 : List (HloOp τ sig (Elt F))).Forall fun op => op.writes ⊆ (glueWrites.map (Proc.devRef (τ := τ) .tc)).toFinset := by
  glue_writes_tac
theorem hostOps0_1_writes : (hostOps0_1 : List (HloOp τ sig (Elt F))).Forall fun op => op.writes ⊆ (glueWrites.map (Proc.devRef (τ := τ) .tc)).toFinset := by
  glue_writes_tac
theorem hostOps0_2_writes : (hostOps0_2 : List (HloOp τ sig (Elt F))).Forall fun op => op.writes ⊆ (glueWrites.map (Proc.devRef (τ := τ) .tc)).toFinset := by
  glue_writes_tac
theorem hostOps0_3_writes : (hostOps0_3 : List (HloOp τ sig (Elt F))).Forall fun op => op.writes ⊆ (glueWrites.map (Proc.devRef (τ := τ) .tc)).toFinset := by
  glue_writes_tac
theorem hostOps0_4_writes : (hostOps0_4 : List (HloOp τ sig (Elt F))).Forall fun op => op.writes ⊆ (glueWrites.map (Proc.devRef (τ := τ) .tc)).toFinset := by
  glue_writes_tac
theorem hostOps0_5_writes : (hostOps0_5 : List (HloOp τ sig (Elt F))).Forall fun op => op.writes ⊆ (glueWrites.map (Proc.devRef (τ := τ) .tc)).toFinset := by
  glue_writes_tac
theorem hostOps0_6_writes : (hostOps0_6 : List (HloOp τ sig (Elt F))).Forall fun op => op.writes ⊆ (glueWrites.map (Proc.devRef (τ := τ) .tc)).toFinset := by
  glue_writes_tac
theorem hostOps0_7_writes : (hostOps0_7 : List (HloOp τ sig (Elt F))).Forall fun op => op.writes ⊆ (glueWrites.map (Proc.devRef (τ := τ) .tc)).toFinset := by
  glue_writes_tac
theorem hostOps0_8_writes : (hostOps0_8 : List (HloOp τ sig (Elt F))).Forall fun op => op.writes ⊆ (glueWrites.map (Proc.devRef (τ := τ) .tc)).toFinset := by
  glue_writes_tac
theorem hostOps0_9_writes : (hostOps0_9 : List (HloOp τ sig (Elt F))).Forall fun op => op.writes ⊆ (glueWrites.map (Proc.devRef (τ := τ) .tc)).toFinset := by
  glue_writes_tac
theorem hostOps0_10_writes : (hostOps0_10 : List (HloOp τ sig (Elt F))).Forall fun op => op.writes ⊆ (glueWrites.map (Proc.devRef (τ := τ) .tc)).toFinset := by
  glue_writes_tac
theorem hostOps0_11_writes : (hostOps0_11 : List (HloOp τ sig (Elt F))).Forall fun op => op.writes ⊆ (glueWrites.map (Proc.devRef (τ := τ) .tc)).toFinset := by
  glue_writes_tac
theorem hostOps0_12_writes : (hostOps0_12 : List (HloOp τ sig (Elt F))).Forall fun op => op.writes ⊆ (glueWrites.map (Proc.devRef (τ := τ) .tc)).toFinset := by
  glue_writes_tac
theorem hostOps0_13_writes : (hostOps0_13 : List (HloOp τ sig (Elt F))).Forall fun op => op.writes ⊆ (glueWrites.map (Proc.devRef (τ := τ) .tc)).toFinset := by
  glue_writes_tac
theorem hostOps0_14_writes : (hostOps0_14 : List (HloOp τ sig (Elt F))).Forall fun op => op.writes ⊆ (glueWrites.map (Proc.devRef (τ := τ) .tc)).toFinset := by
  glue_writes_tac
theorem hostOps0_15_writes : (hostOps0_15 : List (HloOp τ sig (Elt F))).Forall fun op => op.writes ⊆ (glueWrites.map (Proc.devRef (τ := τ) .tc)).toFinset := by
  glue_writes_tac
theorem hostOps0_16_writes : (hostOps0_16 : List (HloOp τ sig (Elt F))).Forall fun op => op.writes ⊆ (glueWrites.map (Proc.devRef (τ := τ) .tc)).toFinset := by
  glue_writes_tac
theorem hostOps0_17_writes : (hostOps0_17 : List (HloOp τ sig (Elt F))).Forall fun op => op.writes ⊆ (glueWrites.map (Proc.devRef (τ := τ) .tc)).toFinset := by
  glue_writes_tac
theorem hostOps0_18_writes : (hostOps0_18 : List (HloOp τ sig (Elt F))).Forall fun op => op.writes ⊆ (glueWrites.map (Proc.devRef (τ := τ) .tc)).toFinset := by
  glue_writes_tac
theorem hostOps0_19_writes : (hostOps0_19 : List (HloOp τ sig (Elt F))).Forall fun op => op.writes ⊆ (glueWrites.map (Proc.devRef (τ := τ) .tc)).toFinset := by
  glue_writes_tac
theorem hostOps0_20_writes : (hostOps0_20 : List (HloOp τ sig (Elt F))).Forall fun op => op.writes ⊆ (glueWrites.map (Proc.devRef (τ := τ) .tc)).toFinset := by
  glue_writes_tac
theorem hostOps0_21_writes : (hostOps0_21 : List (HloOp τ sig (Elt F))).Forall fun op => op.writes ⊆ (glueWrites.map (Proc.devRef (τ := τ) .tc)).toFinset := by
  glue_writes_tac
theorem hostOps0_22_writes : (hostOps0_22 : List (HloOp τ sig (Elt F))).Forall fun op => op.writes ⊆ (glueWrites.map (Proc.devRef (τ := τ) .tc)).toFinset := by
  glue_writes_tac
theorem hostOps0_23_writes : (hostOps0_23 : List (HloOp τ sig (Elt F))).Forall fun op => op.writes ⊆ (glueWrites.map (Proc.devRef (τ := τ) .tc)).toFinset := by
  glue_writes_tac
theorem hostOps0_24_writes : (hostOps0_24 : List (HloOp τ sig (Elt F))).Forall fun op => op.writes ⊆ (glueWrites.map (Proc.devRef (τ := τ) .tc)).toFinset := by
  glue_writes_tac
theorem hostOps0_25_writes : (hostOps0_25 : List (HloOp τ sig (Elt F))).Forall fun op => op.writes ⊆ (glueWrites.map (Proc.devRef (τ := τ) .tc)).toFinset := by
  glue_writes_tac
theorem hostOps0_26_writes : (hostOps0_26 : List (HloOp τ sig (Elt F))).Forall fun op => op.writes ⊆ (glueWrites.map (Proc.devRef (τ := τ) .tc)).toFinset := by
  glue_writes_tac
theorem hostOps0_27_writes : (hostOps0_27 : List (HloOp τ sig (Elt F))).Forall fun op => op.writes ⊆ (glueWrites.map (Proc.devRef (τ := τ) .tc)).toFinset := by
  glue_writes_tac
theorem hostOps0_28_writes : (hostOps0_28 : List (HloOp τ sig (Elt F))).Forall fun op => op.writes ⊆ (glueWrites.map (Proc.devRef (τ := τ) .tc)).toFinset := by
  glue_writes_tac
theorem hostOps0_29_writes : (hostOps0_29 : List (HloOp τ sig (Elt F))).Forall fun op => op.writes ⊆ (glueWrites.map (Proc.devRef (τ := τ) .tc)).toFinset := by
  glue_writes_tac
theorem hostOps0_30_writes : (hostOps0_30 : List (HloOp τ sig (Elt F))).Forall fun op => op.writes ⊆ (glueWrites.map (Proc.devRef (τ := τ) .tc)).toFinset := by
  glue_writes_tac
theorem hostOps0_31_writes : (hostOps0_31 : List (HloOp τ sig (Elt F))).Forall fun op => op.writes ⊆ (glueWrites.map (Proc.devRef (τ := τ) .tc)).toFinset := by
  glue_writes_tac

/-- The stretches before the last one, in order. -/
abbrev glueInit : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- All the stretches are the earlier ones followed by the last. -/
theorem glue_split :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) = glueInit ++ hostOps0_31 := by
  simp only [glueInit, List.flatten_cons, List.flatten_nil, List.append_nil, List.append_assoc]

theorem glueInit_writes : (glueInit : List (HloOp τ sig (Elt F))).Forall fun op => op.writes ⊆ (glueWrites.map (Proc.devRef (τ := τ) .tc)).toFinset := by
  simp only [glueInit, List.flatten_cons, List.flatten_nil, List.append_nil, List.forall_append]
  exact ⟨hostOps0_writes, hostOps0_1_writes, hostOps0_2_writes, hostOps0_3_writes, hostOps0_4_writes, hostOps0_5_writes, hostOps0_6_writes, hostOps0_7_writes, hostOps0_8_writes, hostOps0_9_writes, hostOps0_10_writes, hostOps0_11_writes, hostOps0_12_writes, hostOps0_13_writes, hostOps0_14_writes, hostOps0_15_writes, hostOps0_16_writes, hostOps0_17_writes, hostOps0_18_writes, hostOps0_19_writes, hostOps0_20_writes, hostOps0_21_writes, hostOps0_22_writes, hostOps0_23_writes, hostOps0_24_writes, hostOps0_25_writes, hostOps0_26_writes, hostOps0_27_writes, hostOps0_28_writes, hostOps0_29_writes, hostOps0_30_writes⟩

theorem glue_writes : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))).Forall fun op => op.writes ⊆ (glueWrites.map (Proc.devRef (τ := τ) .tc)).toFinset := by
  rw [glue_split, List.forall_append]
  exact ⟨glueInit_writes, hostOps0_31_writes⟩

/-- Running two lines of operations in a row is running the second from where the first ends. -/
theorem after_append' : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by
    rw [List.cons_append, StableHlo.after_cons, StableHlo.after_cons, after_append' l₁ l₂]

variable (V : Valuation τ sig (Elt F))

/-- No operation before the region writes `main_arg0`. -/
theorem glue_keep_0 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg0) = V (Proc.devRef .tc main_arg0) :=
  StableHlo.after_of_writes_sub _ V glue_writes (by decide)
/-- No operation before the region writes `main_arg1`. -/
theorem glue_keep_1 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg1) = V (Proc.devRef .tc main_arg1) :=
  StableHlo.after_of_writes_sub _ V glue_writes (by decide)
/-- No operation before the region writes `main_arg2`. -/
theorem glue_keep_2 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg2) = V (Proc.devRef .tc main_arg2) :=
  StableHlo.after_of_writes_sub _ V glue_writes (by decide)
/-- No operation before the region writes `main_arg3`. -/
theorem glue_keep_3 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg3) = V (Proc.devRef .tc main_arg3) :=
  StableHlo.after_of_writes_sub _ V glue_writes (by decide)
/-- No operation before the region writes `main_arg4`. -/
theorem glue_keep_4 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg4) = V (Proc.devRef .tc main_arg4) :=
  StableHlo.after_of_writes_sub _ V glue_writes (by decide)
/-- No operation before the region writes `main_arg5`. -/
theorem glue_keep_5 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg5) = V (Proc.devRef .tc main_arg5) :=
  StableHlo.after_of_writes_sub _ V glue_writes (by decide)
/-- No operation before the region writes `main_arg6`. -/
theorem glue_keep_6 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg6) = V (Proc.devRef .tc main_arg6) :=
  StableHlo.after_of_writes_sub _ V glue_writes (by decide)
/-- No operation before the region writes `main_arg7`. -/
theorem glue_keep_7 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg7) = V (Proc.devRef .tc main_arg7) :=
  StableHlo.after_of_writes_sub _ V glue_writes (by decide)
/-- No operation before the region writes `main_arg8`. -/
theorem glue_keep_8 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg8) = V (Proc.devRef .tc main_arg8) :=
  StableHlo.after_of_writes_sub _ V glue_writes (by decide)
/-- No operation before the region writes `main_arg9`. -/
theorem glue_keep_9 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg9) = V (Proc.devRef .tc main_arg9) :=
  StableHlo.after_of_writes_sub _ V glue_writes (by decide)
/-- No operation before the region writes `main_arg10`. -/
theorem glue_keep_10 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_arg10) = V (Proc.devRef .tc main_arg10) :=
  StableHlo.after_of_writes_sub _ V glue_writes (by decide)

/-- `main_call16_v0` ends holding `main_arg6`'s contents as one row. -/
theorem glue_b1 :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_call16_v0)
      = shapeCast S1x1024 (V (Proc.devRef .tc main_arg6)) shapeCasts_S1024_S1x1024 := by
  rw [glue_split, after_append']
  have h6 : StableHlo.after glueInit V (Proc.devRef .tc main_arg6) = V (Proc.devRef .tc main_arg6) :=
    StableHlo.after_of_writes_sub _ V glueInit_writes (by decide)
  generalize StableHlo.after glueInit V = W at h6
  rw [← h6]
  after_results_simp
  rfl

/-- `main_call16_v1` ends holding `main_arg8`'s contents as one row. -/
theorem glue_bg :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_call16_v1)
      = shapeCast S1x1024 (V (Proc.devRef .tc main_arg8)) shapeCasts_S1024_S1x1024 := by
  rw [glue_split, after_append']
  have h8 : StableHlo.after glueInit V (Proc.devRef .tc main_arg8) = V (Proc.devRef .tc main_arg8) :=
    StableHlo.after_of_writes_sub _ V glueInit_writes (by decide)
  generalize StableHlo.after glueInit V = W at h8
  rw [← h8]
  after_results_simp
  rfl

end Cert.KernelIdeal.Hand

end
-- ==== Proof.FrameI.lean ====
/-
  The frame: the eleven argument arrays end as they began.

  Three of them (the two first-layer weight matrices and the second layer's) are arrays of the region's input
  windows, which the region only reads; the other eight bypass the region and are written by none of the host
  lines, before or after.
-/
import proofs.«103122_j77446850281992_2_alg».proof.Proof.BodyI
import proofs.«103122_j77446850281992_2_alg».proof.Proof.GlueKeepI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region write their own results only: an argument is entered as launched. -/
theorem entry_arg0 (c : Dev nD) : entryAt m c main_arg0 = m ((c : Thread nD τ).loc main_arg0) := glue_keep_0 (fun b => m (c, b))
theorem entry_arg1 (c : Dev nD) : entryAt m c main_arg1 = m ((c : Thread nD τ).loc main_arg1) := glue_keep_1 (fun b => m (c, b))
theorem entry_arg2 (c : Dev nD) : entryAt m c main_arg2 = m ((c : Thread nD τ).loc main_arg2) := glue_keep_2 (fun b => m (c, b))
theorem entry_arg3 (c : Dev nD) : entryAt m c main_arg3 = m ((c : Thread nD τ).loc main_arg3) := glue_keep_3 (fun b => m (c, b))
theorem entry_arg4 (c : Dev nD) : entryAt m c main_arg4 = m ((c : Thread nD τ).loc main_arg4) := glue_keep_4 (fun b => m (c, b))
theorem entry_arg5 (c : Dev nD) : entryAt m c main_arg5 = m ((c : Thread nD τ).loc main_arg5) := glue_keep_5 (fun b => m (c, b))
theorem entry_arg6 (c : Dev nD) : entryAt m c main_arg6 = m ((c : Thread nD τ).loc main_arg6) := glue_keep_6 (fun b => m (c, b))
theorem entry_arg7 (c : Dev nD) : entryAt m c main_arg7 = m ((c : Thread nD τ).loc main_arg7) := glue_keep_7 (fun b => m (c, b))
theorem entry_arg8 (c : Dev nD) : entryAt m c main_arg8 = m ((c : Thread nD τ).loc main_arg8) := glue_keep_8 (fun b => m (c, b))
theorem entry_arg9 (c : Dev nD) : entryAt m c main_arg9 = m ((c : Thread nD τ).loc main_arg9) := glue_keep_9 (fun b => m (c, b))
theorem entry_arg10 (c : Dev nD) : entryAt m c main_arg10 = m ((c : Thread nD τ).loc main_arg10) := glue_keep_10 (fun b => m (c, b))

/-- Neither do the eight lines after it, and an argument that is no array of the region is untouched by the region. -/
theorem tail_arg0 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg0)
      = m ((c : Thread nD τ).loc main_arg0) := by
  rw [StableHlo.after_of_forall_not_mem _ _ (fun op hop => ?_)]
  · exact (Pipeline.withArrays_of_ne spec0 c _ _ main_arg0 (by decide)).trans (entry_arg0 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg1 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg1)
      = m ((c : Thread nD τ).loc main_arg1) := by
  rw [StableHlo.after_of_forall_not_mem _ _ (fun op hop => ?_)]
  · exact (Pipeline.withArrays_of_ne spec0 c _ _ main_arg1 (by decide)).trans (entry_arg1 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg2 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg2)
      = m ((c : Thread nD τ).loc main_arg2) := by
  rw [StableHlo.after_of_forall_not_mem _ _ (fun op hop => ?_)]
  · exact (Pipeline.withArrays_of_ne spec0 c _ _ main_arg2 (by decide)).trans (entry_arg2 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg3 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg3)
      = m ((c : Thread nD τ).loc main_arg3) := by
  rw [StableHlo.after_of_forall_not_mem _ _ (fun op hop => ?_)]
  · exact (Pipeline.withArrays_of_ne spec0 c _ _ main_arg3 (by decide)).trans (entry_arg3 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg4 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg4)
      = m ((c : Thread nD τ).loc main_arg4) := by
  rw [StableHlo.after_of_forall_not_mem _ _ (fun op hop => ?_)]
  · exact (Pipeline.withArrays_of_ne spec0 c _ _ main_arg4 (by decide)).trans (entry_arg4 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg6 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg6)
      = m ((c : Thread nD τ).loc main_arg6) := by
  rw [StableHlo.after_of_forall_not_mem _ _ (fun op hop => ?_)]
  · exact (Pipeline.withArrays_of_ne spec0 c _ _ main_arg6 (by decide)).trans (entry_arg6 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg8 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg8)
      = m ((c : Thread nD τ).loc main_arg8) := by
  rw [StableHlo.after_of_forall_not_mem _ _ (fun op hop => ?_)]
  · exact (Pipeline.withArrays_of_ne spec0 c _ _ main_arg8 (by decide)).trans (entry_arg8 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))
theorem tail_arg10 (c : Dev nD) (A : (w : Fin 7) → Buf (Elt F) ((spec0 w).arr.view.loc (c.tc : Thread nD τ))) :
    StableHlo.after (List.flatten [(hostOps1 : List (HloOp τ sig (Elt F)))]) (Pipeline.withArrays spec0 c (entry m c) A) (Proc.devRef .tc main_arg10)
      = m ((c : Thread nD τ).loc main_arg10) := by
  rw [StableHlo.after_of_forall_not_mem _ _ (fun op hop => ?_)]
  · exact (Pipeline.withArrays_of_ne spec0 c _ _ main_arg10 (by decide)).trans (entry_arg10 m c)
  · simp only [List.flatten_cons, List.flatten_nil, List.append_nil, hostOps1, List.mem_cons, List.mem_nil_iff, or_false] at hop
    rcases hop with rfl | rfl | rfl | rfl | rfl | rfl | rfl | rfl <;>
      (intro hmem; exact absurd (Finset.mem_singleton.mp hmem) (StableHlo.devRef_ne_of_ne (by decide)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 rfl (by decide))).trans (tail_arg0 m c _),
    ((h c).2 main_arg1 (Pipeline.mem_restRefs_of main_arg1 rfl (by decide))).trans (tail_arg1 m c _),
    ((h c).2 main_arg2 (Pipeline.mem_restRefs_of main_arg2 rfl (by decide))).trans (tail_arg2 m c _),
    ((h c).2 main_arg3 (Pipeline.mem_restRefs_of main_arg3 rfl (by decide))).trans (tail_arg3 m c _),
    ((h c).2 main_arg4 (Pipeline.mem_restRefs_of main_arg4 rfl (by decide))).trans (tail_arg4 m c _),
    ((h c).1 1).trans (((dats m 0 c).arrAt_in 1 rfl _).trans ((A_eq m c 1).trans (entry_arg5 m c))),
    ((h c).2 main_arg6 (Pipeline.mem_restRefs_of main_arg6 rfl (by decide))).trans (tail_arg6 m c _),
    ((h c).1 2).trans (((dats m 0 c).arrAt_in 2 rfl _).trans ((A_eq m c 2).trans (entry_arg7 m c))),
    ((h c).2 main_arg8 (Pipeline.mem_restRefs_of main_arg8 rfl (by decide))).trans (tail_arg8 m c _),
    ((h c).1 3).trans (((dats m 0 c).arrAt_in 3 rfl _).trans ((A_eq m c 3).trans (entry_arg9 m c))),
    ((h c).2 main_arg10 (Pipeline.mem_restRefs_of main_arg10 rfl (by decide))).trans (tail_arg10 m c _)⟩)
    (run_main m ρ)

end Cert.KernelIdeal.Hand

end
-- ==== Proof.Spec.lean ====
import proofs.«103122_j77446850281992_2_alg».proof.Proof.Gen.KernelIdeal.Skeleton
import proofs.«103122_j77446850281992_2_alg».proof.Proof.Gen.ReferenceIdeal
import Idealize.ShloMosaic.Lib.ValueIdx

/-!
# The gated projection, block by block and whole

With `P : [256, 35840]` the prediction input, `W1, Wg : [35840, 1024]`, `b1, bg : [1024]`,
`W2 : [1024, 128]` and `b2 : [128]`, both programs compute

  `((P·W1 + b1) * (1 / (1 + exp (-(P·Wg + bg))))) · W2 + b2`.

The whole-array side (`refTail`) takes each product as one contraction.  The blocked side cuts the
contraction over 35840 into 28 blocks of 1280 and the hidden axis of 1024 into 2 halves of 512: for
each half `c` two accumulators start at zero and gain, for `k = 0 … 27`, the product of column
block `k` of `P` with the block `(k, c)` of `W1` (of `Wg`); after block 27 the gated half is
multiplied by row block `c` of `W2` (`outBlk`), and the two halves and `b2` are added (`kerTail`).

A block's coordinate is always (block index) × (block size) + (the coordinate inside the block).
-/

noncomputable section

namespace Cert.Hand

open Idealize.ShloMosaic Idealize.ShloMosaic.ValueIdx
open Cert.KernelIdeal (S256x35840 S35840x1024 S1024 S1x1024 S1024x128 S128 S1x128 S256x128 S2x256x128 S1x256x128
  S256x1280 S1280x512 S512x128 S1x512 S256x512)

/-! ## Blocks of the arrays -/

/-- Column block `k` of `P`: columns `1280 k … 1280 k + 1279`. -/
def pBlk (P : S256x35840.Idx → Ideal .f32) (k : Fin 28) : Vec Ideal S256x1280 .f32 :=
  fun i => P (ix2 (⟨(i 0).val, idx2_lt0 i⟩ : Fin 256)
    (⟨k.val * 1280 + (i 1).val, by have := idx2_lt1 i; have := k.isLt; omega⟩ : Fin 35840))

/-- Block `(k, c)` of a first-layer weight: rows `1280 k …`, columns `512 c …`. -/
def wBlk (W : S35840x1024.Idx → Ideal .f32) (k : Fin 28) (c : Fin 2) : Vec Ideal S1280x512 .f32 :=
  fun i => W (ix2 (⟨k.val * 1280 + (i 0).val, by have := idx2_lt0 i; have := k.isLt; omega⟩ : Fin 35840)
    (⟨c.val * 512 + (i 1).val, by have := idx2_lt1 i; have := c.isLt; omega⟩ : Fin 1024))

/-- Row block `c` of the second-layer weight: rows `512 c …`, every column. -/
def w2Blk (W2 : S1024x128.Idx → Ideal .f32) (c : Fin 2) : Vec Ideal S512x128 .f32 :=
  fun i => W2 (ix2 (⟨c.val * 512 + (i 0).val, by have := idx2_lt0 i; have := c.isLt; omega⟩ : Fin 1024)
    (⟨(i 1).val, idx2_lt1 i⟩ : Fin 128))

/-- Column block `c` of a bias laid out as one row `[1, 1024]`: columns `512 c …`. -/
def bBlk (b : S1x1024.Idx → Ideal .f32) (c : Fin 2) : Vec Ideal S1x512 .f32 :=
  fun i => b (ix2 (⟨(i 0).val, idx2_lt0 i⟩ : Fin 1)
    (⟨c.val * 512 + (i 1).val, by have := idx2_lt1 i; have := c.isLt; omega⟩ : Fin 1024))

/-- A bias `[1024]` laid out as one row `[1, 1024]`. -/
def b1r (b : S1024.Idx → Ideal .f32) : S1x1024.Idx → Ideal .f32 :=
  shapeCast S1x1024 b Cert.KernelIdeal.Gen.shapeCasts_S1024_S1x1024

/-! ## The two accumulators, one block of the contraction at a time -/

/-- The value accumulator of half `c` after blocks `0 … k`. -/
def acc1 (P : S256x35840.Idx → Ideal .f32) (W1 : S35840x1024.Idx → Ideal .f32) (c : Fin 2) :
    (k : ℕ) → k < 28 → FVec Ideal S256x512 .f32
  | 0, h => Cert.KernelIdeal.Gen.k0_pay4 (F := Ideal) (pBlk P ⟨0, h⟩) (wBlk W1 ⟨0, h⟩ c) (Cert.KernelIdeal.Gen.k0_pay1 (F := Ideal))
  | k + 1, h => Cert.KernelIdeal.Gen.k0_pay4 (F := Ideal) (pBlk P ⟨k + 1, h⟩) (wBlk W1 ⟨k + 1, h⟩ c)
      (acc1 P W1 c k (Nat.lt_of_succ_lt h))

/-- The gate accumulator of half `c` after blocks `0 … k`. -/
def accg (P : S256x35840.Idx → Ideal .f32) (Wg : S35840x1024.Idx → Ideal .f32) (c : Fin 2) :
    (k : ℕ) → k < 28 → FVec Ideal S256x512 .f32
  | 0, h => Cert.KernelIdeal.Gen.k0_pay5 (F := Ideal) (pBlk P ⟨0, h⟩) (wBlk Wg ⟨0, h⟩ c) (Cert.KernelIdeal.Gen.k0_pay2 (F := Ideal))
  | k + 1, h => Cert.KernelIdeal.Gen.k0_pay5 (F := Ideal) (pBlk P ⟨k + 1, h⟩) (wBlk Wg ⟨k + 1, h⟩ c)
      (accg P Wg c k (Nat.lt_of_succ_lt h))

/-! ## The output of half `c`, and the two halves as one array -/

/-- Half `c` of the output, `[1, 256, 128]`: the gated half times row block `c` of `W2`. -/
def outBlk (P : S256x35840.Idx → Ideal .f32) (W1 : S35840x1024.Idx → Ideal .f32) (b1row : S1x1024.Idx → Ideal .f32)
    (Wg : S35840x1024.Idx → Ideal .f32) (bgrow : S1x1024.Idx → Ideal .f32) (W2 : S1024x128.Idx → Ideal .f32)
    (c : Fin 2) : FVec Ideal S1x256x128 .f32 :=
  Cert.KernelIdeal.Gen.k0_pay6 (F := Ideal) (acc1 P W1 c 27 (by decide)) (bBlk b1row c) (accg P Wg c 27 (by decide))
    (bBlk bgrow c) (w2Blk W2 c)

/-- The two halves stacked, `[2, 256, 128]`: slab `c` is `outBlk … c`. -/
def kerOut (P : S256x35840.Idx → Ideal .f32) (W1 : S35840x1024.Idx → Ideal .f32) (b1row : S1x1024.Idx → Ideal .f32)
    (Wg : S35840x1024.Idx → Ideal .f32) (bgrow : S1x1024.Idx → Ideal .f32) (W2 : S1024x128.Idx → Ideal .f32) :
    S2x256x128.Idx → Ideal .f32 :=
  fun i => outBlk P W1 b1row Wg bgrow W2 (⟨(i 0).val, (i 0).isLt⟩ : Fin 2)
    (ix3 (0 : Fin 1) (⟨(i 1).val, (i 1).isLt⟩ : Fin 256) (⟨(i 2).val, (i 2).isLt⟩ : Fin 128))

/-! ## The sum of the two halves and the output bias -/

/-- The two slabs of `O` added, plus `b2` along every row. -/
def kerTail (O : S2x256x128.Idx → Ideal .f32) (b2 : S128.Idx → Ideal .f32) : S256x128.Idx → Ideal .f32 :=
  addf
    (addf
      (shapeCast S256x128
        (extractStridedSlice S1x256x128 ![0, 0, 0] O Cert.KernelIdeal.Gen.slices_S2x256x128_S1x256x128_0_0_0)
        Cert.KernelIdeal.Gen.shapeCasts_S1x256x128_S256x128)
      (shapeCast S256x128
        (extractStridedSlice S1x256x128 ![1, 0, 0] O Cert.KernelIdeal.Gen.slices_S2x256x128_S1x256x128_1_0_0)
        Cert.KernelIdeal.Gen.shapeCasts_S1x256x128_S256x128))
    (broadcastInDim S256x128 ![0, 1] Cert.KernelIdeal.Gen.bcast_S1x128_S256x128_0_1
      (shapeCast S1x128 b2 Cert.KernelIdeal.Gen.shapeCasts_S128_S1x128))

/-! ## The whole-array side -/

/-- `((P·W1 + b1) * (1 / (1 + exp (-(P·Wg + bg))))) · W2 + b2` with each product one contraction. -/
def refTail (P : S256x35840.Idx → Ideal .f32) (W1 : S35840x1024.Idx → Ideal .f32) (b1 : S1024.Idx → Ideal .f32)
    (Wg : S35840x1024.Idx → Ideal .f32) (bg : S1024.Idx → Ideal .f32) (W2 : S1024x128.Idx → Ideal .f32)
    (b2 : S128.Idx → Ideal .f32) : S256x128.Idx → Ideal .f32 :=
  have v95 : FVec Ideal Cert.ReferenceIdeal.S256x1024 .f32 :=
    Host.dotGeneral (F := Ideal) Cert.ReferenceIdeal.dot_S256x35840_S35840x1024_S256x1024_1_0_0_1_n_n none P W1
  have v96 : FVec Ideal Cert.ReferenceIdeal.S1x1024 .f32 :=
    broadcastInDim Cert.ReferenceIdeal.S1x1024 ![1] Cert.ReferenceIdeal.Gen.bcast_S1024_S1x1024_1 b1
  have v97 : FVec Ideal Cert.ReferenceIdeal.S256x1024 .f32 :=
    broadcastInDim Cert.ReferenceIdeal.S256x1024 ![0, 1] Cert.ReferenceIdeal.Gen.bcast_S1x1024_S256x1024_0_1 v96
  have v98 : FVec Ideal Cert.ReferenceIdeal.S256x1024 .f32 := addf v95 v97
  have v99 : FVec Ideal Cert.ReferenceIdeal.S256x1024 .f32 :=
    Host.dotGeneral (F := Ideal) Cert.ReferenceIdeal.dot_S256x35840_S35840x1024_S256x1024_1_0_0_1_n_n none P Wg
  have v100 : FVec Ideal Cert.ReferenceIdeal.S1x1024 .f32 :=
    broadcastInDim Cert.ReferenceIdeal.S1x1024 ![1] Cert.ReferenceIdeal.Gen.bcast_S1024_S1x1024_1 bg
  have v101 : FVec Ideal Cert.ReferenceIdeal.S256x1024 .f32 :=
    broadcastInDim Cert.ReferenceIdeal.S256x1024 ![0, 1] Cert.ReferenceIdeal.Gen.bcast_S1x1024_S256x1024_0_1 v100
  have v102 : FVec Ideal Cert.ReferenceIdeal.S256x1024 .f32 := addf v99 v101
  have v103 : FVec Ideal Cert.ReferenceIdeal.S256x1024 .f32 := Host.negf (F := Ideal) v102
  have v104 : FVec Ideal Cert.ReferenceIdeal.S256x1024 .f32 := Host.exp (F := Ideal) v103
  have cst_29 : FVec Ideal Cert.ReferenceIdeal.S_ .f32 := constant (F := Ideal) Cert.ReferenceIdeal.S_ .f32 0x3F800000#32
  have v105 : FVec Ideal Cert.ReferenceIdeal.S256x1024 .f32 :=
    broadcastInDim Cert.ReferenceIdeal.S256x1024 ![] Cert.ReferenceIdeal.Gen.bcast_S_S256x1024 cst_29
  have v106 : FVec Ideal Cert.ReferenceIdeal.S256x1024 .f32 := addf v105 v104
  have cst_30 : FVec Ideal Cert.ReferenceIdeal.S_ .f32 := constant (F := Ideal) Cert.ReferenceIdeal.S_ .f32 0x3F800000#32
  have v107 : FVec Ideal Cert.ReferenceIdeal.S256x1024 .f32 :=
    broadcastInDim Cert.ReferenceIdeal.S256x1024 ![] Cert.ReferenceIdeal.Gen.bcast_S_S256x1024 cst_30
  have v108 : FVec Ideal Cert.ReferenceIdeal.S256x1024 .f32 := Host.divf (F := Ideal) v107 v106
  have v109 : FVec Ideal Cert.ReferenceIdeal.S256x1024 .f32 := mulf v98 v108
  have v110 : FVec Ideal Cert.ReferenceIdeal.S256x128 .f32 :=
    Host.dotGeneral (F := Ideal) Cert.ReferenceIdeal.dot_S256x1024_S1024x128_S256x128_1_0_0_1_n_n none v109 W2
  have v111 : FVec Ideal Cert.ReferenceIdeal.S1x128 .f32 :=
    broadcastInDim Cert.ReferenceIdeal.S1x128 ![1] Cert.ReferenceIdeal.Gen.bcast_S128_S1x128_1 b2
  have v112 : FVec Ideal Cert.ReferenceIdeal.S256x128 .f32 :=
    broadcastInDim Cert.ReferenceIdeal.S256x128 ![0, 1] Cert.ReferenceIdeal.Gen.bcast_S1x128_S256x128_0_1 v111
  addf v110 v112

end Cert.Hand

end
-- ==== Proof.BlocksI.lean ====
/-
  The windows' blocks at a grid point, as blocks of the arrays the region was entered with.

  The printed index maps, decided once over the grid: with k = t mod 28 and c = t div 28, the P window sits at block
  (0, k), the two first-layer windows at (k, c), the second-layer window at (c, 0), the two bias rows at (0, c), and
  the output window at (c, 0, 0).  An element of a block sits in its array at block index × block size + its
  coordinate inside the block, on every axis.
-/
import proofs.«103122_j77446850281992_2_alg».proof.Proof.RegionI
import proofs.«103122_j77446850281992_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem index_facts : ∀ t : Fin cfg0.N,
    win0_0.index t (0 : Fin 2) = 0 ∧ win0_0.index t (1 : Fin 2) = t.val % 28
    ∧ win0_1.index t (0 : Fin 2) = t.val % 28 ∧ win0_1.index t (1 : Fin 2) = t.val / 28
    ∧ win0_2.index t (0 : Fin 2) = t.val % 28 ∧ win0_2.index t (1 : Fin 2) = t.val / 28
    ∧ win0_3.index t (0 : Fin 2) = t.val / 28 ∧ win0_3.index t (1 : Fin 2) = 0
    ∧ win0_4.index t (0 : Fin 2) = 0 ∧ win0_4.index t (1 : Fin 2) = t.val / 28
    ∧ win0_5.index t (0 : Fin 2) = 0 ∧ win0_5.index t (1 : Fin 2) = t.val / 28 :=
  (by decide +kernel : ∀ t : Fin grid0.N, _)

variable (t : Fin cfg0.N) (k : Fin 28) (q : Fin 2)

/-- The P window's block at `t` is column block k of P. -/
theorem read_p (hk : t.val % 28 = k.val) (A : S256x35840.Idx → Ideal .f32) :
    ((cfg0.win 0).blk t).view.read (Elt Ideal) A = Cert.Hand.pBlk A k := by
  obtain ⟨e0, e1, -⟩ := index_facts t
  funext y
  unfold Cert.Hand.pBlk
  rw [View.read_apply]
  refine congrArg A ?_
  funext a; apply Fin.ext
  match a with
  | ⟨0, _⟩ => show win0_0.index t (0 : Fin 2) * 256 + 1 * (y 0).val = (y 0).val; omega
  | ⟨1, _⟩ => show win0_0.index t (1 : Fin 2) * 1280 + 1 * (y 1).val = k.val * 1280 + (y 1).val; omega

/-- A first-layer window's block at `t` is block (k, c) of its matrix. -/
theorem read_w1 (hk : t.val % 28 = k.val) (hq : t.val / 28 = q.val) (A : S35840x1024.Idx → Ideal .f32) :
    ((cfg0.win 1).blk t).view.read (Elt Ideal) A = Cert.Hand.wBlk A k q := by
  obtain ⟨-, -, e0, e1, -⟩ := index_facts t
  funext y
  unfold Cert.Hand.wBlk
  rw [View.read_apply]
  refine congrArg A ?_
  funext a; apply Fin.ext
  match a with
  | ⟨0, _⟩ => show win0_1.index t (0 : Fin 2) * 1280 + 1 * (y 0).val = k.val * 1280 + (y 0).val; omega
  | ⟨1, _⟩ => show win0_1.index t (1 : Fin 2) * 512 + 1 * (y 1).val = q.val * 512 + (y 1).val; omega

theorem read_wg (hk : t.val % 28 = k.val) (hq : t.val / 28 = q.val) (A : S35840x1024.Idx → Ideal .f32) :
    ((cfg0.win 2).blk t).view.read (Elt Ideal) A = Cert.Hand.wBlk A k q := by
  obtain ⟨-, -, -, -, e0, e1, -⟩ := index_facts t
  funext y
  unfold Cert.Hand.wBlk
  rw [View.read_apply]
  refine congrArg A ?_
  funext a; apply Fin.ext
  match a with
  | ⟨0, _⟩ => show win0_2.index t (0 : Fin 2) * 1280 + 1 * (y 0).val = k.val * 1280 + (y 0).val; omega
  | ⟨1, _⟩ => show win0_2.index t (1 : Fin 2) * 512 + 1 * (y 1).val = q.val * 512 + (y 1).val; omega

/-- The second-layer window's block at `t` is row block c. -/
theorem read_w2 (hq : t.val / 28 = q.val) (A : S1024x128.Idx → Ideal .f32) :
    ((cfg0.win 3).blk t).view.read (Elt Ideal) A = Cert.Hand.w2Blk A q := by
  obtain ⟨-, -, -, -, -, -, e0, e1, -⟩ := index_facts t
  funext y
  unfold Cert.Hand.w2Blk
  rw [View.read_apply]
  refine congrArg A ?_
  funext a; apply Fin.ext
  match a with
  | ⟨0, _⟩ => show win0_3.index t (0 : Fin 2) * 512 + 1 * (y 0).val = q.val * 512 + (y 0).val; omega
  | ⟨1, _⟩ => show win0_3.index t (1 : Fin 2) * 128 + 1 * (y 1).val = (y 1).val; omega

/-- A bias row's block at `t` is its column block c. -/
theorem read_b1 (hq : t.val / 28 = q.val) (A : S1x1024.Idx → Ideal .f32) :
    ((cfg0.win 4).blk t).view.read (Elt Ideal) A = Cert.Hand.bBlk A q := by
  obtain ⟨-, -, -, -, -, -, -, -, e0, e1, -⟩ := index_facts t
  funext y
  unfold Cert.Hand.bBlk
  rw [View.read_apply]
  refine congrArg A ?_
  funext a; apply Fin.ext
  match a with
  | ⟨0, _⟩ => show win0_4.index t (0 : Fin 2) * 1 + 1 * (y 0).val = (y 0).val; omega
  | ⟨1, _⟩ => show win0_4.index t (1 : Fin 2) * 512 + 1 * (y 1).val = q.val * 512 + (y 1).val; omega

theorem read_bg (hq : t.val / 28 = q.val) (A : S1x1024.Idx → Ideal .f32) :
    ((cfg0.win 5).blk t).view.read (Elt Ideal) A = Cert.Hand.bBlk A q := by
  obtain ⟨-, -, -, -, -, -, -, -, -, -, e0, e1⟩ := index_facts t
  funext y
  unfold Cert.Hand.bBlk
  rw [View.read_apply]
  refine congrArg A ?_
  funext a; apply Fin.ext
  match a with
  | ⟨0, _⟩ => show win0_5.index t (0 : Fin 2) * 1 + 1 * (y 0).val = (y 0).val; omega
  | ⟨1, _⟩ => show win0_5.index t (1 : Fin 2) * 512 + 1 * (y 1).val = q.val * 512 + (y 1).val; omega

end Cert.KernelIdeal.Hand

end
-- ==== Proof.PiecesI.lean ====
/-
  What each case of the body leaves, as the step's arithmetic of what it found.

  The runs find the stores as pieces; every store here fills its whole buffer from offset zero, so what is left is
  the last store's value, and every load reads a whole buffer.  Hence: after a step the first accumulator holds
  the step's product of the P block and the first-layer block added to what it held (to zero at k = 0), the
  second likewise with the gate's block, and at k = 27 the output block's buffer holds the gated hidden layer
  (formed from the accumulators AFTER this step's addition) multiplied by the second layer's block.
-/
import proofs.«103122_j77446850281992_2_alg».proof.Proof.PointsI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole buffer from offset zero reads the buffer's contents. -/
theorem whole_ld {S : Shape} (M : Memref sig .tc .vmem S .f32) (h : M.IsWhole) {off : Fin S.rank → Nat} (hz : off = fun _ => 0)
    (inb : ∀ a, off a + S.size a ≤ S.size a) (x : Vec F S .f32) :
    View.readAt (Elt F) M.view (Rect.unit off S.size inb).toLoadRect (h.unread x) = x := by
  rw [View.readAt_eq_ld, h.read_unread, View.ld_unit_zero hz]

theorem midAcc_eq (c : Dev nD) (t : Fin cfg0.N) (hF : ¬atFirst (grid0.coords t)) (hL : ¬atLast (grid0.coords t)) (x0 : Vec F S256x1280 .f32) (x1 x2 : Vec F S1280x512 .f32) (sA sG : Vec F S256x512 .f32) : midAcc (F := F) c t hF hL x0 x1 x2 sA sG = k0_pay4 x0 x1 sA := by
  unfold midAcc
  rw [View.read_writes_eq_canon _ _ _ (midAcc_cover c t hF hL x0 x1 x2 sA sG)]
  unfold midAt runMid
  dsimp only
  refine (View.canon_unit_zero (S := S256x512) zero2 _ _).trans ?_
  exact (congr (congr (congrArg (k0_pay4 (F := F)) (whole_ld (stg0 t) (hstg0 t) zero2 _ x0)) (whole_ld (stg1 t) (hstg1 t) zero2 _ x1)) (whole_ld accM (Memref.isWhole_whole _) zero2 _ sA))

theorem midGate_eq (c : Dev nD) (t : Fin cfg0.N) (hF : ¬atFirst (grid0.coords t)) (hL : ¬atLast (grid0.coords t)) (x0 : Vec F S256x1280 .f32) (x1 x2 : Vec F S1280x512 .f32) (sA sG : Vec F S256x512 .f32) : midGate (F := F) c t hF hL x0 x1 x2 sA sG = k0_pay5 x0 x2 sG := by
  unfold midGate
  rw [View.read_writes_eq_canon _ _ _ (midGate_cover c t hF hL x0 x1 x2 sA sG)]
  unfold midAt runMid
  dsimp only
  refine (View.canon_unit_zero (S := S256x512) zero2 _ _).trans ?_
  exact (congr (congr (congrArg (k0_pay5 (F := F)) (whole_ld (stg0 t) (hstg0 t) zero2 _ x0)) (whole_ld (stg2 t) (hstg2 t) zero2 _ x2)) (whole_ld gateM (Memref.isWhole_whole _) zero2 _ sG))

theorem firstAcc_eq (c : Dev nD) (t : Fin cfg0.N) (hF : atFirst (grid0.coords t)) (hL : ¬atLast (grid0.coords t)) (x0 : Vec F S256x1280 .f32) (x1 x2 : Vec F S1280x512 .f32) : firstAcc (F := F) c t hF hL x0 x1 x2 = k0_pay4 x0 x1 k0_pay1 := by
  unfold firstAcc
  rw [View.read_writes_eq_canon _ _ _ (firstAcc_cover c t hF hL x0 x1 x2)]
  unfold firstAt runFirst
  dsimp only
  refine (View.canon_cons_unit_zero (S := S256x512) zero2 _ _ _).trans ?_
  sl_unfold_run_names
  exact (congr (congr (congrArg (k0_pay4 (F := F)) (whole_ld (stg0 t) (hstg0 t) zero2 _ x0)) (whole_ld (stg1 t) (hstg1 t) zero2 _ x1)) (View.readCov_unit_zero accM.view zero2 _ _))

theorem firstGate_eq (c : Dev nD) (t : Fin cfg0.N) (hF : atFirst (grid0.coords t)) (hL : ¬atLast (grid0.coords t)) (x0 : Vec F S256x1280 .f32) (x1 x2 : Vec F S1280x512 .f32) : firstGate (F := F) c t hF hL x0 x1 x2 = k0_pay5 x0 x2 k0_pay2 := by
  unfold firstGate
  rw [View.read_writes_eq_canon _ _ _ (firstGate_cover c t hF hL x0 x1 x2)]
  unfold firstAt runFirst
  dsimp only
  refine (View.canon_cons_unit_zero (S := S256x512) zero2 _ _ _).trans ?_
  sl_unfold_run_names
  exact (congr (congr (congrArg (k0_pay5 (F := F)) (whole_ld (stg0 t) (hstg0 t) zero2 _ x0)) (whole_ld (stg2 t) (hstg2 t) zero2 _ x2)) (View.readCov_unit_zero gateM.view zero2 _ _))

theorem lastAcc_eq (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : lastAcc (F := F) c t hF hL x0 x1 x2 x3 x4 x5 sA sG = k0_pay4 x0 x1 sA := by
  unfold lastAcc
  rw [View.read_writes_eq_canon _ _ _ (lastAcc_cover c t hF hL x0 x1 x2 x3 x4 x5 sA sG)]
  unfold lastAt runLast
  dsimp only
  refine (View.canon_unit_zero (S := S256x512) zero2 _ _).trans ?_
  sl_unfold_run_names
  exact (congr (congr (congrArg (k0_pay4 (F := F)) (whole_ld (stg0 t) (hstg0 t) zero2 _ x0)) (whole_ld (stg1 t) (hstg1 t) zero2 _ x1)) (whole_ld accM (Memref.isWhole_whole _) zero2 _ sA))

theorem lastGate_eq (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : lastGate (F := F) c t hF hL x0 x1 x2 x3 x4 x5 sA sG = k0_pay5 x0 x2 sG := by
  unfold lastGate
  rw [View.read_writes_eq_canon _ _ _ (lastGate_cover c t hF hL x0 x1 x2 x3 x4 x5 sA sG)]
  unfold lastAt runLast
  dsimp only
  refine (View.canon_unit_zero (S := S256x512) zero2 _ _).trans ?_
  sl_unfold_run_names
  exact (congr (congr (congrArg (k0_pay5 (F := F)) (whole_ld (stg0 t) (hstg0 t) zero2 _ x0)) (whole_ld (stg2 t) (hstg2 t) zero2 _ x2)) (whole_ld gateM (Memref.isWhole_whole _) zero2 _ sG))

theorem lastOut_eq (c : Dev nD) (t : Fin cfg0.N) (hF : ¬atFirst (grid0.coords t)) (hL : atLast (grid0.coords t)) (x0 : Vec F S256x1280 .f32) (x1 x2 : Vec F S1280x512 .f32) (x3 : Vec F S512x128 .f32) (x4 x5 : Vec F S1x512 .f32) (sA sG : Vec F S256x512 .f32) : lastOut (F := F) c t hF hL x0 x1 x2 x3 x4 x5 sA sG = k0_pay6 (k0_pay4 x0 x1 sA) x4 (k0_pay5 x0 x2 sG) x5 x3 := by
  unfold lastOut
  rw [View.read_writes_eq_canon _ _ _ (lastOut_cover c t hF hL x0 x1 x2 x3 x4 x5 sA sG)]
  unfold lastAt runLast
  dsimp only
  refine (View.canon_unit_zero (S := S1x256x128) zero3 _ _).trans ?_
  sl_unfold_run_names
  exact congr (congr (congr (congr (congrArg (k0_pay6 (F := F))
      ((View.readCov_unit_zero accM.view zero2 _ _).trans (congr (congr (congrArg (k0_pay4 (F := F)) (whole_ld (stg0 t) (hstg0 t) zero2 _ x0)) (whole_ld (stg1 t) (hstg1 t) zero2 _ x1)) (whole_ld accM (Memref.isWhole_whole _) zero2 _ sA))))
      (whole_ld (stg4 t) (hstg4 t) zero2 _ x4))
      ((View.readCov_unit_zero gateM.view zero2 _ _).trans (congr (congr (congrArg (k0_pay5 (F := F)) (whole_ld (stg0 t) (hstg0 t) zero2 _ x0)) (whole_ld (stg2 t) (hstg2 t) zero2 _ x2)) (whole_ld gateM (Memref.isWhole_whole _) zero2 _ sG))))
      (whole_ld (stg5 t) (hstg5 t) zero2 _ x5))
      (whole_ld (stg3 t) (hstg3 t) zero2 _ x3)

end Cert.KernelIdeal.Hand

end
-- ==== Proof.StepsI.lean ====
/-
  The accumulators after each grid point, in closed form; hence the output block the last step stores.

  By induction on the step k of half q: after the point (q, k) the first accumulator holds the sum of the first
  k + 1 block products of P with the first-layer matrix (as the specification's recursion `acc1` spells it), the
  second the same for the gate's matrix; at k = 27 the output block's buffer receives the specification's
  `outBlk` of half q.
-/
import proofs.«103122_j77446850281992_2_alg».proof.Proof.BlocksI
import proofs.«103122_j77446850281992_2_alg».proof.Proof.PiecesI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- The arrays the region is entered with, at their plain types (never unfolded: each is a fold of the earlier lines). -/
def inP : S256x35840.Idx → Ideal .f32 := entryAt m c main_v94
def inW1 : S35840x1024.Idx → Ideal .f32 := entryAt m c main_arg5
def inWg : S35840x1024.Idx → Ideal .f32 := entryAt m c main_arg7
def inW2 : S1024x128.Idx → Ideal .f32 := entryAt m c main_arg9
def inB1 : S1x1024.Idx → Ideal .f32 := entryAt m c main_call16_v0
def inBg : S1x1024.Idx → Ideal .f32 := entryAt m c main_call16_v1

theorem blk_p (t : Fin cfg0.N) (k : Fin 28) (hk : t.val % 28 = k.val) : blockAt m c 0 t = Cert.Hand.pBlk (inP m c) k :=
  read_p t k hk (inP m c)
theorem blk_w1 (t : Fin cfg0.N) (k : Fin 28) (q : Fin 2) (hk : t.val % 28 = k.val) (hq : t.val / 28 = q.val) : blockAt m c 1 t = Cert.Hand.wBlk (inW1 m c) k q :=
  read_w1 t k q hk hq (inW1 m c)
theorem blk_wg (t : Fin cfg0.N) (k : Fin 28) (q : Fin 2) (hk : t.val % 28 = k.val) (hq : t.val / 28 = q.val) : blockAt m c 2 t = Cert.Hand.wBlk (inWg m c) k q :=
  read_wg t k q hk hq (inWg m c)
theorem blk_w2 (t : Fin cfg0.N) (q : Fin 2) (hq : t.val / 28 = q.val) : blockAt m c 3 t = Cert.Hand.w2Blk (inW2 m c) q :=
  read_w2 t q hq (inW2 m c)
theorem blk_b1 (t : Fin cfg0.N) (q : Fin 2) (hq : t.val / 28 = q.val) : blockAt m c 4 t = Cert.Hand.bBlk (inB1 m c) q :=
  read_b1 t q hq (inB1 m c)
theorem blk_bg (t : Fin cfg0.N) (q : Fin 2) (hq : t.val / 28 = q.val) : blockAt m c 5 t = Cert.Hand.bBlk (inBg m c) q :=
  read_bg t q hq (inBg m c)

theorem lt_N (q : Fin 2) (k : ℕ) (hk : k < 28) : 28 * q.val + k < cfg0.N := by
  have := q.isLt; rw [show cfg0.N = 56 from N_0]; omega

theorem leftAt_congr (n n' : ℕ) (e : n = n') (h : n < cfg0.N) (h' : n' < cfg0.N) : leftAt m c n h = leftAt m c n' h' := by
  subst e; rfl

/-- After the point (q, k): the two accumulators are the specification's. -/
theorem acc_at (q : Fin 2) : ∀ (k : ℕ) (hk : k < 28),
    (leftAt m c (28 * q.val + k) (lt_N q k hk)).2.1 = Cert.Hand.acc1 (inP m c) (inW1 m c) q k hk
    ∧ (leftAt m c (28 * q.val + k) (lt_N q k hk)).2.2 = Cert.Hand.accg (inP m c) (inWg m c) q k hk
  | 0, hk => by
    have hq2 := q.isLt
    let t : Fin cfg0.N := ⟨28 * q.val + 0, lt_N q 0 hk⟩
    have h0 : t.val % 28 = 0 := by show (28 * q.val + 0) % 28 = 0; omega
    have hq : t.val / 28 = q.val := by show (28 * q.val + 0) / 28 = q.val; omega
    have e := leftAt_first m c t h0
    have eA : (leftAt m c t.val t.isLt).2.1 = Cert.Hand.acc1 (inP m c) (inW1 m c) q 0 hk := by
      rw [e]; dsimp only
      rw [firstAcc_eq, blk_p m c t ⟨0, hk⟩ h0, blk_w1 m c t ⟨0, hk⟩ q h0 hq]; rfl
    have eG : (leftAt m c t.val t.isLt).2.2 = Cert.Hand.accg (inP m c) (inWg m c) q 0 hk := by
      rw [e]; dsimp only
      rw [firstGate_eq, blk_p m c t ⟨0, hk⟩ h0, blk_wg m c t ⟨0, hk⟩ q h0 hq]; rfl
    exact ⟨eA, eG⟩
  | k + 1, hk => by
    have hq2 := q.isLt
    obtain ⟨ihA, ihG⟩ := acc_at q k (Nat.lt_of_succ_lt hk)
    let t : Fin cfg0.N := ⟨28 * q.val + (k + 1), lt_N q (k + 1) hk⟩
    have hm : t.val % 28 = k + 1 := by show (28 * q.val + (k + 1)) % 28 = k + 1; omega
    have h0 : ¬t.val % 28 = 0 := by omega
    have hq : t.val / 28 = q.val := by show (28 * q.val + (k + 1)) / 28 = q.val; omega
    have ep : leftAt m c (t.val - 1) (prevLt t) = leftAt m c (28 * q.val + k) (lt_N q k (Nat.lt_of_succ_lt hk)) :=
      leftAt_congr m c _ _ (by show 28 * q.val + (k + 1) - 1 = 28 * q.val + k; omega) _ _
    by_cases h1 : t.val % 28 = 27
    · have e := leftAt_last m c t h0 h1
      have eA : (leftAt m c t.val t.isLt).2.1 = Cert.Hand.acc1 (inP m c) (inW1 m c) q (k + 1) hk := by
        rw [e]; dsimp only
        rw [lastAcc_eq, blk_p m c t ⟨k + 1, hk⟩ hm, blk_w1 m c t ⟨k + 1, hk⟩ q hm hq, ep, ihA]; rfl
      have eG : (leftAt m c t.val t.isLt).2.2 = Cert.Hand.accg (inP m c) (inWg m c) q (k + 1) hk := by
        rw [e]; dsimp only
        rw [lastGate_eq, blk_p m c t ⟨k + 1, hk⟩ hm, blk_wg m c t ⟨k + 1, hk⟩ q hm hq, ep, ihG]; rfl
      exact ⟨eA, eG⟩
    · have e := leftAt_mid m c t h0 h1
      have eA : (leftAt m c t.val t.isLt).2.1 = Cert.Hand.acc1 (inP m c) (inW1 m c) q (k + 1) hk := by
        rw [e]; dsimp only
        rw [midAcc_eq, blk_p m c t ⟨k + 1, hk⟩ hm, blk_w1 m c t ⟨k + 1, hk⟩ q hm hq, ep, ihA]; rfl
      have eG : (leftAt m c t.val t.isLt).2.2 = Cert.Hand.accg (inP m c) (inWg m c) q (k + 1) hk := by
        rw [e]; dsimp only
        rw [midGate_eq, blk_p m c t ⟨k + 1, hk⟩ hm, blk_wg m c t ⟨k + 1, hk⟩ q hm hq, ep, ihG]; rfl
      exact ⟨eA, eG⟩

/-- At (q, 27) the output block's buffer receives half q of the output. -/
theorem out_at (q : Fin 2) :
    (leftAt m c (28 * q.val + 27) (lt_N q 27 (by decide))).1
      = Cert.Hand.outBlk (inP m c) (inW1 m c) (inB1 m c) (inWg m c) (inBg m c) (inW2 m c) q := by
  have hq2 := q.isLt
  obtain ⟨ihA, ihG⟩ := acc_at m c q 26 (by decide)
  let t : Fin cfg0.N := ⟨28 * q.val + 27, lt_N q 27 (by decide)⟩
  have hm : t.val % 28 = 27 := by show (28 * q.val + 27) % 28 = 27; omega
  have h0 : ¬t.val % 28 = 0 := by omega
  have hq : t.val / 28 = q.val := by show (28 * q.val + 27) / 28 = q.val; omega
  have ep : leftAt m c (t.val - 1) (prevLt t) = leftAt m c (28 * q.val + 26) (lt_N q 26 (by decide)) :=
    leftAt_congr m c _ _ (by show 28 * q.val + 27 - 1 = 28 * q.val + 26; omega) _ _
  have e := leftAt_last m c t h0 hm
  show (leftAt m c t.val t.isLt).1 = _
  rw [e]; dsimp only
  rw [lastOut_eq, blk_p m c t ⟨27, by decide⟩ hm, blk_w1 m c t ⟨27, by decide⟩ q hm hq, blk_wg m c t ⟨27, by decide⟩ q hm hq,
    blk_w2 m c t q hq, blk_b1 m c t q hq, blk_bg m c t q hq, ep, ihA, ihG]
  rfl

/-- The same at any point that writes the output block back. -/
theorem out_left (t : Fin cfg0.N) (ht : t.val % 28 = 27) (q : Fin 2) (hq : t.val / 28 = q.val) :
    (leftAt m c t.val t.isLt).1 = Cert.Hand.outBlk (inP m c) (inW1 m c) (inB1 m c) (inWg m c) (inBg m c) (inW2 m c) q := by
  rw [leftAt_congr m c t.val (28 * q.val + 27) (by omega) t.isLt (lt_N q 27 (by decide))]
  exact out_at m c q

end Cert.KernelIdeal.Hand

end
-- ==== Proof.OutArrayI.lean ====
import proofs.«103122_j77446850281992_2_alg».proof.Proof.PointsI
import proofs.«103122_j77446850281992_2_alg».proof.Proof.Spec
import Idealize.ShloMosaic.Lib.Pipeline.Value

/-!
# From the two stored halves to the stacked output array

The output window's block is one `[1, 256, 128]` slab of the `[2, 256, 128]` array: at point `t` it is slab
`t / 28`, and it is written back only at the last reduction step of each half, `t % 28 = 27`.  If what the body
leaves in the block's buffer at those two points is `outBlk` of the half, then every index of the array lies in the
slab one of the two points writes back, and the array ends as `kerOut`: slab `c` is `outBlk c`.  A block's
coordinate in the array is (block index) × (block size) + (the coordinate inside the block).
-/

noncomputable section

namespace Cert.KernelIdeal.Hand

open Cert.KernelIdeal Cert.KernelIdeal.Gen
open Idealize.ShloMosaic Idealize.ShloMosaic.ValueIdx
open Idealize.SL Idealize.SL.Sem
open Idealize.ShloMosaic.Pipeline (Dat Cfg Window)

variable (m : (ℓ : Loc nD τ sig) → Buf (Elt Ideal) ℓ) (c : Dev nD)
variable (P : S256x35840.Idx → Ideal .f32) (W1 : S35840x1024.Idx → Ideal .f32) (β : S1x1024.Idx → Ideal .f32)
  (Wg : S35840x1024.Idx → Ideal .f32) (γ : S1x1024.Idx → Ideal .f32) (W2 : S1024x128.Idx → Ideal .f32)

/-- The output window's block index over the grid: slab `t / 28`, the whole of the other two axes. -/
theorem out_index : ∀ t : Fin cfg0.N, win0_6.index t (0 : Fin 3) = t.val / 28 ∧ win0_6.index t (1 : Fin 3) = 0
    ∧ win0_6.index t (2 : Fin 3) = 0 :=
  (by decide +kernel : ∀ t : Fin grid0.N, win0_6.index t (0 : Fin 3) = t.val / 28 ∧ win0_6.index t (1 : Fin 3) = 0
    ∧ win0_6.index t (2 : Fin 3) = 0)

/-- The stacked array at an index whose slab is `q` and whose other two coordinates are `y`'s is half `q` at `y`. -/
theorem kerOut_at (i : S2x256x128.Idx) (q : Fin 2) (y : S1x256x128.Idx)
    (h0 : (i 0).val = q.val) (h1 : (i 1).val = (y 1).val) (h2 : (i 2).val = (y 2).val) :
    Cert.Hand.kerOut P W1 β Wg γ W2 i = Cert.Hand.outBlk P W1 β Wg γ W2 q y := by
  have hq : (⟨(i 0).val, (i 0).isLt⟩ : Fin 2) = q := Fin.ext h0
  have hy : ix3 (0 : Fin 1) (⟨(i 1).val, (i 1).isLt⟩ : Fin 256) (⟨(i 2).val, (i 2).isLt⟩ : Fin 128) = y := by
    funext a
    refine Fin.ext ?_
    match a with
    | ⟨0, _⟩ =>
      have hy0 : (y 0).val < 1 := (y 0).isLt
      show 0 = (y 0).val
      omega
    | ⟨1, _⟩ => exact h1
    | ⟨2, _⟩ => exact h2
  show Cert.Hand.outBlk P W1 β Wg γ W2 (⟨(i 0).val, (i 0).isLt⟩ : Fin 2)
    (ix3 (0 : Fin 1) (⟨(i 1).val, (i 1).isLt⟩ : Fin 256) (⟨(i 2).val, (i 2).isLt⟩ : Fin 128)) = _
  rw [hq, hy]

/-- What a point that writes the block back writes is its slab of the stacked array. -/
theorem out_flushed
    (hleft : ∀ t : Fin cfg0.N, (ht : t.val % 28 = 27) → (leftAt m c t.val t.isLt).1
      = Cert.Hand.outBlk P W1 β Wg γ W2 ⟨t.val / 28, by have := t.isLt; have : cfg0.N = 56 := N_0; omega⟩)
    (t : Fin cfg0.N) (hf : (cfg0.win 6).flush t = true) :
    (dats m 0 c).flushed 6 t = ((cfg0.win 6).blk t).view.read (Elt Ideal) (Cert.Hand.kerOut P W1 β Wg γ W2) := by
  have ht : t.val % 28 = 27 := (flush0_6 t).mp hf
  show (cfg0.win 6).cut (grid0.coords t) ((dats m 0 c).after 6 t) = _
  rw [after6, hleft t ht]
  obtain ⟨e0, e1, e2⟩ := out_index t
  funext y
  show Cert.Hand.outBlk P W1 β Wg γ W2 ⟨t.val / 28, _⟩ y
    = Cert.Hand.kerOut P W1 β Wg γ W2 (((cfg0.win 6).blk t).view.emb y)
  refine Eq.symm (kerOut_at P W1 β Wg γ W2 (((cfg0.win 6).blk t).view.emb y) ⟨t.val / 28, _⟩ y ?_ ?_ ?_)
  · show win0_6.index t (0 : Fin 3) * 1 + 1 * (y 0).val = t.val / 28
    have hy0 : (y 0).val < 1 := (y 0).isLt
    omega
  · show win0_6.index t (1 : Fin 3) * 256 + 1 * (y 1).val = (y 1).val
    omega
  · show win0_6.index t (2 : Fin 3) * 128 + 1 * (y 2).val = (y 2).val
    omega

/-- An index of the array is in point `t`'s block iff each coordinate is in the block's range on its axis. -/
theorem out_mem_blk (t : Fin cfg0.N) (i : S2x256x128.Idx) :
    i ∈ ((cfg0.win 6).blk t).view.set ↔ ∀ a : Fin 3, win0_6.index t a * S1x256x128.size a ≤ (i a).val
      ∧ (i a).val < win0_6.index t a * S1x256x128.size a + S1x256x128.size a := by
  show i ∈ ((View.whole main_call16_v2).slice (win0_6.rect t)).set ↔ _
  rw [View.set_slice_whole, Rect.mem_set_unit]
  exact Iff.rfl

/-- Every index of the array is in the slab some point writes back: slab `q` is written at point `28 q + 27`. -/
theorem out_cover (i : S2x256x128.Idx) :
    ∃ t : Fin cfg0.N, (cfg0.win 6).flush t = true ∧ i ∈ ((cfg0.win 6).blk t).view.set := by
  have hN : cfg0.N = 56 := N_0
  have hi0 : (i 0).val < 2 := (i 0).isLt
  have hi1 : (i 1).val < 256 := (i 1).isLt
  have hi2 : (i 2).val < 128 := (i 2).isLt
  obtain ⟨t, hv⟩ : ∃ t : Fin cfg0.N, t.val = 28 * (i 0).val + 27 := ⟨⟨28 * (i 0).val + 27, by omega⟩, rfl⟩
  obtain ⟨e0, e1, e2⟩ := out_index t
  refine ⟨t, (flush0_6 t).mpr (by omega), ?_⟩
  rw [out_mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 128 ≤ (i 2).val ∧ (i 2).val < win0_6.index t (2 : Fin 3) * 128 + 128
    omega

/-- The output array after the region: the two halves stacked. -/
theorem out_array
    (hleft : ∀ t : Fin cfg0.N, (ht : t.val % 28 = 27) → (leftAt m c t.val t.isLt).1
      = Cert.Hand.outBlk P W1 β Wg γ W2 ⟨t.val / 28, by have := t.isLt; have : cfg0.N = 56 := N_0; omega⟩) :
    (dats m 0 c).arrAt 6 cfg0.N = Cert.Hand.kerOut P W1 β Wg γ W2 :=
  (dats m 0 c).arrAt_eq_of_cover 6 (Cert.Hand.kerOut P W1 β Wg γ W2)
    (fun t hf => out_flushed m c P W1 β Wg γ W2 hleft t hf) out_cover

end Cert.KernelIdeal.Hand

end
-- ==== Proof.TailReadI.lean ====
import proofs.«103122_j77446850281992_2_alg».proof.Proof.Spec
import proofs.«103122_j77446850281992_2_alg».proof.Proof.Gen.KernelIdeal.Launch
import Idealize.ShloMosaic.Lib.StableHlo.Run

/-!
# The eight lines after the region, read back

After the region the program takes the two `[1, 256, 128]` slabs of the stacked output, drops their unit axis, adds
them, and adds the output bias broadcast along the rows.  Whatever the buffers hold before those lines, the result
buffer holds afterwards `kerTail` of the stacked output and the bias.
-/

namespace Cert.KernelIdeal.Hand

open Cert.KernelIdeal Cert.KernelIdeal.Gen
open Idealize.ShloMosaic Idealize.SL.Sem

/-- The result buffer after the eight later lines, from any contents `W`. -/
theorem tail_read (W : Valuation τ sig (Elt Ideal)) :
    StableHlo.after (List.flatten [(hostOps1 : List (HloOp τ sig (Elt Ideal)))]) W (Proc.devRef .tc main_v95)
      = Cert.Hand.kerTail (W (Proc.devRef .tc main_call16_v2)) (W (Proc.devRef .tc main_arg10)) := by
  simp only [List.flatten_cons, List.flatten_nil, List.append_nil]
  after_results
  rfl

end Cert.KernelIdeal.Hand
-- ==== Proof.StepTermsK.lean ====
import proofs.«103122_j77446850281992_2_alg».proof.Proof.Gen.KernelIdeal

/-! The host operations before the region, read as pure terms: one definition per buffer they write, each the printed
    operation's own function applied to its operands' definitions (for an operation of a called function, between the
    typed references' transports along their buffers' types, as its builder writes them), over the five arguments the operations read;
    then, stretch by stretch, the statement that a valuation holds these terms at the buffers still to be read. -/

noncomputable section

namespace Cert.KernelIdeal.Hand

open Idealize.ShloMosaic Idealize.ShloMosaic.TcCoe Cert.KernelIdeal.Gen

variable {F : FTy → Type} [FloatOps F]

/-- `main_v0`. -/
def r_main_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x128, .f32⟩ : BufTy).Contents (Elt F) :=
  (mulf : (⟨S256x128, .f32⟩ : BufTy).Contents (Elt F) → (⟨S256x128, .f32⟩ : BufTy).Contents (Elt F) → (⟨S256x128, .f32⟩ : BufTy).Contents (Elt F)) a0 a4
/-- `main_cst`. -/
def r_main_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x00000000#32)
/-- `main_v1`. -/
def r_main_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  ((fun x v => Host.reduceAdd x v Gen.reducesTo_S256x128_S256_d1 Gen.h_S_) : (⟨S256x128, .f32⟩ : BufTy).Contents (Elt F) → (⟨S_, .f32⟩ : BufTy).Contents (Elt F) → (⟨S256, .f32⟩ : BufTy).Contents (Elt F)) (r_main_v0 a0 a1 a2 a3 a4) (r_main_cst a0 a1 a2 a3 a4)
/-- `main_cst_0`. -/
def r_main_cst_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x322BCC77#32)
/-- `main_v2`. -/
def r_main_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (broadcastInDim S256 ![] Gen.bcast_S_S256 : (⟨S_, .f32⟩ : BufTy).Contents (Elt F) → (⟨S256, .f32⟩ : BufTy).Contents (Elt F)) (r_main_cst_0 a0 a1 a2 a3 a4)
/-- `main_v3`. -/
def r_main_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (addf : (⟨S256, .f32⟩ : BufTy).Contents (Elt F) → (⟨S256, .f32⟩ : BufTy).Contents (Elt F) → (⟨S256, .f32⟩ : BufTy).Contents (Elt F)) (r_main_v1 a0 a1 a2 a3 a4) (r_main_v2 a0 a1 a2 a3 a4)
/-- `main_v4`. -/
def r_main_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (Host.log : (⟨S256, .f32⟩ : BufTy).Contents (Elt F) → (⟨S256, .f32⟩ : BufTy).Contents (Elt F)) (r_main_v3 a0 a1 a2 a3 a4)
/-- `main_v5`. -/
def r_main_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (Host.negf : (⟨S256, .f32⟩ : BufTy).Contents (Elt F) → (⟨S256, .f32⟩ : BufTy).Contents (Elt F)) (r_main_v4 a0 a1 a2 a3 a4)
/-- `main_c`. -/
def r_main_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v6`. -/
def r_main_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (broadcastInDim S256x256 ![] Gen.bcast_S_S256x256 : (⟨S_, .i32⟩ : BufTy).Contents (Elt F) → (⟨S256x256, .i32⟩ : BufTy).Contents (Elt F)) (r_main_c a0 a1 a2 a3 a4)
/-- `main_v7`. -/
def r_main_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (addi : (⟨S256x256, .i32⟩ : BufTy).Contents (Elt F) → (⟨S256x256, .i32⟩ : BufTy).Contents (Elt F) → (⟨S256x256, .i32⟩ : BufTy).Contents (Elt F)) a2 (r_main_v6 a0 a1 a2 a3 a4)
/-- `main_cst_1`. -/
def r_main_cst_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x3F7D70A4#32)
/-- `main_v8`. -/
def r_main_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (broadcastInDim S256x256 ![] Gen.bcast_S_S256x256 : (⟨S_, .f32⟩ : BufTy).Contents (Elt F) → (⟨S256x256, .f32⟩ : BufTy).Contents (Elt F)) (r_main_cst_1 a0 a1 a2 a3 a4)
/-- `main_v9`. -/
def r_main_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (mulf : (⟨S256x256, .f32⟩ : BufTy).Contents (Elt F) → (⟨S256x256, .f32⟩ : BufTy).Contents (Elt F) → (⟨S256x256, .f32⟩ : BufTy).Contents (Elt F)) a3 (r_main_v8 a0 a1 a2 a3 a4)
/-- `main_call0_v0`. -/
def r_main_call0_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1x128, .f32⟩ : BufTy).Contents (Elt F) :=
  (StableHlo.TRef.of main_call0_v0 : StableHlo.TRef sig ⟨S256x1x128, .f32⟩).toBuf (((extractStridedSlice S256x1x128 ![0, 255, 0] · Gen.slices_S256x256x128_S256x1x128_0_255_0) : (⟨S256x256x128, .f32⟩ : BufTy).Contents (Elt F) → (⟨S256x1x128, .f32⟩ : BufTy).Contents (Elt F)) ((StableHlo.TRef.of main_arg1 : StableHlo.TRef sig ⟨S256x256x128, .f32⟩).ofBuf a1))
/-- `main_call0_v1`. -/
def r_main_call0_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255x128, .f32⟩ : BufTy).Contents (Elt F) :=
  (StableHlo.TRef.of main_call0_v1 : StableHlo.TRef sig ⟨S256x255x128, .f32⟩).toBuf (((extractStridedSlice S256x255x128 ![0, 0, 0] · Gen.slices_S256x256x128_S256x255x128_0_0_0) : (⟨S256x256x128, .f32⟩ : BufTy).Contents (Elt F) → (⟨S256x255x128, .f32⟩ : BufTy).Contents (Elt F)) ((StableHlo.TRef.of main_arg1 : StableHlo.TRef sig ⟨S256x256x128, .f32⟩).ofBuf a1))
/-- `main_v10`. -/
def r_main_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_v10 : StableHlo.TRef sig ⟨S256x256x128, .f32⟩).toBuf (((fun a b => concatenate S256x256x128 1 [⟨S256x1x128, a⟩, ⟨S256x255x128, b⟩] Gen.concatenates_S256x1x128_S256x255x128_S256x256x128_d1) : (⟨S256x1x128, .f32⟩ : BufTy).Contents (Elt F) → (⟨S256x255x128, .f32⟩ : BufTy).Contents (Elt F) → (⟨S256x256x128, .f32⟩ : BufTy).Contents (Elt F)) ((StableHlo.TRef.of main_call0_v0 : StableHlo.TRef sig ⟨S256x1x128, .f32⟩).ofBuf (r_main_call0_v0 a0 a1 a2 a3 a4)) ((StableHlo.TRef.of main_call0_v1 : StableHlo.TRef sig ⟨S256x255x128, .f32⟩).ofBuf (r_main_call0_v1 a0 a1 a2 a3 a4)))
/-- `main_c_2`. -/
def r_main_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v11`. -/
def r_main_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_2 a0 a1 a2 a3 a4)
/-- `main_v12`. -/
def r_main_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  ((fun x i u => Host.scatter scatter_S256x256x128_S1_S256x128_01_1_1_0 (fun _ b => b) x i u) : (⟨S256x256x128, .f32⟩ : BufTy).Contents (Elt F) → (⟨S1, .i32⟩ : BufTy).Contents (Elt F) → (⟨S256x128, .f32⟩ : BufTy).Contents (Elt F) → (⟨S256x256x128, .f32⟩ : BufTy).Contents (Elt F)) (r_main_v10 a0 a1 a2 a3 a4) (r_main_v11 a0 a1 a2 a3 a4) a0
/-- `main_call1_v0`. -/
def r_main_call1_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .i32⟩ : BufTy).Contents (Elt F) :=
  (StableHlo.TRef.of main_call1_v0 : StableHlo.TRef sig ⟨S256x1, .i32⟩).toBuf (((extractStridedSlice S256x1 ![0, 255] · Gen.slices_S256x256_S256x1_0_255) : (⟨S256x256, .i32⟩ : BufTy).Contents (Elt F) → (⟨S256x1, .i32⟩ : BufTy).Contents (Elt F)) ((StableHlo.TRef.of main_v7 : StableHlo.TRef sig ⟨S256x256, .i32⟩).ofBuf (r_main_v7 a0 a1 a2 a3 a4)))
/-- `main_call1_v1`. -/
def r_main_call1_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255, .i32⟩ : BufTy).Contents (Elt F) :=
  (StableHlo.TRef.of main_call1_v1 : StableHlo.TRef sig ⟨S256x255, .i32⟩).toBuf (((extractStridedSlice S256x255 ![0, 0] · Gen.slices_S256x256_S256x255_0_0) : (⟨S256x256, .i32⟩ : BufTy).Contents (Elt F) → (⟨S256x255, .i32⟩ : BufTy).Contents (Elt F)) ((StableHlo.TRef.of main_v7 : StableHlo.TRef sig ⟨S256x256, .i32⟩).ofBuf (r_main_v7 a0 a1 a2 a3 a4)))
/-- `main_v13`. -/
def r_main_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v13 : StableHlo.TRef sig ⟨S256x256, .i32⟩).toBuf (((fun a b => concatenate S256x256 1 [⟨S256x1, a⟩, ⟨S256x255, b⟩] Gen.concatenates_S256x1_S256x255_S256x256_d1) : (⟨S256x1, .i32⟩ : BufTy).Contents (Elt F) → (⟨S256x255, .i32⟩ : BufTy).Contents (Elt F) → (⟨S256x256, .i32⟩ : BufTy).Contents (Elt F)) ((StableHlo.TRef.of main_call1_v0 : StableHlo.TRef sig ⟨S256x1, .i32⟩).ofBuf (r_main_call1_v0 a0 a1 a2 a3 a4)) ((StableHlo.TRef.of main_call1_v1 : StableHlo.TRef sig ⟨S256x255, .i32⟩).ofBuf (r_main_call1_v1 a0 a1 a2 a3 a4)))
/-- `main_c_3`. -/
def r_main_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v14`. -/
def r_main_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_3 a0 a1 a2 a3 a4)
/-- `main_c_4`. -/
def r_main_c_4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v15`. -/
def r_main_v15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .i32⟩ : BufTy).Contents (Elt F) :=
  (broadcastInDim S256 ![] Gen.bcast_S_S256 : (⟨S_, .i32⟩ : BufTy).Contents (Elt F) → (⟨S256, .i32⟩ : BufTy).Contents (Elt F)) (r_main_c_4 a0 a1 a2 a3 a4)
/-- `main_v16`. -/
def r_main_v16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  ((fun x i u => Host.scatter scatter_S256x256_S1_S256_0_1_1_0 (fun _ b => b) x i u) : (⟨S256x256, .i32⟩ : BufTy).Contents (Elt F) → (⟨S1, .i32⟩ : BufTy).Contents (Elt F) → (⟨S256, .i32⟩ : BufTy).Contents (Elt F) → (⟨S256x256, .i32⟩ : BufTy).Contents (Elt F)) (r_main_v13 a0 a1 a2 a3 a4) (r_main_v14 a0 a1 a2 a3 a4) (r_main_v15 a0 a1 a2 a3 a4)
/-- `main_call2_v0`. -/
def r_main_call2_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (StableHlo.TRef.of main_call2_v0 : StableHlo.TRef sig ⟨S256x1, .f32⟩).toBuf (((extractStridedSlice S256x1 ![0, 255] · Gen.slices_S256x256_S256x1_0_255) : (⟨S256x256, .f32⟩ : BufTy).Contents (Elt F) → (⟨S256x1, .f32⟩ : BufTy).Contents (Elt F)) ((StableHlo.TRef.of main_v9 : StableHlo.TRef sig ⟨S256x256, .f32⟩).ofBuf (r_main_v9 a0 a1 a2 a3 a4)))
/-- `main_call2_v1`. -/
def r_main_call2_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255, .f32⟩ : BufTy).Contents (Elt F) :=
  (StableHlo.TRef.of main_call2_v1 : StableHlo.TRef sig ⟨S256x255, .f32⟩).toBuf (((extractStridedSlice S256x255 ![0, 0] · Gen.slices_S256x256_S256x255_0_0) : (⟨S256x256, .f32⟩ : BufTy).Contents (Elt F) → (⟨S256x255, .f32⟩ : BufTy).Contents (Elt F)) ((StableHlo.TRef.of main_v9 : StableHlo.TRef sig ⟨S256x256, .f32⟩).ofBuf (r_main_v9 a0 a1 a2 a3 a4)))
/-- `main_v17`. -/
def r_main_v17 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_v17 : StableHlo.TRef sig ⟨S256x256, .f32⟩).toBuf (((fun a b => concatenate S256x256 1 [⟨S256x1, a⟩, ⟨S256x255, b⟩] Gen.concatenates_S256x1_S256x255_S256x256_d1) : (⟨S256x1, .f32⟩ : BufTy).Contents (Elt F) → (⟨S256x255, .f32⟩ : BufTy).Contents (Elt F) → (⟨S256x256, .f32⟩ : BufTy).Contents (Elt F)) ((StableHlo.TRef.of main_call2_v0 : StableHlo.TRef sig ⟨S256x1, .f32⟩).ofBuf (r_main_call2_v0 a0 a1 a2 a3 a4)) ((StableHlo.TRef.of main_call2_v1 : StableHlo.TRef sig ⟨S256x255, .f32⟩).ofBuf (r_main_call2_v1 a0 a1 a2 a3 a4)))
/-- `main_c_5`. -/
def r_main_c_5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v18`. -/
def r_main_v18 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_5 a0 a1 a2 a3 a4)
/-- `main_v19`. -/
def r_main_v19 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  ((fun x i u => Host.scatter scatter_S256x256_S1_S256_0_1_1_0 (fun _ b => b) x i u) : (⟨S256x256, .f32⟩ : BufTy).Contents (Elt F) → (⟨S1, .i32⟩ : BufTy).Contents (Elt F) → (⟨S256, .f32⟩ : BufTy).Contents (Elt F) → (⟨S256x256, .f32⟩ : BufTy).Contents (Elt F)) (r_main_v17 a0 a1 a2 a3 a4) (r_main_v18 a0 a1 a2 a3 a4) (r_main_v5 a0 a1 a2 a3 a4)
/-- `main_call3_v0`. -/
def r_main_call3_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call3_v0 : StableHlo.TRef sig ⟨S256x256, .i32⟩).toBuf (iotaInDim S256x256 32 1)
/-- `main_call3_v1_0`. -/
def r_main_call3_v1_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call3_v1_0 : StableHlo.TRef sig ⟨S256x256, .i32⟩).toBuf (((fun x y => (Host.sort2 S256x256 1 comparator_i32_i32_d1 x y).1) : (⟨S256x256, .i32⟩ : BufTy).Contents (Elt F) → (⟨S256x256, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call3_v0 : StableHlo.TRef sig ⟨S256x256, .i32⟩).ofBuf (r_main_call3_v0 a0 a1 a2 a3 a4)))
/-- `main_v20`. -/
def r_main_v20 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v20 : StableHlo.TRef sig ⟨S256x256, .i32⟩).toBuf (((fun x y => (Host.sort2 S256x256 1 comparator_i32_i32_d1 x y).2) : (⟨S256x256, .i32⟩ : BufTy).Contents (Elt F) → (⟨S256x256, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call3_v0 : StableHlo.TRef sig ⟨S256x256, .i32⟩).ofBuf (r_main_call3_v0 a0 a1 a2 a3 a4)))
/-- `main_call4_c`. -/
def r_main_call4_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c : StableHlo.TRef sig ⟨S_, .i32⟩).toBuf (constantI S_ 32 0#32)
/-- `main_call4_v0`. -/
def r_main_call4_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v0 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c : StableHlo.TRef sig ⟨S_, .i32⟩).ofBuf (r_main_call4_c a0 a1 a2 a3 a4)))
/-- `main_call4_v1`. -/
def r_main_call4_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call4_v1 : StableHlo.TRef sig ⟨S256x256, .i1⟩).toBuf (((cmpi .slt) : (⟨S256x256, .i32⟩ : BufTy).Contents (Elt F) → (⟨S256x256, .i32⟩ : BufTy).Contents (Elt F) → (⟨S256x256, .i1⟩ : BufTy).Contents (Elt F)) ((StableHlo.TRef.of main_v20 : StableHlo.TRef sig ⟨S256x256, .i32⟩).ofBuf (r_main_v20 a0 a1 a2 a3 a4)) ((StableHlo.TRef.of main_call4_v0 : StableHlo.TRef sig ⟨S256x256, .i32⟩).ofBuf (r_main_call4_v0 a0 a1 a2 a3 a4)))
/-- `main_call4_c_0`. -/
def r_main_call4_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_0 : StableHlo.TRef sig ⟨S_, .i32⟩).toBuf (constantI S_ 32 256#32)
/-- `main_call4_v2`. -/
def r_main_call4_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v2 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c_0 : StableHlo.TRef sig ⟨S_, .i32⟩).ofBuf (r_main_call4_c_0 a0 a1 a2 a3 a4)))
/-- `main_call4_v3`. -/
def r_main_call4_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v3 : StableHlo.TRef sig ⟨S256x256, .i32⟩).toBuf ((addi : (⟨S256x256, .i32⟩ : BufTy).Contents (Elt F) → (⟨S256x256, .i32⟩ : BufTy).Contents (Elt F) → (⟨S256x256, .i32⟩ : BufTy).Contents (Elt F)) ((StableHlo.TRef.of main_v20 : StableHlo.TRef sig ⟨S256x256, .i32⟩).ofBuf (r_main_v20 a0 a1 a2 a3 a4)) ((StableHlo.TRef.of main_call4_v2 : StableHlo.TRef sig ⟨S256x256, .i32⟩).ofBuf (r_main_call4_v2 a0 a1 a2 a3 a4)))
/-- `main_call4_v4`. -/
def r_main_call4_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v4 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call4_v1 : StableHlo.TRef sig ⟨S256x256, .i1⟩).ofBuf (r_main_call4_v1 a0 a1 a2 a3 a4)) ((StableHlo.TRef.of main_call4_v3 : StableHlo.TRef sig ⟨S256x256, .i32⟩).ofBuf (r_main_call4_v3 a0 a1 a2 a3 a4)) ((StableHlo.TRef.of main_v20 : StableHlo.TRef sig ⟨S256x256, .i32⟩).ofBuf (r_main_v20 a0 a1 a2 a3 a4)))
/-- `main_call4_v5`. -/
def r_main_call4_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  shapeCast S256x256x1 (r_main_call4_v4 a0 a1 a2 a3 a4) Gen.shapeCasts_S256x256_S256x256x1
/-- `main_call4_c_1`. -/
def r_main_call4_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call4_c_1 : StableHlo.TRef sig ⟨S1, .i32⟩).toBuf (constantI S1 32 255#32)
/-- `main_call4_c_2`. -/
def r_main_call4_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_2 : StableHlo.TRef sig ⟨S_, .i32⟩).toBuf (constantI S_ 32 0#32)
/-- `main_call4_v6`. -/
def r_main_call4_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call4_v6 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call4_c_2 : StableHlo.TRef sig ⟨S_, .i32⟩).ofBuf (r_main_call4_c_2 a0 a1 a2 a3 a4)))
/-- `main_call4_v7`. -/
def r_main_call4_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v7 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call4_v5 : StableHlo.TRef sig ⟨S256x256x1, .i32⟩).ofBuf (r_main_call4_v5 a0 a1 a2 a3 a4)) ((StableHlo.TRef.of main_call4_v6 : StableHlo.TRef sig ⟨S256x256x1, .i32⟩).ofBuf (r_main_call4_v6 a0 a1 a2 a3 a4)))
/-- `main_call4_v8`. -/
def r_main_call4_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call4_v8 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call4_c_1 : StableHlo.TRef sig ⟨S1, .i32⟩).ofBuf (r_main_call4_c_1 a0 a1 a2 a3 a4)))
/-- `main_call4_v9`. -/
def r_main_call4_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call4_v9 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call4_v8 : StableHlo.TRef sig ⟨S1x1x1, .i32⟩).ofBuf (r_main_call4_v8 a0 a1 a2 a3 a4)))
/-- `main_call4_v10`. -/
def r_main_call4_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v10 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call4_v5 : StableHlo.TRef sig ⟨S256x256x1, .i32⟩).ofBuf (r_main_call4_v5 a0 a1 a2 a3 a4)) ((StableHlo.TRef.of main_call4_v9 : StableHlo.TRef sig ⟨S256x256x1, .i32⟩).ofBuf (r_main_call4_v9 a0 a1 a2 a3 a4)))
/-- `main_call4_v11`. -/
def r_main_call4_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v11 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call4_v7 : StableHlo.TRef sig ⟨S256x256x1, .i1⟩).ofBuf (r_main_call4_v7 a0 a1 a2 a3 a4)) ((StableHlo.TRef.of main_call4_v10 : StableHlo.TRef sig ⟨S256x256x1, .i1⟩).ofBuf (r_main_call4_v10 a0 a1 a2 a3 a4)))
/-- `main_call4_c_3`. -/
def r_main_call4_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call4_c_3 : StableHlo.TRef sig ⟨S_, .i1⟩).toBuf (constantI S_ 1 1#1)
/-- `main_call4_v12`. -/
def r_main_call4_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call4_v12 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call4_v11 : StableHlo.TRef sig ⟨S256x256x1, .i1⟩).ofBuf (r_main_call4_v11 a0 a1 a2 a3 a4)) ((StableHlo.TRef.of main_call4_c_3 : StableHlo.TRef sig ⟨S_, .i1⟩).ofBuf (r_main_call4_c_3 a0 a1 a2 a3 a4)))
/-- `main_call4_v13`. -/
def r_main_call4_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v13 : StableHlo.TRef sig ⟨S256x256, .i32⟩).toBuf (((fun x i => Host.gather gather_S256x256_S256x256x1_S256x256_n_1_0_0_1_2_11 x i) : (⟨S256x256, .i32⟩ : BufTy).Contents (Elt F) → (⟨S256x256x1, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call4_v5 : StableHlo.TRef sig ⟨S256x256x1, .i32⟩).ofBuf (r_main_call4_v5 a0 a1 a2 a3 a4)))
/-- `main_call4_c_4`. -/
def r_main_call4_c_4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_4 : StableHlo.TRef sig ⟨S_, .i32⟩).toBuf (constantI S_ 32 2147483648#32)
/-- `main_call4_v14`. -/
def r_main_call4_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v14 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c_4 : StableHlo.TRef sig ⟨S_, .i32⟩).ofBuf (r_main_call4_c_4 a0 a1 a2 a3 a4)))
/-- `main_v21`. -/
def r_main_v21 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v21 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call4_v12 : StableHlo.TRef sig ⟨S256x256, .i1⟩).ofBuf (r_main_call4_v12 a0 a1 a2 a3 a4)) ((StableHlo.TRef.of main_call4_v13 : StableHlo.TRef sig ⟨S256x256, .i32⟩).ofBuf (r_main_call4_v13 a0 a1 a2 a3 a4)) ((StableHlo.TRef.of main_call4_v14 : StableHlo.TRef sig ⟨S256x256, .i32⟩).ofBuf (r_main_call4_v14 a0 a1 a2 a3 a4)))
/-- `main_v22`. -/
def r_main_v22 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (broadcastInDim S256x256x1 ![0, 1] Gen.bcast_S256x256_S256x256x1_0_1 : (⟨S256x256, .i32⟩ : BufTy).Contents (Elt F) → (⟨S256x256x1, .i32⟩ : BufTy).Contents (Elt F)) (r_main_v20 a0 a1 a2 a3 a4)
/-- `main_call5_c`. -/
def r_main_call5_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c : StableHlo.TRef sig ⟨S_, .i32⟩).toBuf (constantI S_ 32 0#32)
/-- `main_call5_v0`. -/
def r_main_call5_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v0 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c : StableHlo.TRef sig ⟨S_, .i32⟩).ofBuf (r_main_call5_c a0 a1 a2 a3 a4)))
/-- `main_call5_v1`. -/
def r_main_call5_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v1 : StableHlo.TRef sig ⟨S256x256x1, .i1⟩).toBuf (((cmpi .slt) : (⟨S256x256x1, .i32⟩ : BufTy).Contents (Elt F) → (⟨S256x256x1, .i32⟩ : BufTy).Contents (Elt F) → (⟨S256x256x1, .i1⟩ : BufTy).Contents (Elt F)) ((StableHlo.TRef.of main_v22 : StableHlo.TRef sig ⟨S256x256x1, .i32⟩).ofBuf (r_main_v22 a0 a1 a2 a3 a4)) ((StableHlo.TRef.of main_call5_v0 : StableHlo.TRef sig ⟨S256x256x1, .i32⟩).ofBuf (r_main_call5_v0 a0 a1 a2 a3 a4)))
/-- `main_call5_c_0`. -/
def r_main_call5_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c_0 : StableHlo.TRef sig ⟨S_, .i32⟩).toBuf (constantI S_ 32 256#32)
/-- `main_call5_v2`. -/
def r_main_call5_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v2 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c_0 : StableHlo.TRef sig ⟨S_, .i32⟩).ofBuf (r_main_call5_c_0 a0 a1 a2 a3 a4)))
/-- `main_call5_v3`. -/
def r_main_call5_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v3 : StableHlo.TRef sig ⟨S256x256x1, .i32⟩).toBuf ((addi : (⟨S256x256x1, .i32⟩ : BufTy).Contents (Elt F) → (⟨S256x256x1, .i32⟩ : BufTy).Contents (Elt F) → (⟨S256x256x1, .i32⟩ : BufTy).Contents (Elt F)) ((StableHlo.TRef.of main_v22 : StableHlo.TRef sig ⟨S256x256x1, .i32⟩).ofBuf (r_main_v22 a0 a1 a2 a3 a4)) ((StableHlo.TRef.of main_call5_v2 : StableHlo.TRef sig ⟨S256x256x1, .i32⟩).ofBuf (r_main_call5_v2 a0 a1 a2 a3 a4)))
/-- `main_call5_v4`. -/
def r_main_call5_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v4 : StableHlo.TRef sig ⟨S256x256x1, .i32⟩).toBuf ((select : (⟨S256x256x1, .i1⟩ : BufTy).Contents (Elt F) → (⟨S256x256x1, .i32⟩ : BufTy).Contents (Elt F) → (⟨S256x256x1, .i32⟩ : BufTy).Contents (Elt F) → (⟨S256x256x1, .i32⟩ : BufTy).Contents (Elt F)) ((StableHlo.TRef.of main_call5_v1 : StableHlo.TRef sig ⟨S256x256x1, .i1⟩).ofBuf (r_main_call5_v1 a0 a1 a2 a3 a4)) ((StableHlo.TRef.of main_call5_v3 : StableHlo.TRef sig ⟨S256x256x1, .i32⟩).ofBuf (r_main_call5_v3 a0 a1 a2 a3 a4)) ((StableHlo.TRef.of main_v22 : StableHlo.TRef sig ⟨S256x256x1, .i32⟩).ofBuf (r_main_v22 a0 a1 a2 a3 a4)))
/-- `main_call5_c_1`. -/
def r_main_call5_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call5_c_1 : StableHlo.TRef sig ⟨S1, .i32⟩).toBuf (constantI S1 32 255#32)
/-- `main_call5_c_2`. -/
def r_main_call5_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c_2 : StableHlo.TRef sig ⟨S_, .i32⟩).toBuf (constantI S_ 32 0#32)
/-- `main_call5_v5`. -/
def r_main_call5_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v5 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c_2 : StableHlo.TRef sig ⟨S_, .i32⟩).ofBuf (r_main_call5_c_2 a0 a1 a2 a3 a4)))
/-- `main_call5_v6`. -/
def r_main_call5_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v6 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call5_v4 : StableHlo.TRef sig ⟨S256x256x1, .i32⟩).ofBuf (r_main_call5_v4 a0 a1 a2 a3 a4)) ((StableHlo.TRef.of main_call5_v5 : StableHlo.TRef sig ⟨S256x256x1, .i32⟩).ofBuf (r_main_call5_v5 a0 a1 a2 a3 a4)))
/-- `main_call5_v7`. -/
def r_main_call5_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call5_v7 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call5_c_1 : StableHlo.TRef sig ⟨S1, .i32⟩).ofBuf (r_main_call5_c_1 a0 a1 a2 a3 a4)))
/-- `main_call5_v8`. -/
def r_main_call5_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v8 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call5_v7 : StableHlo.TRef sig ⟨S1x1x1, .i32⟩).ofBuf (r_main_call5_v7 a0 a1 a2 a3 a4)))
/-- `main_call5_v9`. -/
def r_main_call5_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v9 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call5_v4 : StableHlo.TRef sig ⟨S256x256x1, .i32⟩).ofBuf (r_main_call5_v4 a0 a1 a2 a3 a4)) ((StableHlo.TRef.of main_call5_v8 : StableHlo.TRef sig ⟨S256x256x1, .i32⟩).ofBuf (r_main_call5_v8 a0 a1 a2 a3 a4)))
/-- `main_call5_v10`. -/
def r_main_call5_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v10 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call5_v6 : StableHlo.TRef sig ⟨S256x256x1, .i1⟩).ofBuf (r_main_call5_v6 a0 a1 a2 a3 a4)) ((StableHlo.TRef.of main_call5_v9 : StableHlo.TRef sig ⟨S256x256x1, .i1⟩).ofBuf (r_main_call5_v9 a0 a1 a2 a3 a4)))
/-- `main_call5_c_3`. -/
def r_main_call5_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call5_c_3 : StableHlo.TRef sig ⟨S_, .i1⟩).toBuf (constantI S_ 1 1#1)
/-- `main_call5_v11`. -/
def r_main_call5_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call5_v11 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call5_v10 : StableHlo.TRef sig ⟨S256x256x1, .i1⟩).ofBuf (r_main_call5_v10 a0 a1 a2 a3 a4)) ((StableHlo.TRef.of main_call5_c_3 : StableHlo.TRef sig ⟨S_, .i1⟩).ofBuf (r_main_call5_c_3 a0 a1 a2 a3 a4)))
/-- `main_call5_v12`. -/
def r_main_call5_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_call5_v12 : StableHlo.TRef sig ⟨S256x256x128, .f32⟩).toBuf (((fun x i => Host.gather gather_S256x256x128_S256x256x1_S256x256x128_2_1_0_0_1_2_11128 x i) : (⟨S256x256x128, .f32⟩ : BufTy).Contents (Elt F) → (⟨S256x256x1, .i32⟩ : BufTy).Contents (Elt F) → (⟨S256x256x128, .f32⟩ : BufTy).Contents (Elt F)) ((StableHlo.TRef.of main_v12 : StableHlo.TRef sig ⟨S256x256x128, .f32⟩).ofBuf (r_main_v12 a0 a1 a2 a3 a4)) ((StableHlo.TRef.of main_call5_v4 : StableHlo.TRef sig ⟨S256x256x1, .i32⟩).ofBuf (r_main_call5_v4 a0 a1 a2 a3 a4)))
/-- `main_call5_v13`. -/
def r_main_call5_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .i1⟩ : BufTy).Contents (Elt F) :=
  (StableHlo.TRef.of main_call5_v13 : StableHlo.TRef sig ⟨S256x256x128, .i1⟩).toBuf (((broadcastInDim S256x256x128 ![0, 1] Gen.bcast_S256x256_S256x256x128_0_1) : (⟨S256x256, .i1⟩ : BufTy).Contents (Elt F) → (⟨S256x256x128, .i1⟩ : BufTy).Contents (Elt F)) ((StableHlo.TRef.of main_call5_v11 : StableHlo.TRef sig ⟨S256x256, .i1⟩).ofBuf (r_main_call5_v11 a0 a1 a2 a3 a4)))
/-- `main_call5_cst`. -/
def r_main_call5_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (StableHlo.TRef.of main_call5_cst : StableHlo.TRef sig ⟨S_, .f32⟩).toBuf (constant S_ .f32 0x7FC00000#32)
/-- `main_call5_v14`. -/
def r_main_call5_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_call5_v14 : StableHlo.TRef sig ⟨S256x256x128, .f32⟩).toBuf (((broadcastInDim S256x256x128 ![] Gen.bcast_S_S256x256x128) : (⟨S_, .f32⟩ : BufTy).Contents (Elt F) → (⟨S256x256x128, .f32⟩ : BufTy).Contents (Elt F)) ((StableHlo.TRef.of main_call5_cst : StableHlo.TRef sig ⟨S_, .f32⟩).ofBuf (r_main_call5_cst a0 a1 a2 a3 a4)))
/-- `main_v23`. -/
def r_main_v23 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_v23 : StableHlo.TRef sig ⟨S256x256x128, .f32⟩).toBuf ((select : (⟨S256x256x128, .i1⟩ : BufTy).Contents (Elt F) → (⟨S256x256x128, .f32⟩ : BufTy).Contents (Elt F) → (⟨S256x256x128, .f32⟩ : BufTy).Contents (Elt F) → (⟨S256x256x128, .f32⟩ : BufTy).Contents (Elt F)) ((StableHlo.TRef.of main_call5_v13 : StableHlo.TRef sig ⟨S256x256x128, .i1⟩).ofBuf (r_main_call5_v13 a0 a1 a2 a3 a4)) ((StableHlo.TRef.of main_call5_v12 : StableHlo.TRef sig ⟨S256x256x128, .f32⟩).ofBuf (r_main_call5_v12 a0 a1 a2 a3 a4)) ((StableHlo.TRef.of main_call5_v14 : StableHlo.TRef sig ⟨S256x256x128, .f32⟩).ofBuf (r_main_call5_v14 a0 a1 a2 a3 a4)))
/-- `main_call6_c`. -/
def r_main_call6_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c : StableHlo.TRef sig ⟨S_, .i32⟩).toBuf (constantI S_ 32 0#32)
/-- `main_call6_v0`. -/
def r_main_call6_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v0 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call6_c : StableHlo.TRef sig ⟨S_, .i32⟩).ofBuf (r_main_call6_c a0 a1 a2 a3 a4)))
/-- `main_call6_v1`. -/
def r_main_call6_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call6_v1 : StableHlo.TRef sig ⟨S256x256, .i1⟩).toBuf (((cmpi .slt) : (⟨S256x256, .i32⟩ : BufTy).Contents (Elt F) → (⟨S256x256, .i32⟩ : BufTy).Contents (Elt F) → (⟨S256x256, .i1⟩ : BufTy).Contents (Elt F)) ((StableHlo.TRef.of main_v20 : StableHlo.TRef sig ⟨S256x256, .i32⟩).ofBuf (r_main_v20 a0 a1 a2 a3 a4)) ((StableHlo.TRef.of main_call6_v0 : StableHlo.TRef sig ⟨S256x256, .i32⟩).ofBuf (r_main_call6_v0 a0 a1 a2 a3 a4)))
/-- `main_call6_c_0`. -/
def r_main_call6_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c_0 : StableHlo.TRef sig ⟨S_, .i32⟩).toBuf (constantI S_ 32 256#32)
/-- `main_call6_v2`. -/
def r_main_call6_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v2 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call6_c_0 : StableHlo.TRef sig ⟨S_, .i32⟩).ofBuf (r_main_call6_c_0 a0 a1 a2 a3 a4)))
/-- `main_call6_v3`. -/
def r_main_call6_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v3 : StableHlo.TRef sig ⟨S256x256, .i32⟩).toBuf ((addi : (⟨S256x256, .i32⟩ : BufTy).Contents (Elt F) → (⟨S256x256, .i32⟩ : BufTy).Contents (Elt F) → (⟨S256x256, .i32⟩ : BufTy).Contents (Elt F)) ((StableHlo.TRef.of main_v20 : StableHlo.TRef sig ⟨S256x256, .i32⟩).ofBuf (r_main_v20 a0 a1 a2 a3 a4)) ((StableHlo.TRef.of main_call6_v2 : StableHlo.TRef sig ⟨S256x256, .i32⟩).ofBuf (r_main_call6_v2 a0 a1 a2 a3 a4)))
/-- `main_call6_v4`. -/
def r_main_call6_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v4 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call6_v1 : StableHlo.TRef sig ⟨S256x256, .i1⟩).ofBuf (r_main_call6_v1 a0 a1 a2 a3 a4)) ((StableHlo.TRef.of main_call6_v3 : StableHlo.TRef sig ⟨S256x256, .i32⟩).ofBuf (r_main_call6_v3 a0 a1 a2 a3 a4)) ((StableHlo.TRef.of main_v20 : StableHlo.TRef sig ⟨S256x256, .i32⟩).ofBuf (r_main_v20 a0 a1 a2 a3 a4)))
/-- `main_call6_v5`. -/
def r_main_call6_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  shapeCast S256x256x1 (r_main_call6_v4 a0 a1 a2 a3 a4) Gen.shapeCasts_S256x256_S256x256x1
/-- `main_call6_c_1`. -/
def r_main_call6_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call6_c_1 : StableHlo.TRef sig ⟨S1, .i32⟩).toBuf (constantI S1 32 255#32)
/-- `main_call6_c_2`. -/
def r_main_call6_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c_2 : StableHlo.TRef sig ⟨S_, .i32⟩).toBuf (constantI S_ 32 0#32)
/-- `main_call6_v6`. -/
def r_main_call6_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call6_v6 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call6_c_2 : StableHlo.TRef sig ⟨S_, .i32⟩).ofBuf (r_main_call6_c_2 a0 a1 a2 a3 a4)))
/-- `main_call6_v7`. -/
def r_main_call6_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v7 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call6_v5 : StableHlo.TRef sig ⟨S256x256x1, .i32⟩).ofBuf (r_main_call6_v5 a0 a1 a2 a3 a4)) ((StableHlo.TRef.of main_call6_v6 : StableHlo.TRef sig ⟨S256x256x1, .i32⟩).ofBuf (r_main_call6_v6 a0 a1 a2 a3 a4)))
/-- `main_call6_v8`. -/
def r_main_call6_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call6_v8 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call6_c_1 : StableHlo.TRef sig ⟨S1, .i32⟩).ofBuf (r_main_call6_c_1 a0 a1 a2 a3 a4)))
/-- `main_call6_v9`. -/
def r_main_call6_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call6_v9 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call6_v8 : StableHlo.TRef sig ⟨S1x1x1, .i32⟩).ofBuf (r_main_call6_v8 a0 a1 a2 a3 a4)))
/-- `main_call6_v10`. -/
def r_main_call6_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v10 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call6_v5 : StableHlo.TRef sig ⟨S256x256x1, .i32⟩).ofBuf (r_main_call6_v5 a0 a1 a2 a3 a4)) ((StableHlo.TRef.of main_call6_v9 : StableHlo.TRef sig ⟨S256x256x1, .i32⟩).ofBuf (r_main_call6_v9 a0 a1 a2 a3 a4)))
/-- `main_call6_v11`. -/
def r_main_call6_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v11 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call6_v7 : StableHlo.TRef sig ⟨S256x256x1, .i1⟩).ofBuf (r_main_call6_v7 a0 a1 a2 a3 a4)) ((StableHlo.TRef.of main_call6_v10 : StableHlo.TRef sig ⟨S256x256x1, .i1⟩).ofBuf (r_main_call6_v10 a0 a1 a2 a3 a4)))
/-- `main_call6_c_3`. -/
def r_main_call6_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call6_c_3 : StableHlo.TRef sig ⟨S_, .i1⟩).toBuf (constantI S_ 1 1#1)
/-- `main_call6_v12`. -/
def r_main_call6_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call6_v12 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call6_v11 : StableHlo.TRef sig ⟨S256x256x1, .i1⟩).ofBuf (r_main_call6_v11 a0 a1 a2 a3 a4)) ((StableHlo.TRef.of main_call6_c_3 : StableHlo.TRef sig ⟨S_, .i1⟩).ofBuf (r_main_call6_c_3 a0 a1 a2 a3 a4)))
/-- `main_call6_v13`. -/
def r_main_call6_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_call6_v13 : StableHlo.TRef sig ⟨S256x256, .f32⟩).toBuf (((fun x i => Host.gather gather_S256x256_S256x256x1_S256x256_n_1_0_0_1_2_11 x i) : (⟨S256x256, .f32⟩ : BufTy).Contents (Elt F) → (⟨S256x256x1, .i32⟩ : BufTy).Contents (Elt F) → (⟨S256x256, .f32⟩ : BufTy).Contents (Elt F)) ((StableHlo.TRef.of main_v19 : StableHlo.TRef sig ⟨S256x256, .f32⟩).ofBuf (r_main_v19 a0 a1 a2 a3 a4)) ((StableHlo.TRef.of main_call6_v5 : StableHlo.TRef sig ⟨S256x256x1, .i32⟩).ofBuf (r_main_call6_v5 a0 a1 a2 a3 a4)))
/-- `main_call6_cst`. -/
def r_main_call6_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (StableHlo.TRef.of main_call6_cst : StableHlo.TRef sig ⟨S_, .f32⟩).toBuf (constant S_ .f32 0x7FC00000#32)
/-- `main_call6_v14`. -/
def r_main_call6_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_call6_v14 : StableHlo.TRef sig ⟨S256x256, .f32⟩).toBuf (((broadcastInDim S256x256 ![] Gen.bcast_S_S256x256) : (⟨S_, .f32⟩ : BufTy).Contents (Elt F) → (⟨S256x256, .f32⟩ : BufTy).Contents (Elt F)) ((StableHlo.TRef.of main_call6_cst : StableHlo.TRef sig ⟨S_, .f32⟩).ofBuf (r_main_call6_cst a0 a1 a2 a3 a4)))
/-- `main_v24`. -/
def r_main_v24 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_v24 : StableHlo.TRef sig ⟨S256x256, .f32⟩).toBuf ((select : (⟨S256x256, .i1⟩ : BufTy).Contents (Elt F) → (⟨S256x256, .f32⟩ : BufTy).Contents (Elt F) → (⟨S256x256, .f32⟩ : BufTy).Contents (Elt F) → (⟨S256x256, .f32⟩ : BufTy).Contents (Elt F)) ((StableHlo.TRef.of main_call6_v12 : StableHlo.TRef sig ⟨S256x256, .i1⟩).ofBuf (r_main_call6_v12 a0 a1 a2 a3 a4)) ((StableHlo.TRef.of main_call6_v13 : StableHlo.TRef sig ⟨S256x256, .f32⟩).ofBuf (r_main_call6_v13 a0 a1 a2 a3 a4)) ((StableHlo.TRef.of main_call6_v14 : StableHlo.TRef sig ⟨S256x256, .f32⟩).ofBuf (r_main_call6_v14 a0 a1 a2 a3 a4)))
/-- `main_v25`. -/
def r_main_v25 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (iotaInDim S10 32 0)
/-- `main_c_6`. -/
def r_main_c_6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_c_7`. -/
def r_main_c_7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v26`. -/
def r_main_v26 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (cmpi .eq : (⟨S_, .i32⟩ : BufTy).Contents (Elt F) → (⟨S_, .i32⟩ : BufTy).Contents (Elt F) → (⟨S_, .i1⟩ : BufTy).Contents (Elt F)) (r_main_c_6 a0 a1 a2 a3 a4) (r_main_c_7 a0 a1 a2 a3 a4)
/-- `main_c_8`. -/
def r_main_c_8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v27`. -/
def r_main_v27 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_8 a0 a1 a2 a3 a4)
/-- `main_v28`. -/
def r_main_v28 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (cmpi .ne : (⟨S10, .i32⟩ : BufTy).Contents (Elt F) → (⟨S10, .i32⟩ : BufTy).Contents (Elt F) → (⟨S10, .i1⟩ : BufTy).Contents (Elt F)) (r_main_v25 a0 a1 a2 a3 a4) (r_main_v27 a0 a1 a2 a3 a4)
/-- `main_v29`. -/
def r_main_v29 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (broadcastInDim S10 ![] Gen.bcast_S_S10 : (⟨S_, .i1⟩ : BufTy).Contents (Elt F) → (⟨S10, .i1⟩ : BufTy).Contents (Elt F)) (r_main_v26 a0 a1 a2 a3 a4)
/-- `main_v30`. -/
def r_main_v30 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (andi : (⟨S10, .i1⟩ : BufTy).Contents (Elt F) → (⟨S10, .i1⟩ : BufTy).Contents (Elt F) → (⟨S10, .i1⟩ : BufTy).Contents (Elt F)) (r_main_v29 a0 a1 a2 a3 a4) (r_main_v28 a0 a1 a2 a3 a4)
/-- `main_c_9`. -/
def r_main_c_9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_c_10`. -/
def r_main_c_10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_call7_v0`. -/
def r_main_call7_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call7_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_c_9 : StableHlo.TRef sig ⟨S_, .i32⟩).ofBuf (r_main_c_9 a0 a1 a2 a3 a4)))
/-- `main_call7_v1`. -/
def r_main_call7_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call7_v1 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_c_10 : StableHlo.TRef sig ⟨S_, .i32⟩).ofBuf (r_main_c_10 a0 a1 a2 a3 a4)))
/-- `main_v31`. -/
def r_main_v31 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v31 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_v30 : StableHlo.TRef sig ⟨S10, .i1⟩).ofBuf (r_main_v30 a0 a1 a2 a3 a4)) ((StableHlo.TRef.of main_call7_v0 : StableHlo.TRef sig ⟨S10, .i32⟩).ofBuf (r_main_call7_v0 a0 a1 a2 a3 a4)) ((StableHlo.TRef.of main_call7_v1 : StableHlo.TRef sig ⟨S10, .i32⟩).ofBuf (r_main_call7_v1 a0 a1 a2 a3 a4)))
/-- `main_c_11`. -/
def r_main_c_11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v32`. -/
def r_main_v32 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_11 a0 a1 a2 a3 a4)
/-- `main_v33`. -/
def r_main_v33 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v25 a0 a1 a2 a3 a4) (r_main_v32 a0 a1 a2 a3 a4)
/-- `main_c_12`. -/
def r_main_c_12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_v34`. -/
def r_main_v34 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_12 a0 a1 a2 a3 a4)
/-- `main_v35`. -/
def r_main_v35 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v31 a0 a1 a2 a3 a4) (r_main_v34 a0 a1 a2 a3 a4)
/-- `main_call8_c`. -/
def r_main_call8_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call8_c : StableHlo.TRef sig ⟨S_, .i32⟩).toBuf (constantI S_ 32 0#32)
/-- `main_call8_v0`. -/
def r_main_call8_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call8_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call8_c : StableHlo.TRef sig ⟨S_, .i32⟩).ofBuf (r_main_call8_c a0 a1 a2 a3 a4)))
/-- `main_call8_v1`. -/
def r_main_call8_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call8_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v33 : StableHlo.TRef sig ⟨S10, .i32⟩).ofBuf (r_main_v33 a0 a1 a2 a3 a4)) ((StableHlo.TRef.of main_call8_v0 : StableHlo.TRef sig ⟨S10, .i32⟩).ofBuf (r_main_call8_v0 a0 a1 a2 a3 a4)))
/-- `main_v36`. -/
def r_main_v36 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v36 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call8_v1 : StableHlo.TRef sig ⟨S10, .i1⟩).ofBuf (r_main_call8_v1 a0 a1 a2 a3 a4)) ((StableHlo.TRef.of main_v35 : StableHlo.TRef sig ⟨S10, .i32⟩).ofBuf (r_main_v35 a0 a1 a2 a3 a4)) ((StableHlo.TRef.of main_v31 : StableHlo.TRef sig ⟨S10, .i32⟩).ofBuf (r_main_v31 a0 a1 a2 a3 a4)))
/-- `main_c_13`. -/
def r_main_c_13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_c_14`. -/
def r_main_c_14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_v37`. -/
def r_main_v37 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_c_13 a0 a1 a2 a3 a4) (r_main_c_14 a0 a1 a2 a3 a4)
/-- `main_c_15`. -/
def r_main_c_15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v38`. -/
def r_main_v38 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_15 a0 a1 a2 a3 a4)
/-- `main_v39`. -/
def r_main_v39 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v25 a0 a1 a2 a3 a4) (r_main_v38 a0 a1 a2 a3 a4)
/-- `main_c_16`. -/
def r_main_c_16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v40`. -/
def r_main_v40 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_16 a0 a1 a2 a3 a4)
/-- `main_v41`. -/
def r_main_v41 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v39 a0 a1 a2 a3 a4) (r_main_v40 a0 a1 a2 a3 a4)
/-- `main_v42`. -/
def r_main_v42 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v37 a0 a1 a2 a3 a4)
/-- `main_v43`. -/
def r_main_v43 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v36 a0 a1 a2 a3 a4) (r_main_v42 a0 a1 a2 a3 a4)
/-- `main_call9_c`. -/
def r_main_call9_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call9_c : StableHlo.TRef sig ⟨S_, .i32⟩).toBuf (constantI S_ 32 0#32)
/-- `main_call9_v0`. -/
def r_main_call9_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call9_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call9_c : StableHlo.TRef sig ⟨S_, .i32⟩).ofBuf (r_main_call9_c a0 a1 a2 a3 a4)))
/-- `main_call9_v1`. -/
def r_main_call9_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call9_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v41 : StableHlo.TRef sig ⟨S10, .i32⟩).ofBuf (r_main_v41 a0 a1 a2 a3 a4)) ((StableHlo.TRef.of main_call9_v0 : StableHlo.TRef sig ⟨S10, .i32⟩).ofBuf (r_main_call9_v0 a0 a1 a2 a3 a4)))
/-- `main_v44`. -/
def r_main_v44 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v44 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call9_v1 : StableHlo.TRef sig ⟨S10, .i1⟩).ofBuf (r_main_call9_v1 a0 a1 a2 a3 a4)) ((StableHlo.TRef.of main_v43 : StableHlo.TRef sig ⟨S10, .i32⟩).ofBuf (r_main_v43 a0 a1 a2 a3 a4)) ((StableHlo.TRef.of main_v36 : StableHlo.TRef sig ⟨S10, .i32⟩).ofBuf (r_main_v36 a0 a1 a2 a3 a4)))
/-- `main_v45`. -/
def r_main_v45 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v37 a0 a1 a2 a3 a4) (r_main_v37 a0 a1 a2 a3 a4)
/-- `main_c_17`. -/
def r_main_c_17 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v46`. -/
def r_main_v46 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_17 a0 a1 a2 a3 a4)
/-- `main_v47`. -/
def r_main_v47 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v39 a0 a1 a2 a3 a4) (r_main_v46 a0 a1 a2 a3 a4)
/-- `main_c_18`. -/
def r_main_c_18 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v48`. -/
def r_main_v48 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_18 a0 a1 a2 a3 a4)
/-- `main_v49`. -/
def r_main_v49 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v47 a0 a1 a2 a3 a4) (r_main_v48 a0 a1 a2 a3 a4)
/-- `main_v50`. -/
def r_main_v50 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v45 a0 a1 a2 a3 a4)
/-- `main_v51`. -/
def r_main_v51 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v44 a0 a1 a2 a3 a4) (r_main_v50 a0 a1 a2 a3 a4)
/-- `main_call10_c`. -/
def r_main_call10_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call10_c : StableHlo.TRef sig ⟨S_, .i32⟩).toBuf (constantI S_ 32 0#32)
/-- `main_call10_v0`. -/
def r_main_call10_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call10_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call10_c : StableHlo.TRef sig ⟨S_, .i32⟩).ofBuf (r_main_call10_c a0 a1 a2 a3 a4)))
/-- `main_call10_v1`. -/
def r_main_call10_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call10_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v49 : StableHlo.TRef sig ⟨S10, .i32⟩).ofBuf (r_main_v49 a0 a1 a2 a3 a4)) ((StableHlo.TRef.of main_call10_v0 : StableHlo.TRef sig ⟨S10, .i32⟩).ofBuf (r_main_call10_v0 a0 a1 a2 a3 a4)))
/-- `main_v52`. -/
def r_main_v52 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v52 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call10_v1 : StableHlo.TRef sig ⟨S10, .i1⟩).ofBuf (r_main_call10_v1 a0 a1 a2 a3 a4)) ((StableHlo.TRef.of main_v51 : StableHlo.TRef sig ⟨S10, .i32⟩).ofBuf (r_main_v51 a0 a1 a2 a3 a4)) ((StableHlo.TRef.of main_v44 : StableHlo.TRef sig ⟨S10, .i32⟩).ofBuf (r_main_v44 a0 a1 a2 a3 a4)))
/-- `main_v53`. -/
def r_main_v53 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v45 a0 a1 a2 a3 a4) (r_main_v45 a0 a1 a2 a3 a4)
/-- `main_c_19`. -/
def r_main_c_19 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v54`. -/
def r_main_v54 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_19 a0 a1 a2 a3 a4)
/-- `main_v55`. -/
def r_main_v55 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v47 a0 a1 a2 a3 a4) (r_main_v54 a0 a1 a2 a3 a4)
/-- `main_c_20`. -/
def r_main_c_20 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v56`. -/
def r_main_v56 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_20 a0 a1 a2 a3 a4)
/-- `main_v57`. -/
def r_main_v57 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v55 a0 a1 a2 a3 a4) (r_main_v56 a0 a1 a2 a3 a4)
/-- `main_v58`. -/
def r_main_v58 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v53 a0 a1 a2 a3 a4)
/-- `main_v59`. -/
def r_main_v59 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v52 a0 a1 a2 a3 a4) (r_main_v58 a0 a1 a2 a3 a4)
/-- `main_call11_c`. -/
def r_main_call11_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call11_c : StableHlo.TRef sig ⟨S_, .i32⟩).toBuf (constantI S_ 32 0#32)
/-- `main_call11_v0`. -/
def r_main_call11_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call11_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call11_c : StableHlo.TRef sig ⟨S_, .i32⟩).ofBuf (r_main_call11_c a0 a1 a2 a3 a4)))
/-- `main_call11_v1`. -/
def r_main_call11_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call11_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v57 : StableHlo.TRef sig ⟨S10, .i32⟩).ofBuf (r_main_v57 a0 a1 a2 a3 a4)) ((StableHlo.TRef.of main_call11_v0 : StableHlo.TRef sig ⟨S10, .i32⟩).ofBuf (r_main_call11_v0 a0 a1 a2 a3 a4)))
/-- `main_v60`. -/
def r_main_v60 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v60 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call11_v1 : StableHlo.TRef sig ⟨S10, .i1⟩).ofBuf (r_main_call11_v1 a0 a1 a2 a3 a4)) ((StableHlo.TRef.of main_v59 : StableHlo.TRef sig ⟨S10, .i32⟩).ofBuf (r_main_v59 a0 a1 a2 a3 a4)) ((StableHlo.TRef.of main_v52 : StableHlo.TRef sig ⟨S10, .i32⟩).ofBuf (r_main_v52 a0 a1 a2 a3 a4)))
/-- `main_v61`. -/
def r_main_v61 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v53 a0 a1 a2 a3 a4) (r_main_v53 a0 a1 a2 a3 a4)
/-- `main_c_21`. -/
def r_main_c_21 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v62`. -/
def r_main_v62 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_21 a0 a1 a2 a3 a4)
/-- `main_v63`. -/
def r_main_v63 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v55 a0 a1 a2 a3 a4) (r_main_v62 a0 a1 a2 a3 a4)
/-- `main_c_22`. -/
def r_main_c_22 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v64`. -/
def r_main_v64 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_22 a0 a1 a2 a3 a4)
/-- `main_v65`. -/
def r_main_v65 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v63 a0 a1 a2 a3 a4) (r_main_v64 a0 a1 a2 a3 a4)
/-- `main_v66`. -/
def r_main_v66 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v61 a0 a1 a2 a3 a4)
/-- `main_v67`. -/
def r_main_v67 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v60 a0 a1 a2 a3 a4) (r_main_v66 a0 a1 a2 a3 a4)
/-- `main_call12_c`. -/
def r_main_call12_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call12_c : StableHlo.TRef sig ⟨S_, .i32⟩).toBuf (constantI S_ 32 0#32)
/-- `main_call12_v0`. -/
def r_main_call12_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call12_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call12_c : StableHlo.TRef sig ⟨S_, .i32⟩).ofBuf (r_main_call12_c a0 a1 a2 a3 a4)))
/-- `main_call12_v1`. -/
def r_main_call12_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call12_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v65 : StableHlo.TRef sig ⟨S10, .i32⟩).ofBuf (r_main_v65 a0 a1 a2 a3 a4)) ((StableHlo.TRef.of main_call12_v0 : StableHlo.TRef sig ⟨S10, .i32⟩).ofBuf (r_main_call12_v0 a0 a1 a2 a3 a4)))
/-- `main_v68`. -/
def r_main_v68 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v68 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call12_v1 : StableHlo.TRef sig ⟨S10, .i1⟩).ofBuf (r_main_call12_v1 a0 a1 a2 a3 a4)) ((StableHlo.TRef.of main_v67 : StableHlo.TRef sig ⟨S10, .i32⟩).ofBuf (r_main_v67 a0 a1 a2 a3 a4)) ((StableHlo.TRef.of main_v60 : StableHlo.TRef sig ⟨S10, .i32⟩).ofBuf (r_main_v60 a0 a1 a2 a3 a4)))
/-- `main_v69`. -/
def r_main_v69 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v61 a0 a1 a2 a3 a4) (r_main_v61 a0 a1 a2 a3 a4)
/-- `main_c_23`. -/
def r_main_c_23 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v70`. -/
def r_main_v70 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_23 a0 a1 a2 a3 a4)
/-- `main_v71`. -/
def r_main_v71 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v63 a0 a1 a2 a3 a4) (r_main_v70 a0 a1 a2 a3 a4)
/-- `main_c_24`. -/
def r_main_c_24 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v72`. -/
def r_main_v72 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_24 a0 a1 a2 a3 a4)
/-- `main_v73`. -/
def r_main_v73 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v71 a0 a1 a2 a3 a4) (r_main_v72 a0 a1 a2 a3 a4)
/-- `main_v74`. -/
def r_main_v74 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v69 a0 a1 a2 a3 a4)
/-- `main_v75`. -/
def r_main_v75 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v68 a0 a1 a2 a3 a4) (r_main_v74 a0 a1 a2 a3 a4)
/-- `main_call13_c`. -/
def r_main_call13_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call13_c : StableHlo.TRef sig ⟨S_, .i32⟩).toBuf (constantI S_ 32 0#32)
/-- `main_call13_v0`. -/
def r_main_call13_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call13_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call13_c : StableHlo.TRef sig ⟨S_, .i32⟩).ofBuf (r_main_call13_c a0 a1 a2 a3 a4)))
/-- `main_call13_v1`. -/
def r_main_call13_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call13_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v73 : StableHlo.TRef sig ⟨S10, .i32⟩).ofBuf (r_main_v73 a0 a1 a2 a3 a4)) ((StableHlo.TRef.of main_call13_v0 : StableHlo.TRef sig ⟨S10, .i32⟩).ofBuf (r_main_call13_v0 a0 a1 a2 a3 a4)))
/-- `main_v76`. -/
def r_main_v76 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v76 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call13_v1 : StableHlo.TRef sig ⟨S10, .i1⟩).ofBuf (r_main_call13_v1 a0 a1 a2 a3 a4)) ((StableHlo.TRef.of main_v75 : StableHlo.TRef sig ⟨S10, .i32⟩).ofBuf (r_main_v75 a0 a1 a2 a3 a4)) ((StableHlo.TRef.of main_v68 : StableHlo.TRef sig ⟨S10, .i32⟩).ofBuf (r_main_v68 a0 a1 a2 a3 a4)))
/-- `main_v77`. -/
def r_main_v77 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v69 a0 a1 a2 a3 a4) (r_main_v69 a0 a1 a2 a3 a4)
/-- `main_c_25`. -/
def r_main_c_25 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v78`. -/
def r_main_v78 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_25 a0 a1 a2 a3 a4)
/-- `main_v79`. -/
def r_main_v79 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v71 a0 a1 a2 a3 a4) (r_main_v78 a0 a1 a2 a3 a4)
/-- `main_v80`. -/
def r_main_v80 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (broadcastInDim S256x256x1 ![0, 1] Gen.bcast_S256x256_S256x256x1_0_1 : (⟨S256x256, .i32⟩ : BufTy).Contents (Elt F) → (⟨S256x256x1, .i32⟩ : BufTy).Contents (Elt F)) (r_main_v21 a0 a1 a2 a3 a4)
/-- `main_call14_v0`. -/
def r_main_call14_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x10, .i32⟩ : BufTy).Contents (Elt F) :=
  (StableHlo.TRef.of main_call14_v0 : StableHlo.TRef sig ⟨S1x1x10, .i32⟩).toBuf (((broadcastInDim S1x1x10 ![2] Gen.bcast_S10_S1x1x10_2) : (⟨S10, .i32⟩ : BufTy).Contents (Elt F) → (⟨S1x1x10, .i32⟩ : BufTy).Contents (Elt F)) ((StableHlo.TRef.of main_v76 : StableHlo.TRef sig ⟨S10, .i32⟩).ofBuf (r_main_v76 a0 a1 a2 a3 a4)))
/-- `main_call14_v1`. -/
def r_main_call14_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v1 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_v80 : StableHlo.TRef sig ⟨S256x256x1, .i32⟩).ofBuf (r_main_v80 a0 a1 a2 a3 a4)))
/-- `main_call14_v2`. -/
def r_main_call14_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v2 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v0 : StableHlo.TRef sig ⟨S1x1x10, .i32⟩).ofBuf (r_main_call14_v0 a0 a1 a2 a3 a4)))
/-- `main_call14_v3`. -/
def r_main_call14_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v3 : StableHlo.TRef sig ⟨S256x256x10, .i32⟩).toBuf ((Host.divsi : (⟨S256x256x10, .i32⟩ : BufTy).Contents (Elt F) → (⟨S256x256x10, .i32⟩ : BufTy).Contents (Elt F) → (⟨S256x256x10, .i32⟩ : BufTy).Contents (Elt F)) ((StableHlo.TRef.of main_call14_v1 : StableHlo.TRef sig ⟨S256x256x10, .i32⟩).ofBuf (r_main_call14_v1 a0 a1 a2 a3 a4)) ((StableHlo.TRef.of main_call14_v2 : StableHlo.TRef sig ⟨S256x256x10, .i32⟩).ofBuf (r_main_call14_v2 a0 a1 a2 a3 a4)))
/-- `main_call14_v4`. -/
def r_main_call14_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call14_v4 : StableHlo.TRef sig ⟨S256x256x1, .i32⟩).toBuf ((signi : (⟨S256x256x1, .i32⟩ : BufTy).Contents (Elt F) → (⟨S256x256x1, .i32⟩ : BufTy).Contents (Elt F)) ((StableHlo.TRef.of main_v80 : StableHlo.TRef sig ⟨S256x256x1, .i32⟩).ofBuf (r_main_v80 a0 a1 a2 a3 a4)))
/-- `main_call14_v5`. -/
def r_main_call14_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x10, .i32⟩ : BufTy).Contents (Elt F) :=
  (StableHlo.TRef.of main_call14_v5 : StableHlo.TRef sig ⟨S1x1x10, .i32⟩).toBuf ((signi : (⟨S1x1x10, .i32⟩ : BufTy).Contents (Elt F) → (⟨S1x1x10, .i32⟩ : BufTy).Contents (Elt F)) ((StableHlo.TRef.of main_call14_v0 : StableHlo.TRef sig ⟨S1x1x10, .i32⟩).ofBuf (r_main_call14_v0 a0 a1 a2 a3 a4)))
/-- `main_call14_v6`. -/
def r_main_call14_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v6 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_call14_v4 : StableHlo.TRef sig ⟨S256x256x1, .i32⟩).ofBuf (r_main_call14_v4 a0 a1 a2 a3 a4)))
/-- `main_call14_v7`. -/
def r_main_call14_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v7 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v5 : StableHlo.TRef sig ⟨S1x1x10, .i32⟩).ofBuf (r_main_call14_v5 a0 a1 a2 a3 a4)))
/-- `main_call14_v8`. -/
def r_main_call14_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v8 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call14_v6 : StableHlo.TRef sig ⟨S256x256x10, .i32⟩).ofBuf (r_main_call14_v6 a0 a1 a2 a3 a4)) ((StableHlo.TRef.of main_call14_v7 : StableHlo.TRef sig ⟨S256x256x10, .i32⟩).ofBuf (r_main_call14_v7 a0 a1 a2 a3 a4)))
/-- `main_call14_v9`. -/
def r_main_call14_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v9 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_v80 : StableHlo.TRef sig ⟨S256x256x1, .i32⟩).ofBuf (r_main_v80 a0 a1 a2 a3 a4)))
/-- `main_call14_v10`. -/
def r_main_call14_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v10 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v0 : StableHlo.TRef sig ⟨S1x1x10, .i32⟩).ofBuf (r_main_call14_v0 a0 a1 a2 a3 a4)))
/-- `main_call14_v11`. -/
def r_main_call14_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v11 : StableHlo.TRef sig ⟨S256x256x10, .i32⟩).toBuf ((Host.remsi : (⟨S256x256x10, .i32⟩ : BufTy).Contents (Elt F) → (⟨S256x256x10, .i32⟩ : BufTy).Contents (Elt F) → (⟨S256x256x10, .i32⟩ : BufTy).Contents (Elt F)) ((StableHlo.TRef.of main_call14_v9 : StableHlo.TRef sig ⟨S256x256x10, .i32⟩).ofBuf (r_main_call14_v9 a0 a1 a2 a3 a4)) ((StableHlo.TRef.of main_call14_v10 : StableHlo.TRef sig ⟨S256x256x10, .i32⟩).ofBuf (r_main_call14_v10 a0 a1 a2 a3 a4)))
/-- `main_call14_c`. -/
def r_main_call14_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call14_c : StableHlo.TRef sig ⟨S_, .i32⟩).toBuf (constantI S_ 32 0#32)
/-- `main_call14_v12`. -/
def r_main_call14_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v12 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call14_c : StableHlo.TRef sig ⟨S_, .i32⟩).ofBuf (r_main_call14_c a0 a1 a2 a3 a4)))
/-- `main_call14_v13`. -/
def r_main_call14_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v13 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call14_v11 : StableHlo.TRef sig ⟨S256x256x10, .i32⟩).ofBuf (r_main_call14_v11 a0 a1 a2 a3 a4)) ((StableHlo.TRef.of main_call14_v12 : StableHlo.TRef sig ⟨S256x256x10, .i32⟩).ofBuf (r_main_call14_v12 a0 a1 a2 a3 a4)))
/-- `main_call14_v14`. -/
def r_main_call14_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v14 : StableHlo.TRef sig ⟨S256x256x10, .i1⟩).toBuf ((andi : (⟨S256x256x10, .i1⟩ : BufTy).Contents (Elt F) → (⟨S256x256x10, .i1⟩ : BufTy).Contents (Elt F) → (⟨S256x256x10, .i1⟩ : BufTy).Contents (Elt F)) ((StableHlo.TRef.of main_call14_v8 : StableHlo.TRef sig ⟨S256x256x10, .i1⟩).ofBuf (r_main_call14_v8 a0 a1 a2 a3 a4)) ((StableHlo.TRef.of main_call14_v13 : StableHlo.TRef sig ⟨S256x256x10, .i1⟩).ofBuf (r_main_call14_v13 a0 a1 a2 a3 a4)))
/-- `main_call14_c_0`. -/
def r_main_call14_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call14_c_0 : StableHlo.TRef sig ⟨S_, .i32⟩).toBuf (constantI S_ 32 1#32)
/-- `main_call14_v15`. -/
def r_main_call14_v15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v15 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call14_c_0 : StableHlo.TRef sig ⟨S_, .i32⟩).ofBuf (r_main_call14_c_0 a0 a1 a2 a3 a4)))
/-- `main_call14_v16`. -/
def r_main_call14_v16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v16 : StableHlo.TRef sig ⟨S256x256x10, .i32⟩).toBuf ((subi : (⟨S256x256x10, .i32⟩ : BufTy).Contents (Elt F) → (⟨S256x256x10, .i32⟩ : BufTy).Contents (Elt F) → (⟨S256x256x10, .i32⟩ : BufTy).Contents (Elt F)) ((StableHlo.TRef.of main_call14_v3 : StableHlo.TRef sig ⟨S256x256x10, .i32⟩).ofBuf (r_main_call14_v3 a0 a1 a2 a3 a4)) ((StableHlo.TRef.of main_call14_v15 : StableHlo.TRef sig ⟨S256x256x10, .i32⟩).ofBuf (r_main_call14_v15 a0 a1 a2 a3 a4)))
/-- `main_v81`. -/
def r_main_v81 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_v81 : StableHlo.TRef sig ⟨S256x256x10, .i32⟩).toBuf ((select : (⟨S256x256x10, .i1⟩ : BufTy).Contents (Elt F) → (⟨S256x256x10, .i32⟩ : BufTy).Contents (Elt F) → (⟨S256x256x10, .i32⟩ : BufTy).Contents (Elt F) → (⟨S256x256x10, .i32⟩ : BufTy).Contents (Elt F)) ((StableHlo.TRef.of main_call14_v14 : StableHlo.TRef sig ⟨S256x256x10, .i1⟩).ofBuf (r_main_call14_v14 a0 a1 a2 a3 a4)) ((StableHlo.TRef.of main_call14_v16 : StableHlo.TRef sig ⟨S256x256x10, .i32⟩).ofBuf (r_main_call14_v16 a0 a1 a2 a3 a4)) ((StableHlo.TRef.of main_call14_v3 : StableHlo.TRef sig ⟨S256x256x10, .i32⟩).ofBuf (r_main_call14_v3 a0 a1 a2 a3 a4)))
/-- `main_c_26`. -/
def r_main_c_26 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_call15_v0`. -/
def r_main_call15_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_v0 : StableHlo.TRef sig ⟨S_, .i32⟩).toBuf ((id : (⟨S_, .i32⟩ : BufTy).Contents (Elt F) → (⟨S_, .i32⟩ : BufTy).Contents (Elt F)) ((StableHlo.TRef.of main_c_26 : StableHlo.TRef sig ⟨S_, .i32⟩).ofBuf (r_main_c_26 a0 a1 a2 a3 a4)))
/-- `main_call15_c`. -/
def r_main_call15_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c : StableHlo.TRef sig ⟨S_, .i32⟩).toBuf (constantI S_ 32 0#32)
/-- `main_call15_v1`. -/
def r_main_call15_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call15_v1 : StableHlo.TRef sig ⟨S_, .i1⟩).toBuf (((cmpi .eq) : (⟨S_, .i32⟩ : BufTy).Contents (Elt F) → (⟨S_, .i32⟩ : BufTy).Contents (Elt F) → (⟨S_, .i1⟩ : BufTy).Contents (Elt F)) ((StableHlo.TRef.of main_call15_v0 : StableHlo.TRef sig ⟨S_, .i32⟩).ofBuf (r_main_call15_v0 a0 a1 a2 a3 a4)) ((StableHlo.TRef.of main_call15_c : StableHlo.TRef sig ⟨S_, .i32⟩).ofBuf (r_main_call15_c a0 a1 a2 a3 a4)))
/-- `main_call15_c_0`. -/
def r_main_call15_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_0 : StableHlo.TRef sig ⟨S_, .i32⟩).toBuf (constantI S_ 32 1#32)
/-- `main_call15_v2`. -/
def r_main_call15_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_v2 : StableHlo.TRef sig ⟨S_, .i32⟩).toBuf ((select : (⟨S_, .i1⟩ : BufTy).Contents (Elt F) → (⟨S_, .i32⟩ : BufTy).Contents (Elt F) → (⟨S_, .i32⟩ : BufTy).Contents (Elt F) → (⟨S_, .i32⟩ : BufTy).Contents (Elt F)) ((StableHlo.TRef.of main_call15_v1 : StableHlo.TRef sig ⟨S_, .i1⟩).ofBuf (r_main_call15_v1 a0 a1 a2 a3 a4)) ((StableHlo.TRef.of main_call15_c_0 : StableHlo.TRef sig ⟨S_, .i32⟩).ofBuf (r_main_call15_c_0 a0 a1 a2 a3 a4)) ((StableHlo.TRef.of main_call15_v0 : StableHlo.TRef sig ⟨S_, .i32⟩).ofBuf (r_main_call15_v0 a0 a1 a2 a3 a4)))
/-- `main_call15_v3`. -/
def r_main_call15_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v3 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) (main_call15_call0.v0.ofBuf (r_main_call15_v2 a0 a1 a2 a3 a4)))
/-- `main_call15_v4`. -/
def r_main_call15_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v4 : StableHlo.TRef sig ⟨S256x256x10, .i32⟩).toBuf ((Host.remsi : (⟨S256x256x10, .i32⟩ : BufTy).Contents (Elt F) → (⟨S256x256x10, .i32⟩ : BufTy).Contents (Elt F) → (⟨S256x256x10, .i32⟩ : BufTy).Contents (Elt F)) ((StableHlo.TRef.of main_v81 : StableHlo.TRef sig ⟨S256x256x10, .i32⟩).ofBuf (r_main_v81 a0 a1 a2 a3 a4)) ((StableHlo.TRef.of main_call15_v3 : StableHlo.TRef sig ⟨S256x256x10, .i32⟩).ofBuf (r_main_call15_v3 a0 a1 a2 a3 a4)))
/-- `main_call15_c_1`. -/
def r_main_call15_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_1 : StableHlo.TRef sig ⟨S_, .i32⟩).toBuf (constantI S_ 32 0#32)
/-- `main_call15_v5`. -/
def r_main_call15_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v5 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_c_1 : StableHlo.TRef sig ⟨S_, .i32⟩).ofBuf (r_main_call15_c_1 a0 a1 a2 a3 a4)))
/-- `main_call15_v6`. -/
def r_main_call15_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v6 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call15_v4 : StableHlo.TRef sig ⟨S256x256x10, .i32⟩).ofBuf (r_main_call15_v4 a0 a1 a2 a3 a4)) ((StableHlo.TRef.of main_call15_v5 : StableHlo.TRef sig ⟨S256x256x10, .i32⟩).ofBuf (r_main_call15_v5 a0 a1 a2 a3 a4)))
/-- `main_call15_c_2`. -/
def r_main_call15_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_2 : StableHlo.TRef sig ⟨S_, .i32⟩).toBuf (constantI S_ 32 0#32)
/-- `main_call15_v7`. -/
def r_main_call15_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v7 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_c_2 : StableHlo.TRef sig ⟨S_, .i32⟩).ofBuf (r_main_call15_c_2 a0 a1 a2 a3 a4)))
/-- `main_call15_v8`. -/
def r_main_call15_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v8 : StableHlo.TRef sig ⟨S256x256x10, .i1⟩).toBuf (((cmpi .slt) : (⟨S256x256x10, .i32⟩ : BufTy).Contents (Elt F) → (⟨S256x256x10, .i32⟩ : BufTy).Contents (Elt F) → (⟨S256x256x10, .i1⟩ : BufTy).Contents (Elt F)) ((StableHlo.TRef.of main_call15_v4 : StableHlo.TRef sig ⟨S256x256x10, .i32⟩).ofBuf (r_main_call15_v4 a0 a1 a2 a3 a4)) ((StableHlo.TRef.of main_call15_v7 : StableHlo.TRef sig ⟨S256x256x10, .i32⟩).ofBuf (r_main_call15_v7 a0 a1 a2 a3 a4)))
/-- `main_call15_c_3`. -/
def r_main_call15_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_3 : StableHlo.TRef sig ⟨S_, .i32⟩).toBuf (constantI S_ 32 0#32)
/-- `main_call15_v9`. -/
def r_main_call15_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call15_v9 : StableHlo.TRef sig ⟨S_, .i1⟩).toBuf (((cmpi .slt) : (⟨S_, .i32⟩ : BufTy).Contents (Elt F) → (⟨S_, .i32⟩ : BufTy).Contents (Elt F) → (⟨S_, .i1⟩ : BufTy).Contents (Elt F)) (main_call15_call0.v0.ofBuf (r_main_call15_v2 a0 a1 a2 a3 a4)) ((StableHlo.TRef.of main_call15_c_3 : StableHlo.TRef sig ⟨S_, .i32⟩).ofBuf (r_main_call15_c_3 a0 a1 a2 a3 a4)))
/-- `main_call15_v10`. -/
def r_main_call15_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v10 : StableHlo.TRef sig ⟨S256x256x10, .i1⟩).toBuf (((broadcastInDim S256x256x10 ![] Gen.bcast_S_S256x256x10) : (⟨S_, .i1⟩ : BufTy).Contents (Elt F) → (⟨S256x256x10, .i1⟩ : BufTy).Contents (Elt F)) ((StableHlo.TRef.of main_call15_v9 : StableHlo.TRef sig ⟨S_, .i1⟩).ofBuf (r_main_call15_v9 a0 a1 a2 a3 a4)))
/-- `main_call15_v11`. -/
def r_main_call15_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v11 : StableHlo.TRef sig ⟨S256x256x10, .i1⟩).toBuf (((cmpi .ne) : (⟨S256x256x10, .i1⟩ : BufTy).Contents (Elt F) → (⟨S256x256x10, .i1⟩ : BufTy).Contents (Elt F) → (⟨S256x256x10, .i1⟩ : BufTy).Contents (Elt F)) ((StableHlo.TRef.of main_call15_v8 : StableHlo.TRef sig ⟨S256x256x10, .i1⟩).ofBuf (r_main_call15_v8 a0 a1 a2 a3 a4)) ((StableHlo.TRef.of main_call15_v10 : StableHlo.TRef sig ⟨S256x256x10, .i1⟩).ofBuf (r_main_call15_v10 a0 a1 a2 a3 a4)))
/-- `main_call15_v12`. -/
def r_main_call15_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v12 : StableHlo.TRef sig ⟨S256x256x10, .i1⟩).toBuf ((andi : (⟨S256x256x10, .i1⟩ : BufTy).Contents (Elt F) → (⟨S256x256x10, .i1⟩ : BufTy).Contents (Elt F) → (⟨S256x256x10, .i1⟩ : BufTy).Contents (Elt F)) ((StableHlo.TRef.of main_call15_v11 : StableHlo.TRef sig ⟨S256x256x10, .i1⟩).ofBuf (r_main_call15_v11 a0 a1 a2 a3 a4)) ((StableHlo.TRef.of main_call15_v6 : StableHlo.TRef sig ⟨S256x256x10, .i1⟩).ofBuf (r_main_call15_v6 a0 a1 a2 a3 a4)))
/-- `main_call15_v13`. -/
def r_main_call15_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v13 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) (main_call15_call0.v0.ofBuf (r_main_call15_v2 a0 a1 a2 a3 a4)))
/-- `main_call15_v14`. -/
def r_main_call15_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v14 : StableHlo.TRef sig ⟨S256x256x10, .i32⟩).toBuf ((addi : (⟨S256x256x10, .i32⟩ : BufTy).Contents (Elt F) → (⟨S256x256x10, .i32⟩ : BufTy).Contents (Elt F) → (⟨S256x256x10, .i32⟩ : BufTy).Contents (Elt F)) ((StableHlo.TRef.of main_call15_v4 : StableHlo.TRef sig ⟨S256x256x10, .i32⟩).ofBuf (r_main_call15_v4 a0 a1 a2 a3 a4)) ((StableHlo.TRef.of main_call15_v13 : StableHlo.TRef sig ⟨S256x256x10, .i32⟩).ofBuf (r_main_call15_v13 a0 a1 a2 a3 a4)))
/-- `main_v82`. -/
def r_main_v82 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_v82 : StableHlo.TRef sig ⟨S256x256x10, .i32⟩).toBuf ((select : (⟨S256x256x10, .i1⟩ : BufTy).Contents (Elt F) → (⟨S256x256x10, .i32⟩ : BufTy).Contents (Elt F) → (⟨S256x256x10, .i32⟩ : BufTy).Contents (Elt F) → (⟨S256x256x10, .i32⟩ : BufTy).Contents (Elt F)) ((StableHlo.TRef.of main_call15_v12 : StableHlo.TRef sig ⟨S256x256x10, .i1⟩).ofBuf (r_main_call15_v12 a0 a1 a2 a3 a4)) ((StableHlo.TRef.of main_call15_v14 : StableHlo.TRef sig ⟨S256x256x10, .i32⟩).ofBuf (r_main_call15_v14 a0 a1 a2 a3 a4)) ((StableHlo.TRef.of main_call15_v4 : StableHlo.TRef sig ⟨S256x256x10, .i32⟩).ofBuf (r_main_call15_v4 a0 a1 a2 a3 a4)))
/-- `main_v83`. -/
def r_main_v83 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .f32⟩ : BufTy).Contents (Elt F) :=
  (sitofp .f32 : (⟨S256x256x10, .i32⟩ : BufTy).Contents (Elt F) → (⟨S256x256x10, .f32⟩ : BufTy).Contents (Elt F)) (r_main_v82 a0 a1 a2 a3 a4)
/-- `main_v84`. -/
def r_main_v84 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (sitofp .f32 : (⟨S256x256, .i32⟩ : BufTy).Contents (Elt F) → (⟨S256x256, .f32⟩ : BufTy).Contents (Elt F)) (r_main_v21 a0 a1 a2 a3 a4)
/-- `main_c_27`. -/
def r_main_c_27 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2147483648#32)
/-- `main_v85`. -/
def r_main_v85 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .i32⟩ : BufTy).Contents (Elt F) :=
  ((fun x v => Host.reduce IntOp.maxsi x v Gen.reducesTo_S256x256_S256_d1 Gen.h_S_) : (⟨S256x256, .i32⟩ : BufTy).Contents (Elt F) → (⟨S_, .i32⟩ : BufTy).Contents (Elt F) → (⟨S256, .i32⟩ : BufTy).Contents (Elt F)) (r_main_v21 a0 a1 a2 a3 a4) (r_main_c_27 a0 a1 a2 a3 a4)
/-- `main_v86`. -/
def r_main_v86 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .i32⟩ : BufTy).Contents (Elt F) :=
  (broadcastInDim S256x1 ![0] Gen.bcast_S256_S256x1_0 : (⟨S256, .i32⟩ : BufTy).Contents (Elt F) → (⟨S256x1, .i32⟩ : BufTy).Contents (Elt F)) (r_main_v85 a0 a1 a2 a3 a4)
/-- `main_v87`. -/
def r_main_v87 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (sitofp .f32 : (⟨S256x1, .i32⟩ : BufTy).Contents (Elt F) → (⟨S256x1, .f32⟩ : BufTy).Contents (Elt F)) (r_main_v86 a0 a1 a2 a3 a4)
/-- `main_cst_28`. -/
def r_main_cst_28 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x3F800000#32)
/-- `main_v88`. -/
def r_main_v88 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (broadcastInDim S256x1 ![] Gen.bcast_S_S256x1 : (⟨S_, .f32⟩ : BufTy).Contents (Elt F) → (⟨S256x1, .f32⟩ : BufTy).Contents (Elt F)) (r_main_cst_28 a0 a1 a2 a3 a4)
/-- `main_v89`. -/
def r_main_v89 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (addf : (⟨S256x1, .f32⟩ : BufTy).Contents (Elt F) → (⟨S256x1, .f32⟩ : BufTy).Contents (Elt F) → (⟨S256x1, .f32⟩ : BufTy).Contents (Elt F)) (r_main_v87 a0 a1 a2 a3 a4) (r_main_v88 a0 a1 a2 a3 a4)
/-- `main_v90`. -/
def r_main_v90 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (broadcastInDim S256x256 ![0, 1] Gen.bcast_S256x1_S256x256_0_1 : (⟨S256x1, .f32⟩ : BufTy).Contents (Elt F) → (⟨S256x256, .f32⟩ : BufTy).Contents (Elt F)) (r_main_v89 a0 a1 a2 a3 a4)
/-- `main_v91`. -/
def r_main_v91 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (Host.divf : (⟨S256x256, .f32⟩ : BufTy).Contents (Elt F) → (⟨S256x256, .f32⟩ : BufTy).Contents (Elt F) → (⟨S256x256, .f32⟩ : BufTy).Contents (Elt F)) (r_main_v84 a0 a1 a2 a3 a4) (r_main_v90 a0 a1 a2 a3 a4)
/-- `main_v92`. -/
def r_main_v92 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x32768, .f32⟩ : BufTy).Contents (Elt F) :=
  shapeCast S256x32768 (r_main_v23 a0 a1 a2 a3 a4) Gen.shapeCasts_S256x256x128_S256x32768
/-- `main_v93`. -/
def r_main_v93 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x2560, .f32⟩ : BufTy).Contents (Elt F) :=
  shapeCast S256x2560 (r_main_v83 a0 a1 a2 a3 a4) Gen.shapeCasts_S256x256x10_S256x2560
/-- `main_v94`. -/
def r_main_v94 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x35840, .f32⟩ : BufTy).Contents (Elt F) :=
  concatenate S256x35840 1 [⟨S256x32768, (r_main_v92 a0 a1 a2 a3 a4)⟩, ⟨S256x2560, (r_main_v93 a0 a1 a2 a3 a4)⟩, ⟨S256x256, (r_main_v91 a0 a1 a2 a3 a4)⟩, ⟨S256x256, (r_main_v24 a0 a1 a2 a3 a4)⟩] Gen.concatenates_S256x32768_S256x2560_S256x256_S256x256_S256x35840_d1

/-- The value the host operations leave in `main_v94`, as a function of the five arguments they read. -/
def stepFn (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x35840, .f32⟩ : BufTy).Contents (Elt F) := r_main_v94 a0 a1 a2 a3 a4

/-- At the start: the five arguments. -/
structure Inv_start (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
/-- After `hostOps0`: the arguments, and every buffer written so far that a later operation reads. -/
structure Inv_0 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
/-- After `hostOps0_1`: the arguments, and every buffer written so far that a later operation reads. -/
structure Inv_1 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
  h_main_v10 : W (main_v10 : DevRef τ sig) = r_main_v10 a0 a1 a2 a3 a4
/-- After `hostOps0_2`: the arguments, and every buffer written so far that a later operation reads. -/
structure Inv_2 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
  h_main_v12 : W (main_v12 : DevRef τ sig) = r_main_v12 a0 a1 a2 a3 a4
/-- After `hostOps0_3`: the arguments, and every buffer written so far that a later operation reads. -/
structure Inv_3 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v9 : W (main_v9 : DevRef τ sig) = r_main_v9 a0 a1 a2 a3 a4
  h_main_v12 : W (main_v12 : DevRef τ sig) = r_main_v12 a0 a1 a2 a3 a4
  h_main_v13 : W (main_v13 : DevRef τ sig) = r_main_v13 a0 a1 a2 a3 a4
/-- After `hostOps0_4`: the arguments, and every buffer written so far that a later operation reads. -/
structure Inv_4 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v9 : W (main_v9 : DevRef τ sig) = r_main_v9 a0 a1 a2 a3 a4
  h_main_v12 : W (main_v12 : DevRef τ sig) = r_main_v12 a0 a1 a2 a3 a4
  h_main_v16 : W (main_v16 : DevRef τ sig) = r_main_v16 a0 a1 a2 a3 a4
/-- After `hostOps0_5`: the arguments, and every buffer written so far that a later operation reads. -/
structure Inv_5 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v12 : W (main_v12 : DevRef τ sig) = r_main_v12 a0 a1 a2 a3 a4
  h_main_v16 : W (main_v16 : DevRef τ sig) = r_main_v16 a0 a1 a2 a3 a4
  h_main_v17 : W (main_v17 : DevRef τ sig) = r_main_v17 a0 a1 a2 a3 a4
/-- After `hostOps0_6`: the arguments, and every buffer written so far that a later operation reads. -/
structure Inv_6 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v16 : W (main_v16 : DevRef τ sig) = r_main_v16 a0 a1 a2 a3 a4
  h_main_v19 : W (main_v19 : DevRef τ sig) = r_main_v19 a0 a1 a2 a3 a4
/-- After `hostOps0_7`: the arguments, and every buffer written so far that a later operation reads. -/
structure Inv_7 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v16 : W (main_v16 : DevRef τ sig) = r_main_v16 a0 a1 a2 a3 a4
  h_main_v19 : W (main_v19 : DevRef τ sig) = r_main_v19 a0 a1 a2 a3 a4
  h_main_v20 : W (main_v20 : DevRef τ sig) = r_main_v20 a0 a1 a2 a3 a4
/-- After `hostOps0_8`: the arguments, and every buffer written so far that a later operation reads. -/
structure Inv_8 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
/-- After `hostOps0_9`: the arguments, and every buffer written so far that a later operation reads. -/
structure Inv_9 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
  h_main_v22 : W (main_v22 : DevRef τ sig) = r_main_v22 a0 a1 a2 a3 a4
/-- After `hostOps0_10`: the arguments, and every buffer written so far that a later operation reads. -/
structure Inv_10 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
  h_main_v23 : W (main_v23 : DevRef τ sig) = r_main_v23 a0 a1 a2 a3 a4
/-- After `hostOps0_11`: the arguments, and every buffer written so far that a later operation reads. -/
structure Inv_11 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
/-- After `hostOps0_12`: the arguments, and every buffer written so far that a later operation reads. -/
structure Inv_12 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v30 : W (main_v30 : DevRef τ sig) = r_main_v30 a0 a1 a2 a3 a4
  h_main_c_9 : W (main_c_9 : DevRef τ sig) = r_main_c_9 a0 a1 a2 a3 a4
  h_main_c_10 : W (main_c_10 : DevRef τ sig) = r_main_c_10 a0 a1 a2 a3 a4
/-- After `hostOps0_13`: the arguments, and every buffer written so far that a later operation reads. -/
structure Inv_13 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v31 : W (main_v31 : DevRef τ sig) = r_main_v31 a0 a1 a2 a3 a4
/-- After `hostOps0_14`: the arguments, and every buffer written so far that a later operation reads. -/
structure Inv_14 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v31 : W (main_v31 : DevRef τ sig) = r_main_v31 a0 a1 a2 a3 a4
  h_main_v33 : W (main_v33 : DevRef τ sig) = r_main_v33 a0 a1 a2 a3 a4
  h_main_v35 : W (main_v35 : DevRef τ sig) = r_main_v35 a0 a1 a2 a3 a4
/-- After `hostOps0_15`: the arguments, and every buffer written so far that a later operation reads. -/
structure Inv_15 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v36 : W (main_v36 : DevRef τ sig) = r_main_v36 a0 a1 a2 a3 a4
/-- After `hostOps0_16`: the arguments, and every buffer written so far that a later operation reads. -/
structure Inv_16 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v36 : W (main_v36 : DevRef τ sig) = r_main_v36 a0 a1 a2 a3 a4
  h_main_v37 : W (main_v37 : DevRef τ sig) = r_main_v37 a0 a1 a2 a3 a4
  h_main_v39 : W (main_v39 : DevRef τ sig) = r_main_v39 a0 a1 a2 a3 a4
  h_main_v41 : W (main_v41 : DevRef τ sig) = r_main_v41 a0 a1 a2 a3 a4
  h_main_v43 : W (main_v43 : DevRef τ sig) = r_main_v43 a0 a1 a2 a3 a4
/-- After `hostOps0_17`: the arguments, and every buffer written so far that a later operation reads. -/
structure Inv_17 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v37 : W (main_v37 : DevRef τ sig) = r_main_v37 a0 a1 a2 a3 a4
  h_main_v39 : W (main_v39 : DevRef τ sig) = r_main_v39 a0 a1 a2 a3 a4
  h_main_v44 : W (main_v44 : DevRef τ sig) = r_main_v44 a0 a1 a2 a3 a4
/-- After `hostOps0_18`: the arguments, and every buffer written so far that a later operation reads. -/
structure Inv_18 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v44 : W (main_v44 : DevRef τ sig) = r_main_v44 a0 a1 a2 a3 a4
  h_main_v45 : W (main_v45 : DevRef τ sig) = r_main_v45 a0 a1 a2 a3 a4
  h_main_v47 : W (main_v47 : DevRef τ sig) = r_main_v47 a0 a1 a2 a3 a4
  h_main_v49 : W (main_v49 : DevRef τ sig) = r_main_v49 a0 a1 a2 a3 a4
  h_main_v51 : W (main_v51 : DevRef τ sig) = r_main_v51 a0 a1 a2 a3 a4
/-- After `hostOps0_19`: the arguments, and every buffer written so far that a later operation reads. -/
structure Inv_19 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v45 : W (main_v45 : DevRef τ sig) = r_main_v45 a0 a1 a2 a3 a4
  h_main_v47 : W (main_v47 : DevRef τ sig) = r_main_v47 a0 a1 a2 a3 a4
  h_main_v52 : W (main_v52 : DevRef τ sig) = r_main_v52 a0 a1 a2 a3 a4
/-- After `hostOps0_20`: the arguments, and every buffer written so far that a later operation reads. -/
structure Inv_20 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v52 : W (main_v52 : DevRef τ sig) = r_main_v52 a0 a1 a2 a3 a4
  h_main_v53 : W (main_v53 : DevRef τ sig) = r_main_v53 a0 a1 a2 a3 a4
  h_main_v55 : W (main_v55 : DevRef τ sig) = r_main_v55 a0 a1 a2 a3 a4
  h_main_v57 : W (main_v57 : DevRef τ sig) = r_main_v57 a0 a1 a2 a3 a4
  h_main_v59 : W (main_v59 : DevRef τ sig) = r_main_v59 a0 a1 a2 a3 a4
/-- After `hostOps0_21`: the arguments, and every buffer written so far that a later operation reads. -/
structure Inv_21 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v53 : W (main_v53 : DevRef τ sig) = r_main_v53 a0 a1 a2 a3 a4
  h_main_v55 : W (main_v55 : DevRef τ sig) = r_main_v55 a0 a1 a2 a3 a4
  h_main_v60 : W (main_v60 : DevRef τ sig) = r_main_v60 a0 a1 a2 a3 a4
/-- After `hostOps0_22`: the arguments, and every buffer written so far that a later operation reads. -/
structure Inv_22 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v60 : W (main_v60 : DevRef τ sig) = r_main_v60 a0 a1 a2 a3 a4
  h_main_v61 : W (main_v61 : DevRef τ sig) = r_main_v61 a0 a1 a2 a3 a4
  h_main_v63 : W (main_v63 : DevRef τ sig) = r_main_v63 a0 a1 a2 a3 a4
  h_main_v65 : W (main_v65 : DevRef τ sig) = r_main_v65 a0 a1 a2 a3 a4
  h_main_v67 : W (main_v67 : DevRef τ sig) = r_main_v67 a0 a1 a2 a3 a4
/-- After `hostOps0_23`: the arguments, and every buffer written so far that a later operation reads. -/
structure Inv_23 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v61 : W (main_v61 : DevRef τ sig) = r_main_v61 a0 a1 a2 a3 a4
  h_main_v63 : W (main_v63 : DevRef τ sig) = r_main_v63 a0 a1 a2 a3 a4
  h_main_v68 : W (main_v68 : DevRef τ sig) = r_main_v68 a0 a1 a2 a3 a4
/-- After `hostOps0_24`: the arguments, and every buffer written so far that a later operation reads. -/
structure Inv_24 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v68 : W (main_v68 : DevRef τ sig) = r_main_v68 a0 a1 a2 a3 a4
  h_main_v69 : W (main_v69 : DevRef τ sig) = r_main_v69 a0 a1 a2 a3 a4
  h_main_v71 : W (main_v71 : DevRef τ sig) = r_main_v71 a0 a1 a2 a3 a4
  h_main_v73 : W (main_v73 : DevRef τ sig) = r_main_v73 a0 a1 a2 a3 a4
  h_main_v75 : W (main_v75 : DevRef τ sig) = r_main_v75 a0 a1 a2 a3 a4
/-- After `hostOps0_25`: the arguments, and every buffer written so far that a later operation reads. -/
structure Inv_25 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v69 : W (main_v69 : DevRef τ sig) = r_main_v69 a0 a1 a2 a3 a4
  h_main_v71 : W (main_v71 : DevRef τ sig) = r_main_v71 a0 a1 a2 a3 a4
  h_main_v76 : W (main_v76 : DevRef τ sig) = r_main_v76 a0 a1 a2 a3 a4
/-- After `hostOps0_26`: the arguments, and every buffer written so far that a later operation reads. -/
structure Inv_26 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v76 : W (main_v76 : DevRef τ sig) = r_main_v76 a0 a1 a2 a3 a4
  h_main_v80 : W (main_v80 : DevRef τ sig) = r_main_v80 a0 a1 a2 a3 a4
/-- After `hostOps0_27`: the arguments, and every buffer written so far that a later operation reads. -/
structure Inv_27 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v81 : W (main_v81 : DevRef τ sig) = r_main_v81 a0 a1 a2 a3 a4
/-- After `hostOps0_28`: the arguments, and every buffer written so far that a later operation reads. -/
structure Inv_28 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v81 : W (main_v81 : DevRef τ sig) = r_main_v81 a0 a1 a2 a3 a4
  h_main_c_26 : W (main_c_26 : DevRef τ sig) = r_main_c_26 a0 a1 a2 a3 a4
/-- After `hostOps0_29`: the arguments, and every buffer written so far that a later operation reads. -/
structure Inv_29 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v82 : W (main_v82 : DevRef τ sig) = r_main_v82 a0 a1 a2 a3 a4
/-- After `hostOps0_30`: the arguments, and every buffer written so far that a later operation reads. -/
structure Inv_30 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v94 : W (main_v94 : DevRef τ sig) = r_main_v94 a0 a1 a2 a3 a4

end Cert.KernelIdeal.Hand

end
-- ==== Proof.ValueI.lean ====
/-
  The kernel program's run at the extended reals, with its result named.

  The region's output array ends at the two halves of the output stacked (block q is what the point (q, 27) wrote
  back); the eight later lines add the two halves and the output bias; and the arrays the region was entered with
  are: P, the glue's function of the first five arguments (the equation is taken as a hypothesis here and supplied where the pieces are assembled); the weights, as launched; the two hidden biases, laid
  out as rows.
-/
import proofs.«103122_j77446850281992_2_alg».proof.Proof.FrameI
import proofs.«103122_j77446850281992_2_alg».proof.Proof.StepsI
import proofs.«103122_j77446850281992_2_alg».proof.Proof.OutArrayI
import proofs.«103122_j77446850281992_2_alg».proof.Proof.TailReadI
import proofs.«103122_j77446850281992_2_alg».proof.Proof.StepTermsK

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The region's output array after the run. -/
theorem out_final (c : Dev nD) :
    (dats m 0 c).arrAt 6 cfg0.N
      = Cert.Hand.kerOut (inP m c) (inW1 m c) (inB1 m c) (inWg m c) (inBg m c) (inW2 m c) :=
  out_array m c (inP m c) (inW1 m c) (inB1 m c) (inWg m c) (inBg m c) (inW2 m c)
    (fun t ht => out_left m c t ht ⟨t.val / 28, by have := t.isLt; have : cfg0.N = 56 := N_0; omega⟩ rfl)

/-- What the region is entered with, in terms of the launch memory. -/
theorem inP_eq (hglue : ∀ V : Valuation τ sig (Elt Ideal), StableHlo.after (List.flatten (glue (F := Ideal))) V (Proc.devRef .tc main_v94) = stepFn (V (Proc.devRef .tc main_arg0)) (V (Proc.devRef .tc main_arg1)) (V (Proc.devRef .tc main_arg2)) (V (Proc.devRef .tc main_arg3)) (V (Proc.devRef .tc main_arg4))) (c : Dev nD) : inP m c = stepFn (m ((c : Thread nD τ).loc main_arg0)) (m ((c : Thread nD τ).loc main_arg1)) (m ((c : Thread nD τ).loc main_arg2)) (m ((c : Thread nD τ).loc main_arg3)) (m ((c : Thread nD τ).loc main_arg4)) :=
  hglue (fun b => m (c, b))
theorem inW1_eq (c : Dev nD) : inW1 m c = m ((c : Thread nD τ).loc main_arg5) := entry_arg5 m c
theorem inWg_eq (c : Dev nD) : inWg m c = m ((c : Thread nD τ).loc main_arg7) := entry_arg7 m c
theorem inW2_eq (c : Dev nD) : inW2 m c = m ((c : Thread nD τ).loc main_arg9) := entry_arg9 m c
theorem inB1_eq (c : Dev nD) : inB1 m c = Cert.Hand.b1r (m ((c : Thread nD τ).loc main_arg6)) := glue_b1 (fun b => m (c, b))
theorem inBg_eq (c : Dev nD) : inBg m c = Cert.Hand.b1r (m ((c : Thread nD τ).loc main_arg8)) := glue_bg (fun b => m (c, b))

/-- The result of the kernel's program, as one function of the eleven arguments. -/
def kerResult (a0 : (⟨S256x128, .f32⟩ : BufTy).Contents (Elt Ideal)) (a1 : (⟨S256x256x128, .f32⟩ : BufTy).Contents (Elt Ideal)) (a2 : (⟨S256x256, .i32⟩ : BufTy).Contents (Elt Ideal)) (a3 : (⟨S256x256, .f32⟩ : BufTy).Contents (Elt Ideal))
    (a4 : (⟨S256x128, .f32⟩ : BufTy).Contents (Elt Ideal)) (a5 : (⟨S35840x1024, .f32⟩ : BufTy).Contents (Elt Ideal)) (a6 : (⟨S1024, .f32⟩ : BufTy).Contents (Elt Ideal)) (a7 : (⟨S35840x1024, .f32⟩ : BufTy).Contents (Elt Ideal))
    (a8 : (⟨S1024, .f32⟩ : BufTy).Contents (Elt Ideal)) (a9 : (⟨S1024x128, .f32⟩ : BufTy).Contents (Elt Ideal)) (a10 : (⟨S128, .f32⟩ : BufTy).Contents (Elt Ideal)) : (⟨S256x128, .f32⟩ : BufTy).Contents (Elt Ideal) :=
  Cert.Hand.kerTail (Cert.Hand.kerOut (stepFn a0 a1 a2 a3 a4) a5 (Cert.Hand.b1r a6) a7 (Cert.Hand.b1r a8) a9) a10

/-- main_v95 after the run. -/
theorem result_eq (hglue : ∀ V : Valuation τ sig (Elt Ideal), StableHlo.after (List.flatten (glue (F := Ideal))) V (Proc.devRef .tc main_v94) = stepFn (V (Proc.devRef .tc main_arg0)) (V (Proc.devRef .tc main_arg1)) (V (Proc.devRef .tc main_arg2)) (V (Proc.devRef .tc main_arg3)) (V (Proc.devRef .tc main_arg4))) (c : Dev nD) :
    Pipeline.afterTail₀ cfgs (dats m) 0 (entry m) [hostOps1] c main_v95
      = kerResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  refine (tail_read _).trans ?_
  have hO : (Pipeline.withArrays (cfgs 0).spec c (entry m c) (fun w => (dats m 0 c).arrAt w (cfgs 0).N) (Proc.devRef .tc main_call16_v2)
        : S2x256x128.Idx → Ideal .f32)
      = Cert.Hand.kerOut (inP m c) (inW1 m c) (inB1 m c) (inWg m c) (inBg m c) (inW2 m c) :=
    (Pipeline.withArrays_arr spec0 launch0.win.arr_inj c _ _ 6).trans (out_final m c)
  have hb : (Pipeline.withArrays (cfgs 0).spec c (entry m c) (fun w => (dats m 0 c).arrAt w (cfgs 0).N) (Proc.devRef .tc main_arg10)
        : S128.Idx → Ideal .f32)
      = m ((c : Thread nD τ).loc main_arg10) :=
    (Pipeline.withArrays_of_ne spec0 c _ _ main_arg10 (by decide)).trans (entry_arg10 m c)
  refine (congr (congrArg Cert.Hand.kerTail hO) hb).trans ?_
  unfold kerResult
  rw [inP_eq m hglue, inW1_eq, inWg_eq, inW2_eq, inB1_eq, inBg_eq]

/-- THE KERNEL'S RUN with its result: main_v95 ends at `kerResult` of the arguments, which end as they began. -/
theorem value_run (hglue : ∀ V : Valuation τ sig (Elt Ideal), StableHlo.after (List.flatten (glue (F := Ideal))) V (Proc.devRef .tc main_v94) = stepFn (V (Proc.devRef .tc main_arg0)) (V (Proc.devRef .tc main_arg1)) (V (Proc.devRef .tc main_arg2)) (V (Proc.devRef .tc main_arg3)) (V (Proc.devRef .tc main_arg4))) : θ_run defs (onTc (τ := τ) (main (F := Ideal))) ⟨m, fun _ => 0, ρ⟩ (fun r => ∀ c : Dev nD,
      r.2.mem ((c.tc : Thread nD τ).loc main_v95) = kerResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_v95 (Pipeline.mem_restRefs_of main_v95 rfl (by decide))).trans (result_eq m hglue c),
    ((h c).2 main_arg0 (Pipeline.mem_restRefs_of main_arg0 rfl (by decide))).trans (tail_arg0 m c _),
    ((h c).2 main_arg1 (Pipeline.mem_restRefs_of main_arg1 rfl (by decide))).trans (tail_arg1 m c _),
    ((h c).2 main_arg2 (Pipeline.mem_restRefs_of main_arg2 rfl (by decide))).trans (tail_arg2 m c _),
    ((h c).2 main_arg3 (Pipeline.mem_restRefs_of main_arg3 rfl (by decide))).trans (tail_arg3 m c _),
    ((h c).2 main_arg4 (Pipeline.mem_restRefs_of main_arg4 rfl (by decide))).trans (tail_arg4 m c _),
    ((h c).1 1).trans (((dats m 0 c).arrAt_in 1 rfl _).trans ((A_eq m c 1).trans (entry_arg5 m c))),
    ((h c).2 main_arg6 (Pipeline.mem_restRefs_of main_arg6 rfl (by decide))).trans (tail_arg6 m c _),
    ((h c).1 2).trans (((dats m 0 c).arrAt_in 2 rfl _).trans ((A_eq m c 2).trans (entry_arg7 m c))),
    ((h c).2 main_arg8 (Pipeline.mem_restRefs_of main_arg8 rfl (by decide))).trans (tail_arg8 m c _),
    ((h c).1 3).trans (((dats m 0 c).arrAt_in 3 rfl _).trans ((A_eq m c 3).trans (entry_arg9 m c))),
    ((h c).2 main_arg10 (Pipeline.mem_restRefs_of main_arg10 rfl (by decide))).trans (tail_arg10 m c _)⟩)
    (run_main m ρ)

end Cert.KernelIdeal.Hand

end
-- ==== Proof.RefBase.lean ====
/-
  What the reference's run is assembled from: the eleven arguments of `main` and the operations that write none
  of them; a chain of straight lines of operations is the straight line of their concatenation; a property of
  every operation of each of several lists holds of every operation of their concatenation.
-/
import proofs.«103122_j77446850281992_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {Val : EltTy → Type}

/-- `main`'s eleven arguments. -/
abbrev argRefs : List (Ref sig .tc) :=
  [main_arg0, main_arg1, main_arg2, main_arg3, main_arg4, main_arg5, main_arg6, main_arg7, main_arg8, main_arg9, main_arg10]

/-- The operation writes none of `main`'s arguments. -/
def KeepsArgs (op : HloOp τ sig Val) : Prop :=
  ∀ r ∈ argRefs, (Proc.devRef .tc r : DevRef τ sig) ∉ op.writes

/-- An operation whose one result buffer is no argument writes none. -/
theorem keepsArgs_of_writes {op : HloOp τ sig Val} {y : Ref sig .tc}
    (hw : op.writes = {Proc.devRef .tc y}) (hy : ∀ r ∈ argRefs, r ≠ y) : KeepsArgs op := fun r hr h => by
  rw [hw, Finset.mem_singleton] at h
  exact hy r hr (Proc.devRef_injective _ h)

/-- A line of operations none of which writes an argument leaves every argument as it was. -/
theorem after_keeps (ops : List (HloOp τ sig Val)) (h : ops.Forall KeepsArgs) (V : Valuation τ sig Val)
    {r : Ref sig .tc} (hr : r ∈ argRefs) :
    after ops V (Proc.devRef .tc r) = V (Proc.devRef .tc r) :=
  after_of_forall_not_mem ops V fun op hop => List.forall_iff_forall_mem.1 h op hop r hr

/-- The fold over two lines in a row is the second line's fold over the first's. -/
theorem after_concat : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- What holds of every element of two lists holds of every element of the one followed by the other. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- What holds of every element of each list of a family holds of every element of their concatenation. -/
theorem forall_flatten {α : Type} {p : α → Prop} {L : List (List α)} (h : L.Forall fun l => l.Forall p) :
    L.flatten.Forall p :=
  List.forall_iff_forall_mem.2 fun x hx => by
    obtain ⟨l, hl, hxl⟩ := List.mem_flatten.1 hx
    exact List.forall_iff_forall_mem.1 (List.forall_iff_forall_mem.1 h l hl) x hxl

/-- Straight lines of operations run one after the other are their concatenation run as one line. -/
theorem chain_map_seq {nD : Nat} {Λ : Labels} : ∀ L : List (List (HloOp τ sig Val)),
    (Pipeline.chain (L.map seq) : Prog (TpuEff nD τ sig Val Λ .tc) PUnit) = seq L.flatten
  | [] => rfl
  | l :: L => by rw [List.map_cons, Pipeline.chain_cons, List.flatten_cons, seq_append, chain_map_seq L]

end Cert.ReferenceIdeal.Hand

end
-- ==== Proof.RefOps.lean ====
/-
  The reference's `main`, window 0 of 3, as lists of its host operations: one list per stretch of `main`'s own
  operations and one per call of a module-local function (the callee's operations over that call's buffers), with,
  for each list, that its operations touch TensorCore references only, determine their results and write no
  argument of `main`; and the window as the chain of those lists.
-/
import proofs.«103122_j77446850281992_2_alg».proof.Proof.RefBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The incoming token's surprise `-log (Σ x * last_prediction + 1e-8)` (`main_v5`), the timings aged by one (`main_v7`) and the surprise decayed by 0.99 (`main_v9`). 14 operations of `main`, in order. -/
abbrev surpriseOps : List (HloOp τ sig (Elt F)) :=
  [ StableHlo.binary main_arg0 main_arg4 main_v0 (mulf : (⟨S256x128, .f32⟩ : BufTy).Contents (Elt F) → (⟨S256x128, .f32⟩ : BufTy).Contents (Elt F) → (⟨S256x128, .f32⟩ : BufTy).Contents (Elt F)),
    StableHlo.nullary main_cst (constant S_ .f32 0x00000000#32),
    StableHlo.binary main_v0 main_cst main_v1 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    StableHlo.nullary main_cst_0 (constant S_ .f32 0x322BCC77#32),
    StableHlo.unary main_cst_0 main_v2 (broadcastInDim S256 ![] bcast_S_S256 : (⟨S_, .f32⟩ : BufTy).Contents (Elt F) → (⟨S256, .f32⟩ : BufTy).Contents (Elt F)),
    StableHlo.binary main_v1 main_v2 main_v3 (addf : (⟨S256, .f32⟩ : BufTy).Contents (Elt F) → (⟨S256, .f32⟩ : BufTy).Contents (Elt F) → (⟨S256, .f32⟩ : BufTy).Contents (Elt F)),
    StableHlo.unary main_v3 main_v4 (Host.log : (⟨S256, .f32⟩ : BufTy).Contents (Elt F) → (⟨S256, .f32⟩ : BufTy).Contents (Elt F)),
    StableHlo.unary main_v4 main_v5 (Host.negf : (⟨S256, .f32⟩ : BufTy).Contents (Elt F) → (⟨S256, .f32⟩ : BufTy).Contents (Elt F)),
    StableHlo.nullary main_c (constantI S_ 32 1#32),
    StableHlo.unary main_c main_v6 (broadcastInDim S256x256 ![] bcast_S_S256x256 : (⟨S_, .i32⟩ : BufTy).Contents (Elt F) → (⟨S256x256, .i32⟩ : BufTy).Contents (Elt F)),
    StableHlo.binary main_arg2 main_v6 main_v7 (addi : (⟨S256x256, .i32⟩ : BufTy).Contents (Elt F) → (⟨S256x256, .i32⟩ : BufTy).Contents (Elt F) → (⟨S256x256, .i32⟩ : BufTy).Contents (Elt F)),
    StableHlo.nullary main_cst_1 (constant S_ .f32 0x3F7D70A4#32),
    StableHlo.unary main_cst_1 main_v8 (broadcastInDim S256x256 ![] bcast_S_S256x256 : (⟨S_, .f32⟩ : BufTy).Contents (Elt F) → (⟨S256x256, .f32⟩ : BufTy).Contents (Elt F)),
    StableHlo.binary main_arg3 main_v8 main_v9 (mulf : (⟨S256x256, .f32⟩ : BufTy).Contents (Elt F) → (⟨S256x256, .f32⟩ : BufTy).Contents (Elt F) → (⟨S256x256, .f32⟩ : BufTy).Contents (Elt F)) ]
/-- Each touches TensorCore references only. -/
theorem surpriseOps_sub : (surpriseOps : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
/-- Each determines its result. -/
theorem surpriseOps_fresh : (surpriseOps : List (HloOp τ sig (Elt F))).Forall fun op => op.fresh = ∅ :=
  ⟨rfl, rfl, rfl, rfl, rfl, rfl, rfl, rfl, rfl, rfl, rfl, rfl, rfl, rfl⟩
/-- None writes an argument of `main`. -/
theorem surpriseOps_keeps : (surpriseOps : List (HloOp τ sig (Elt F))).Forall KeepsArgs :=
  ⟨keepsArgs_of_writes (binary_writes ..) (by decide), keepsArgs_of_writes (nullary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (unary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide)⟩

/-- The memory rolled by one slot along the slot axis (`main_v10`): its last slot, then the first 255. 3 operations of `@roll_static`'s body over the buffers of `main_call0`, in order. -/
abbrev rollMemOps : List (HloOp τ sig (Elt F)) :=
  [ StableHlo.TRef.unary (.of main_arg1 : StableHlo.TRef sig ⟨S256x256x128, .f32⟩) (.of main_call0_v0 : StableHlo.TRef sig ⟨S256x1x128, .f32⟩) (extractStridedSlice S256x1x128 ![0, 255, 0] · slices_S256x256x128_S256x1x128_0_255_0),
    StableHlo.TRef.unary (.of main_arg1 : StableHlo.TRef sig ⟨S256x256x128, .f32⟩) (.of main_call0_v1 : StableHlo.TRef sig ⟨S256x255x128, .f32⟩) (extractStridedSlice S256x255x128 ![0, 0, 0] · slices_S256x256x128_S256x255x128_0_0_0),
    StableHlo.TRef.binary (.of main_call0_v0 : StableHlo.TRef sig ⟨S256x1x128, .f32⟩) (.of main_call0_v1 : StableHlo.TRef sig ⟨S256x255x128, .f32⟩) (.of main_v10 : StableHlo.TRef sig ⟨S256x256x128, .f32⟩) (fun a b => concatenate S256x256x128 1 [⟨S256x1x128, a⟩, ⟨S256x255x128, b⟩] concatenates_S256x1x128_S256x255x128_S256x256x128_d1) ]
/-- Each touches TensorCore references only. -/
theorem rollMemOps_sub : (rollMemOps : List (HloOp τ sig (Elt F))).Forall fun op => op.bufs ⊆ tcRefs τ sig :=
  ⟨unary_bufs_sub .., unary_bufs_sub .., binary_bufs_sub ..⟩
/-- Each determines its result. -/
theorem rollMemOps_fresh : (rollMemOps : List (HloOp τ sig (Elt F))).Forall fun op => op.fresh = ∅ :=
  ⟨rfl, rfl, rfl⟩
/-- None writes an argument of `main`. -/
theorem rollMemOps_keeps : (rollMemOps : List (HloOp τ sig (Elt F))).Forall KeepsArgs :=
  ⟨keepsArgs_of_writes (unary_writes ..) (by decide), keepsArgs_of_writes (unary_writes ..) (by decide), keepsArgs_of_writes (binary_writes ..) (by decide)⟩

/-- The token written into slot 0 of the rolled memory (`main_v12`). 3 operations of `main`, in order. -/
abbrev writeMemOps : List (HloOp τ sig (Elt F)) :=
  [ StableHlo.nullary main_c_2 (constantI S_ 32 0#32),
    StableHlo.unary main_c_2 main_v11 (broadcastInDim S1 ![] bcast_S_S1 : (⟨S_, .i32⟩ : BufTy).Contents (Elt F) → (⟨S1, .i32⟩ : BufTy).Contents (Elt F)),
    StableHlo.ternary main_v10 main_v11 main_arg0 main_v12 ((fun x i u => Host.scatter scatter_S256x256x128_S1_S256x128_01_1_1_0 (fun _ b => b) x i u) : (⟨S256x256x128, .f32⟩ : BufTy).Contents (Elt F) → (⟨S1, .i32⟩ : BufTy).Contents (Elt F) → (⟨S256x128, .f32⟩ : BufTy).Contents (Elt F) → (⟨S256x256x128, .f32⟩ : BufTy).Contents (Elt F)) ]
/-- Each touches TensorCore references only. -/
theorem writeMemOps_sub : (writeMemOps : List (HloOp τ sig (Elt F))).Forall fun op => op.bufs ⊆ tcRefs τ sig :=
  ⟨nullary_bufs_sub .., unary_bufs_sub .., ternary_bufs_sub ..⟩
/-- Each determines its result. -/
theorem writeMemOps_fresh : (writeMemOps : List (HloOp τ sig (Elt F))).Forall fun op => op.fresh = ∅ :=
  ⟨rfl, rfl, rfl⟩
/-- None writes an argument of `main`. -/
theorem writeMemOps_keeps : (writeMemOps : List (HloOp τ sig (Elt F))).Forall KeepsArgs :=
  ⟨keepsArgs_of_writes (nullary_writes ..) (by decide), keepsArgs_of_writes (unary_writes ..) (by decide), keepsArgs_of_writes (ternary_writes ..) (by decide)⟩

/-- The aged timings rolled by one slot (`main_v13`). 3 operations of `@roll_static_0`'s body over the buffers of `main_call1`, in order. -/
abbrev rollTimOps : List (HloOp τ sig (Elt F)) :=
  [ StableHlo.TRef.unary (.of main_v7 : StableHlo.TRef sig ⟨S256x256, .i32⟩) (.of main_call1_v0 : StableHlo.TRef sig ⟨S256x1, .i32⟩) (extractStridedSlice S256x1 ![0, 255] · slices_S256x256_S256x1_0_255),
    StableHlo.TRef.unary (.of main_v7 : StableHlo.TRef sig ⟨S256x256, .i32⟩) (.of main_call1_v1 : StableHlo.TRef sig ⟨S256x255, .i32⟩) (extractStridedSlice S256x255 ![0, 0] · slices_S256x256_S256x255_0_0),
    StableHlo.TRef.binary (.of main_call1_v0 : StableHlo.TRef sig ⟨S256x1, .i32⟩) (.of main_call1_v1 : StableHlo.TRef sig ⟨S256x255, .i32⟩) (.of main_v13 : StableHlo.TRef sig ⟨S256x256, .i32⟩) (fun a b => concatenate S256x256 1 [⟨S256x1, a⟩, ⟨S256x255, b⟩] concatenates_S256x1_S256x255_S256x256_d1) ]
/-- Each touches TensorCore references only. -/
theorem rollTimOps_sub : (rollTimOps : List (HloOp τ sig (Elt F))).Forall fun op => op.bufs ⊆ tcRefs τ sig :=
  ⟨unary_bufs_sub .., unary_bufs_sub .., binary_bufs_sub ..⟩
/-- Each determines its result. -/
theorem rollTimOps_fresh : (rollTimOps : List (HloOp τ sig (Elt F))).Forall fun op => op.fresh = ∅ :=
  ⟨rfl, rfl, rfl⟩
/-- None writes an argument of `main`. -/
theorem rollTimOps_keeps : (rollTimOps : List (HloOp τ sig (Elt F))).Forall KeepsArgs :=
  ⟨keepsArgs_of_writes (unary_writes ..) (by decide), keepsArgs_of_writes (unary_writes ..) (by decide), keepsArgs_of_writes (binary_writes ..) (by decide)⟩

/-- Zero written into slot 0 of the rolled timings (`main_v16`). 5 operations of `main`, in order. -/
abbrev writeTimOps : List (HloOp τ sig (Elt F)) :=
  [ StableHlo.nullary main_c_3 (constantI S_ 32 0#32),
    StableHlo.unary main_c_3 main_v14 (broadcastInDim S1 ![] bcast_S_S1 : (⟨S_, .i32⟩ : BufTy).Contents (Elt F) → (⟨S1, .i32⟩ : BufTy).Contents (Elt F)),
    StableHlo.nullary main_c_4 (constantI S_ 32 0#32),
    StableHlo.unary main_c_4 main_v15 (broadcastInDim S256 ![] bcast_S_S256 : (⟨S_, .i32⟩ : BufTy).Contents (Elt F) → (⟨S256, .i32⟩ : BufTy).Contents (Elt F)),
    StableHlo.ternary main_v13 main_v14 main_v15 main_v16 ((fun x i u => Host.scatter scatter_S256x256_S1_S256_0_1_1_0 (fun _ b => b) x i u) : (⟨S256x256, .i32⟩ : BufTy).Contents (Elt F) → (⟨S1, .i32⟩ : BufTy).Contents (Elt F) → (⟨S256, .i32⟩ : BufTy).Contents (Elt F) → (⟨S256x256, .i32⟩ : BufTy).Contents (Elt F)) ]
/-- Each touches TensorCore references only. -/
theorem writeTimOps_sub : (writeTimOps : List (HloOp τ sig (Elt F))).Forall fun op => op.bufs ⊆ tcRefs τ sig :=
  ⟨nullary_bufs_sub .., unary_bufs_sub .., nullary_bufs_sub .., unary_bufs_sub .., ternary_bufs_sub ..⟩
/-- Each determines its result. -/
theorem writeTimOps_fresh : (writeTimOps : List (HloOp τ sig (Elt F))).Forall fun op => op.fresh = ∅ :=
  ⟨rfl, rfl, rfl, rfl, rfl⟩
/-- None writes an argument of `main`. -/
theorem writeTimOps_keeps : (writeTimOps : List (HloOp τ sig (Elt F))).Forall KeepsArgs :=
  ⟨keepsArgs_of_writes (nullary_writes ..) (by decide), keepsArgs_of_writes (unary_writes ..) (by decide), keepsArgs_of_writes (nullary_writes ..) (by decide), keepsArgs_of_writes (unary_writes ..) (by decide), keepsArgs_of_writes (ternary_writes ..) (by decide)⟩

/-- The decayed surprise rolled by one slot (`main_v17`). 3 operations of `@roll_static_1`'s body over the buffers of `main_call2`, in order. -/
abbrev rollSurpOps : List (HloOp τ sig (Elt F)) :=
  [ StableHlo.TRef.unary (.of main_v9 : StableHlo.TRef sig ⟨S256x256, .f32⟩) (.of main_call2_v0 : StableHlo.TRef sig ⟨S256x1, .f32⟩) (extractStridedSlice S256x1 ![0, 255] · slices_S256x256_S256x1_0_255),
    StableHlo.TRef.unary (.of main_v9 : StableHlo.TRef sig ⟨S256x256, .f32⟩) (.of main_call2_v1 : StableHlo.TRef sig ⟨S256x255, .f32⟩) (extractStridedSlice S256x255 ![0, 0] · slices_S256x256_S256x255_0_0),
    StableHlo.TRef.binary (.of main_call2_v0 : StableHlo.TRef sig ⟨S256x1, .f32⟩) (.of main_call2_v1 : StableHlo.TRef sig ⟨S256x255, .f32⟩) (.of main_v17 : StableHlo.TRef sig ⟨S256x256, .f32⟩) (fun a b => concatenate S256x256 1 [⟨S256x1, a⟩, ⟨S256x255, b⟩] concatenates_S256x1_S256x255_S256x256_d1) ]
/-- Each touches TensorCore references only. -/
theorem rollSurpOps_sub : (rollSurpOps : List (HloOp τ sig (Elt F))).Forall fun op => op.bufs ⊆ tcRefs τ sig :=
  ⟨unary_bufs_sub .., unary_bufs_sub .., binary_bufs_sub ..⟩
/-- Each determines its result. -/
theorem rollSurpOps_fresh : (rollSurpOps : List (HloOp τ sig (Elt F))).Forall fun op => op.fresh = ∅ :=
  ⟨rfl, rfl, rfl⟩
/-- None writes an argument of `main`. -/
theorem rollSurpOps_keeps : (rollSurpOps : List (HloOp τ sig (Elt F))).Forall KeepsArgs :=
  ⟨keepsArgs_of_writes (unary_writes ..) (by decide), keepsArgs_of_writes (unary_writes ..) (by decide), keepsArgs_of_writes (binary_writes ..) (by decide)⟩

/-- The token's surprise written into slot 0 of the rolled surprise (`main_v19`). 3 operations of `main`, in order. -/
abbrev writeSurpOps : List (HloOp τ sig (Elt F)) :=
  [ StableHlo.nullary main_c_5 (constantI S_ 32 0#32),
    StableHlo.unary main_c_5 main_v18 (broadcastInDim S1 ![] bcast_S_S1 : (⟨S_, .i32⟩ : BufTy).Contents (Elt F) → (⟨S1, .i32⟩ : BufTy).Contents (Elt F)),
    StableHlo.ternary main_v17 main_v18 main_v5 main_v19 ((fun x i u => Host.scatter scatter_S256x256_S1_S256_0_1_1_0 (fun _ b => b) x i u) : (⟨S256x256, .f32⟩ : BufTy).Contents (Elt F) → (⟨S1, .i32⟩ : BufTy).Contents (Elt F) → (⟨S256, .f32⟩ : BufTy).Contents (Elt F) → (⟨S256x256, .f32⟩ : BufTy).Contents (Elt F)) ]
/-- Each touches TensorCore references only. -/
theorem writeSurpOps_sub : (writeSurpOps : List (HloOp τ sig (Elt F))).Forall fun op => op.bufs ⊆ tcRefs τ sig :=
  ⟨nullary_bufs_sub .., unary_bufs_sub .., ternary_bufs_sub ..⟩
/-- Each determines its result. -/
theorem writeSurpOps_fresh : (writeSurpOps : List (HloOp τ sig (Elt F))).Forall fun op => op.fresh = ∅ :=
  ⟨rfl, rfl, rfl⟩
/-- None writes an argument of `main`. -/
theorem writeSurpOps_keeps : (writeSurpOps : List (HloOp τ sig (Elt F))).Forall KeepsArgs :=
  ⟨keepsArgs_of_writes (nullary_writes ..) (by decide), keepsArgs_of_writes (unary_writes ..) (by decide), keepsArgs_of_writes (ternary_writes ..) (by decide)⟩

/-- The stable sort of the slot positions by timing, row by row: the sorting permutation (`main_v20`). 3 operations of `@argsort`'s body over the buffers of `main_call3`, in order. -/
abbrev argsortOps : List (HloOp τ sig (Elt F)) :=
  [ StableHlo.TRef.nullary (.of main_call3_v0 : StableHlo.TRef sig ⟨S256x256, .i32⟩) (iotaInDim S256x256 32 1),
    StableHlo.TRef.binary (.of main_v16 : StableHlo.TRef sig ⟨S256x256, .i32⟩) (.of main_call3_v0 : StableHlo.TRef sig ⟨S256x256, .i32⟩) (.of main_call3_v1_0 : StableHlo.TRef sig ⟨S256x256, .i32⟩) (fun x y => (Host.sort2 S256x256 1 comparator_i32_i32_d1 x y).1),
    StableHlo.TRef.binary (.of main_v16 : StableHlo.TRef sig ⟨S256x256, .i32⟩) (.of main_call3_v0 : StableHlo.TRef sig ⟨S256x256, .i32⟩) (.of main_v20 : StableHlo.TRef sig ⟨S256x256, .i32⟩) (fun x y => (Host.sort2 S256x256 1 comparator_i32_i32_d1 x y).2) ]
/-- Each touches TensorCore references only. -/
theorem argsortOps_sub : (argsortOps : List (HloOp τ sig (Elt F))).Forall fun op => op.bufs ⊆ tcRefs τ sig :=
  ⟨nullary_bufs_sub .., binary_bufs_sub .., binary_bufs_sub ..⟩
/-- Each determines its result. -/
theorem argsortOps_fresh : (argsortOps : List (HloOp τ sig (Elt F))).Forall fun op => op.fresh = ∅ :=
  ⟨rfl, rfl, rfl⟩
/-- None writes an argument of `main`. -/
theorem argsortOps_keeps : (argsortOps : List (HloOp τ sig (Elt F))).Forall KeepsArgs :=
  ⟨keepsArgs_of_writes (nullary_writes ..) (by decide), keepsArgs_of_writes (binary_writes ..) (by decide), keepsArgs_of_writes (binary_writes ..) (by decide)⟩

/-- The timings taken along the permutation (`main_v21`): the index wrapped when negative, its bounds test, the gather, the out-of-bounds fill. 22 operations of `@take_along_axis`'s body over the buffers of `main_call4`, in order. -/
abbrev takeTimOps : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S256x256, .i32⟩) (broadcastInDim S256x256 ![] bcast_S_S256x256),
    StableHlo.TRef.binary (.of main_v20 : StableHlo.TRef sig ⟨S256x256, .i32⟩) (.of main_call4_v0 : StableHlo.TRef sig ⟨S256x256, .i32⟩) (.of main_call4_v1 : StableHlo.TRef sig ⟨S256x256, .i1⟩) (cmpi .slt),
    StableHlo.TRef.nullary (.of main_call4_c_0 : StableHlo.TRef sig ⟨S_, .i32⟩) (constantI S_ 32 256#32),
    StableHlo.TRef.unary (.of main_call4_c_0 : StableHlo.TRef sig ⟨S_, .i32⟩) (.of main_call4_v2 : StableHlo.TRef sig ⟨S256x256, .i32⟩) (broadcastInDim S256x256 ![] bcast_S_S256x256),
    StableHlo.TRef.binary (.of main_v20 : StableHlo.TRef sig ⟨S256x256, .i32⟩) (.of main_call4_v2 : StableHlo.TRef sig ⟨S256x256, .i32⟩) (.of main_call4_v3 : StableHlo.TRef sig ⟨S256x256, .i32⟩) addi,
    StableHlo.TRef.ternary (.of main_call4_v1 : StableHlo.TRef sig ⟨S256x256, .i1⟩) (.of main_call4_v3 : StableHlo.TRef sig ⟨S256x256, .i32⟩) (.of main_v20 : StableHlo.TRef sig ⟨S256x256, .i32⟩) (.of main_call4_v4 : StableHlo.TRef sig ⟨S256x256, .i32⟩) select,
    StableHlo.TRef.reshape (.of main_call4_v4 : StableHlo.TRef sig ⟨S256x256, .i32⟩) (.of main_call4_v5 : StableHlo.TRef sig ⟨S256x256x1, .i32⟩) rfl shapeCasts_S256x256_S256x256x1,
    StableHlo.TRef.nullary (.of main_call4_c_1 : StableHlo.TRef sig ⟨S1, .i32⟩) (constantI S1 32 255#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S256x256x1, .i32⟩) (broadcastInDim S256x256x1 ![] bcast_S_S256x256x1),
    StableHlo.TRef.binary (.of main_call4_v5 : StableHlo.TRef sig ⟨S256x256x1, .i32⟩) (.of main_call4_v6 : StableHlo.TRef sig ⟨S256x256x1, .i32⟩) (.of main_call4_v7 : StableHlo.TRef sig ⟨S256x256x1, .i1⟩) (cmpi .sge),
    StableHlo.TRef.unary (.of main_call4_c_1 : StableHlo.TRef sig ⟨S1, .i32⟩) (.of main_call4_v8 : StableHlo.TRef sig ⟨S1x1x1, .i32⟩) (broadcastInDim S1x1x1 ![2] bcast_S1_S1x1x1_2),
    StableHlo.TRef.unary (.of main_call4_v8 : StableHlo.TRef sig ⟨S1x1x1, .i32⟩) (.of main_call4_v9 : StableHlo.TRef sig ⟨S256x256x1, .i32⟩) (broadcastInDim S256x256x1 ![0, 1, 2] bcast_S1x1x1_S256x256x1_0_1_2),
    StableHlo.TRef.binary (.of main_call4_v5 : StableHlo.TRef sig ⟨S256x256x1, .i32⟩) (.of main_call4_v9 : StableHlo.TRef sig ⟨S256x256x1, .i32⟩) (.of main_call4_v10 : StableHlo.TRef sig ⟨S256x256x1, .i1⟩) (cmpi .sle),
    StableHlo.TRef.binary (.of main_call4_v7 : StableHlo.TRef sig ⟨S256x256x1, .i1⟩) (.of main_call4_v10 : StableHlo.TRef sig ⟨S256x256x1, .i1⟩) (.of main_call4_v11 : StableHlo.TRef sig ⟨S256x256x1, .i1⟩) andi,
    StableHlo.TRef.nullary (.of main_call4_c_3 : StableHlo.TRef sig ⟨S_, .i1⟩) (constantI S_ 1 1#1),
    StableHlo.TRef.binary (.of main_call4_v11 : StableHlo.TRef sig ⟨S256x256x1, .i1⟩) (.of main_call4_c_3 : StableHlo.TRef sig ⟨S_, .i1⟩) (.of main_call4_v12 : StableHlo.TRef sig ⟨S256x256, .i1⟩) (fun x v => Host.reduce IntOp.andi x v reducesTo_S256x256x1_S256x256_d2 h_S_),
    StableHlo.TRef.binary (.of main_v16 : StableHlo.TRef sig ⟨S256x256, .i32⟩) (.of main_call4_v5 : StableHlo.TRef sig ⟨S256x256x1, .i32⟩) (.of main_call4_v13 : StableHlo.TRef sig ⟨S256x256, .i32⟩) (fun x i => Host.gather gather_S256x256_S256x256x1_S256x256_n_1_0_0_1_2_11 x i),
    StableHlo.TRef.nullary (.of main_call4_c_4 : StableHlo.TRef sig ⟨S_, .i32⟩) (constantI S_ 32 2147483648#32),
    StableHlo.TRef.unary (.of main_call4_c_4 : StableHlo.TRef sig ⟨S_, .i32⟩) (.of main_call4_v14 : StableHlo.TRef sig ⟨S256x256, .i32⟩) (broadcastInDim S256x256 ![] bcast_S_S256x256),
    StableHlo.TRef.ternary (.of main_call4_v12 : StableHlo.TRef sig ⟨S256x256, .i1⟩) (.of main_call4_v13 : StableHlo.TRef sig ⟨S256x256, .i32⟩) (.of main_call4_v14 : StableHlo.TRef sig ⟨S256x256, .i32⟩) (.of main_v21 : StableHlo.TRef sig ⟨S256x256, .i32⟩) select ]
/-- Each touches TensorCore references only. -/
theorem takeTimOps_sub : (takeTimOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- Each determines its result. -/
theorem takeTimOps_fresh : (takeTimOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- None writes an argument of `main`. -/
theorem takeTimOps_keeps : (takeTimOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (ternary_writes ..) (by decide), keepsArgs_of_writes (reshape_writes ..) (by decide), keepsArgs_of_writes (nullary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (unary_writes ..) (by decide), keepsArgs_of_writes (binary_writes ..) (by decide), keepsArgs_of_writes (binary_writes ..) (by decide), keepsArgs_of_writes (nullary_writes ..) (by decide), keepsArgs_of_writes (binary_writes ..) (by decide), keepsArgs_of_writes (binary_writes ..) (by decide), keepsArgs_of_writes (nullary_writes ..) (by decide), keepsArgs_of_writes (unary_writes ..) (by decide), keepsArgs_of_writes (ternary_writes ..) (by decide)⟩

/-- The permutation as a column of indices (`main_v22`). 1 operation of `main`, in order. -/
abbrev idxColOps : List (HloOp τ sig (Elt F)) :=
  [ StableHlo.unary main_v20 main_v22 (broadcastInDim S256x256x1 ![0, 1] bcast_S256x256_S256x256x1_0_1 : (⟨S256x256, .i32⟩ : BufTy).Contents (Elt F) → (⟨S256x256x1, .i32⟩ : BufTy).Contents (Elt F)) ]
/-- Each touches TensorCore references only. -/
theorem idxColOps_sub : (idxColOps : List (HloOp τ sig (Elt F))).Forall fun op => op.bufs ⊆ tcRefs τ sig :=
  unary_bufs_sub ..
/-- Each determines its result. -/
theorem idxColOps_fresh : (idxColOps : List (HloOp τ sig (Elt F))).Forall fun op => op.fresh = ∅ :=
  rfl
/-- None writes an argument of `main`. -/
theorem idxColOps_keeps : (idxColOps : List (HloOp τ sig (Elt F))).Forall KeepsArgs :=
  keepsArgs_of_writes (unary_writes ..) (by decide)

/-- The memory rows taken along the permutation (`main_v23`). 22 operations of `@take_along_axis_2`'s body over the buffers of `main_call5`, in order. -/
abbrev takeMemOps : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S256x256x1, .i32⟩) (broadcastInDim S256x256x1 ![] bcast_S_S256x256x1),
    StableHlo.TRef.binary (.of main_v22 : StableHlo.TRef sig ⟨S256x256x1, .i32⟩) (.of main_call5_v0 : StableHlo.TRef sig ⟨S256x256x1, .i32⟩) (.of main_call5_v1 : StableHlo.TRef sig ⟨S256x256x1, .i1⟩) (cmpi .slt),
    StableHlo.TRef.nullary (.of main_call5_c_0 : StableHlo.TRef sig ⟨S_, .i32⟩) (constantI S_ 32 256#32),
    StableHlo.TRef.unary (.of main_call5_c_0 : StableHlo.TRef sig ⟨S_, .i32⟩) (.of main_call5_v2 : StableHlo.TRef sig ⟨S256x256x1, .i32⟩) (broadcastInDim S256x256x1 ![] bcast_S_S256x256x1),
    StableHlo.TRef.binary (.of main_v22 : StableHlo.TRef sig ⟨S256x256x1, .i32⟩) (.of main_call5_v2 : StableHlo.TRef sig ⟨S256x256x1, .i32⟩) (.of main_call5_v3 : StableHlo.TRef sig ⟨S256x256x1, .i32⟩) addi,
    StableHlo.TRef.ternary (.of main_call5_v1 : StableHlo.TRef sig ⟨S256x256x1, .i1⟩) (.of main_call5_v3 : StableHlo.TRef sig ⟨S256x256x1, .i32⟩) (.of main_v22 : StableHlo.TRef sig ⟨S256x256x1, .i32⟩) (.of main_call5_v4 : StableHlo.TRef sig ⟨S256x256x1, .i32⟩) select,
    StableHlo.TRef.nullary (.of main_call5_c_1 : StableHlo.TRef sig ⟨S1, .i32⟩) (constantI S1 32 255#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S256x256x1, .i32⟩) (broadcastInDim S256x256x1 ![] bcast_S_S256x256x1),
    StableHlo.TRef.binary (.of main_call5_v4 : StableHlo.TRef sig ⟨S256x256x1, .i32⟩) (.of main_call5_v5 : StableHlo.TRef sig ⟨S256x256x1, .i32⟩) (.of main_call5_v6 : StableHlo.TRef sig ⟨S256x256x1, .i1⟩) (cmpi .sge),
    StableHlo.TRef.unary (.of main_call5_c_1 : StableHlo.TRef sig ⟨S1, .i32⟩) (.of main_call5_v7 : StableHlo.TRef sig ⟨S1x1x1, .i32⟩) (broadcastInDim S1x1x1 ![2] bcast_S1_S1x1x1_2),
    StableHlo.TRef.unary (.of main_call5_v7 : StableHlo.TRef sig ⟨S1x1x1, .i32⟩) (.of main_call5_v8 : StableHlo.TRef sig ⟨S256x256x1, .i32⟩) (broadcastInDim S256x256x1 ![0, 1, 2] bcast_S1x1x1_S256x256x1_0_1_2),
    StableHlo.TRef.binary (.of main_call5_v4 : StableHlo.TRef sig ⟨S256x256x1, .i32⟩) (.of main_call5_v8 : StableHlo.TRef sig ⟨S256x256x1, .i32⟩) (.of main_call5_v9 : StableHlo.TRef sig ⟨S256x256x1, .i1⟩) (cmpi .sle),
    StableHlo.TRef.binary (.of main_call5_v6 : StableHlo.TRef sig ⟨S256x256x1, .i1⟩) (.of main_call5_v9 : StableHlo.TRef sig ⟨S256x256x1, .i1⟩) (.of main_call5_v10 : StableHlo.TRef sig ⟨S256x256x1, .i1⟩) andi,
    StableHlo.TRef.nullary (.of main_call5_c_3 : StableHlo.TRef sig ⟨S_, .i1⟩) (constantI S_ 1 1#1),
    StableHlo.TRef.binary (.of main_call5_v10 : StableHlo.TRef sig ⟨S256x256x1, .i1⟩) (.of main_call5_c_3 : StableHlo.TRef sig ⟨S_, .i1⟩) (.of main_call5_v11 : StableHlo.TRef sig ⟨S256x256, .i1⟩) (fun x v => Host.reduce IntOp.andi x v reducesTo_S256x256x1_S256x256_d2 h_S_),
    StableHlo.TRef.binary (.of main_v12 : StableHlo.TRef sig ⟨S256x256x128, .f32⟩) (.of main_call5_v4 : StableHlo.TRef sig ⟨S256x256x1, .i32⟩) (.of main_call5_v12 : StableHlo.TRef sig ⟨S256x256x128, .f32⟩) (fun x i => Host.gather gather_S256x256x128_S256x256x1_S256x256x128_2_1_0_0_1_2_11128 x i),
    StableHlo.TRef.unary (.of main_call5_v11 : StableHlo.TRef sig ⟨S256x256, .i1⟩) (.of main_call5_v13 : StableHlo.TRef sig ⟨S256x256x128, .i1⟩) (broadcastInDim S256x256x128 ![0, 1] bcast_S256x256_S256x256x128_0_1),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S256x256x128, .f32⟩) (broadcastInDim S256x256x128 ![] bcast_S_S256x256x128),
    StableHlo.TRef.ternary (.of main_call5_v13 : StableHlo.TRef sig ⟨S256x256x128, .i1⟩) (.of main_call5_v12 : StableHlo.TRef sig ⟨S256x256x128, .f32⟩) (.of main_call5_v14 : StableHlo.TRef sig ⟨S256x256x128, .f32⟩) (.of main_v23 : StableHlo.TRef sig ⟨S256x256x128, .f32⟩) select ]
/-- Each touches TensorCore references only. -/
theorem takeMemOps_sub : (takeMemOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- Each determines its result. -/
theorem takeMemOps_fresh : (takeMemOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- None writes an argument of `main`. -/
theorem takeMemOps_keeps : (takeMemOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (ternary_writes ..) (by decide), keepsArgs_of_writes (nullary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (unary_writes ..) (by decide), keepsArgs_of_writes (binary_writes ..) (by decide), keepsArgs_of_writes (binary_writes ..) (by decide), keepsArgs_of_writes (nullary_writes ..) (by decide), keepsArgs_of_writes (binary_writes ..) (by decide), keepsArgs_of_writes (binary_writes ..) (by decide), keepsArgs_of_writes (unary_writes ..) (by decide), keepsArgs_of_writes (nullary_writes ..) (by decide), keepsArgs_of_writes (unary_writes ..) (by decide), keepsArgs_of_writes (ternary_writes ..) (by decide)⟩

/-- The surprise taken along the permutation (`main_v24`). 22 operations of `@take_along_axis_3`'s body over the buffers of `main_call6`, in order. -/
abbrev takeSurpOps : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S256x256, .i32⟩) (broadcastInDim S256x256 ![] bcast_S_S256x256),
    StableHlo.TRef.binary (.of main_v20 : StableHlo.TRef sig ⟨S256x256, .i32⟩) (.of main_call6_v0 : StableHlo.TRef sig ⟨S256x256, .i32⟩) (.of main_call6_v1 : StableHlo.TRef sig ⟨S256x256, .i1⟩) (cmpi .slt),
    StableHlo.TRef.nullary (.of main_call6_c_0 : StableHlo.TRef sig ⟨S_, .i32⟩) (constantI S_ 32 256#32),
    StableHlo.TRef.unary (.of main_call6_c_0 : StableHlo.TRef sig ⟨S_, .i32⟩) (.of main_call6_v2 : StableHlo.TRef sig ⟨S256x256, .i32⟩) (broadcastInDim S256x256 ![] bcast_S_S256x256),
    StableHlo.TRef.binary (.of main_v20 : StableHlo.TRef sig ⟨S256x256, .i32⟩) (.of main_call6_v2 : StableHlo.TRef sig ⟨S256x256, .i32⟩) (.of main_call6_v3 : StableHlo.TRef sig ⟨S256x256, .i32⟩) addi,
    StableHlo.TRef.ternary (.of main_call6_v1 : StableHlo.TRef sig ⟨S256x256, .i1⟩) (.of main_call6_v3 : StableHlo.TRef sig ⟨S256x256, .i32⟩) (.of main_v20 : StableHlo.TRef sig ⟨S256x256, .i32⟩) (.of main_call6_v4 : StableHlo.TRef sig ⟨S256x256, .i32⟩) select,
    StableHlo.TRef.reshape (.of main_call6_v4 : StableHlo.TRef sig ⟨S256x256, .i32⟩) (.of main_call6_v5 : StableHlo.TRef sig ⟨S256x256x1, .i32⟩) rfl shapeCasts_S256x256_S256x256x1,
    StableHlo.TRef.nullary (.of main_call6_c_1 : StableHlo.TRef sig ⟨S1, .i32⟩) (constantI S1 32 255#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S256x256x1, .i32⟩) (broadcastInDim S256x256x1 ![] bcast_S_S256x256x1),
    StableHlo.TRef.binary (.of main_call6_v5 : StableHlo.TRef sig ⟨S256x256x1, .i32⟩) (.of main_call6_v6 : StableHlo.TRef sig ⟨S256x256x1, .i32⟩) (.of main_call6_v7 : StableHlo.TRef sig ⟨S256x256x1, .i1⟩) (cmpi .sge),
    StableHlo.TRef.unary (.of main_call6_c_1 : StableHlo.TRef sig ⟨S1, .i32⟩) (.of main_call6_v8 : StableHlo.TRef sig ⟨S1x1x1, .i32⟩) (broadcastInDim S1x1x1 ![2] bcast_S1_S1x1x1_2),
    StableHlo.TRef.unary (.of main_call6_v8 : StableHlo.TRef sig ⟨S1x1x1, .i32⟩) (.of main_call6_v9 : StableHlo.TRef sig ⟨S256x256x1, .i32⟩) (broadcastInDim S256x256x1 ![0, 1, 2] bcast_S1x1x1_S256x256x1_0_1_2),
    StableHlo.TRef.binary (.of main_call6_v5 : StableHlo.TRef sig ⟨S256x256x1, .i32⟩) (.of main_call6_v9 : StableHlo.TRef sig ⟨S256x256x1, .i32⟩) (.of main_call6_v10 : StableHlo.TRef sig ⟨S256x256x1, .i1⟩) (cmpi .sle),
    StableHlo.TRef.binary (.of main_call6_v7 : StableHlo.TRef sig ⟨S256x256x1, .i1⟩) (.of main_call6_v10 : StableHlo.TRef sig ⟨S256x256x1, .i1⟩) (.of main_call6_v11 : StableHlo.TRef sig ⟨S256x256x1, .i1⟩) andi,
    StableHlo.TRef.nullary (.of main_call6_c_3 : StableHlo.TRef sig ⟨S_, .i1⟩) (constantI S_ 1 1#1),
    StableHlo.TRef.binary (.of main_call6_v11 : StableHlo.TRef sig ⟨S256x256x1, .i1⟩) (.of main_call6_c_3 : StableHlo.TRef sig ⟨S_, .i1⟩) (.of main_call6_v12 : StableHlo.TRef sig ⟨S256x256, .i1⟩) (fun x v => Host.reduce IntOp.andi x v reducesTo_S256x256x1_S256x256_d2 h_S_),
    StableHlo.TRef.binary (.of main_v19 : StableHlo.TRef sig ⟨S256x256, .f32⟩) (.of main_call6_v5 : StableHlo.TRef sig ⟨S256x256x1, .i32⟩) (.of main_call6_v13 : StableHlo.TRef sig ⟨S256x256, .f32⟩) (fun x i => Host.gather gather_S256x256_S256x256x1_S256x256_n_1_0_0_1_2_11 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S256x256, .f32⟩) (broadcastInDim S256x256 ![] bcast_S_S256x256),
    StableHlo.TRef.ternary (.of main_call6_v12 : StableHlo.TRef sig ⟨S256x256, .i1⟩) (.of main_call6_v13 : StableHlo.TRef sig ⟨S256x256, .f32⟩) (.of main_call6_v14 : StableHlo.TRef sig ⟨S256x256, .f32⟩) (.of main_v24 : StableHlo.TRef sig ⟨S256x256, .f32⟩) select ]
/-- Each touches TensorCore references only. -/
theorem takeSurpOps_sub : (takeSurpOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- Each determines its result. -/
theorem takeSurpOps_fresh : (takeSurpOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- None writes an argument of `main`. -/
theorem takeSurpOps_keeps : (takeSurpOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (ternary_writes ..) (by decide), keepsArgs_of_writes (reshape_writes ..) (by decide), keepsArgs_of_writes (nullary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (unary_writes ..) (by decide), keepsArgs_of_writes (binary_writes ..) (by decide), keepsArgs_of_writes (binary_writes ..) (by decide), keepsArgs_of_writes (nullary_writes ..) (by decide), keepsArgs_of_writes (binary_writes ..) (by decide), keepsArgs_of_writes (binary_writes ..) (by decide), keepsArgs_of_writes (nullary_writes ..) (by decide), keepsArgs_of_writes (unary_writes ..) (by decide), keepsArgs_of_writes (ternary_writes ..) (by decide)⟩

/-- The exponents `0 … 9` (`main_v25`) and the test whether the base 2 is zero while the exponent is not (`main_v30`), with the two constants it chooses between. 11 operations of `main`, in order. -/
abbrev pow0Ops : List (HloOp τ sig (Elt F)) :=
  [ StableHlo.nullary main_v25 (iotaInDim S10 32 0),
    StableHlo.nullary main_c_6 (constantI S_ 32 2#32),
    StableHlo.nullary main_c_7 (constantI S_ 32 0#32),
    StableHlo.binary main_c_6 main_c_7 main_v26 (cmpi .eq : (⟨S_, .i32⟩ : BufTy).Contents (Elt F) → (⟨S_, .i32⟩ : BufTy).Contents (Elt F) → (⟨S_, .i1⟩ : BufTy).Contents (Elt F)),
    StableHlo.nullary main_c_8 (constantI S_ 32 0#32),
    StableHlo.unary main_c_8 main_v27 (broadcastInDim S10 ![] bcast_S_S10 : (⟨S_, .i32⟩ : BufTy).Contents (Elt F) → (⟨S10, .i32⟩ : BufTy).Contents (Elt F)),
    StableHlo.binary main_v25 main_v27 main_v28 (cmpi .ne : (⟨S10, .i32⟩ : BufTy).Contents (Elt F) → (⟨S10, .i32⟩ : BufTy).Contents (Elt F) → (⟨S10, .i1⟩ : BufTy).Contents (Elt F)),
    StableHlo.unary main_v26 main_v29 (broadcastInDim S10 ![] bcast_S_S10 : (⟨S_, .i1⟩ : BufTy).Contents (Elt F) → (⟨S10, .i1⟩ : BufTy).Contents (Elt F)),
    StableHlo.binary main_v29 main_v28 main_v30 (andi : (⟨S10, .i1⟩ : BufTy).Contents (Elt F) → (⟨S10, .i1⟩ : BufTy).Contents (Elt F) → (⟨S10, .i1⟩ : BufTy).Contents (Elt F)),
    StableHlo.nullary main_c_9 (constantI S_ 32 0#32),
    StableHlo.nullary main_c_10 (constantI S_ 32 1#32) ]
/-- Each touches TensorCore references only. -/
theorem pow0Ops_sub : (pow0Ops : List (HloOp τ sig (Elt F))).Forall fun op => op.bufs ⊆ tcRefs τ sig :=
  ⟨nullary_bufs_sub .., nullary_bufs_sub .., nullary_bufs_sub .., binary_bufs_sub .., nullary_bufs_sub .., unary_bufs_sub .., binary_bufs_sub .., unary_bufs_sub .., binary_bufs_sub .., nullary_bufs_sub .., nullary_bufs_sub ..⟩
/-- Each determines its result. -/
theorem pow0Ops_fresh : (pow0Ops : List (HloOp τ sig (Elt F))).Forall fun op => op.fresh = ∅ :=
  ⟨rfl, rfl, rfl, rfl, rfl, rfl, rfl, rfl, rfl, rfl, rfl⟩
/-- None writes an argument of `main`. -/
theorem pow0Ops_keeps : (pow0Ops : List (HloOp τ sig (Elt F))).Forall KeepsArgs :=
  ⟨keepsArgs_of_writes (nullary_writes ..) (by decide), keepsArgs_of_writes (nullary_writes ..) (by decide), keepsArgs_of_writes (nullary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (binary_writes ..) (by decide), keepsArgs_of_writes (nullary_writes ..) (by decide), keepsArgs_of_writes (nullary_writes ..) (by decide)⟩

/-- The start of the power `2 ^ e` by repeated squaring (`main_v31`): 0 where that test holds, else 1. 3 operations of `@where`'s body over the buffers of `main_call7`, in order. -/
abbrev pow0WhereOps : List (HloOp τ sig (Elt F)) :=
  [ StableHlo.TRef.unary (.of main_c_9 : StableHlo.TRef sig ⟨S_, .i32⟩) (.of main_call7_v0 : StableHlo.TRef sig ⟨S10, .i32⟩) (broadcastInDim S10 ![] bcast_S_S10),
    StableHlo.TRef.unary (.of main_c_10 : StableHlo.TRef sig ⟨S_, .i32⟩) (.of main_call7_v1 : StableHlo.TRef sig ⟨S10, .i32⟩) (broadcastInDim S10 ![] bcast_S_S10),
    StableHlo.TRef.ternary (.of main_v30 : StableHlo.TRef sig ⟨S10, .i1⟩) (.of main_call7_v0 : StableHlo.TRef sig ⟨S10, .i32⟩) (.of main_call7_v1 : StableHlo.TRef sig ⟨S10, .i32⟩) (.of main_v31 : StableHlo.TRef sig ⟨S10, .i32⟩) select ]
/-- Each touches TensorCore references only. -/
theorem pow0WhereOps_sub : (pow0WhereOps : List (HloOp τ sig (Elt F))).Forall fun op => op.bufs ⊆ tcRefs τ sig :=
  ⟨unary_bufs_sub .., unary_bufs_sub .., ternary_bufs_sub ..⟩
/-- Each determines its result. -/
theorem pow0WhereOps_fresh : (pow0WhereOps : List (HloOp τ sig (Elt F))).Forall fun op => op.fresh = ∅ :=
  ⟨rfl, rfl, rfl⟩
/-- None writes an argument of `main`. -/
theorem pow0WhereOps_keeps : (pow0WhereOps : List (HloOp τ sig (Elt F))).Forall KeepsArgs :=
  ⟨keepsArgs_of_writes (unary_writes ..) (by decide), keepsArgs_of_writes (unary_writes ..) (by decide), keepsArgs_of_writes (ternary_writes ..) (by decide)⟩

/-- The exponent's bit 0 (`main_v33`) and the running product times the base (`main_v35`). 6 operations of `main`, in order. -/
abbrev pow1Ops : List (HloOp τ sig (Elt F)) :=
  [ StableHlo.nullary main_c_11 (constantI S_ 32 1#32),
    StableHlo.unary main_c_11 main_v32 (broadcastInDim S10 ![] bcast_S_S10 : (⟨S_, .i32⟩ : BufTy).Contents (Elt F) → (⟨S10, .i32⟩ : BufTy).Contents (Elt F)),
    StableHlo.binary main_v25 main_v32 main_v33 (andi : (⟨S10, .i32⟩ : BufTy).Contents (Elt F) → (⟨S10, .i32⟩ : BufTy).Contents (Elt F) → (⟨S10, .i32⟩ : BufTy).Contents (Elt F)),
    StableHlo.nullary main_c_12 (constantI S_ 32 2#32),
    StableHlo.unary main_c_12 main_v34 (broadcastInDim S10 ![] bcast_S_S10 : (⟨S_, .i32⟩ : BufTy).Contents (Elt F) → (⟨S10, .i32⟩ : BufTy).Contents (Elt F)),
    StableHlo.binary main_v31 main_v34 main_v35 (muli : (⟨S10, .i32⟩ : BufTy).Contents (Elt F) → (⟨S10, .i32⟩ : BufTy).Contents (Elt F) → (⟨S10, .i32⟩ : BufTy).Contents (Elt F)) ]
/-- Each touches TensorCore references only. -/
theorem pow1Ops_sub : (pow1Ops : List (HloOp τ sig (Elt F))).Forall fun op => op.bufs ⊆ tcRefs τ sig :=
  ⟨nullary_bufs_sub .., unary_bufs_sub .., binary_bufs_sub .., nullary_bufs_sub .., unary_bufs_sub .., binary_bufs_sub ..⟩
/-- Each determines its result. -/
theorem pow1Ops_fresh : (pow1Ops : List (HloOp τ sig (Elt F))).Forall fun op => op.fresh = ∅ :=
  ⟨rfl, rfl, rfl, rfl, rfl, rfl⟩
/-- None writes an argument of `main`. -/
theorem pow1Ops_keeps : (pow1Ops : List (HloOp τ sig (Elt F))).Forall KeepsArgs :=
  ⟨keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide)⟩

/-- The running product after bit 0 (`main_v36`). 4 operations of `@where_4`'s body over the buffers of `main_call8`, in order. -/
abbrev pow1WhereOps : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S10, .i32⟩) (broadcastInDim S10 ![] bcast_S_S10),
    StableHlo.TRef.binary (.of main_v33 : StableHlo.TRef sig ⟨S10, .i32⟩) (.of main_call8_v0 : StableHlo.TRef sig ⟨S10, .i32⟩) (.of main_call8_v1 : StableHlo.TRef sig ⟨S10, .i1⟩) (cmpi .ne),
    StableHlo.TRef.ternary (.of main_call8_v1 : StableHlo.TRef sig ⟨S10, .i1⟩) (.of main_v35 : StableHlo.TRef sig ⟨S10, .i32⟩) (.of main_v31 : StableHlo.TRef sig ⟨S10, .i32⟩) (.of main_v36 : StableHlo.TRef sig ⟨S10, .i32⟩) select ]
/-- Each touches TensorCore references only. -/
theorem pow1WhereOps_sub : (pow1WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow1WhereOps_fresh : (pow1WhereOps : List (HloOp τ sig (Elt F))).Forall fun op => op.fresh = ∅ :=
  ⟨rfl, rfl, rfl, rfl⟩
/-- None writes an argument of `main`. -/
theorem pow1WhereOps_keeps : (pow1WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The base squared (`main_v37`), the exponent shifted right by one (`main_v39`) and the constant for its low bit. 8 operations of `main`, in order. -/
abbrev pow2OpsA : List (HloOp τ sig (Elt F)) :=
  [ StableHlo.nullary main_c_13 (constantI S_ 32 2#32),
    StableHlo.nullary main_c_14 (constantI S_ 32 2#32),
    StableHlo.binary main_c_13 main_c_14 main_v37 (muli : (⟨S_, .i32⟩ : BufTy).Contents (Elt F) → (⟨S_, .i32⟩ : BufTy).Contents (Elt F) → (⟨S_, .i32⟩ : BufTy).Contents (Elt F)),
    StableHlo.nullary main_c_15 (constantI S_ 32 1#32),
    StableHlo.unary main_c_15 main_v38 (broadcastInDim S10 ![] bcast_S_S10 : (⟨S_, .i32⟩ : BufTy).Contents (Elt F) → (⟨S10, .i32⟩ : BufTy).Contents (Elt F)),
    StableHlo.binary main_v25 main_v38 main_v39 (Host.shrui : (⟨S10, .i32⟩ : BufTy).Contents (Elt F) → (⟨S10, .i32⟩ : BufTy).Contents (Elt F) → (⟨S10, .i32⟩ : BufTy).Contents (Elt F)),
    StableHlo.nullary main_c_16 (constantI S_ 32 1#32),
    StableHlo.unary main_c_16 main_v40 (broadcastInDim S10 ![] bcast_S_S10 : (⟨S_, .i32⟩ : BufTy).Contents (Elt F) → (⟨S10, .i32⟩ : BufTy).Contents (Elt F)) ]
/-- Each touches TensorCore references only. -/
theorem pow2OpsA_sub : (pow2OpsA : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub ..⟩
/-- Each determines its result. -/
theorem pow2OpsA_fresh : (pow2OpsA : List (HloOp τ sig (Elt F))).Forall fun op => op.fresh = ∅ :=
  ⟨rfl, rfl, rfl, rfl, rfl, rfl, rfl, rfl⟩
/-- None writes an argument of `main`. -/
theorem pow2OpsA_keeps : (pow2OpsA : List (HloOp τ sig (Elt F))).Forall KeepsArgs :=
  ⟨keepsArgs_of_writes (nullary_writes ..) (by decide), keepsArgs_of_writes (nullary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide)⟩

/-- Window 0 of `main` is these lines of operations in order, the last in tail position: by unfolding, each module-local
    function's body opened at its call over the call's buffers. -/
theorem main_part0_eq (c : Dev nD) : main_part0 (F := F) c = (Pipeline.chainK
  [ seq surpriseOps,
    seq rollMemOps,
    seq writeMemOps,
    seq rollTimOps,
    seq writeTimOps,
    seq rollSurpOps,
    seq writeSurpOps,
    seq argsortOps,
    seq takeTimOps,
    seq idxColOps,
    seq takeMemOps,
    seq takeSurpOps,
    seq pow0Ops,
    seq pow0WhereOps,
    seq pow1Ops,
    seq pow1WhereOps ]
  (seq pow2OpsA) : Prog (TpuEff nD τ sig (Elt F) (Pipeline.Sig Λ₀ (Fin 0) fun p => (pcfgs (F := F) p).Adm) .tc) PUnit) := by
  chain_rfl

end Cert.ReferenceIdeal.Hand

end
-- ==== Proof.RefOps1.lean ====
/-
  The reference's `main`, window 1 of 3, as lists of its host operations: one list per stretch of `main`'s own
  operations and one per call of a module-local function (the callee's operations over that call's buffers), with,
  for each list, that its operations touch TensorCore references only, determine their results and write no
  argument of `main`; and the window as the chain of those lists.
-/
import proofs.«103122_j77446850281992_2_alg».proof.Proof.RefBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The exponent's bit 1 (`main_v41`) and the running product times the squared base (`main_v43`). 3 operations of `main`, in order. -/
abbrev pow2OpsB : List (HloOp τ sig (Elt F)) :=
  [ StableHlo.binary main_v39 main_v40 main_v41 (andi : (⟨S10, .i32⟩ : BufTy).Contents (Elt F) → (⟨S10, .i32⟩ : BufTy).Contents (Elt F) → (⟨S10, .i32⟩ : BufTy).Contents (Elt F)),
    StableHlo.unary main_v37 main_v42 (broadcastInDim S10 ![] bcast_S_S10 : (⟨S_, .i32⟩ : BufTy).Contents (Elt F) → (⟨S10, .i32⟩ : BufTy).Contents (Elt F)),
    StableHlo.binary main_v36 main_v42 main_v43 (muli : (⟨S10, .i32⟩ : BufTy).Contents (Elt F) → (⟨S10, .i32⟩ : BufTy).Contents (Elt F) → (⟨S10, .i32⟩ : BufTy).Contents (Elt F)) ]
/-- Each touches TensorCore references only. -/
theorem pow2OpsB_sub : (pow2OpsB : List (HloOp τ sig (Elt F))).Forall fun op => op.bufs ⊆ tcRefs τ sig :=
  ⟨binary_bufs_sub .., unary_bufs_sub .., binary_bufs_sub ..⟩
/-- Each determines its result. -/
theorem pow2OpsB_fresh : (pow2OpsB : List (HloOp τ sig (Elt F))).Forall fun op => op.fresh = ∅ :=
  ⟨rfl, rfl, rfl⟩
/-- None writes an argument of `main`. -/
theorem pow2OpsB_keeps : (pow2OpsB : List (HloOp τ sig (Elt F))).Forall KeepsArgs :=
  ⟨keepsArgs_of_writes (binary_writes ..) (by decide), keepsArgs_of_writes (unary_writes ..) (by decide), keepsArgs_of_writes (binary_writes ..) (by decide)⟩

/-- The running product after bit 1 (`main_v44`). 4 operations of `@where_4`'s body over the buffers of `main_call9`, in order. -/
abbrev pow2WhereOps : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S10, .i32⟩) (broadcastInDim S10 ![] bcast_S_S10),
    StableHlo.TRef.binary (.of main_v41 : StableHlo.TRef sig ⟨S10, .i32⟩) (.of main_call9_v0 : StableHlo.TRef sig ⟨S10, .i32⟩) (.of main_call9_v1 : StableHlo.TRef sig ⟨S10, .i1⟩) (cmpi .ne),
    StableHlo.TRef.ternary (.of main_call9_v1 : StableHlo.TRef sig ⟨S10, .i1⟩) (.of main_v43 : StableHlo.TRef sig ⟨S10, .i32⟩) (.of main_v36 : StableHlo.TRef sig ⟨S10, .i32⟩) (.of main_v44 : StableHlo.TRef sig ⟨S10, .i32⟩) select ]
/-- Each touches TensorCore references only. -/
theorem pow2WhereOps_sub : (pow2WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow2WhereOps_fresh : (pow2WhereOps : List (HloOp τ sig (Elt F))).Forall fun op => op.fresh = ∅ :=
  ⟨rfl, rfl, rfl, rfl⟩
/-- None writes an argument of `main`. -/
theorem pow2WhereOps_keeps : (pow2WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The base squared again (`main_v45`), the exponent's bit 2 (`main_v49`) and the running product times the base (`main_v51`). 9 operations of `main`, in order. -/
abbrev pow3Ops : List (HloOp τ sig (Elt F)) :=
  [ StableHlo.binary main_v37 main_v37 main_v45 (muli : (⟨S_, .i32⟩ : BufTy).Contents (Elt F) → (⟨S_, .i32⟩ : BufTy).Contents (Elt F) → (⟨S_, .i32⟩ : BufTy).Contents (Elt F)),
    StableHlo.nullary main_c_17 (constantI S_ 32 1#32),
    StableHlo.unary main_c_17 main_v46 (broadcastInDim S10 ![] bcast_S_S10 : (⟨S_, .i32⟩ : BufTy).Contents (Elt F) → (⟨S10, .i32⟩ : BufTy).Contents (Elt F)),
    StableHlo.binary main_v39 main_v46 main_v47 (Host.shrui : (⟨S10, .i32⟩ : BufTy).Contents (Elt F) → (⟨S10, .i32⟩ : BufTy).Contents (Elt F) → (⟨S10, .i32⟩ : BufTy).Contents (Elt F)),
    StableHlo.nullary main_c_18 (constantI S_ 32 1#32),
    StableHlo.unary main_c_18 main_v48 (broadcastInDim S10 ![] bcast_S_S10 : (⟨S_, .i32⟩ : BufTy).Contents (Elt F) → (⟨S10, .i32⟩ : BufTy).Contents (Elt F)),
    StableHlo.binary main_v47 main_v48 main_v49 (andi : (⟨S10, .i32⟩ : BufTy).Contents (Elt F) → (⟨S10, .i32⟩ : BufTy).Contents (Elt F) → (⟨S10, .i32⟩ : BufTy).Contents (Elt F)),
    StableHlo.unary main_v45 main_v50 (broadcastInDim S10 ![] bcast_S_S10 : (⟨S_, .i32⟩ : BufTy).Contents (Elt F) → (⟨S10, .i32⟩ : BufTy).Contents (Elt F)),
    StableHlo.binary main_v44 main_v50 main_v51 (muli : (⟨S10, .i32⟩ : BufTy).Contents (Elt F) → (⟨S10, .i32⟩ : BufTy).Contents (Elt F) → (⟨S10, .i32⟩ : BufTy).Contents (Elt F)) ]
/-- Each touches TensorCore references only. -/
theorem pow3Ops_sub : (pow3Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub ..⟩
/-- Each determines its result. -/
theorem pow3Ops_fresh : (pow3Ops : List (HloOp τ sig (Elt F))).Forall fun op => op.fresh = ∅ :=
  ⟨rfl, rfl, rfl, rfl, rfl, rfl, rfl, rfl, rfl⟩
/-- None writes an argument of `main`. -/
theorem pow3Ops_keeps : (pow3Ops : List (HloOp τ sig (Elt F))).Forall KeepsArgs :=
  ⟨keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (binary_writes ..) (by decide)⟩

/-- The running product after bit 2 (`main_v52`). 4 operations of `@where_4`'s body over the buffers of `main_call10`, in order. -/
abbrev pow3WhereOps : List (HloOp τ sig (Elt F)) :=
  [ StableHlo.TRef.nullary (.of main_call10_c : StableHlo.TRef sig ⟨S_, .i32⟩) (constantI S_ 32 0#32),
    StableHlo.TRef.unary (.of main_call10_c : StableHlo.TRef sig ⟨S_, .i32⟩) (.of main_call10_v0 : StableHlo.TRef sig ⟨S10, .i32⟩) (broadcastInDim S10 ![] bcast_S_S10),
    StableHlo.TRef.binary (.of main_v49 : StableHlo.TRef sig ⟨S10, .i32⟩) (.of main_call10_v0 : StableHlo.TRef sig ⟨S10, .i32⟩) (.of main_call10_v1 : StableHlo.TRef sig ⟨S10, .i1⟩) (cmpi .ne),
    StableHlo.TRef.ternary (.of main_call10_v1 : StableHlo.TRef sig ⟨S10, .i1⟩) (.of main_v51 : StableHlo.TRef sig ⟨S10, .i32⟩) (.of main_v44 : StableHlo.TRef sig ⟨S10, .i32⟩) (.of main_v52 : StableHlo.TRef sig ⟨S10, .i32⟩) select ]
/-- Each touches TensorCore references only. -/
theorem pow3WhereOps_sub : (pow3WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow3WhereOps_fresh : (pow3WhereOps : List (HloOp τ sig (Elt F))).Forall fun op => op.fresh = ∅ :=
  ⟨rfl, rfl, rfl, rfl⟩
/-- None writes an argument of `main`. -/
theorem pow3WhereOps_keeps : (pow3WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The base squared again (`main_v53`), the exponent's bit 3 (`main_v57`) and the running product times the base (`main_v59`). 9 operations of `main`, in order. -/
abbrev pow4Ops : List (HloOp τ sig (Elt F)) :=
  [ StableHlo.binary main_v45 main_v45 main_v53 (muli : (⟨S_, .i32⟩ : BufTy).Contents (Elt F) → (⟨S_, .i32⟩ : BufTy).Contents (Elt F) → (⟨S_, .i32⟩ : BufTy).Contents (Elt F)),
    StableHlo.nullary main_c_19 (constantI S_ 32 1#32),
    StableHlo.unary main_c_19 main_v54 (broadcastInDim S10 ![] bcast_S_S10 : (⟨S_, .i32⟩ : BufTy).Contents (Elt F) → (⟨S10, .i32⟩ : BufTy).Contents (Elt F)),
    StableHlo.binary main_v47 main_v54 main_v55 (Host.shrui : (⟨S10, .i32⟩ : BufTy).Contents (Elt F) → (⟨S10, .i32⟩ : BufTy).Contents (Elt F) → (⟨S10, .i32⟩ : BufTy).Contents (Elt F)),
    StableHlo.nullary main_c_20 (constantI S_ 32 1#32),
    StableHlo.unary main_c_20 main_v56 (broadcastInDim S10 ![] bcast_S_S10 : (⟨S_, .i32⟩ : BufTy).Contents (Elt F) → (⟨S10, .i32⟩ : BufTy).Contents (Elt F)),
    StableHlo.binary main_v55 main_v56 main_v57 (andi : (⟨S10, .i32⟩ : BufTy).Contents (Elt F) → (⟨S10, .i32⟩ : BufTy).Contents (Elt F) → (⟨S10, .i32⟩ : BufTy).Contents (Elt F)),
    StableHlo.unary main_v53 main_v58 (broadcastInDim S10 ![] bcast_S_S10 : (⟨S_, .i32⟩ : BufTy).Contents (Elt F) → (⟨S10, .i32⟩ : BufTy).Contents (Elt F)),
    StableHlo.binary main_v52 main_v58 main_v59 (muli : (⟨S10, .i32⟩ : BufTy).Contents (Elt F) → (⟨S10, .i32⟩ : BufTy).Contents (Elt F) → (⟨S10, .i32⟩ : BufTy).Contents (Elt F)) ]
/-- Each touches TensorCore references only. -/
theorem pow4Ops_sub : (pow4Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub ..⟩
/-- Each determines its result. -/
theorem pow4Ops_fresh : (pow4Ops : List (HloOp τ sig (Elt F))).Forall fun op => op.fresh = ∅ :=
  ⟨rfl, rfl, rfl, rfl, rfl, rfl, rfl, rfl, rfl⟩
/-- None writes an argument of `main`. -/
theorem pow4Ops_keeps : (pow4Ops : List (HloOp τ sig (Elt F))).Forall KeepsArgs :=
  ⟨keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (binary_writes ..) (by decide)⟩

/-- The running product after bit 3 (`main_v60`). 4 operations of `@where_4`'s body over the buffers of `main_call11`, in order. -/
abbrev pow4WhereOps : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S10, .i32⟩) (broadcastInDim S10 ![] bcast_S_S10),
    StableHlo.TRef.binary (.of main_v57 : StableHlo.TRef sig ⟨S10, .i32⟩) (.of main_call11_v0 : StableHlo.TRef sig ⟨S10, .i32⟩) (.of main_call11_v1 : StableHlo.TRef sig ⟨S10, .i1⟩) (cmpi .ne),
    StableHlo.TRef.ternary (.of main_call11_v1 : StableHlo.TRef sig ⟨S10, .i1⟩) (.of main_v59 : StableHlo.TRef sig ⟨S10, .i32⟩) (.of main_v52 : StableHlo.TRef sig ⟨S10, .i32⟩) (.of main_v60 : StableHlo.TRef sig ⟨S10, .i32⟩) select ]
/-- Each touches TensorCore references only. -/
theorem pow4WhereOps_sub : (pow4WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow4WhereOps_fresh : (pow4WhereOps : List (HloOp τ sig (Elt F))).Forall fun op => op.fresh = ∅ :=
  ⟨rfl, rfl, rfl, rfl⟩
/-- None writes an argument of `main`. -/
theorem pow4WhereOps_keeps : (pow4WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The base squared again (`main_v61`), the exponent's bit 4 (`main_v65`) and the running product times the base (`main_v67`). 9 operations of `main`, in order. -/
abbrev pow5Ops : List (HloOp τ sig (Elt F)) :=
  [ StableHlo.binary main_v53 main_v53 main_v61 (muli : (⟨S_, .i32⟩ : BufTy).Contents (Elt F) → (⟨S_, .i32⟩ : BufTy).Contents (Elt F) → (⟨S_, .i32⟩ : BufTy).Contents (Elt F)),
    StableHlo.nullary main_c_21 (constantI S_ 32 1#32),
    StableHlo.unary main_c_21 main_v62 (broadcastInDim S10 ![] bcast_S_S10 : (⟨S_, .i32⟩ : BufTy).Contents (Elt F) → (⟨S10, .i32⟩ : BufTy).Contents (Elt F)),
    StableHlo.binary main_v55 main_v62 main_v63 (Host.shrui : (⟨S10, .i32⟩ : BufTy).Contents (Elt F) → (⟨S10, .i32⟩ : BufTy).Contents (Elt F) → (⟨S10, .i32⟩ : BufTy).Contents (Elt F)),
    StableHlo.nullary main_c_22 (constantI S_ 32 1#32),
    StableHlo.unary main_c_22 main_v64 (broadcastInDim S10 ![] bcast_S_S10 : (⟨S_, .i32⟩ : BufTy).Contents (Elt F) → (⟨S10, .i32⟩ : BufTy).Contents (Elt F)),
    StableHlo.binary main_v63 main_v64 main_v65 (andi : (⟨S10, .i32⟩ : BufTy).Contents (Elt F) → (⟨S10, .i32⟩ : BufTy).Contents (Elt F) → (⟨S10, .i32⟩ : BufTy).Contents (Elt F)),
    StableHlo.unary main_v61 main_v66 (broadcastInDim S10 ![] bcast_S_S10 : (⟨S_, .i32⟩ : BufTy).Contents (Elt F) → (⟨S10, .i32⟩ : BufTy).Contents (Elt F)),
    StableHlo.binary main_v60 main_v66 main_v67 (muli : (⟨S10, .i32⟩ : BufTy).Contents (Elt F) → (⟨S10, .i32⟩ : BufTy).Contents (Elt F) → (⟨S10, .i32⟩ : BufTy).Contents (Elt F)) ]
/-- Each touches TensorCore references only. -/
theorem pow5Ops_sub : (pow5Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub ..⟩
/-- Each determines its result. -/
theorem pow5Ops_fresh : (pow5Ops : List (HloOp τ sig (Elt F))).Forall fun op => op.fresh = ∅ :=
  ⟨rfl, rfl, rfl, rfl, rfl, rfl, rfl, rfl, rfl⟩
/-- None writes an argument of `main`. -/
theorem pow5Ops_keeps : (pow5Ops : List (HloOp τ sig (Elt F))).Forall KeepsArgs :=
  ⟨keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (binary_writes ..) (by decide)⟩

/-- The running product after bit 4 (`main_v68`). 4 operations of `@where_4`'s body over the buffers of `main_call12`, in order. -/
abbrev pow5WhereOps : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S10, .i32⟩) (broadcastInDim S10 ![] bcast_S_S10),
    StableHlo.TRef.binary (.of main_v65 : StableHlo.TRef sig ⟨S10, .i32⟩) (.of main_call12_v0 : StableHlo.TRef sig ⟨S10, .i32⟩) (.of main_call12_v1 : StableHlo.TRef sig ⟨S10, .i1⟩) (cmpi .ne),
    StableHlo.TRef.ternary (.of main_call12_v1 : StableHlo.TRef sig ⟨S10, .i1⟩) (.of main_v67 : StableHlo.TRef sig ⟨S10, .i32⟩) (.of main_v60 : StableHlo.TRef sig ⟨S10, .i32⟩) (.of main_v68 : StableHlo.TRef sig ⟨S10, .i32⟩) select ]
/-- Each touches TensorCore references only. -/
theorem pow5WhereOps_sub : (pow5WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow5WhereOps_fresh : (pow5WhereOps : List (HloOp τ sig (Elt F))).Forall fun op => op.fresh = ∅ :=
  ⟨rfl, rfl, rfl, rfl⟩
/-- None writes an argument of `main`. -/
theorem pow5WhereOps_keeps : (pow5WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The base squared again (`main_v69`), the exponent's bit 5 (`main_v73`) and the running product times the base (`main_v75`). 9 operations of `main`, in order. -/
abbrev pow6Ops : List (HloOp τ sig (Elt F)) :=
  [ StableHlo.binary main_v61 main_v61 main_v69 (muli : (⟨S_, .i32⟩ : BufTy).Contents (Elt F) → (⟨S_, .i32⟩ : BufTy).Contents (Elt F) → (⟨S_, .i32⟩ : BufTy).Contents (Elt F)),
    StableHlo.nullary main_c_23 (constantI S_ 32 1#32),
    StableHlo.unary main_c_23 main_v70 (broadcastInDim S10 ![] bcast_S_S10 : (⟨S_, .i32⟩ : BufTy).Contents (Elt F) → (⟨S10, .i32⟩ : BufTy).Contents (Elt F)),
    StableHlo.binary main_v63 main_v70 main_v71 (Host.shrui : (⟨S10, .i32⟩ : BufTy).Contents (Elt F) → (⟨S10, .i32⟩ : BufTy).Contents (Elt F) → (⟨S10, .i32⟩ : BufTy).Contents (Elt F)),
    StableHlo.nullary main_c_24 (constantI S_ 32 1#32),
    StableHlo.unary main_c_24 main_v72 (broadcastInDim S10 ![] bcast_S_S10 : (⟨S_, .i32⟩ : BufTy).Contents (Elt F) → (⟨S10, .i32⟩ : BufTy).Contents (Elt F)),
    StableHlo.binary main_v71 main_v72 main_v73 (andi : (⟨S10, .i32⟩ : BufTy).Contents (Elt F) → (⟨S10, .i32⟩ : BufTy).Contents (Elt F) → (⟨S10, .i32⟩ : BufTy).Contents (Elt F)),
    StableHlo.unary main_v69 main_v74 (broadcastInDim S10 ![] bcast_S_S10 : (⟨S_, .i32⟩ : BufTy).Contents (Elt F) → (⟨S10, .i32⟩ : BufTy).Contents (Elt F)),
    StableHlo.binary main_v68 main_v74 main_v75 (muli : (⟨S10, .i32⟩ : BufTy).Contents (Elt F) → (⟨S10, .i32⟩ : BufTy).Contents (Elt F) → (⟨S10, .i32⟩ : BufTy).Contents (Elt F)) ]
/-- Each touches TensorCore references only. -/
theorem pow6Ops_sub : (pow6Ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., binary_bufs_sub ..⟩
/-- Each determines its result. -/
theorem pow6Ops_fresh : (pow6Ops : List (HloOp τ sig (Elt F))).Forall fun op => op.fresh = ∅ :=
  ⟨rfl, rfl, rfl, rfl, rfl, rfl, rfl, rfl, rfl⟩
/-- None writes an argument of `main`. -/
theorem pow6Ops_keeps : (pow6Ops : List (HloOp τ sig (Elt F))).Forall KeepsArgs :=
  ⟨keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide), keepsArgs_of_writes (binary_writes ..) (by decide)⟩

/-- The powers of two `2 ^ 0 … 2 ^ 9` (`main_v76`): the running product after bit 5. 4 operations of `@where_4`'s body over the buffers of `main_call13`, in order. -/
abbrev pow6WhereOps : List (HloOp τ sig (Elt F)) :=
  [ StableHlo.TRef.nullary (.of main_call13_c : StableHlo.TRef sig ⟨S_, .i32⟩) (constantI S_ 32 0#32),
    StableHlo.TRef.unary (.of main_call13_c : StableHlo.TRef sig ⟨S_, .i32⟩) (.of main_call13_v0 : StableHlo.TRef sig ⟨S10, .i32⟩) (broadcastInDim S10 ![] bcast_S_S10),
    StableHlo.TRef.binary (.of main_v73 : StableHlo.TRef sig ⟨S10, .i32⟩) (.of main_call13_v0 : StableHlo.TRef sig ⟨S10, .i32⟩) (.of main_call13_v1 : StableHlo.TRef sig ⟨S10, .i1⟩) (cmpi .ne),
    StableHlo.TRef.ternary (.of main_call13_v1 : StableHlo.TRef sig ⟨S10, .i1⟩) (.of main_v75 : StableHlo.TRef sig ⟨S10, .i32⟩) (.of main_v68 : StableHlo.TRef sig ⟨S10, .i32⟩) (.of main_v76 : StableHlo.TRef sig ⟨S10, .i32⟩) select ]
/-- Each touches TensorCore references only. -/
theorem pow6WhereOps_sub : (pow6WhereOps : List (HloOp τ sig (Elt F))).Forall fun op => op.bufs ⊆ tcRefs τ sig :=
  ⟨nullary_bufs_sub .., unary_bufs_sub .., binary_bufs_sub .., ternary_bufs_sub ..⟩
/-- Each determines its result. -/
theorem pow6WhereOps_fresh : (pow6WhereOps : List (HloOp τ sig (Elt F))).Forall fun op => op.fresh = ∅ :=
  ⟨rfl, rfl, rfl, rfl⟩
/-- None writes an argument of `main`. -/
theorem pow6WhereOps_keeps : (pow6WhereOps : List (HloOp τ sig (Elt F))).Forall KeepsArgs :=
  ⟨keepsArgs_of_writes (nullary_writes ..) (by decide), keepsArgs_of_writes (unary_writes ..) (by decide), keepsArgs_of_writes (binary_writes ..) (by decide), keepsArgs_of_writes (ternary_writes ..) (by decide)⟩

/-- The last squaring and shift of the power loop (`main_v77`, `main_v79`: read by nothing) and the sorted timings as a column (`main_v80`). 5 operations of `main`, in order. -/
abbrev timColOps : List (HloOp τ sig (Elt F)) :=
  [ StableHlo.binary main_v69 main_v69 main_v77 (muli : (⟨S_, .i32⟩ : BufTy).Contents (Elt F) → (⟨S_, .i32⟩ : BufTy).Contents (Elt F) → (⟨S_, .i32⟩ : BufTy).Contents (Elt F)),
    StableHlo.nullary main_c_25 (constantI S_ 32 1#32),
    StableHlo.unary main_c_25 main_v78 (broadcastInDim S10 ![] bcast_S_S10 : (⟨S_, .i32⟩ : BufTy).Contents (Elt F) → (⟨S10, .i32⟩ : BufTy).Contents (Elt F)),
    StableHlo.binary main_v71 main_v78 main_v79 (Host.shrui : (⟨S10, .i32⟩ : BufTy).Contents (Elt F) → (⟨S10, .i32⟩ : BufTy).Contents (Elt F) → (⟨S10, .i32⟩ : BufTy).Contents (Elt F)),
    StableHlo.unary main_v21 main_v80 (broadcastInDim S256x256x1 ![0, 1] bcast_S256x256_S256x256x1_0_1 : (⟨S256x256, .i32⟩ : BufTy).Contents (Elt F) → (⟨S256x256x1, .i32⟩ : BufTy).Contents (Elt F)) ]
/-- Each touches TensorCore references only. -/
theorem timColOps_sub : (timColOps : List (HloOp τ sig (Elt F))).Forall fun op => op.bufs ⊆ tcRefs τ sig :=
  ⟨binary_bufs_sub .., nullary_bufs_sub .., unary_bufs_sub .., binary_bufs_sub .., unary_bufs_sub ..⟩
/-- Each determines its result. -/
theorem timColOps_fresh : (timColOps : List (HloOp τ sig (Elt F))).Forall fun op => op.fresh = ∅ :=
  ⟨rfl, rfl, rfl, rfl, rfl⟩
/-- None writes an argument of `main`. -/
theorem timColOps_keeps : (timColOps : List (HloOp τ sig (Elt F))).Forall KeepsArgs :=
  ⟨keepsArgs_of_writes (binary_writes ..) (by decide), keepsArgs_of_writes (nullary_writes ..) (by decide), keepsArgs_of_writes (unary_writes ..) (by decide), keepsArgs_of_writes (binary_writes ..) (by decide), keepsArgs_of_writes (unary_writes ..) (by decide)⟩

/-- The sorted timings floor-divided by the powers of two (`main_v81`): the truncated quotient, less one where the signs differ and the remainder is not zero. 20 operations of `@floor_divide`'s body over the buffers of `main_call14`, in order. -/
abbrev floorDivOps : List (HloOp τ sig (Elt F)) :=
  [ StableHlo.TRef.unary (.of main_v76 : StableHlo.TRef sig ⟨S10, .i32⟩) (.of main_call14_v0 : StableHlo.TRef sig ⟨S1x1x10, .i32⟩) (broadcastInDim S1x1x10 ![2] bcast_S10_S1x1x10_2),
    StableHlo.TRef.unary (.of main_v80 : StableHlo.TRef sig ⟨S256x256x1, .i32⟩) (.of main_call14_v1 : StableHlo.TRef sig ⟨S256x256x10, .i32⟩) (broadcastInDim S256x256x10 ![0, 1, 2] bcast_S256x256x1_S256x256x10_0_1_2),
    StableHlo.TRef.unary (.of main_call14_v0 : StableHlo.TRef sig ⟨S1x1x10, .i32⟩) (.of main_call14_v2 : StableHlo.TRef sig ⟨S256x256x10, .i32⟩) (broadcastInDim S256x256x10 ![0, 1, 2] bcast_S1x1x10_S256x256x10_0_1_2),
    StableHlo.TRef.binary (.of main_call14_v1 : StableHlo.TRef sig ⟨S256x256x10, .i32⟩) (.of main_call14_v2 : StableHlo.TRef sig ⟨S256x256x10, .i32⟩) (.of main_call14_v3 : StableHlo.TRef sig ⟨S256x256x10, .i32⟩) Host.divsi,
    StableHlo.TRef.unary (.of main_v80 : StableHlo.TRef sig ⟨S256x256x1, .i32⟩) (.of main_call14_v4 : StableHlo.TRef sig ⟨S256x256x1, .i32⟩) signi,
    StableHlo.TRef.unary (.of main_call14_v0 : StableHlo.TRef sig ⟨S1x1x10, .i32⟩) (.of main_call14_v5 : StableHlo.TRef sig ⟨S1x1x10, .i32⟩) signi,
    StableHlo.TRef.unary (.of main_call14_v4 : StableHlo.TRef sig ⟨S256x256x1, .i32⟩) (.of main_call14_v6 : StableHlo.TRef sig ⟨S256x256x10, .i32⟩) (broadcastInDim S256x256x10 ![0, 1, 2] bcast_S256x256x1_S256x256x10_0_1_2),
    StableHlo.TRef.unary (.of main_call14_v5 : StableHlo.TRef sig ⟨S1x1x10, .i32⟩) (.of main_call14_v7 : StableHlo.TRef sig ⟨S256x256x10, .i32⟩) (broadcastInDim S256x256x10 ![0, 1, 2] bcast_S1x1x10_S256x256x10_0_1_2),
    StableHlo.TRef.binary (.of main_call14_v6 : StableHlo.TRef sig ⟨S256x256x10, .i32⟩) (.of main_call14_v7 : StableHlo.TRef sig ⟨S256x256x10, .i32⟩) (.of main_call14_v8 : StableHlo.TRef sig ⟨S256x256x10, .i1⟩) (cmpi .ne),
    StableHlo.TRef.unary (.of main_v80 : StableHlo.TRef sig ⟨S256x256x1, .i32⟩) (.of main_call14_v9 : StableHlo.TRef sig ⟨S256x256x10, .i32⟩) (broadcastInDim S256x256x10 ![0, 1, 2] bcast_S256x256x1_S256x256x10_0_1_2),
    StableHlo.TRef.unary (.of main_call14_v0 : StableHlo.TRef sig ⟨S1x1x10, .i32⟩) (.of main_call14_v10 : StableHlo.TRef sig ⟨S256x256x10, .i32⟩) (broadcastInDim S256x256x10 ![0, 1, 2] bcast_S1x1x10_S256x256x10_0_1_2),
    StableHlo.TRef.binary (.of main_call14_v9 : StableHlo.TRef sig ⟨S256x256x10, .i32⟩) (.of main_call14_v10 : StableHlo.TRef sig ⟨S256x256x10, .i32⟩) (.of main_call14_v11 : StableHlo.TRef sig ⟨S256x256x10, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v12 : StableHlo.TRef sig ⟨S256x256x10, .i32⟩) (broadcastInDim S256x256x10 ![] bcast_S_S256x256x10),
    StableHlo.TRef.binary (.of main_call14_v11 : StableHlo.TRef sig ⟨S256x256x10, .i32⟩) (.of main_call14_v12 : StableHlo.TRef sig ⟨S256x256x10, .i32⟩) (.of main_call14_v13 : StableHlo.TRef sig ⟨S256x256x10, .i1⟩) (cmpi .ne),
    StableHlo.TRef.binary (.of main_call14_v8 : StableHlo.TRef sig ⟨S256x256x10, .i1⟩) (.of main_call14_v13 : StableHlo.TRef sig ⟨S256x256x10, .i1⟩) (.of main_call14_v14 : StableHlo.TRef sig ⟨S256x256x10, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v15 : StableHlo.TRef sig ⟨S256x256x10, .i32⟩) (broadcastInDim S256x256x10 ![] bcast_S_S256x256x10),
    StableHlo.TRef.binary (.of main_call14_v3 : StableHlo.TRef sig ⟨S256x256x10, .i32⟩) (.of main_call14_v15 : StableHlo.TRef sig ⟨S256x256x10, .i32⟩) (.of main_call14_v16 : StableHlo.TRef sig ⟨S256x256x10, .i32⟩) subi,
    StableHlo.TRef.ternary (.of main_call14_v14 : StableHlo.TRef sig ⟨S256x256x10, .i1⟩) (.of main_call14_v16 : StableHlo.TRef sig ⟨S256x256x10, .i32⟩) (.of main_call14_v3 : StableHlo.TRef sig ⟨S256x256x10, .i32⟩) (.of main_v81 : StableHlo.TRef sig ⟨S256x256x10, .i32⟩) select ]
/-- Each touches TensorCore references only. -/
theorem floorDivOps_sub : (floorDivOps : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
/-- Each determines its result. -/
theorem floorDivOps_fresh : (floorDivOps : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- None writes an argument of `main`. -/
theorem floorDivOps_keeps : (floorDivOps : List (HloOp τ sig (Elt F))).Forall KeepsArgs :=
  ⟨keepsArgs_of_writes (unary_writes ..) (by decide), keepsArgs_of_writes (unary_writes ..) (by decide), keepsArgs_of_writes (unary_writes ..) (by decide), keepsArgs_of_writes (binary_writes ..) (by decide), keepsArgs_of_writes (unary_writes ..) (by decide), keepsArgs_of_writes (unary_writes ..) (by decide), keepsArgs_of_writes (unary_writes ..) (by decide), keepsArgs_of_writes (unary_writes ..) (by decide), keepsArgs_of_writes (binary_writes ..) (by decide), keepsArgs_of_writes (unary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (ternary_writes ..) (by decide)⟩

/-- The constant 2. 1 operation of `main`, in order. -/
abbrev twoOps : List (HloOp τ sig (Elt F)) :=
  [ StableHlo.nullary main_c_26 (constantI S_ 32 2#32) ]
/-- Each touches TensorCore references only. -/
theorem twoOps_sub : (twoOps : List (HloOp τ sig (Elt F))).Forall fun op => op.bufs ⊆ tcRefs τ sig :=
  nullary_bufs_sub ..
/-- Each determines its result. -/
theorem twoOps_fresh : (twoOps : List (HloOp τ sig (Elt F))).Forall fun op => op.fresh = ∅ :=
  rfl
/-- None writes an argument of `main`. -/
theorem twoOps_keeps : (twoOps : List (HloOp τ sig (Elt F))).Forall KeepsArgs :=
  keepsArgs_of_writes (nullary_writes ..) (by decide)

/-- Those quotients modulo 2 (`main_v82`): the truncated remainder, plus the modulus where its sign differs from the modulus's and it is not zero. 21 operations of `@remainder`'s body over the buffers of `main_call15`, in order. -/
abbrev remTwoOps : List (HloOp τ sig (Elt F)) :=
  [ StableHlo.TRef.unary (.of main_c_26 : StableHlo.TRef sig ⟨S_, .i32⟩) (.of main_call15_v0 : StableHlo.TRef sig ⟨S_, .i32⟩) id,
    StableHlo.TRef.nullary (.of main_call15_c : StableHlo.TRef sig ⟨S_, .i32⟩) (constantI S_ 32 0#32),
    StableHlo.TRef.binary (.of main_call15_v0 : StableHlo.TRef sig ⟨S_, .i32⟩) (.of main_call15_c : StableHlo.TRef sig ⟨S_, .i32⟩) (.of main_call15_v1 : StableHlo.TRef sig ⟨S_, .i1⟩) (cmpi .eq),
    StableHlo.TRef.nullary (.of main_call15_c_0 : StableHlo.TRef sig ⟨S_, .i32⟩) (constantI S_ 32 1#32),
    StableHlo.TRef.ternary (.of main_call15_v1 : StableHlo.TRef sig ⟨S_, .i1⟩) (.of main_call15_c_0 : StableHlo.TRef sig ⟨S_, .i32⟩) (.of main_call15_v0 : StableHlo.TRef sig ⟨S_, .i32⟩) (.of main_call15_v2 : StableHlo.TRef sig ⟨S_, .i32⟩) select,
    StableHlo.TRef.unary (.of main_call15_v2 : StableHlo.TRef sig ⟨S_, .i32⟩) (.of main_call15_v3 : StableHlo.TRef sig ⟨S256x256x10, .i32⟩) (broadcastInDim S256x256x10 ![] bcast_S_S256x256x10),
    StableHlo.TRef.binary (.of main_v81 : StableHlo.TRef sig ⟨S256x256x10, .i32⟩) (.of main_call15_v3 : StableHlo.TRef sig ⟨S256x256x10, .i32⟩) (.of main_call15_v4 : StableHlo.TRef sig ⟨S256x256x10, .i32⟩) Host.remsi,
    StableHlo.TRef.nullary (.of main_call15_c_1 : StableHlo.TRef sig ⟨S_, .i32⟩) (constantI S_ 32 0#32),
    StableHlo.TRef.unary (.of main_call15_c_1 : StableHlo.TRef sig ⟨S_, .i32⟩) (.of main_call15_v5 : StableHlo.TRef sig ⟨S256x256x10, .i32⟩) (broadcastInDim S256x256x10 ![] bcast_S_S256x256x10),
    StableHlo.TRef.binary (.of main_call15_v4 : StableHlo.TRef sig ⟨S256x256x10, .i32⟩) (.of main_call15_v5 : StableHlo.TRef sig ⟨S256x256x10, .i32⟩) (.of main_call15_v6 : StableHlo.TRef sig ⟨S256x256x10, .i1⟩) (cmpi .ne),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v7 : StableHlo.TRef sig ⟨S256x256x10, .i32⟩) (broadcastInDim S256x256x10 ![] bcast_S_S256x256x10),
    StableHlo.TRef.binary (.of main_call15_v4 : StableHlo.TRef sig ⟨S256x256x10, .i32⟩) (.of main_call15_v7 : StableHlo.TRef sig ⟨S256x256x10, .i32⟩) (.of main_call15_v8 : StableHlo.TRef sig ⟨S256x256x10, .i1⟩) (cmpi .slt),
    StableHlo.TRef.nullary (.of main_call15_c_3 : StableHlo.TRef sig ⟨S_, .i32⟩) (constantI S_ 32 0#32),
    StableHlo.TRef.binary (.of main_call15_v2 : StableHlo.TRef sig ⟨S_, .i32⟩) (.of main_call15_c_3 : StableHlo.TRef sig ⟨S_, .i32⟩) (.of main_call15_v9 : StableHlo.TRef sig ⟨S_, .i1⟩) (cmpi .slt),
    StableHlo.TRef.unary (.of main_call15_v9 : StableHlo.TRef sig ⟨S_, .i1⟩) (.of main_call15_v10 : StableHlo.TRef sig ⟨S256x256x10, .i1⟩) (broadcastInDim S256x256x10 ![] bcast_S_S256x256x10),
    StableHlo.TRef.binary (.of main_call15_v8 : StableHlo.TRef sig ⟨S256x256x10, .i1⟩) (.of main_call15_v10 : StableHlo.TRef sig ⟨S256x256x10, .i1⟩) (.of main_call15_v11 : StableHlo.TRef sig ⟨S256x256x10, .i1⟩) (cmpi .ne),
    StableHlo.TRef.binary (.of main_call15_v11 : StableHlo.TRef sig ⟨S256x256x10, .i1⟩) (.of main_call15_v6 : StableHlo.TRef sig ⟨S256x256x10, .i1⟩) (.of main_call15_v12 : StableHlo.TRef sig ⟨S256x256x10, .i1⟩) andi,
    StableHlo.TRef.unary (.of main_call15_v2 : StableHlo.TRef sig ⟨S_, .i32⟩) (.of main_call15_v13 : StableHlo.TRef sig ⟨S256x256x10, .i32⟩) (broadcastInDim S256x256x10 ![] bcast_S_S256x256x10),
    StableHlo.TRef.binary (.of main_call15_v4 : StableHlo.TRef sig ⟨S256x256x10, .i32⟩) (.of main_call15_v13 : StableHlo.TRef sig ⟨S256x256x10, .i32⟩) (.of main_call15_v14 : StableHlo.TRef sig ⟨S256x256x10, .i32⟩) addi,
    StableHlo.TRef.ternary (.of main_call15_v12 : StableHlo.TRef sig ⟨S256x256x10, .i1⟩) (.of main_call15_v14 : StableHlo.TRef sig ⟨S256x256x10, .i32⟩) (.of main_call15_v4 : StableHlo.TRef sig ⟨S256x256x10, .i32⟩) (.of main_v82 : StableHlo.TRef sig ⟨S256x256x10, .i32⟩) select ]
/-- Each touches TensorCore references only. -/
theorem remTwoOps_sub : (remTwoOps : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
/-- Each determines its result. -/
theorem remTwoOps_fresh : (remTwoOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- None writes an argument of `main`. -/
theorem remTwoOps_keeps : (remTwoOps : List (HloOp τ sig (Elt F))).Forall KeepsArgs :=
  ⟨keepsArgs_of_writes (unary_writes ..) (by decide), keepsArgs_of_writes (nullary_writes ..) (by decide), keepsArgs_of_writes (binary_writes ..) (by decide), keepsArgs_of_writes (nullary_writes ..) (by decide), keepsArgs_of_writes (ternary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (binary_writes ..) (by decide), keepsArgs_of_writes (unary_writes ..) (by decide), keepsArgs_of_writes (binary_writes ..) (by decide), keepsArgs_of_writes (binary_writes ..) (by decide), keepsArgs_of_writes (unary_writes ..) (by decide), keepsArgs_of_writes (binary_writes ..) (by decide), keepsArgs_of_writes (ternary_writes ..) (by decide)⟩

/-- The timing bits as floats (`main_v83`), the sorted timings as floats (`main_v84`), each row's largest timing as a float column (`main_v87`) and the constant 1 beside it. 8 operations of `main`, in order. -/
abbrev normOps : List (HloOp τ sig (Elt F)) :=
  [ StableHlo.unary main_v82 main_v83 (sitofp .f32 : (⟨S256x256x10, .i32⟩ : BufTy).Contents (Elt F) → (⟨S256x256x10, .f32⟩ : BufTy).Contents (Elt F)),
    StableHlo.unary main_v21 main_v84 (sitofp .f32 : (⟨S256x256, .i32⟩ : BufTy).Contents (Elt F) → (⟨S256x256, .f32⟩ : BufTy).Contents (Elt F)),
    StableHlo.nullary main_c_27 (constantI S_ 32 2147483648#32),
    StableHlo.binary main_v21 main_c_27 main_v85 ((fun x v => Host.reduce IntOp.maxsi x v reducesTo_S256x256_S256_d1 h_S_) : (⟨S256x256, .i32⟩ : BufTy).Contents (Elt F) → (⟨S_, .i32⟩ : BufTy).Contents (Elt F) → (⟨S256, .i32⟩ : BufTy).Contents (Elt F)),
    StableHlo.unary main_v85 main_v86 (broadcastInDim S256x1 ![0] bcast_S256_S256x1_0 : (⟨S256, .i32⟩ : BufTy).Contents (Elt F) → (⟨S256x1, .i32⟩ : BufTy).Contents (Elt F)),
    StableHlo.unary main_v86 main_v87 (sitofp .f32 : (⟨S256x1, .i32⟩ : BufTy).Contents (Elt F) → (⟨S256x1, .f32⟩ : BufTy).Contents (Elt F)),
    StableHlo.nullary main_cst_28 (constant S_ .f32 0x3F800000#32),
    StableHlo.unary main_cst_28 main_v88 (broadcastInDim S256x1 ![] bcast_S_S256x1 : (⟨S_, .f32⟩ : BufTy).Contents (Elt F) → (⟨S256x1, .f32⟩ : BufTy).Contents (Elt F)) ]
/-- Each touches TensorCore references only. -/
theorem normOps_sub : (normOps : List (HloOp τ sig (Elt F))).Forall fun op => op.bufs ⊆ tcRefs τ sig :=
  ⟨unary_bufs_sub .., unary_bufs_sub .., nullary_bufs_sub .., binary_bufs_sub .., unary_bufs_sub .., unary_bufs_sub .., nullary_bufs_sub .., unary_bufs_sub ..⟩
/-- Each determines its result. -/
theorem normOps_fresh : (normOps : List (HloOp τ sig (Elt F))).Forall fun op => op.fresh = ∅ :=
  ⟨rfl, rfl, rfl, rfl, rfl, rfl, rfl, rfl⟩
/-- None writes an argument of `main`. -/
theorem normOps_keeps : (normOps : List (HloOp τ sig (Elt F))).Forall KeepsArgs :=
  ⟨keepsArgs_of_writes (unary_writes ..) (by decide), keepsArgs_of_writes (unary_writes ..) (by decide), keepsArgs_of_writes (nullary_writes ..) (by decide), keepsArgs_of_writes (binary_writes ..) (by decide), keepsArgs_of_writes (unary_writes ..) (by decide), keepsArgs_of_writes (unary_writes ..) (by decide), keepsArgs_of_writes (nullary_writes ..) (by decide), keepsArgs_of_writes (unary_writes ..) (by decide)⟩

/-- Window 1 of `main` is these lines of operations in order, the last in tail position: by unfolding, each module-local
    function's body opened at its call over the call's buffers. -/
theorem main_part1_eq (c : Dev nD) : main_part1 (F := F) c = (Pipeline.chainK
  [ seq pow2OpsB,
    seq pow2WhereOps,
    seq pow3Ops,
    seq pow3WhereOps,
    seq pow4Ops,
    seq pow4WhereOps,
    seq pow5Ops,
    seq pow5WhereOps,
    seq pow6Ops,
    seq pow6WhereOps,
    seq timColOps,
    seq floorDivOps,
    seq twoOps,
    seq remTwoOps ]
  (seq normOps) : Prog (TpuEff nD τ sig (Elt F) (Pipeline.Sig Λ₀ (Fin 0) fun p => (pcfgs (F := F) p).Adm) .tc) PUnit) := by
  chain_rfl

end Cert.ReferenceIdeal.Hand

end
-- ==== Proof.RefOps2.lean ====
/-
  The reference's `main`, window 2 of 3, as lists of its host operations: one list per stretch of `main`'s own
  operations and one per call of a module-local function (the callee's operations over that call's buffers), with,
  for each list, that its operations touch TensorCore references only, determine their results and write no
  argument of `main`; and the window as the chain of those lists.
-/
import proofs.«103122_j77446850281992_2_alg».proof.Proof.RefBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The normalised timings (`main_v91`), the sorted memory and the bits flattened row by row, and the prediction input (`main_v94`): memory, bits, normalised timings and surprise side by side. 6 operations of `main`, in order. -/
abbrev concatOps : List (HloOp τ sig (Elt F)) :=
  [ StableHlo.binary main_v87 main_v88 main_v89 (addf : (⟨S256x1, .f32⟩ : BufTy).Contents (Elt F) → (⟨S256x1, .f32⟩ : BufTy).Contents (Elt F) → (⟨S256x1, .f32⟩ : BufTy).Contents (Elt F)),
    StableHlo.unary main_v89 main_v90 (broadcastInDim S256x256 ![0, 1] bcast_S256x1_S256x256_0_1 : (⟨S256x1, .f32⟩ : BufTy).Contents (Elt F) → (⟨S256x256, .f32⟩ : BufTy).Contents (Elt F)),
    StableHlo.binary main_v84 main_v90 main_v91 (Host.divf : (⟨S256x256, .f32⟩ : BufTy).Contents (Elt F) → (⟨S256x256, .f32⟩ : BufTy).Contents (Elt F) → (⟨S256x256, .f32⟩ : BufTy).Contents (Elt F)),
    StableHlo.reshape main_v23 main_v92 rfl shapeCasts_S256x256x128_S256x32768,
    StableHlo.reshape main_v83 main_v93 rfl shapeCasts_S256x256x10_S256x2560,
    StableHlo.nary ![main_v92, main_v93, main_v91, main_v24] main_v94 (fun u => concatenate S256x35840 1 [⟨S256x32768, u 0⟩, ⟨S256x2560, u 1⟩, ⟨S256x256, u 2⟩, ⟨S256x256, u 3⟩] concatenates_S256x32768_S256x2560_S256x256_S256x256_S256x35840_d1) ]
/-- Each touches TensorCore references only. -/
theorem concatOps_sub : (concatOps : List (HloOp τ sig (Elt F))).Forall fun op => op.bufs ⊆ tcRefs τ sig :=
  ⟨binary_bufs_sub .., unary_bufs_sub .., binary_bufs_sub .., reshape_bufs_sub .., reshape_bufs_sub .., nary_bufs_sub ..⟩
/-- Each determines its result. -/
theorem concatOps_fresh : (concatOps : List (HloOp τ sig (Elt F))).Forall fun op => op.fresh = ∅ :=
  ⟨rfl, rfl, rfl, rfl, rfl, rfl⟩
/-- None writes an argument of `main`. -/
theorem concatOps_keeps : (concatOps : List (HloOp τ sig (Elt F))).Forall KeepsArgs :=
  ⟨keepsArgs_of_writes (binary_writes ..) (by decide), keepsArgs_of_writes (unary_writes ..) (by decide), keepsArgs_of_writes (binary_writes ..) (by decide), keepsArgs_of_writes (reshape_writes ..) (by decide), keepsArgs_of_writes (reshape_writes ..) (by decide), keepsArgs_of_writes (nary_writes ..) (by decide)⟩

/-- The gated projection of the prediction input (`main_v95 … main_v113`): `((P·W1 + b1) * (1 / (1 + exp (-(P·Wg + bg))))) · W2 + b2`. 21 operations of `main`, in order. -/
abbrev tailOps : List (HloOp τ sig (Elt F)) :=
  [ StableHlo.binary main_v94 main_arg5 main_v95 ((fun l r => Host.dotGeneral dot_S256x35840_S35840x1024_S256x1024_1_0_0_1_n_n none l r) : (⟨S256x35840, .f32⟩ : BufTy).Contents (Elt F) → (⟨S35840x1024, .f32⟩ : BufTy).Contents (Elt F) → (⟨S256x1024, .f32⟩ : BufTy).Contents (Elt F)),
    StableHlo.unary main_arg6 main_v96 (broadcastInDim S1x1024 ![1] bcast_S1024_S1x1024_1 : (⟨S1024, .f32⟩ : BufTy).Contents (Elt F) → (⟨S1x1024, .f32⟩ : BufTy).Contents (Elt F)),
    StableHlo.unary main_v96 main_v97 (broadcastInDim S256x1024 ![0, 1] bcast_S1x1024_S256x1024_0_1 : (⟨S1x1024, .f32⟩ : BufTy).Contents (Elt F) → (⟨S256x1024, .f32⟩ : BufTy).Contents (Elt F)),
    StableHlo.binary main_v95 main_v97 main_v98 (addf : (⟨S256x1024, .f32⟩ : BufTy).Contents (Elt F) → (⟨S256x1024, .f32⟩ : BufTy).Contents (Elt F) → (⟨S256x1024, .f32⟩ : BufTy).Contents (Elt F)),
    StableHlo.binary main_v94 main_arg7 main_v99 ((fun l r => Host.dotGeneral dot_S256x35840_S35840x1024_S256x1024_1_0_0_1_n_n none l r) : (⟨S256x35840, .f32⟩ : BufTy).Contents (Elt F) → (⟨S35840x1024, .f32⟩ : BufTy).Contents (Elt F) → (⟨S256x1024, .f32⟩ : BufTy).Contents (Elt F)),
    StableHlo.unary main_arg8 main_v100 (broadcastInDim S1x1024 ![1] bcast_S1024_S1x1024_1 : (⟨S1024, .f32⟩ : BufTy).Contents (Elt F) → (⟨S1x1024, .f32⟩ : BufTy).Contents (Elt F)),
    StableHlo.unary main_v100 main_v101 (broadcastInDim S256x1024 ![0, 1] bcast_S1x1024_S256x1024_0_1 : (⟨S1x1024, .f32⟩ : BufTy).Contents (Elt F) → (⟨S256x1024, .f32⟩ : BufTy).Contents (Elt F)),
    StableHlo.binary main_v99 main_v101 main_v102 (addf : (⟨S256x1024, .f32⟩ : BufTy).Contents (Elt F) → (⟨S256x1024, .f32⟩ : BufTy).Contents (Elt F) → (⟨S256x1024, .f32⟩ : BufTy).Contents (Elt F)),
    StableHlo.unary main_v102 main_v103 (Host.negf : (⟨S256x1024, .f32⟩ : BufTy).Contents (Elt F) → (⟨S256x1024, .f32⟩ : BufTy).Contents (Elt F)),
    StableHlo.unary main_v103 main_v104 (Host.exp : (⟨S256x1024, .f32⟩ : BufTy).Contents (Elt F) → (⟨S256x1024, .f32⟩ : BufTy).Contents (Elt F)),
    StableHlo.nullary main_cst_29 (constant S_ .f32 0x3F800000#32),
    StableHlo.unary main_cst_29 main_v105 (broadcastInDim S256x1024 ![] bcast_S_S256x1024 : (⟨S_, .f32⟩ : BufTy).Contents (Elt F) → (⟨S256x1024, .f32⟩ : BufTy).Contents (Elt F)),
    StableHlo.binary main_v105 main_v104 main_v106 (addf : (⟨S256x1024, .f32⟩ : BufTy).Contents (Elt F) → (⟨S256x1024, .f32⟩ : BufTy).Contents (Elt F) → (⟨S256x1024, .f32⟩ : BufTy).Contents (Elt F)),
    StableHlo.nullary main_cst_30 (constant S_ .f32 0x3F800000#32),
    StableHlo.unary main_cst_30 main_v107 (broadcastInDim S256x1024 ![] bcast_S_S256x1024 : (⟨S_, .f32⟩ : BufTy).Contents (Elt F) → (⟨S256x1024, .f32⟩ : BufTy).Contents (Elt F)),
    StableHlo.binary main_v107 main_v106 main_v108 (Host.divf : (⟨S256x1024, .f32⟩ : BufTy).Contents (Elt F) → (⟨S256x1024, .f32⟩ : BufTy).Contents (Elt F) → (⟨S256x1024, .f32⟩ : BufTy).Contents (Elt F)),
    StableHlo.binary main_v98 main_v108 main_v109 (mulf : (⟨S256x1024, .f32⟩ : BufTy).Contents (Elt F) → (⟨S256x1024, .f32⟩ : BufTy).Contents (Elt F) → (⟨S256x1024, .f32⟩ : BufTy).Contents (Elt F)),
    StableHlo.binary main_v109 main_arg9 main_v110 ((fun l r => Host.dotGeneral dot_S256x1024_S1024x128_S256x128_1_0_0_1_n_n none l r) : (⟨S256x1024, .f32⟩ : BufTy).Contents (Elt F) → (⟨S1024x128, .f32⟩ : BufTy).Contents (Elt F) → (⟨S256x128, .f32⟩ : BufTy).Contents (Elt F)),
    StableHlo.unary main_arg10 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S256x128 ![0, 1] bcast_S1x128_S256x128_0_1 : (⟨S1x128, .f32⟩ : BufTy).Contents (Elt F) → (⟨S256x128, .f32⟩ : BufTy).Contents (Elt F)),
    StableHlo.binary main_v110 main_v112 main_v113 (addf : (⟨S256x128, .f32⟩ : BufTy).Contents (Elt F) → (⟨S256x128, .f32⟩ : BufTy).Contents (Elt F) → (⟨S256x128, .f32⟩ : BufTy).Contents (Elt F)) ]
/-- Each touches TensorCore references only. -/
theorem tailOps_sub : (tailOps : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
/-- Each determines its result. -/
theorem tailOps_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- None writes an argument of `main`. -/
theorem tailOps_keeps : (tailOps : List (HloOp τ sig (Elt F))).Forall KeepsArgs :=
  ⟨keepsArgs_of_writes (binary_writes ..) (by decide), keepsArgs_of_writes (unary_writes ..) (by decide), keepsArgs_of_writes (unary_writes ..) (by decide), keepsArgs_of_writes (binary_writes ..) (by decide), keepsArgs_of_writes (binary_writes ..) (by decide), keepsArgs_of_writes (unary_writes ..) (by decide), keepsArgs_of_writes (unary_writes ..) (by decide), keepsArgs_of_writes (binary_writes ..) (by decide), keepsArgs_of_writes (unary_writes ..) (by decide), keepsArgs_of_writes (unary_writes ..) (by decide), keepsArgs_of_writes (nullary_writes ..) (by decide), keepsArgs_of_writes (unary_writes ..) (by decide), keepsArgs_of_writes (binary_writes ..) (by decide), keepsArgs_of_writes (nullary_writes ..) (by decide), keepsArgs_of_writes (unary_writes ..) (by decide), keepsArgs_of_writes (binary_writes ..) (by decide), keepsArgs_of_writes (binary_writes ..) (by decide), keepsArgs_of_writes (binary_writes ..) (by decide), keepsArgs_of_writes (unary_writes ..) (by decide), keepsArgs_of_writes (unary_writes ..) (by decide), keepsArgs_of_writes (binary_writes ..) (by decide)⟩

/-- The last window of `main` is these lines of operations in order, by unfolding. -/
theorem main_part2_eq (c : Dev nD) : main_part2 (F := F) c = (Pipeline.chain
  [ seq concatOps,
    seq tailOps ] : Prog (TpuEff nD τ sig (Elt F) (Pipeline.Sig Λ₀ (Fin 0) fun p => (pcfgs (F := F) p).Adm) .tc) PUnit) := by
  chain_rfl

end Cert.ReferenceIdeal.Hand

end
-- ==== Proof.RefRun.lean ====
/-
  The reference's `main` as ONE list of its 277 host operations — `stepOps`, the 256 that compute the prediction
  input `main_v94` from the first five arguments, then `tailOps`, the 21 of the gated projection — and its run:
  every weakly fair execution terminates with each TensorCore buffer at the operations' fold over the launch
  contents; none of the operations writes an argument.
-/
import proofs.«103122_j77446850281992_2_alg».proof.Proof.RefOps
import proofs.«103122_j77446850281992_2_alg».proof.Proof.RefOps1
import proofs.«103122_j77446850281992_2_alg».proof.Proof.RefOps2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The lines of operations that compute the prediction input `main_v94`, in order. -/
abbrev stepSegs : List (List (HloOp τ sig (Elt F))) :=
  [ surpriseOps,
    rollMemOps,
    writeMemOps,
    rollTimOps,
    writeTimOps,
    rollSurpOps,
    writeSurpOps,
    argsortOps,
    takeTimOps,
    idxColOps,
    takeMemOps,
    takeSurpOps,
    pow0Ops,
    pow0WhereOps,
    pow1Ops,
    pow1WhereOps,
    pow2OpsA,
    pow2OpsB,
    pow2WhereOps,
    pow3Ops,
    pow3WhereOps,
    pow4Ops,
    pow4WhereOps,
    pow5Ops,
    pow5WhereOps,
    pow6Ops,
    pow6WhereOps,
    timColOps,
    floorDivOps,
    twoOps,
    remTwoOps,
    normOps,
    concatOps ]

/-- `main`'s operations up to the prediction input `main_v94`, in order. -/
abbrev stepOps : List (HloOp τ sig (Elt F)) := stepSegs.flatten

/-- `main`'s 277 operations, in order: those of the prediction input, then those of the gated projection. -/
abbrev ops : List (HloOp τ sig (Elt F)) := stepOps ++ tailOps

/-- A chain of lines ending in a line in tail position is the concatenation run as one line. -/
theorem chainK_map_seq {Val : EltTy → Type} {nD : Nat} {Λ : Labels} (l : List (HloOp τ sig Val)) :
    ∀ L : List (List (HloOp τ sig Val)),
    (Pipeline.chainK (L.map seq) (seq l) : Prog (TpuEff nD τ sig Val Λ .tc) PUnit) = seq (L.flatten ++ l)
  | [] => rfl
  | a :: L => by
    rw [List.map_cons, Pipeline.chainK, chainK_map_seq l L, List.flatten_cons, List.append_assoc, seq_append a]

/-- The three windows' lists regrouped as the prefix's lists followed by the tail. -/
theorem regroup {α : Type} (A p B n c t : List α) :
    (A ++ p) ++ ((B ++ n) ++ [c, t].flatten) = (A ++ (p ++ (B ++ (n ++ c)))) ++ t := by
  simp only [List.flatten_cons, List.flatten_nil, List.append_nil, List.append_assoc]

/-- `main` is that straight line: the three windows' equations, each chain of lines one line. -/
theorem main_eq (c : Dev nD) : main (F := F) c = seq ops := by
  show (main_part0 (F := F) c >>= fun _ => main_part1 (F := F) c >>= fun _ => main_part2 (F := F) c) = _
  rewrite [main_part0_eq, main_part1_eq, main_part2_eq]
  show ((Pipeline.chainK (List.map seq [ surpriseOps,
      rollMemOps,
      writeMemOps,
      rollTimOps,
      writeTimOps,
      rollSurpOps,
      writeSurpOps,
      argsortOps,
      takeTimOps,
      idxColOps,
      takeMemOps,
      takeSurpOps,
      pow0Ops,
      pow0WhereOps,
      pow1Ops,
      pow1WhereOps ]) (seq pow2OpsA) : Prog (TpuEff nD τ sig (Elt F) (Pipeline.Sig Λ₀ (Fin 0) fun p => (pcfgs (F := F) p).Adm) .tc) PUnit)
      >>= fun _ => (Pipeline.chainK (List.map seq [ pow2OpsB,
      pow2WhereOps,
      pow3Ops,
      pow3WhereOps,
      pow4Ops,
      pow4WhereOps,
      pow5Ops,
      pow5WhereOps,
      pow6Ops,
      pow6WhereOps,
      timColOps,
      floorDivOps,
      twoOps,
      remTwoOps ]) (seq normOps) : Prog (TpuEff nD τ sig (Elt F) (Pipeline.Sig Λ₀ (Fin 0) fun p => (pcfgs (F := F) p).Adm) .tc) PUnit)
      >>= fun _ => (Pipeline.chain (List.map seq [concatOps, tailOps]) : Prog (TpuEff nD τ sig (Elt F) (Pipeline.Sig Λ₀ (Fin 0) fun p => (pcfgs (F := F) p).Adm) .tc) PUnit)) = _
  rw [chainK_map_seq, chainK_map_seq, chain_map_seq, ← seq_append, ← seq_append, regroup]
  refine congrArg seq (congrArg (· ++ tailOps) ?_)
  simp only [List.flatten_cons, List.flatten_nil, List.append_nil, List.append_assoc]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

theorem stepSegs_sub : (stepSegs : List (List (HloOp τ sig (Elt F)))).Forall fun l => l.Forall fun op => op.bufs ⊆ tcRefs τ sig :=
  ⟨surpriseOps_sub, rollMemOps_sub, writeMemOps_sub, rollTimOps_sub, writeTimOps_sub, rollSurpOps_sub, writeSurpOps_sub, argsortOps_sub, takeTimOps_sub, idxColOps_sub, takeMemOps_sub, takeSurpOps_sub, pow0Ops_sub, pow0WhereOps_sub, pow1Ops_sub, pow1WhereOps_sub, pow2OpsA_sub, pow2OpsB_sub, pow2WhereOps_sub, pow3Ops_sub, pow3WhereOps_sub, pow4Ops_sub, pow4WhereOps_sub, pow5Ops_sub, pow5WhereOps_sub, pow6Ops_sub, pow6WhereOps_sub, timColOps_sub, floorDivOps_sub, twoOps_sub, remTwoOps_sub, normOps_sub, concatOps_sub⟩
theorem stepSegs_fresh : (stepSegs : List (List (HloOp τ sig (Elt F)))).Forall fun l => l.Forall fun op => op.fresh = ∅ :=
  ⟨surpriseOps_fresh, rollMemOps_fresh, writeMemOps_fresh, rollTimOps_fresh, writeTimOps_fresh, rollSurpOps_fresh, writeSurpOps_fresh, argsortOps_fresh, takeTimOps_fresh, idxColOps_fresh, takeMemOps_fresh, takeSurpOps_fresh, pow0Ops_fresh, pow0WhereOps_fresh, pow1Ops_fresh, pow1WhereOps_fresh, pow2OpsA_fresh, pow2OpsB_fresh, pow2WhereOps_fresh, pow3Ops_fresh, pow3WhereOps_fresh, pow4Ops_fresh, pow4WhereOps_fresh, pow5Ops_fresh, pow5WhereOps_fresh, pow6Ops_fresh, pow6WhereOps_fresh, timColOps_fresh, floorDivOps_fresh, twoOps_fresh, remTwoOps_fresh, normOps_fresh, concatOps_fresh⟩
theorem stepSegs_keeps : (stepSegs : List (List (HloOp τ sig (Elt F)))).Forall fun l => l.Forall KeepsArgs :=
  ⟨surpriseOps_keeps, rollMemOps_keeps, writeMemOps_keeps, rollTimOps_keeps, writeTimOps_keeps, rollSurpOps_keeps, writeSurpOps_keeps, argsortOps_keeps, takeTimOps_keeps, idxColOps_keeps, takeMemOps_keeps, takeSurpOps_keeps, pow0Ops_keeps, pow0WhereOps_keeps, pow1Ops_keeps, pow1WhereOps_keeps, pow2OpsA_keeps, pow2OpsB_keeps, pow2WhereOps_keeps, pow3Ops_keeps, pow3WhereOps_keeps, pow4Ops_keeps, pow4WhereOps_keeps, pow5Ops_keeps, pow5WhereOps_keeps, pow6Ops_keeps, pow6WhereOps_keeps, timColOps_keeps, floorDivOps_keeps, twoOps_keeps, remTwoOps_keeps, normOps_keeps, concatOps_keeps⟩

/-- Every operation touches TensorCore references only. -/
theorem ops_sub : (ops : List (HloOp τ sig (Elt F))).Forall fun op => op.bufs ⊆ tcRefs τ sig :=
  forall_append (forall_flatten stepSegs_sub) tailOps_sub
/-- Every operation determines its result. -/
theorem ops_fresh : (ops : List (HloOp τ sig (Elt F))).Forall fun op => op.fresh = ∅ :=
  forall_append (forall_flatten stepSegs_fresh) tailOps_fresh
/-- No operation of the prefix writes an argument of `main`. -/
theorem stepOps_keeps : (stepOps : List (HloOp τ sig (Elt F))).Forall KeepsArgs := forall_flatten stepSegs_keeps
/-- No operation writes an argument of `main`. -/
theorem ops_keeps : (ops : List (HloOp τ sig (Elt F))).Forall KeepsArgs := forall_append stepOps_keeps tailOps_keeps

/-- At the compiled mesh, for any float values, from any memory with zero counters: every weakly fair execution of
    `main` on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

/-- The run leaves argument 0 as it was. -/
theorem arg_keep_0 (V : Valuation τ sig (Elt F)) :
    after ops V (main_arg0 : DevRef τ sig) = V (main_arg0 : DevRef τ sig) := after_keeps ops ops_keeps V (by decide)
/-- The prefix leaves argument 0 as it was. -/
theorem step_arg_keep_0 (V : Valuation τ sig (Elt F)) :
    after stepOps V (main_arg0 : DevRef τ sig) = V (main_arg0 : DevRef τ sig) := after_keeps stepOps stepOps_keeps V (by decide)
/-- The run leaves argument 1 as it was. -/
theorem arg_keep_1 (V : Valuation τ sig (Elt F)) :
    after ops V (main_arg1 : DevRef τ sig) = V (main_arg1 : DevRef τ sig) := after_keeps ops ops_keeps V (by decide)
/-- The prefix leaves argument 1 as it was. -/
theorem step_arg_keep_1 (V : Valuation τ sig (Elt F)) :
    after stepOps V (main_arg1 : DevRef τ sig) = V (main_arg1 : DevRef τ sig) := after_keeps stepOps stepOps_keeps V (by decide)
/-- The run leaves argument 2 as it was. -/
theorem arg_keep_2 (V : Valuation τ sig (Elt F)) :
    after ops V (main_arg2 : DevRef τ sig) = V (main_arg2 : DevRef τ sig) := after_keeps ops ops_keeps V (by decide)
/-- The prefix leaves argument 2 as it was. -/
theorem step_arg_keep_2 (V : Valuation τ sig (Elt F)) :
    after stepOps V (main_arg2 : DevRef τ sig) = V (main_arg2 : DevRef τ sig) := after_keeps stepOps stepOps_keeps V (by decide)
/-- The run leaves argument 3 as it was. -/
theorem arg_keep_3 (V : Valuation τ sig (Elt F)) :
    after ops V (main_arg3 : DevRef τ sig) = V (main_arg3 : DevRef τ sig) := after_keeps ops ops_keeps V (by decide)
/-- The prefix leaves argument 3 as it was. -/
theorem step_arg_keep_3 (V : Valuation τ sig (Elt F)) :
    after stepOps V (main_arg3 : DevRef τ sig) = V (main_arg3 : DevRef τ sig) := after_keeps stepOps stepOps_keeps V (by decide)
/-- The run leaves argument 4 as it was. -/
theorem arg_keep_4 (V : Valuation τ sig (Elt F)) :
    after ops V (main_arg4 : DevRef τ sig) = V (main_arg4 : DevRef τ sig) := after_keeps ops ops_keeps V (by decide)
/-- The prefix leaves argument 4 as it was. -/
theorem step_arg_keep_4 (V : Valuation τ sig (Elt F)) :
    after stepOps V (main_arg4 : DevRef τ sig) = V (main_arg4 : DevRef τ sig) := after_keeps stepOps stepOps_keeps V (by decide)
/-- The run leaves argument 5 as it was. -/
theorem arg_keep_5 (V : Valuation τ sig (Elt F)) :
    after ops V (main_arg5 : DevRef τ sig) = V (main_arg5 : DevRef τ sig) := after_keeps ops ops_keeps V (by decide)
/-- The prefix leaves argument 5 as it was. -/
theorem step_arg_keep_5 (V : Valuation τ sig (Elt F)) :
    after stepOps V (main_arg5 : DevRef τ sig) = V (main_arg5 : DevRef τ sig) := after_keeps stepOps stepOps_keeps V (by decide)
/-- The run leaves argument 6 as it was. -/
theorem arg_keep_6 (V : Valuation τ sig (Elt F)) :
    after ops V (main_arg6 : DevRef τ sig) = V (main_arg6 : DevRef τ sig) := after_keeps ops ops_keeps V (by decide)
/-- The prefix leaves argument 6 as it was. -/
theorem step_arg_keep_6 (V : Valuation τ sig (Elt F)) :
    after stepOps V (main_arg6 : DevRef τ sig) = V (main_arg6 : DevRef τ sig) := after_keeps stepOps stepOps_keeps V (by decide)
/-- The run leaves argument 7 as it was. -/
theorem arg_keep_7 (V : Valuation τ sig (Elt F)) :
    after ops V (main_arg7 : DevRef τ sig) = V (main_arg7 : DevRef τ sig) := after_keeps ops ops_keeps V (by decide)
/-- The prefix leaves argument 7 as it was. -/
theorem step_arg_keep_7 (V : Valuation τ sig (Elt F)) :
    after stepOps V (main_arg7 : DevRef τ sig) = V (main_arg7 : DevRef τ sig) := after_keeps stepOps stepOps_keeps V (by decide)
/-- The run leaves argument 8 as it was. -/
theorem arg_keep_8 (V : Valuation τ sig (Elt F)) :
    after ops V (main_arg8 : DevRef τ sig) = V (main_arg8 : DevRef τ sig) := after_keeps ops ops_keeps V (by decide)
/-- The prefix leaves argument 8 as it was. -/
theorem step_arg_keep_8 (V : Valuation τ sig (Elt F)) :
    after stepOps V (main_arg8 : DevRef τ sig) = V (main_arg8 : DevRef τ sig) := after_keeps stepOps stepOps_keeps V (by decide)
/-- The run leaves argument 9 as it was. -/
theorem arg_keep_9 (V : Valuation τ sig (Elt F)) :
    after ops V (main_arg9 : DevRef τ sig) = V (main_arg9 : DevRef τ sig) := after_keeps ops ops_keeps V (by decide)
/-- The prefix leaves argument 9 as it was. -/
theorem step_arg_keep_9 (V : Valuation τ sig (Elt F)) :
    after stepOps V (main_arg9 : DevRef τ sig) = V (main_arg9 : DevRef τ sig) := after_keeps stepOps stepOps_keeps V (by decide)
/-- The run leaves argument 10 as it was. -/
theorem arg_keep_10 (V : Valuation τ sig (Elt F)) :
    after ops V (main_arg10 : DevRef τ sig) = V (main_arg10 : DevRef τ sig) := after_keeps ops ops_keeps V (by decide)
/-- The prefix leaves argument 10 as it was. -/
theorem step_arg_keep_10 (V : Valuation τ sig (Elt F)) :
    after stepOps V (main_arg10 : DevRef τ sig) = V (main_arg10 : DevRef τ sig) := after_keeps stepOps stepOps_keeps V (by decide)

end Cert.ReferenceIdeal.Hand

end
-- ==== Proof.RefTail.lean ====
/-
  The reference's result as a function of the prediction input and the six weight and bias arguments: after the
  run, `main_v113` is the gated projection `refTail` of what the run leaves in `main_v94` and of the arguments'
  launch contents.
-/
import proofs.«103122_j77446850281992_2_alg».proof.Proof.RefRun
import proofs.«103122_j77446850281992_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

/-- The 21 operations of the gated projection, from any contents `W`: `main_v113` ends at `refTail` of `W` at the
    prediction input and at the six weight and bias arguments — each operation's result read at its own buffer, the
    rest left as it was; the composed term is `refTail`'s body, operation by operation. -/
theorem tail_eq (W : Valuation τ sig (Elt Ideal)) :
    after (tailOps (F := Ideal)) W (main_v113 : DevRef τ sig)
      = Cert.Hand.refTail (W (main_v94 : DevRef τ sig)) (W (main_arg5 : DevRef τ sig)) (W (main_arg6 : DevRef τ sig))
          (W (main_arg7 : DevRef τ sig)) (W (main_arg8 : DevRef τ sig)) (W (main_arg9 : DevRef τ sig)) (W (main_arg10 : DevRef τ sig)) := by
  after_results_simp
  rfl

/-- The gated projection's operations leave the prediction input as it was. -/
theorem tail_keeps_v94 (W : Valuation τ sig (Elt Ideal)) :
    after (tailOps (F := Ideal)) W (main_v94 : DevRef τ sig) = W (main_v94 : DevRef τ sig) := by
  after_results

/-- After the run the result `main_v113` is the gated projection of the prediction input the run computed and of
    the weight and bias arguments' contents. -/
theorem out_eq (V : Valuation τ sig (Elt Ideal)) :
    after (ops (F := Ideal)) V (main_v113 : DevRef τ sig)
      = Cert.Hand.refTail (after (ops (F := Ideal)) V (main_v94 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) := by
  have h : (ops (F := Ideal)) = stepOps ++ tailOps := rfl
  rw [h, after_concat, tail_eq, tail_keeps_v94, step_arg_keep_5, step_arg_keep_6, step_arg_keep_7, step_arg_keep_8,
    step_arg_keep_9, step_arg_keep_10]

/-- The prediction input after the whole run is the prediction input after the prefix. -/
theorem v94_eq (V : Valuation τ sig (Elt Ideal)) :
    after (ops (F := Ideal)) V (main_v94 : DevRef τ sig) = after (stepOps (F := Ideal)) V (main_v94 : DevRef τ sig) := by
  have h : (ops (F := Ideal)) = stepOps ++ tailOps := rfl
  rw [h, after_concat, tail_keeps_v94]

end Cert.ReferenceIdeal.Hand

end
-- ==== Proof.StepTermsR.lean ====
import proofs.«103122_j77446850281992_2_alg».proof.Proof.Gen.ReferenceIdeal

/-! The host operations before the region, read as pure terms: one definition per buffer they write, each the printed
    operation's own function applied to its operands' definitions (for an operation of a called function, between the
    typed references' transports along their buffers' types, as its builder writes them), over the five arguments the operations read;
    then, stretch by stretch, the statement that a valuation holds these terms at the buffers still to be read. -/

noncomputable section

namespace Cert.ReferenceIdeal.Hand

open Idealize.ShloMosaic Idealize.ShloMosaic.TcCoe Cert.ReferenceIdeal.Gen

variable {F : FTy → Type} [FloatOps F]

/-- `main_v0`. -/
def r_main_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x128, .f32⟩ : BufTy).Contents (Elt F) :=
  (mulf : (⟨S256x128, .f32⟩ : BufTy).Contents (Elt F) → (⟨S256x128, .f32⟩ : BufTy).Contents (Elt F) → (⟨S256x128, .f32⟩ : BufTy).Contents (Elt F)) a0 a4
/-- `main_cst`. -/
def r_main_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x00000000#32)
/-- `main_v1`. -/
def r_main_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  ((fun x v => Host.reduceAdd x v Gen.reducesTo_S256x128_S256_d1 Gen.h_S_) : (⟨S256x128, .f32⟩ : BufTy).Contents (Elt F) → (⟨S_, .f32⟩ : BufTy).Contents (Elt F) → (⟨S256, .f32⟩ : BufTy).Contents (Elt F)) (r_main_v0 a0 a1 a2 a3 a4) (r_main_cst a0 a1 a2 a3 a4)
/-- `main_cst_0`. -/
def r_main_cst_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x322BCC77#32)
/-- `main_v2`. -/
def r_main_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (broadcastInDim S256 ![] Gen.bcast_S_S256 : (⟨S_, .f32⟩ : BufTy).Contents (Elt F) → (⟨S256, .f32⟩ : BufTy).Contents (Elt F)) (r_main_cst_0 a0 a1 a2 a3 a4)
/-- `main_v3`. -/
def r_main_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (addf : (⟨S256, .f32⟩ : BufTy).Contents (Elt F) → (⟨S256, .f32⟩ : BufTy).Contents (Elt F) → (⟨S256, .f32⟩ : BufTy).Contents (Elt F)) (r_main_v1 a0 a1 a2 a3 a4) (r_main_v2 a0 a1 a2 a3 a4)
/-- `main_v4`. -/
def r_main_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (Host.log : (⟨S256, .f32⟩ : BufTy).Contents (Elt F) → (⟨S256, .f32⟩ : BufTy).Contents (Elt F)) (r_main_v3 a0 a1 a2 a3 a4)
/-- `main_v5`. -/
def r_main_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .f32⟩ : BufTy).Contents (Elt F) :=
  (Host.negf : (⟨S256, .f32⟩ : BufTy).Contents (Elt F) → (⟨S256, .f32⟩ : BufTy).Contents (Elt F)) (r_main_v4 a0 a1 a2 a3 a4)
/-- `main_c`. -/
def r_main_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v6`. -/
def r_main_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (broadcastInDim S256x256 ![] Gen.bcast_S_S256x256 : (⟨S_, .i32⟩ : BufTy).Contents (Elt F) → (⟨S256x256, .i32⟩ : BufTy).Contents (Elt F)) (r_main_c a0 a1 a2 a3 a4)
/-- `main_v7`. -/
def r_main_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (addi : (⟨S256x256, .i32⟩ : BufTy).Contents (Elt F) → (⟨S256x256, .i32⟩ : BufTy).Contents (Elt F) → (⟨S256x256, .i32⟩ : BufTy).Contents (Elt F)) a2 (r_main_v6 a0 a1 a2 a3 a4)
/-- `main_cst_1`. -/
def r_main_cst_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x3F7D70A4#32)
/-- `main_v8`. -/
def r_main_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (broadcastInDim S256x256 ![] Gen.bcast_S_S256x256 : (⟨S_, .f32⟩ : BufTy).Contents (Elt F) → (⟨S256x256, .f32⟩ : BufTy).Contents (Elt F)) (r_main_cst_1 a0 a1 a2 a3 a4)
/-- `main_v9`. -/
def r_main_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (mulf : (⟨S256x256, .f32⟩ : BufTy).Contents (Elt F) → (⟨S256x256, .f32⟩ : BufTy).Contents (Elt F) → (⟨S256x256, .f32⟩ : BufTy).Contents (Elt F)) a3 (r_main_v8 a0 a1 a2 a3 a4)
/-- `main_call0_v0`. -/
def r_main_call0_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1x128, .f32⟩ : BufTy).Contents (Elt F) :=
  (StableHlo.TRef.of main_call0_v0 : StableHlo.TRef sig ⟨S256x1x128, .f32⟩).toBuf (((extractStridedSlice S256x1x128 ![0, 255, 0] · Gen.slices_S256x256x128_S256x1x128_0_255_0) : (⟨S256x256x128, .f32⟩ : BufTy).Contents (Elt F) → (⟨S256x1x128, .f32⟩ : BufTy).Contents (Elt F)) ((StableHlo.TRef.of main_arg1 : StableHlo.TRef sig ⟨S256x256x128, .f32⟩).ofBuf a1))
/-- `main_call0_v1`. -/
def r_main_call0_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255x128, .f32⟩ : BufTy).Contents (Elt F) :=
  (StableHlo.TRef.of main_call0_v1 : StableHlo.TRef sig ⟨S256x255x128, .f32⟩).toBuf (((extractStridedSlice S256x255x128 ![0, 0, 0] · Gen.slices_S256x256x128_S256x255x128_0_0_0) : (⟨S256x256x128, .f32⟩ : BufTy).Contents (Elt F) → (⟨S256x255x128, .f32⟩ : BufTy).Contents (Elt F)) ((StableHlo.TRef.of main_arg1 : StableHlo.TRef sig ⟨S256x256x128, .f32⟩).ofBuf a1))
/-- `main_v10`. -/
def r_main_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_v10 : StableHlo.TRef sig ⟨S256x256x128, .f32⟩).toBuf (((fun a b => concatenate S256x256x128 1 [⟨S256x1x128, a⟩, ⟨S256x255x128, b⟩] Gen.concatenates_S256x1x128_S256x255x128_S256x256x128_d1) : (⟨S256x1x128, .f32⟩ : BufTy).Contents (Elt F) → (⟨S256x255x128, .f32⟩ : BufTy).Contents (Elt F) → (⟨S256x256x128, .f32⟩ : BufTy).Contents (Elt F)) ((StableHlo.TRef.of main_call0_v0 : StableHlo.TRef sig ⟨S256x1x128, .f32⟩).ofBuf (r_main_call0_v0 a0 a1 a2 a3 a4)) ((StableHlo.TRef.of main_call0_v1 : StableHlo.TRef sig ⟨S256x255x128, .f32⟩).ofBuf (r_main_call0_v1 a0 a1 a2 a3 a4)))
/-- `main_c_2`. -/
def r_main_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v11`. -/
def r_main_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_2 a0 a1 a2 a3 a4)
/-- `main_v12`. -/
def r_main_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  ((fun x i u => Host.scatter scatter_S256x256x128_S1_S256x128_01_1_1_0 (fun _ b => b) x i u) : (⟨S256x256x128, .f32⟩ : BufTy).Contents (Elt F) → (⟨S1, .i32⟩ : BufTy).Contents (Elt F) → (⟨S256x128, .f32⟩ : BufTy).Contents (Elt F) → (⟨S256x256x128, .f32⟩ : BufTy).Contents (Elt F)) (r_main_v10 a0 a1 a2 a3 a4) (r_main_v11 a0 a1 a2 a3 a4) a0
/-- `main_call1_v0`. -/
def r_main_call1_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .i32⟩ : BufTy).Contents (Elt F) :=
  (StableHlo.TRef.of main_call1_v0 : StableHlo.TRef sig ⟨S256x1, .i32⟩).toBuf (((extractStridedSlice S256x1 ![0, 255] · Gen.slices_S256x256_S256x1_0_255) : (⟨S256x256, .i32⟩ : BufTy).Contents (Elt F) → (⟨S256x1, .i32⟩ : BufTy).Contents (Elt F)) ((StableHlo.TRef.of main_v7 : StableHlo.TRef sig ⟨S256x256, .i32⟩).ofBuf (r_main_v7 a0 a1 a2 a3 a4)))
/-- `main_call1_v1`. -/
def r_main_call1_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255, .i32⟩ : BufTy).Contents (Elt F) :=
  (StableHlo.TRef.of main_call1_v1 : StableHlo.TRef sig ⟨S256x255, .i32⟩).toBuf (((extractStridedSlice S256x255 ![0, 0] · Gen.slices_S256x256_S256x255_0_0) : (⟨S256x256, .i32⟩ : BufTy).Contents (Elt F) → (⟨S256x255, .i32⟩ : BufTy).Contents (Elt F)) ((StableHlo.TRef.of main_v7 : StableHlo.TRef sig ⟨S256x256, .i32⟩).ofBuf (r_main_v7 a0 a1 a2 a3 a4)))
/-- `main_v13`. -/
def r_main_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v13 : StableHlo.TRef sig ⟨S256x256, .i32⟩).toBuf (((fun a b => concatenate S256x256 1 [⟨S256x1, a⟩, ⟨S256x255, b⟩] Gen.concatenates_S256x1_S256x255_S256x256_d1) : (⟨S256x1, .i32⟩ : BufTy).Contents (Elt F) → (⟨S256x255, .i32⟩ : BufTy).Contents (Elt F) → (⟨S256x256, .i32⟩ : BufTy).Contents (Elt F)) ((StableHlo.TRef.of main_call1_v0 : StableHlo.TRef sig ⟨S256x1, .i32⟩).ofBuf (r_main_call1_v0 a0 a1 a2 a3 a4)) ((StableHlo.TRef.of main_call1_v1 : StableHlo.TRef sig ⟨S256x255, .i32⟩).ofBuf (r_main_call1_v1 a0 a1 a2 a3 a4)))
/-- `main_c_3`. -/
def r_main_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v14`. -/
def r_main_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_3 a0 a1 a2 a3 a4)
/-- `main_c_4`. -/
def r_main_c_4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v15`. -/
def r_main_v15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .i32⟩ : BufTy).Contents (Elt F) :=
  (broadcastInDim S256 ![] Gen.bcast_S_S256 : (⟨S_, .i32⟩ : BufTy).Contents (Elt F) → (⟨S256, .i32⟩ : BufTy).Contents (Elt F)) (r_main_c_4 a0 a1 a2 a3 a4)
/-- `main_v16`. -/
def r_main_v16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  ((fun x i u => Host.scatter scatter_S256x256_S1_S256_0_1_1_0 (fun _ b => b) x i u) : (⟨S256x256, .i32⟩ : BufTy).Contents (Elt F) → (⟨S1, .i32⟩ : BufTy).Contents (Elt F) → (⟨S256, .i32⟩ : BufTy).Contents (Elt F) → (⟨S256x256, .i32⟩ : BufTy).Contents (Elt F)) (r_main_v13 a0 a1 a2 a3 a4) (r_main_v14 a0 a1 a2 a3 a4) (r_main_v15 a0 a1 a2 a3 a4)
/-- `main_call2_v0`. -/
def r_main_call2_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (StableHlo.TRef.of main_call2_v0 : StableHlo.TRef sig ⟨S256x1, .f32⟩).toBuf (((extractStridedSlice S256x1 ![0, 255] · Gen.slices_S256x256_S256x1_0_255) : (⟨S256x256, .f32⟩ : BufTy).Contents (Elt F) → (⟨S256x1, .f32⟩ : BufTy).Contents (Elt F)) ((StableHlo.TRef.of main_v9 : StableHlo.TRef sig ⟨S256x256, .f32⟩).ofBuf (r_main_v9 a0 a1 a2 a3 a4)))
/-- `main_call2_v1`. -/
def r_main_call2_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x255, .f32⟩ : BufTy).Contents (Elt F) :=
  (StableHlo.TRef.of main_call2_v1 : StableHlo.TRef sig ⟨S256x255, .f32⟩).toBuf (((extractStridedSlice S256x255 ![0, 0] · Gen.slices_S256x256_S256x255_0_0) : (⟨S256x256, .f32⟩ : BufTy).Contents (Elt F) → (⟨S256x255, .f32⟩ : BufTy).Contents (Elt F)) ((StableHlo.TRef.of main_v9 : StableHlo.TRef sig ⟨S256x256, .f32⟩).ofBuf (r_main_v9 a0 a1 a2 a3 a4)))
/-- `main_v17`. -/
def r_main_v17 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_v17 : StableHlo.TRef sig ⟨S256x256, .f32⟩).toBuf (((fun a b => concatenate S256x256 1 [⟨S256x1, a⟩, ⟨S256x255, b⟩] Gen.concatenates_S256x1_S256x255_S256x256_d1) : (⟨S256x1, .f32⟩ : BufTy).Contents (Elt F) → (⟨S256x255, .f32⟩ : BufTy).Contents (Elt F) → (⟨S256x256, .f32⟩ : BufTy).Contents (Elt F)) ((StableHlo.TRef.of main_call2_v0 : StableHlo.TRef sig ⟨S256x1, .f32⟩).ofBuf (r_main_call2_v0 a0 a1 a2 a3 a4)) ((StableHlo.TRef.of main_call2_v1 : StableHlo.TRef sig ⟨S256x255, .f32⟩).ofBuf (r_main_call2_v1 a0 a1 a2 a3 a4)))
/-- `main_c_5`. -/
def r_main_c_5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v18`. -/
def r_main_v18 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (broadcastInDim S1 ![] Gen.bcast_S_S1 : (⟨S_, .i32⟩ : BufTy).Contents (Elt F) → (⟨S1, .i32⟩ : BufTy).Contents (Elt F)) (r_main_c_5 a0 a1 a2 a3 a4)
/-- `main_v19`. -/
def r_main_v19 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  ((fun x i u => Host.scatter scatter_S256x256_S1_S256_0_1_1_0 (fun _ b => b) x i u) : (⟨S256x256, .f32⟩ : BufTy).Contents (Elt F) → (⟨S1, .i32⟩ : BufTy).Contents (Elt F) → (⟨S256, .f32⟩ : BufTy).Contents (Elt F) → (⟨S256x256, .f32⟩ : BufTy).Contents (Elt F)) (r_main_v17 a0 a1 a2 a3 a4) (r_main_v18 a0 a1 a2 a3 a4) (r_main_v5 a0 a1 a2 a3 a4)
/-- `main_call3_v0`. -/
def r_main_call3_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call3_v0 : StableHlo.TRef sig ⟨S256x256, .i32⟩).toBuf (iotaInDim S256x256 32 1)
/-- `main_call3_v1_0`. -/
def r_main_call3_v1_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call3_v1_0 : StableHlo.TRef sig ⟨S256x256, .i32⟩).toBuf (((fun x y => (Host.sort2 S256x256 1 comparator_i32_i32_d1 x y).1) : (⟨S256x256, .i32⟩ : BufTy).Contents (Elt F) → (⟨S256x256, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call3_v0 : StableHlo.TRef sig ⟨S256x256, .i32⟩).ofBuf (r_main_call3_v0 a0 a1 a2 a3 a4)))
/-- `main_v20`. -/
def r_main_v20 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v20 : StableHlo.TRef sig ⟨S256x256, .i32⟩).toBuf (((fun x y => (Host.sort2 S256x256 1 comparator_i32_i32_d1 x y).2) : (⟨S256x256, .i32⟩ : BufTy).Contents (Elt F) → (⟨S256x256, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call3_v0 : StableHlo.TRef sig ⟨S256x256, .i32⟩).ofBuf (r_main_call3_v0 a0 a1 a2 a3 a4)))
/-- `main_call4_c`. -/
def r_main_call4_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c : StableHlo.TRef sig ⟨S_, .i32⟩).toBuf (constantI S_ 32 0#32)
/-- `main_call4_v0`. -/
def r_main_call4_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v0 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c : StableHlo.TRef sig ⟨S_, .i32⟩).ofBuf (r_main_call4_c a0 a1 a2 a3 a4)))
/-- `main_call4_v1`. -/
def r_main_call4_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call4_v1 : StableHlo.TRef sig ⟨S256x256, .i1⟩).toBuf (((cmpi .slt) : (⟨S256x256, .i32⟩ : BufTy).Contents (Elt F) → (⟨S256x256, .i32⟩ : BufTy).Contents (Elt F) → (⟨S256x256, .i1⟩ : BufTy).Contents (Elt F)) ((StableHlo.TRef.of main_v20 : StableHlo.TRef sig ⟨S256x256, .i32⟩).ofBuf (r_main_v20 a0 a1 a2 a3 a4)) ((StableHlo.TRef.of main_call4_v0 : StableHlo.TRef sig ⟨S256x256, .i32⟩).ofBuf (r_main_call4_v0 a0 a1 a2 a3 a4)))
/-- `main_call4_c_0`. -/
def r_main_call4_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_0 : StableHlo.TRef sig ⟨S_, .i32⟩).toBuf (constantI S_ 32 256#32)
/-- `main_call4_v2`. -/
def r_main_call4_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v2 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c_0 : StableHlo.TRef sig ⟨S_, .i32⟩).ofBuf (r_main_call4_c_0 a0 a1 a2 a3 a4)))
/-- `main_call4_v3`. -/
def r_main_call4_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v3 : StableHlo.TRef sig ⟨S256x256, .i32⟩).toBuf ((addi : (⟨S256x256, .i32⟩ : BufTy).Contents (Elt F) → (⟨S256x256, .i32⟩ : BufTy).Contents (Elt F) → (⟨S256x256, .i32⟩ : BufTy).Contents (Elt F)) ((StableHlo.TRef.of main_v20 : StableHlo.TRef sig ⟨S256x256, .i32⟩).ofBuf (r_main_v20 a0 a1 a2 a3 a4)) ((StableHlo.TRef.of main_call4_v2 : StableHlo.TRef sig ⟨S256x256, .i32⟩).ofBuf (r_main_call4_v2 a0 a1 a2 a3 a4)))
/-- `main_call4_v4`. -/
def r_main_call4_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v4 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call4_v1 : StableHlo.TRef sig ⟨S256x256, .i1⟩).ofBuf (r_main_call4_v1 a0 a1 a2 a3 a4)) ((StableHlo.TRef.of main_call4_v3 : StableHlo.TRef sig ⟨S256x256, .i32⟩).ofBuf (r_main_call4_v3 a0 a1 a2 a3 a4)) ((StableHlo.TRef.of main_v20 : StableHlo.TRef sig ⟨S256x256, .i32⟩).ofBuf (r_main_v20 a0 a1 a2 a3 a4)))
/-- `main_call4_v5`. -/
def r_main_call4_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  shapeCast S256x256x1 (r_main_call4_v4 a0 a1 a2 a3 a4) Gen.shapeCasts_S256x256_S256x256x1
/-- `main_call4_c_1`. -/
def r_main_call4_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call4_c_1 : StableHlo.TRef sig ⟨S1, .i32⟩).toBuf (constantI S1 32 255#32)
/-- `main_call4_c_2`. -/
def r_main_call4_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_2 : StableHlo.TRef sig ⟨S_, .i32⟩).toBuf (constantI S_ 32 0#32)
/-- `main_call4_v6`. -/
def r_main_call4_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call4_v6 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call4_c_2 : StableHlo.TRef sig ⟨S_, .i32⟩).ofBuf (r_main_call4_c_2 a0 a1 a2 a3 a4)))
/-- `main_call4_v7`. -/
def r_main_call4_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v7 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call4_v5 : StableHlo.TRef sig ⟨S256x256x1, .i32⟩).ofBuf (r_main_call4_v5 a0 a1 a2 a3 a4)) ((StableHlo.TRef.of main_call4_v6 : StableHlo.TRef sig ⟨S256x256x1, .i32⟩).ofBuf (r_main_call4_v6 a0 a1 a2 a3 a4)))
/-- `main_call4_v8`. -/
def r_main_call4_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call4_v8 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call4_c_1 : StableHlo.TRef sig ⟨S1, .i32⟩).ofBuf (r_main_call4_c_1 a0 a1 a2 a3 a4)))
/-- `main_call4_v9`. -/
def r_main_call4_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call4_v9 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call4_v8 : StableHlo.TRef sig ⟨S1x1x1, .i32⟩).ofBuf (r_main_call4_v8 a0 a1 a2 a3 a4)))
/-- `main_call4_v10`. -/
def r_main_call4_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v10 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call4_v5 : StableHlo.TRef sig ⟨S256x256x1, .i32⟩).ofBuf (r_main_call4_v5 a0 a1 a2 a3 a4)) ((StableHlo.TRef.of main_call4_v9 : StableHlo.TRef sig ⟨S256x256x1, .i32⟩).ofBuf (r_main_call4_v9 a0 a1 a2 a3 a4)))
/-- `main_call4_v11`. -/
def r_main_call4_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call4_v11 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call4_v7 : StableHlo.TRef sig ⟨S256x256x1, .i1⟩).ofBuf (r_main_call4_v7 a0 a1 a2 a3 a4)) ((StableHlo.TRef.of main_call4_v10 : StableHlo.TRef sig ⟨S256x256x1, .i1⟩).ofBuf (r_main_call4_v10 a0 a1 a2 a3 a4)))
/-- `main_call4_c_3`. -/
def r_main_call4_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call4_c_3 : StableHlo.TRef sig ⟨S_, .i1⟩).toBuf (constantI S_ 1 1#1)
/-- `main_call4_v12`. -/
def r_main_call4_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call4_v12 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call4_v11 : StableHlo.TRef sig ⟨S256x256x1, .i1⟩).ofBuf (r_main_call4_v11 a0 a1 a2 a3 a4)) ((StableHlo.TRef.of main_call4_c_3 : StableHlo.TRef sig ⟨S_, .i1⟩).ofBuf (r_main_call4_c_3 a0 a1 a2 a3 a4)))
/-- `main_call4_v13`. -/
def r_main_call4_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v13 : StableHlo.TRef sig ⟨S256x256, .i32⟩).toBuf (((fun x i => Host.gather gather_S256x256_S256x256x1_S256x256_n_1_0_0_1_2_11 x i) : (⟨S256x256, .i32⟩ : BufTy).Contents (Elt F) → (⟨S256x256x1, .i32⟩ : BufTy).Contents (Elt F) → (⟨S256x256, .i32⟩ : BufTy).Contents (Elt F)) ((StableHlo.TRef.of main_v16 : StableHlo.TRef sig ⟨S256x256, .i32⟩).ofBuf (r_main_v16 a0 a1 a2 a3 a4)) ((StableHlo.TRef.of main_call4_v5 : StableHlo.TRef sig ⟨S256x256x1, .i32⟩).ofBuf (r_main_call4_v5 a0 a1 a2 a3 a4)))
/-- `main_call4_c_4`. -/
def r_main_call4_c_4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call4_c_4 : StableHlo.TRef sig ⟨S_, .i32⟩).toBuf (constantI S_ 32 2147483648#32)
/-- `main_call4_v14`. -/
def r_main_call4_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call4_v14 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call4_c_4 : StableHlo.TRef sig ⟨S_, .i32⟩).ofBuf (r_main_call4_c_4 a0 a1 a2 a3 a4)))
/-- `main_v21`. -/
def r_main_v21 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_v21 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call4_v12 : StableHlo.TRef sig ⟨S256x256, .i1⟩).ofBuf (r_main_call4_v12 a0 a1 a2 a3 a4)) ((StableHlo.TRef.of main_call4_v13 : StableHlo.TRef sig ⟨S256x256, .i32⟩).ofBuf (r_main_call4_v13 a0 a1 a2 a3 a4)) ((StableHlo.TRef.of main_call4_v14 : StableHlo.TRef sig ⟨S256x256, .i32⟩).ofBuf (r_main_call4_v14 a0 a1 a2 a3 a4)))
/-- `main_v22`. -/
def r_main_v22 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (broadcastInDim S256x256x1 ![0, 1] Gen.bcast_S256x256_S256x256x1_0_1 : (⟨S256x256, .i32⟩ : BufTy).Contents (Elt F) → (⟨S256x256x1, .i32⟩ : BufTy).Contents (Elt F)) (r_main_v20 a0 a1 a2 a3 a4)
/-- `main_call5_c`. -/
def r_main_call5_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c : StableHlo.TRef sig ⟨S_, .i32⟩).toBuf (constantI S_ 32 0#32)
/-- `main_call5_v0`. -/
def r_main_call5_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v0 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c : StableHlo.TRef sig ⟨S_, .i32⟩).ofBuf (r_main_call5_c a0 a1 a2 a3 a4)))
/-- `main_call5_v1`. -/
def r_main_call5_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v1 : StableHlo.TRef sig ⟨S256x256x1, .i1⟩).toBuf (((cmpi .slt) : (⟨S256x256x1, .i32⟩ : BufTy).Contents (Elt F) → (⟨S256x256x1, .i32⟩ : BufTy).Contents (Elt F) → (⟨S256x256x1, .i1⟩ : BufTy).Contents (Elt F)) ((StableHlo.TRef.of main_v22 : StableHlo.TRef sig ⟨S256x256x1, .i32⟩).ofBuf (r_main_v22 a0 a1 a2 a3 a4)) ((StableHlo.TRef.of main_call5_v0 : StableHlo.TRef sig ⟨S256x256x1, .i32⟩).ofBuf (r_main_call5_v0 a0 a1 a2 a3 a4)))
/-- `main_call5_c_0`. -/
def r_main_call5_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c_0 : StableHlo.TRef sig ⟨S_, .i32⟩).toBuf (constantI S_ 32 256#32)
/-- `main_call5_v2`. -/
def r_main_call5_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v2 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c_0 : StableHlo.TRef sig ⟨S_, .i32⟩).ofBuf (r_main_call5_c_0 a0 a1 a2 a3 a4)))
/-- `main_call5_v3`. -/
def r_main_call5_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v3 : StableHlo.TRef sig ⟨S256x256x1, .i32⟩).toBuf ((addi : (⟨S256x256x1, .i32⟩ : BufTy).Contents (Elt F) → (⟨S256x256x1, .i32⟩ : BufTy).Contents (Elt F) → (⟨S256x256x1, .i32⟩ : BufTy).Contents (Elt F)) ((StableHlo.TRef.of main_v22 : StableHlo.TRef sig ⟨S256x256x1, .i32⟩).ofBuf (r_main_v22 a0 a1 a2 a3 a4)) ((StableHlo.TRef.of main_call5_v2 : StableHlo.TRef sig ⟨S256x256x1, .i32⟩).ofBuf (r_main_call5_v2 a0 a1 a2 a3 a4)))
/-- `main_call5_v4`. -/
def r_main_call5_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v4 : StableHlo.TRef sig ⟨S256x256x1, .i32⟩).toBuf ((select : (⟨S256x256x1, .i1⟩ : BufTy).Contents (Elt F) → (⟨S256x256x1, .i32⟩ : BufTy).Contents (Elt F) → (⟨S256x256x1, .i32⟩ : BufTy).Contents (Elt F) → (⟨S256x256x1, .i32⟩ : BufTy).Contents (Elt F)) ((StableHlo.TRef.of main_call5_v1 : StableHlo.TRef sig ⟨S256x256x1, .i1⟩).ofBuf (r_main_call5_v1 a0 a1 a2 a3 a4)) ((StableHlo.TRef.of main_call5_v3 : StableHlo.TRef sig ⟨S256x256x1, .i32⟩).ofBuf (r_main_call5_v3 a0 a1 a2 a3 a4)) ((StableHlo.TRef.of main_v22 : StableHlo.TRef sig ⟨S256x256x1, .i32⟩).ofBuf (r_main_v22 a0 a1 a2 a3 a4)))
/-- `main_call5_c_1`. -/
def r_main_call5_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call5_c_1 : StableHlo.TRef sig ⟨S1, .i32⟩).toBuf (constantI S1 32 255#32)
/-- `main_call5_c_2`. -/
def r_main_call5_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call5_c_2 : StableHlo.TRef sig ⟨S_, .i32⟩).toBuf (constantI S_ 32 0#32)
/-- `main_call5_v5`. -/
def r_main_call5_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v5 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call5_c_2 : StableHlo.TRef sig ⟨S_, .i32⟩).ofBuf (r_main_call5_c_2 a0 a1 a2 a3 a4)))
/-- `main_call5_v6`. -/
def r_main_call5_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v6 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call5_v4 : StableHlo.TRef sig ⟨S256x256x1, .i32⟩).ofBuf (r_main_call5_v4 a0 a1 a2 a3 a4)) ((StableHlo.TRef.of main_call5_v5 : StableHlo.TRef sig ⟨S256x256x1, .i32⟩).ofBuf (r_main_call5_v5 a0 a1 a2 a3 a4)))
/-- `main_call5_v7`. -/
def r_main_call5_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call5_v7 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call5_c_1 : StableHlo.TRef sig ⟨S1, .i32⟩).ofBuf (r_main_call5_c_1 a0 a1 a2 a3 a4)))
/-- `main_call5_v8`. -/
def r_main_call5_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call5_v8 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call5_v7 : StableHlo.TRef sig ⟨S1x1x1, .i32⟩).ofBuf (r_main_call5_v7 a0 a1 a2 a3 a4)))
/-- `main_call5_v9`. -/
def r_main_call5_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v9 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call5_v4 : StableHlo.TRef sig ⟨S256x256x1, .i32⟩).ofBuf (r_main_call5_v4 a0 a1 a2 a3 a4)) ((StableHlo.TRef.of main_call5_v8 : StableHlo.TRef sig ⟨S256x256x1, .i32⟩).ofBuf (r_main_call5_v8 a0 a1 a2 a3 a4)))
/-- `main_call5_v10`. -/
def r_main_call5_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call5_v10 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call5_v6 : StableHlo.TRef sig ⟨S256x256x1, .i1⟩).ofBuf (r_main_call5_v6 a0 a1 a2 a3 a4)) ((StableHlo.TRef.of main_call5_v9 : StableHlo.TRef sig ⟨S256x256x1, .i1⟩).ofBuf (r_main_call5_v9 a0 a1 a2 a3 a4)))
/-- `main_call5_c_3`. -/
def r_main_call5_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call5_c_3 : StableHlo.TRef sig ⟨S_, .i1⟩).toBuf (constantI S_ 1 1#1)
/-- `main_call5_v11`. -/
def r_main_call5_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call5_v11 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call5_v10 : StableHlo.TRef sig ⟨S256x256x1, .i1⟩).ofBuf (r_main_call5_v10 a0 a1 a2 a3 a4)) ((StableHlo.TRef.of main_call5_c_3 : StableHlo.TRef sig ⟨S_, .i1⟩).ofBuf (r_main_call5_c_3 a0 a1 a2 a3 a4)))
/-- `main_call5_v12`. -/
def r_main_call5_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_call5_v12 : StableHlo.TRef sig ⟨S256x256x128, .f32⟩).toBuf (((fun x i => Host.gather gather_S256x256x128_S256x256x1_S256x256x128_2_1_0_0_1_2_11128 x i) : (⟨S256x256x128, .f32⟩ : BufTy).Contents (Elt F) → (⟨S256x256x1, .i32⟩ : BufTy).Contents (Elt F) → (⟨S256x256x128, .f32⟩ : BufTy).Contents (Elt F)) ((StableHlo.TRef.of main_v12 : StableHlo.TRef sig ⟨S256x256x128, .f32⟩).ofBuf (r_main_v12 a0 a1 a2 a3 a4)) ((StableHlo.TRef.of main_call5_v4 : StableHlo.TRef sig ⟨S256x256x1, .i32⟩).ofBuf (r_main_call5_v4 a0 a1 a2 a3 a4)))
/-- `main_call5_v13`. -/
def r_main_call5_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .i1⟩ : BufTy).Contents (Elt F) :=
  (StableHlo.TRef.of main_call5_v13 : StableHlo.TRef sig ⟨S256x256x128, .i1⟩).toBuf (((broadcastInDim S256x256x128 ![0, 1] Gen.bcast_S256x256_S256x256x128_0_1) : (⟨S256x256, .i1⟩ : BufTy).Contents (Elt F) → (⟨S256x256x128, .i1⟩ : BufTy).Contents (Elt F)) ((StableHlo.TRef.of main_call5_v11 : StableHlo.TRef sig ⟨S256x256, .i1⟩).ofBuf (r_main_call5_v11 a0 a1 a2 a3 a4)))
/-- `main_call5_cst`. -/
def r_main_call5_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (StableHlo.TRef.of main_call5_cst : StableHlo.TRef sig ⟨S_, .f32⟩).toBuf (constant S_ .f32 0x7FC00000#32)
/-- `main_call5_v14`. -/
def r_main_call5_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_call5_v14 : StableHlo.TRef sig ⟨S256x256x128, .f32⟩).toBuf (((broadcastInDim S256x256x128 ![] Gen.bcast_S_S256x256x128) : (⟨S_, .f32⟩ : BufTy).Contents (Elt F) → (⟨S256x256x128, .f32⟩ : BufTy).Contents (Elt F)) ((StableHlo.TRef.of main_call5_cst : StableHlo.TRef sig ⟨S_, .f32⟩).ofBuf (r_main_call5_cst a0 a1 a2 a3 a4)))
/-- `main_v23`. -/
def r_main_v23 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x128, .f32⟩ : BufTy).Contents (Elt F) :=
  (StableHlo.TRef.of main_v23 : StableHlo.TRef sig ⟨S256x256x128, .f32⟩).toBuf ((select : (⟨S256x256x128, .i1⟩ : BufTy).Contents (Elt F) → (⟨S256x256x128, .f32⟩ : BufTy).Contents (Elt F) → (⟨S256x256x128, .f32⟩ : BufTy).Contents (Elt F) → (⟨S256x256x128, .f32⟩ : BufTy).Contents (Elt F)) ((StableHlo.TRef.of main_call5_v13 : StableHlo.TRef sig ⟨S256x256x128, .i1⟩).ofBuf (r_main_call5_v13 a0 a1 a2 a3 a4)) ((StableHlo.TRef.of main_call5_v12 : StableHlo.TRef sig ⟨S256x256x128, .f32⟩).ofBuf (r_main_call5_v12 a0 a1 a2 a3 a4)) ((StableHlo.TRef.of main_call5_v14 : StableHlo.TRef sig ⟨S256x256x128, .f32⟩).ofBuf (r_main_call5_v14 a0 a1 a2 a3 a4)))
/-- `main_call6_c`. -/
def r_main_call6_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c : StableHlo.TRef sig ⟨S_, .i32⟩).toBuf (constantI S_ 32 0#32)
/-- `main_call6_v0`. -/
def r_main_call6_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v0 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call6_c : StableHlo.TRef sig ⟨S_, .i32⟩).ofBuf (r_main_call6_c a0 a1 a2 a3 a4)))
/-- `main_call6_v1`. -/
def r_main_call6_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call6_v1 : StableHlo.TRef sig ⟨S256x256, .i1⟩).toBuf (((cmpi .slt) : (⟨S256x256, .i32⟩ : BufTy).Contents (Elt F) → (⟨S256x256, .i32⟩ : BufTy).Contents (Elt F) → (⟨S256x256, .i1⟩ : BufTy).Contents (Elt F)) ((StableHlo.TRef.of main_v20 : StableHlo.TRef sig ⟨S256x256, .i32⟩).ofBuf (r_main_v20 a0 a1 a2 a3 a4)) ((StableHlo.TRef.of main_call6_v0 : StableHlo.TRef sig ⟨S256x256, .i32⟩).ofBuf (r_main_call6_v0 a0 a1 a2 a3 a4)))
/-- `main_call6_c_0`. -/
def r_main_call6_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c_0 : StableHlo.TRef sig ⟨S_, .i32⟩).toBuf (constantI S_ 32 256#32)
/-- `main_call6_v2`. -/
def r_main_call6_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v2 : StableHlo.TRef sig ⟨S256x256, .i32⟩).toBuf (((broadcastInDim S256x256 ![] Gen.bcast_S_S256x256) : (⟨S_, .i32⟩ : BufTy).Contents (Elt F) → (⟨S256x256, .i32⟩ : BufTy).Contents (Elt F)) ((StableHlo.TRef.of main_call6_c_0 : StableHlo.TRef sig ⟨S_, .i32⟩).ofBuf (r_main_call6_c_0 a0 a1 a2 a3 a4)))
/-- `main_call6_v3`. -/
def r_main_call6_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v3 : StableHlo.TRef sig ⟨S256x256, .i32⟩).toBuf ((addi : (⟨S256x256, .i32⟩ : BufTy).Contents (Elt F) → (⟨S256x256, .i32⟩ : BufTy).Contents (Elt F) → (⟨S256x256, .i32⟩ : BufTy).Contents (Elt F)) ((StableHlo.TRef.of main_v20 : StableHlo.TRef sig ⟨S256x256, .i32⟩).ofBuf (r_main_v20 a0 a1 a2 a3 a4)) ((StableHlo.TRef.of main_call6_v2 : StableHlo.TRef sig ⟨S256x256, .i32⟩).ofBuf (r_main_call6_v2 a0 a1 a2 a3 a4)))
/-- `main_call6_v4`. -/
def r_main_call6_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i32⟩ : BufTy).Contents (Elt F) :=
  (StableHlo.TRef.of main_call6_v4 : StableHlo.TRef sig ⟨S256x256, .i32⟩).toBuf ((select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ((StableHlo.TRef.of main_call6_v1 : StableHlo.TRef sig ⟨S256x256, .i1⟩).ofBuf (r_main_call6_v1 a0 a1 a2 a3 a4)) ((StableHlo.TRef.of main_call6_v3 : StableHlo.TRef sig ⟨S256x256, .i32⟩).ofBuf (r_main_call6_v3 a0 a1 a2 a3 a4)) ((StableHlo.TRef.of main_v20 : StableHlo.TRef sig ⟨S256x256, .i32⟩).ofBuf (r_main_v20 a0 a1 a2 a3 a4)))
/-- `main_call6_v5`. -/
def r_main_call6_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  shapeCast S256x256x1 (r_main_call6_v4 a0 a1 a2 a3 a4) Gen.shapeCasts_S256x256_S256x256x1
/-- `main_call6_c_1`. -/
def r_main_call6_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1, .i32⟩ : BufTy).Contents (Elt F) :=
  (StableHlo.TRef.of main_call6_c_1 : StableHlo.TRef sig ⟨S1, .i32⟩).toBuf (constantI S1 32 255#32)
/-- `main_call6_c_2`. -/
def r_main_call6_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call6_c_2 : StableHlo.TRef sig ⟨S_, .i32⟩).toBuf (constantI S_ 32 0#32)
/-- `main_call6_v6`. -/
def r_main_call6_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call6_v6 : StableHlo.TRef sig ⟨S256x256x1, .i32⟩).toBuf (((broadcastInDim S256x256x1 ![] Gen.bcast_S_S256x256x1) : (⟨S_, .i32⟩ : BufTy).Contents (Elt F) → (⟨S256x256x1, .i32⟩ : BufTy).Contents (Elt F)) ((StableHlo.TRef.of main_call6_c_2 : StableHlo.TRef sig ⟨S_, .i32⟩).ofBuf (r_main_call6_c_2 a0 a1 a2 a3 a4)))
/-- `main_call6_v7`. -/
def r_main_call6_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v7 : StableHlo.TRef sig ⟨S256x256x1, .i1⟩).toBuf (((cmpi .sge) : (⟨S256x256x1, .i32⟩ : BufTy).Contents (Elt F) → (⟨S256x256x1, .i32⟩ : BufTy).Contents (Elt F) → (⟨S256x256x1, .i1⟩ : BufTy).Contents (Elt F)) ((StableHlo.TRef.of main_call6_v5 : StableHlo.TRef sig ⟨S256x256x1, .i32⟩).ofBuf (r_main_call6_v5 a0 a1 a2 a3 a4)) ((StableHlo.TRef.of main_call6_v6 : StableHlo.TRef sig ⟨S256x256x1, .i32⟩).ofBuf (r_main_call6_v6 a0 a1 a2 a3 a4)))
/-- `main_call6_v8`. -/
def r_main_call6_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x1, .i32⟩ : BufTy).Contents (Elt F) :=
  (StableHlo.TRef.of main_call6_v8 : StableHlo.TRef sig ⟨S1x1x1, .i32⟩).toBuf (((broadcastInDim S1x1x1 ![2] Gen.bcast_S1_S1x1x1_2) : (⟨S1, .i32⟩ : BufTy).Contents (Elt F) → (⟨S1x1x1, .i32⟩ : BufTy).Contents (Elt F)) ((StableHlo.TRef.of main_call6_c_1 : StableHlo.TRef sig ⟨S1, .i32⟩).ofBuf (r_main_call6_c_1 a0 a1 a2 a3 a4)))
/-- `main_call6_v9`. -/
def r_main_call6_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call6_v9 : StableHlo.TRef sig ⟨S256x256x1, .i32⟩).toBuf (((broadcastInDim S256x256x1 ![0, 1, 2] Gen.bcast_S1x1x1_S256x256x1_0_1_2) : (⟨S1x1x1, .i32⟩ : BufTy).Contents (Elt F) → (⟨S256x256x1, .i32⟩ : BufTy).Contents (Elt F)) ((StableHlo.TRef.of main_call6_v8 : StableHlo.TRef sig ⟨S1x1x1, .i32⟩).ofBuf (r_main_call6_v8 a0 a1 a2 a3 a4)))
/-- `main_call6_v10`. -/
def r_main_call6_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v10 : StableHlo.TRef sig ⟨S256x256x1, .i1⟩).toBuf (((cmpi .sle) : (⟨S256x256x1, .i32⟩ : BufTy).Contents (Elt F) → (⟨S256x256x1, .i32⟩ : BufTy).Contents (Elt F) → (⟨S256x256x1, .i1⟩ : BufTy).Contents (Elt F)) ((StableHlo.TRef.of main_call6_v5 : StableHlo.TRef sig ⟨S256x256x1, .i32⟩).ofBuf (r_main_call6_v5 a0 a1 a2 a3 a4)) ((StableHlo.TRef.of main_call6_v9 : StableHlo.TRef sig ⟨S256x256x1, .i32⟩).ofBuf (r_main_call6_v9 a0 a1 a2 a3 a4)))
/-- `main_call6_v11`. -/
def r_main_call6_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i1⟩ : BufTy).Contents (Elt F) :=
  (StableHlo.TRef.of main_call6_v11 : StableHlo.TRef sig ⟨S256x256x1, .i1⟩).toBuf ((andi : (⟨S256x256x1, .i1⟩ : BufTy).Contents (Elt F) → (⟨S256x256x1, .i1⟩ : BufTy).Contents (Elt F) → (⟨S256x256x1, .i1⟩ : BufTy).Contents (Elt F)) ((StableHlo.TRef.of main_call6_v7 : StableHlo.TRef sig ⟨S256x256x1, .i1⟩).ofBuf (r_main_call6_v7 a0 a1 a2 a3 a4)) ((StableHlo.TRef.of main_call6_v10 : StableHlo.TRef sig ⟨S256x256x1, .i1⟩).ofBuf (r_main_call6_v10 a0 a1 a2 a3 a4)))
/-- `main_call6_c_3`. -/
def r_main_call6_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call6_c_3 : StableHlo.TRef sig ⟨S_, .i1⟩).toBuf (constantI S_ 1 1#1)
/-- `main_call6_v12`. -/
def r_main_call6_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .i1⟩ : BufTy).Contents (Elt F) :=
  (StableHlo.TRef.of main_call6_v12 : StableHlo.TRef sig ⟨S256x256, .i1⟩).toBuf (((fun x v => Host.reduce IntOp.andi x v Gen.reducesTo_S256x256x1_S256x256_d2 Gen.h_S_) : (⟨S256x256x1, .i1⟩ : BufTy).Contents (Elt F) → (⟨S_, .i1⟩ : BufTy).Contents (Elt F) → (⟨S256x256, .i1⟩ : BufTy).Contents (Elt F)) ((StableHlo.TRef.of main_call6_v11 : StableHlo.TRef sig ⟨S256x256x1, .i1⟩).ofBuf (r_main_call6_v11 a0 a1 a2 a3 a4)) ((StableHlo.TRef.of main_call6_c_3 : StableHlo.TRef sig ⟨S_, .i1⟩).ofBuf (r_main_call6_c_3 a0 a1 a2 a3 a4)))
/-- `main_call6_v13`. -/
def r_main_call6_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_call6_v13 : StableHlo.TRef sig ⟨S256x256, .f32⟩).toBuf (((fun x i => Host.gather gather_S256x256_S256x256x1_S256x256_n_1_0_0_1_2_11 x i) : (⟨S256x256, .f32⟩ : BufTy).Contents (Elt F) → (⟨S256x256x1, .i32⟩ : BufTy).Contents (Elt F) → (⟨S256x256, .f32⟩ : BufTy).Contents (Elt F)) ((StableHlo.TRef.of main_v19 : StableHlo.TRef sig ⟨S256x256, .f32⟩).ofBuf (r_main_v19 a0 a1 a2 a3 a4)) ((StableHlo.TRef.of main_call6_v5 : StableHlo.TRef sig ⟨S256x256x1, .i32⟩).ofBuf (r_main_call6_v5 a0 a1 a2 a3 a4)))
/-- `main_call6_cst`. -/
def r_main_call6_cst (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (StableHlo.TRef.of main_call6_cst : StableHlo.TRef sig ⟨S_, .f32⟩).toBuf (constant S_ .f32 0x7FC00000#32)
/-- `main_call6_v14`. -/
def r_main_call6_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_call6_v14 : StableHlo.TRef sig ⟨S256x256, .f32⟩).toBuf (((broadcastInDim S256x256 ![] Gen.bcast_S_S256x256) : (⟨S_, .f32⟩ : BufTy).Contents (Elt F) → (⟨S256x256, .f32⟩ : BufTy).Contents (Elt F)) ((StableHlo.TRef.of main_call6_cst : StableHlo.TRef sig ⟨S_, .f32⟩).ofBuf (r_main_call6_cst a0 a1 a2 a3 a4)))
/-- `main_v24`. -/
def r_main_v24 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (StableHlo.TRef.of main_v24 : StableHlo.TRef sig ⟨S256x256, .f32⟩).toBuf ((select : (⟨S256x256, .i1⟩ : BufTy).Contents (Elt F) → (⟨S256x256, .f32⟩ : BufTy).Contents (Elt F) → (⟨S256x256, .f32⟩ : BufTy).Contents (Elt F) → (⟨S256x256, .f32⟩ : BufTy).Contents (Elt F)) ((StableHlo.TRef.of main_call6_v12 : StableHlo.TRef sig ⟨S256x256, .i1⟩).ofBuf (r_main_call6_v12 a0 a1 a2 a3 a4)) ((StableHlo.TRef.of main_call6_v13 : StableHlo.TRef sig ⟨S256x256, .f32⟩).ofBuf (r_main_call6_v13 a0 a1 a2 a3 a4)) ((StableHlo.TRef.of main_call6_v14 : StableHlo.TRef sig ⟨S256x256, .f32⟩).ofBuf (r_main_call6_v14 a0 a1 a2 a3 a4)))
/-- `main_v25`. -/
def r_main_v25 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (iotaInDim S10 32 0)
/-- `main_c_6`. -/
def r_main_c_6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_c_7`. -/
def r_main_c_7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v26`. -/
def r_main_v26 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (cmpi .eq : (⟨S_, .i32⟩ : BufTy).Contents (Elt F) → (⟨S_, .i32⟩ : BufTy).Contents (Elt F) → (⟨S_, .i1⟩ : BufTy).Contents (Elt F)) (r_main_c_6 a0 a1 a2 a3 a4) (r_main_c_7 a0 a1 a2 a3 a4)
/-- `main_c_8`. -/
def r_main_c_8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_v27`. -/
def r_main_v27 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_8 a0 a1 a2 a3 a4)
/-- `main_v28`. -/
def r_main_v28 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (cmpi .ne : (⟨S10, .i32⟩ : BufTy).Contents (Elt F) → (⟨S10, .i32⟩ : BufTy).Contents (Elt F) → (⟨S10, .i1⟩ : BufTy).Contents (Elt F)) (r_main_v25 a0 a1 a2 a3 a4) (r_main_v27 a0 a1 a2 a3 a4)
/-- `main_v29`. -/
def r_main_v29 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (broadcastInDim S10 ![] Gen.bcast_S_S10 : (⟨S_, .i1⟩ : BufTy).Contents (Elt F) → (⟨S10, .i1⟩ : BufTy).Contents (Elt F)) (r_main_v26 a0 a1 a2 a3 a4)
/-- `main_v30`. -/
def r_main_v30 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (andi : (⟨S10, .i1⟩ : BufTy).Contents (Elt F) → (⟨S10, .i1⟩ : BufTy).Contents (Elt F) → (⟨S10, .i1⟩ : BufTy).Contents (Elt F)) (r_main_v29 a0 a1 a2 a3 a4) (r_main_v28 a0 a1 a2 a3 a4)
/-- `main_c_9`. -/
def r_main_c_9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 0#32)
/-- `main_c_10`. -/
def r_main_c_10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_call7_v0`. -/
def r_main_call7_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call7_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_c_9 : StableHlo.TRef sig ⟨S_, .i32⟩).ofBuf (r_main_c_9 a0 a1 a2 a3 a4)))
/-- `main_call7_v1`. -/
def r_main_call7_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call7_v1 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_c_10 : StableHlo.TRef sig ⟨S_, .i32⟩).ofBuf (r_main_c_10 a0 a1 a2 a3 a4)))
/-- `main_v31`. -/
def r_main_v31 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v31 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_v30 : StableHlo.TRef sig ⟨S10, .i1⟩).ofBuf (r_main_v30 a0 a1 a2 a3 a4)) ((StableHlo.TRef.of main_call7_v0 : StableHlo.TRef sig ⟨S10, .i32⟩).ofBuf (r_main_call7_v0 a0 a1 a2 a3 a4)) ((StableHlo.TRef.of main_call7_v1 : StableHlo.TRef sig ⟨S10, .i32⟩).ofBuf (r_main_call7_v1 a0 a1 a2 a3 a4)))
/-- `main_c_11`. -/
def r_main_c_11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v32`. -/
def r_main_v32 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_11 a0 a1 a2 a3 a4)
/-- `main_v33`. -/
def r_main_v33 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v25 a0 a1 a2 a3 a4) (r_main_v32 a0 a1 a2 a3 a4)
/-- `main_c_12`. -/
def r_main_c_12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_v34`. -/
def r_main_v34 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_12 a0 a1 a2 a3 a4)
/-- `main_v35`. -/
def r_main_v35 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v31 a0 a1 a2 a3 a4) (r_main_v34 a0 a1 a2 a3 a4)
/-- `main_call8_c`. -/
def r_main_call8_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call8_c : StableHlo.TRef sig ⟨S_, .i32⟩).toBuf (constantI S_ 32 0#32)
/-- `main_call8_v0`. -/
def r_main_call8_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call8_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call8_c : StableHlo.TRef sig ⟨S_, .i32⟩).ofBuf (r_main_call8_c a0 a1 a2 a3 a4)))
/-- `main_call8_v1`. -/
def r_main_call8_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call8_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v33 : StableHlo.TRef sig ⟨S10, .i32⟩).ofBuf (r_main_v33 a0 a1 a2 a3 a4)) ((StableHlo.TRef.of main_call8_v0 : StableHlo.TRef sig ⟨S10, .i32⟩).ofBuf (r_main_call8_v0 a0 a1 a2 a3 a4)))
/-- `main_v36`. -/
def r_main_v36 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v36 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call8_v1 : StableHlo.TRef sig ⟨S10, .i1⟩).ofBuf (r_main_call8_v1 a0 a1 a2 a3 a4)) ((StableHlo.TRef.of main_v35 : StableHlo.TRef sig ⟨S10, .i32⟩).ofBuf (r_main_v35 a0 a1 a2 a3 a4)) ((StableHlo.TRef.of main_v31 : StableHlo.TRef sig ⟨S10, .i32⟩).ofBuf (r_main_v31 a0 a1 a2 a3 a4)))
/-- `main_c_13`. -/
def r_main_c_13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_c_14`. -/
def r_main_c_14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_v37`. -/
def r_main_v37 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_c_13 a0 a1 a2 a3 a4) (r_main_c_14 a0 a1 a2 a3 a4)
/-- `main_c_15`. -/
def r_main_c_15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v38`. -/
def r_main_v38 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_15 a0 a1 a2 a3 a4)
/-- `main_v39`. -/
def r_main_v39 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v25 a0 a1 a2 a3 a4) (r_main_v38 a0 a1 a2 a3 a4)
/-- `main_c_16`. -/
def r_main_c_16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v40`. -/
def r_main_v40 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_16 a0 a1 a2 a3 a4)
/-- `main_v41`. -/
def r_main_v41 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v39 a0 a1 a2 a3 a4) (r_main_v40 a0 a1 a2 a3 a4)
/-- `main_v42`. -/
def r_main_v42 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v37 a0 a1 a2 a3 a4)
/-- `main_v43`. -/
def r_main_v43 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v36 a0 a1 a2 a3 a4) (r_main_v42 a0 a1 a2 a3 a4)
/-- `main_call9_c`. -/
def r_main_call9_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call9_c : StableHlo.TRef sig ⟨S_, .i32⟩).toBuf (constantI S_ 32 0#32)
/-- `main_call9_v0`. -/
def r_main_call9_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call9_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call9_c : StableHlo.TRef sig ⟨S_, .i32⟩).ofBuf (r_main_call9_c a0 a1 a2 a3 a4)))
/-- `main_call9_v1`. -/
def r_main_call9_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call9_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v41 : StableHlo.TRef sig ⟨S10, .i32⟩).ofBuf (r_main_v41 a0 a1 a2 a3 a4)) ((StableHlo.TRef.of main_call9_v0 : StableHlo.TRef sig ⟨S10, .i32⟩).ofBuf (r_main_call9_v0 a0 a1 a2 a3 a4)))
/-- `main_v44`. -/
def r_main_v44 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v44 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call9_v1 : StableHlo.TRef sig ⟨S10, .i1⟩).ofBuf (r_main_call9_v1 a0 a1 a2 a3 a4)) ((StableHlo.TRef.of main_v43 : StableHlo.TRef sig ⟨S10, .i32⟩).ofBuf (r_main_v43 a0 a1 a2 a3 a4)) ((StableHlo.TRef.of main_v36 : StableHlo.TRef sig ⟨S10, .i32⟩).ofBuf (r_main_v36 a0 a1 a2 a3 a4)))
/-- `main_v45`. -/
def r_main_v45 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v37 a0 a1 a2 a3 a4) (r_main_v37 a0 a1 a2 a3 a4)
/-- `main_c_17`. -/
def r_main_c_17 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v46`. -/
def r_main_v46 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_17 a0 a1 a2 a3 a4)
/-- `main_v47`. -/
def r_main_v47 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v39 a0 a1 a2 a3 a4) (r_main_v46 a0 a1 a2 a3 a4)
/-- `main_c_18`. -/
def r_main_c_18 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v48`. -/
def r_main_v48 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_18 a0 a1 a2 a3 a4)
/-- `main_v49`. -/
def r_main_v49 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v47 a0 a1 a2 a3 a4) (r_main_v48 a0 a1 a2 a3 a4)
/-- `main_v50`. -/
def r_main_v50 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v45 a0 a1 a2 a3 a4)
/-- `main_v51`. -/
def r_main_v51 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v44 a0 a1 a2 a3 a4) (r_main_v50 a0 a1 a2 a3 a4)
/-- `main_call10_c`. -/
def r_main_call10_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call10_c : StableHlo.TRef sig ⟨S_, .i32⟩).toBuf (constantI S_ 32 0#32)
/-- `main_call10_v0`. -/
def r_main_call10_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call10_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call10_c : StableHlo.TRef sig ⟨S_, .i32⟩).ofBuf (r_main_call10_c a0 a1 a2 a3 a4)))
/-- `main_call10_v1`. -/
def r_main_call10_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call10_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v49 : StableHlo.TRef sig ⟨S10, .i32⟩).ofBuf (r_main_v49 a0 a1 a2 a3 a4)) ((StableHlo.TRef.of main_call10_v0 : StableHlo.TRef sig ⟨S10, .i32⟩).ofBuf (r_main_call10_v0 a0 a1 a2 a3 a4)))
/-- `main_v52`. -/
def r_main_v52 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v52 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call10_v1 : StableHlo.TRef sig ⟨S10, .i1⟩).ofBuf (r_main_call10_v1 a0 a1 a2 a3 a4)) ((StableHlo.TRef.of main_v51 : StableHlo.TRef sig ⟨S10, .i32⟩).ofBuf (r_main_v51 a0 a1 a2 a3 a4)) ((StableHlo.TRef.of main_v44 : StableHlo.TRef sig ⟨S10, .i32⟩).ofBuf (r_main_v44 a0 a1 a2 a3 a4)))
/-- `main_v53`. -/
def r_main_v53 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v45 a0 a1 a2 a3 a4) (r_main_v45 a0 a1 a2 a3 a4)
/-- `main_c_19`. -/
def r_main_c_19 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v54`. -/
def r_main_v54 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_19 a0 a1 a2 a3 a4)
/-- `main_v55`. -/
def r_main_v55 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v47 a0 a1 a2 a3 a4) (r_main_v54 a0 a1 a2 a3 a4)
/-- `main_c_20`. -/
def r_main_c_20 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v56`. -/
def r_main_v56 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_20 a0 a1 a2 a3 a4)
/-- `main_v57`. -/
def r_main_v57 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v55 a0 a1 a2 a3 a4) (r_main_v56 a0 a1 a2 a3 a4)
/-- `main_v58`. -/
def r_main_v58 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v53 a0 a1 a2 a3 a4)
/-- `main_v59`. -/
def r_main_v59 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v52 a0 a1 a2 a3 a4) (r_main_v58 a0 a1 a2 a3 a4)
/-- `main_call11_c`. -/
def r_main_call11_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call11_c : StableHlo.TRef sig ⟨S_, .i32⟩).toBuf (constantI S_ 32 0#32)
/-- `main_call11_v0`. -/
def r_main_call11_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call11_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call11_c : StableHlo.TRef sig ⟨S_, .i32⟩).ofBuf (r_main_call11_c a0 a1 a2 a3 a4)))
/-- `main_call11_v1`. -/
def r_main_call11_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call11_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v57 : StableHlo.TRef sig ⟨S10, .i32⟩).ofBuf (r_main_v57 a0 a1 a2 a3 a4)) ((StableHlo.TRef.of main_call11_v0 : StableHlo.TRef sig ⟨S10, .i32⟩).ofBuf (r_main_call11_v0 a0 a1 a2 a3 a4)))
/-- `main_v60`. -/
def r_main_v60 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v60 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call11_v1 : StableHlo.TRef sig ⟨S10, .i1⟩).ofBuf (r_main_call11_v1 a0 a1 a2 a3 a4)) ((StableHlo.TRef.of main_v59 : StableHlo.TRef sig ⟨S10, .i32⟩).ofBuf (r_main_v59 a0 a1 a2 a3 a4)) ((StableHlo.TRef.of main_v52 : StableHlo.TRef sig ⟨S10, .i32⟩).ofBuf (r_main_v52 a0 a1 a2 a3 a4)))
/-- `main_v61`. -/
def r_main_v61 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v53 a0 a1 a2 a3 a4) (r_main_v53 a0 a1 a2 a3 a4)
/-- `main_c_21`. -/
def r_main_c_21 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v62`. -/
def r_main_v62 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_21 a0 a1 a2 a3 a4)
/-- `main_v63`. -/
def r_main_v63 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v55 a0 a1 a2 a3 a4) (r_main_v62 a0 a1 a2 a3 a4)
/-- `main_c_22`. -/
def r_main_c_22 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v64`. -/
def r_main_v64 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_22 a0 a1 a2 a3 a4)
/-- `main_v65`. -/
def r_main_v65 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v63 a0 a1 a2 a3 a4) (r_main_v64 a0 a1 a2 a3 a4)
/-- `main_v66`. -/
def r_main_v66 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v61 a0 a1 a2 a3 a4)
/-- `main_v67`. -/
def r_main_v67 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v60 a0 a1 a2 a3 a4) (r_main_v66 a0 a1 a2 a3 a4)
/-- `main_call12_c`. -/
def r_main_call12_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call12_c : StableHlo.TRef sig ⟨S_, .i32⟩).toBuf (constantI S_ 32 0#32)
/-- `main_call12_v0`. -/
def r_main_call12_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call12_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call12_c : StableHlo.TRef sig ⟨S_, .i32⟩).ofBuf (r_main_call12_c a0 a1 a2 a3 a4)))
/-- `main_call12_v1`. -/
def r_main_call12_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call12_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v65 : StableHlo.TRef sig ⟨S10, .i32⟩).ofBuf (r_main_v65 a0 a1 a2 a3 a4)) ((StableHlo.TRef.of main_call12_v0 : StableHlo.TRef sig ⟨S10, .i32⟩).ofBuf (r_main_call12_v0 a0 a1 a2 a3 a4)))
/-- `main_v68`. -/
def r_main_v68 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v68 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call12_v1 : StableHlo.TRef sig ⟨S10, .i1⟩).ofBuf (r_main_call12_v1 a0 a1 a2 a3 a4)) ((StableHlo.TRef.of main_v67 : StableHlo.TRef sig ⟨S10, .i32⟩).ofBuf (r_main_v67 a0 a1 a2 a3 a4)) ((StableHlo.TRef.of main_v60 : StableHlo.TRef sig ⟨S10, .i32⟩).ofBuf (r_main_v60 a0 a1 a2 a3 a4)))
/-- `main_v69`. -/
def r_main_v69 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v61 a0 a1 a2 a3 a4) (r_main_v61 a0 a1 a2 a3 a4)
/-- `main_c_23`. -/
def r_main_c_23 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v70`. -/
def r_main_v70 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_23 a0 a1 a2 a3 a4)
/-- `main_v71`. -/
def r_main_v71 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v63 a0 a1 a2 a3 a4) (r_main_v70 a0 a1 a2 a3 a4)
/-- `main_c_24`. -/
def r_main_c_24 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v72`. -/
def r_main_v72 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_24 a0 a1 a2 a3 a4)
/-- `main_v73`. -/
def r_main_v73 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (andi : (⟨S10, .i32⟩ : BufTy).Contents (Elt F) → (⟨S10, .i32⟩ : BufTy).Contents (Elt F) → (⟨S10, .i32⟩ : BufTy).Contents (Elt F)) (r_main_v71 a0 a1 a2 a3 a4) (r_main_v72 a0 a1 a2 a3 a4)
/-- `main_v74`. -/
def r_main_v74 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_v69 a0 a1 a2 a3 a4)
/-- `main_v75`. -/
def r_main_v75 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (muli : (⟨S10, .i32⟩ : BufTy).Contents (Elt F) → (⟨S10, .i32⟩ : BufTy).Contents (Elt F) → (⟨S10, .i32⟩ : BufTy).Contents (Elt F)) (r_main_v68 a0 a1 a2 a3 a4) (r_main_v74 a0 a1 a2 a3 a4)
/-- `main_call13_c`. -/
def r_main_call13_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call13_c : StableHlo.TRef sig ⟨S_, .i32⟩).toBuf (constantI S_ 32 0#32)
/-- `main_call13_v0`. -/
def r_main_call13_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_call13_v0 : StableHlo.TRef sig ⟨S10, .i32⟩).toBuf (((broadcastInDim S10 ![] Gen.bcast_S_S10) : (⟨S_, .i32⟩ : BufTy).Contents (Elt F) → (⟨S10, .i32⟩ : BufTy).Contents (Elt F)) ((StableHlo.TRef.of main_call13_c : StableHlo.TRef sig ⟨S_, .i32⟩).ofBuf (r_main_call13_c a0 a1 a2 a3 a4)))
/-- `main_call13_v1`. -/
def r_main_call13_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i1⟩ : BufTy).Contents (Elt F) :=
  (StableHlo.TRef.of main_call13_v1 : StableHlo.TRef sig ⟨S10, .i1⟩).toBuf (((cmpi .ne) : (⟨S10, .i32⟩ : BufTy).Contents (Elt F) → (⟨S10, .i32⟩ : BufTy).Contents (Elt F) → (⟨S10, .i1⟩ : BufTy).Contents (Elt F)) ((StableHlo.TRef.of main_v73 : StableHlo.TRef sig ⟨S10, .i32⟩).ofBuf (r_main_v73 a0 a1 a2 a3 a4)) ((StableHlo.TRef.of main_call13_v0 : StableHlo.TRef sig ⟨S10, .i32⟩).ofBuf (r_main_call13_v0 a0 a1 a2 a3 a4)))
/-- `main_v76`. -/
def r_main_v76 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (StableHlo.TRef.of main_v76 : StableHlo.TRef sig ⟨S10, .i32⟩).toBuf ((select : (⟨S10, .i1⟩ : BufTy).Contents (Elt F) → (⟨S10, .i32⟩ : BufTy).Contents (Elt F) → (⟨S10, .i32⟩ : BufTy).Contents (Elt F) → (⟨S10, .i32⟩ : BufTy).Contents (Elt F)) ((StableHlo.TRef.of main_call13_v1 : StableHlo.TRef sig ⟨S10, .i1⟩).ofBuf (r_main_call13_v1 a0 a1 a2 a3 a4)) ((StableHlo.TRef.of main_v75 : StableHlo.TRef sig ⟨S10, .i32⟩).ofBuf (r_main_v75 a0 a1 a2 a3 a4)) ((StableHlo.TRef.of main_v68 : StableHlo.TRef sig ⟨S10, .i32⟩).ofBuf (r_main_v68 a0 a1 a2 a3 a4)))
/-- `main_v77`. -/
def r_main_v77 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (muli : (⟨S_, .i32⟩ : BufTy).Contents (Elt F) → (⟨S_, .i32⟩ : BufTy).Contents (Elt F) → (⟨S_, .i32⟩ : BufTy).Contents (Elt F)) (r_main_v69 a0 a1 a2 a3 a4) (r_main_v69 a0 a1 a2 a3 a4)
/-- `main_c_25`. -/
def r_main_c_25 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 1#32)
/-- `main_v78`. -/
def r_main_v78 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (broadcastInDim S10 ![] Gen.bcast_S_S10 : (⟨S_, .i32⟩ : BufTy).Contents (Elt F) → (⟨S10, .i32⟩ : BufTy).Contents (Elt F)) (r_main_c_25 a0 a1 a2 a3 a4)
/-- `main_v79`. -/
def r_main_v79 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S10, .i32⟩ : BufTy).Contents (Elt F) :=
  (Host.shrui : (⟨S10, .i32⟩ : BufTy).Contents (Elt F) → (⟨S10, .i32⟩ : BufTy).Contents (Elt F) → (⟨S10, .i32⟩ : BufTy).Contents (Elt F)) (r_main_v71 a0 a1 a2 a3 a4) (r_main_v78 a0 a1 a2 a3 a4)
/-- `main_v80`. -/
def r_main_v80 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (broadcastInDim S256x256x1 ![0, 1] Gen.bcast_S256x256_S256x256x1_0_1 : (⟨S256x256, .i32⟩ : BufTy).Contents (Elt F) → (⟨S256x256x1, .i32⟩ : BufTy).Contents (Elt F)) (r_main_v21 a0 a1 a2 a3 a4)
/-- `main_call14_v0`. -/
def r_main_call14_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x10, .i32⟩ : BufTy).Contents (Elt F) :=
  (StableHlo.TRef.of main_call14_v0 : StableHlo.TRef sig ⟨S1x1x10, .i32⟩).toBuf (((broadcastInDim S1x1x10 ![2] Gen.bcast_S10_S1x1x10_2) : (⟨S10, .i32⟩ : BufTy).Contents (Elt F) → (⟨S1x1x10, .i32⟩ : BufTy).Contents (Elt F)) ((StableHlo.TRef.of main_v76 : StableHlo.TRef sig ⟨S10, .i32⟩).ofBuf (r_main_v76 a0 a1 a2 a3 a4)))
/-- `main_call14_v1`. -/
def r_main_call14_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v1 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_v80 : StableHlo.TRef sig ⟨S256x256x1, .i32⟩).ofBuf (r_main_v80 a0 a1 a2 a3 a4)))
/-- `main_call14_v2`. -/
def r_main_call14_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v2 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v0 : StableHlo.TRef sig ⟨S1x1x10, .i32⟩).ofBuf (r_main_call14_v0 a0 a1 a2 a3 a4)))
/-- `main_call14_v3`. -/
def r_main_call14_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v3 : StableHlo.TRef sig ⟨S256x256x10, .i32⟩).toBuf ((Host.divsi : (⟨S256x256x10, .i32⟩ : BufTy).Contents (Elt F) → (⟨S256x256x10, .i32⟩ : BufTy).Contents (Elt F) → (⟨S256x256x10, .i32⟩ : BufTy).Contents (Elt F)) ((StableHlo.TRef.of main_call14_v1 : StableHlo.TRef sig ⟨S256x256x10, .i32⟩).ofBuf (r_main_call14_v1 a0 a1 a2 a3 a4)) ((StableHlo.TRef.of main_call14_v2 : StableHlo.TRef sig ⟨S256x256x10, .i32⟩).ofBuf (r_main_call14_v2 a0 a1 a2 a3 a4)))
/-- `main_call14_v4`. -/
def r_main_call14_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x1, .i32⟩ : BufTy).Contents (Elt F) :=
  (StableHlo.TRef.of main_call14_v4 : StableHlo.TRef sig ⟨S256x256x1, .i32⟩).toBuf ((signi : (⟨S256x256x1, .i32⟩ : BufTy).Contents (Elt F) → (⟨S256x256x1, .i32⟩ : BufTy).Contents (Elt F)) ((StableHlo.TRef.of main_v80 : StableHlo.TRef sig ⟨S256x256x1, .i32⟩).ofBuf (r_main_v80 a0 a1 a2 a3 a4)))
/-- `main_call14_v5`. -/
def r_main_call14_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S1x1x10, .i32⟩ : BufTy).Contents (Elt F) :=
  (StableHlo.TRef.of main_call14_v5 : StableHlo.TRef sig ⟨S1x1x10, .i32⟩).toBuf ((signi : (⟨S1x1x10, .i32⟩ : BufTy).Contents (Elt F) → (⟨S1x1x10, .i32⟩ : BufTy).Contents (Elt F)) ((StableHlo.TRef.of main_call14_v0 : StableHlo.TRef sig ⟨S1x1x10, .i32⟩).ofBuf (r_main_call14_v0 a0 a1 a2 a3 a4)))
/-- `main_call14_v6`. -/
def r_main_call14_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v6 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_call14_v4 : StableHlo.TRef sig ⟨S256x256x1, .i32⟩).ofBuf (r_main_call14_v4 a0 a1 a2 a3 a4)))
/-- `main_call14_v7`. -/
def r_main_call14_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v7 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v5 : StableHlo.TRef sig ⟨S1x1x10, .i32⟩).ofBuf (r_main_call14_v5 a0 a1 a2 a3 a4)))
/-- `main_call14_v8`. -/
def r_main_call14_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v8 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call14_v6 : StableHlo.TRef sig ⟨S256x256x10, .i32⟩).ofBuf (r_main_call14_v6 a0 a1 a2 a3 a4)) ((StableHlo.TRef.of main_call14_v7 : StableHlo.TRef sig ⟨S256x256x10, .i32⟩).ofBuf (r_main_call14_v7 a0 a1 a2 a3 a4)))
/-- `main_call14_v9`. -/
def r_main_call14_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v9 : StableHlo.TRef sig ⟨S256x256x10, .i32⟩).toBuf (((broadcastInDim S256x256x10 ![0, 1, 2] Gen.bcast_S256x256x1_S256x256x10_0_1_2) : (⟨S256x256x1, .i32⟩ : BufTy).Contents (Elt F) → (⟨S256x256x10, .i32⟩ : BufTy).Contents (Elt F)) ((StableHlo.TRef.of main_v80 : StableHlo.TRef sig ⟨S256x256x1, .i32⟩).ofBuf (r_main_v80 a0 a1 a2 a3 a4)))
/-- `main_call14_v10`. -/
def r_main_call14_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v10 : StableHlo.TRef sig ⟨S256x256x10, .i32⟩).toBuf (((broadcastInDim S256x256x10 ![0, 1, 2] Gen.bcast_S1x1x10_S256x256x10_0_1_2) : (⟨S1x1x10, .i32⟩ : BufTy).Contents (Elt F) → (⟨S256x256x10, .i32⟩ : BufTy).Contents (Elt F)) ((StableHlo.TRef.of main_call14_v0 : StableHlo.TRef sig ⟨S1x1x10, .i32⟩).ofBuf (r_main_call14_v0 a0 a1 a2 a3 a4)))
/-- `main_call14_v11`. -/
def r_main_call14_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v11 : StableHlo.TRef sig ⟨S256x256x10, .i32⟩).toBuf ((Host.remsi : (⟨S256x256x10, .i32⟩ : BufTy).Contents (Elt F) → (⟨S256x256x10, .i32⟩ : BufTy).Contents (Elt F) → (⟨S256x256x10, .i32⟩ : BufTy).Contents (Elt F)) ((StableHlo.TRef.of main_call14_v9 : StableHlo.TRef sig ⟨S256x256x10, .i32⟩).ofBuf (r_main_call14_v9 a0 a1 a2 a3 a4)) ((StableHlo.TRef.of main_call14_v10 : StableHlo.TRef sig ⟨S256x256x10, .i32⟩).ofBuf (r_main_call14_v10 a0 a1 a2 a3 a4)))
/-- `main_call14_c`. -/
def r_main_call14_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call14_c : StableHlo.TRef sig ⟨S_, .i32⟩).toBuf (constantI S_ 32 0#32)
/-- `main_call14_v12`. -/
def r_main_call14_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v12 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call14_c : StableHlo.TRef sig ⟨S_, .i32⟩).ofBuf (r_main_call14_c a0 a1 a2 a3 a4)))
/-- `main_call14_v13`. -/
def r_main_call14_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v13 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call14_v11 : StableHlo.TRef sig ⟨S256x256x10, .i32⟩).ofBuf (r_main_call14_v11 a0 a1 a2 a3 a4)) ((StableHlo.TRef.of main_call14_v12 : StableHlo.TRef sig ⟨S256x256x10, .i32⟩).ofBuf (r_main_call14_v12 a0 a1 a2 a3 a4)))
/-- `main_call14_v14`. -/
def r_main_call14_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call14_v14 : StableHlo.TRef sig ⟨S256x256x10, .i1⟩).toBuf ((andi : (⟨S256x256x10, .i1⟩ : BufTy).Contents (Elt F) → (⟨S256x256x10, .i1⟩ : BufTy).Contents (Elt F) → (⟨S256x256x10, .i1⟩ : BufTy).Contents (Elt F)) ((StableHlo.TRef.of main_call14_v8 : StableHlo.TRef sig ⟨S256x256x10, .i1⟩).ofBuf (r_main_call14_v8 a0 a1 a2 a3 a4)) ((StableHlo.TRef.of main_call14_v13 : StableHlo.TRef sig ⟨S256x256x10, .i1⟩).ofBuf (r_main_call14_v13 a0 a1 a2 a3 a4)))
/-- `main_call14_c_0`. -/
def r_main_call14_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call14_c_0 : StableHlo.TRef sig ⟨S_, .i32⟩).toBuf (constantI S_ 32 1#32)
/-- `main_call14_v15`. -/
def r_main_call14_v15 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v15 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call14_c_0 : StableHlo.TRef sig ⟨S_, .i32⟩).ofBuf (r_main_call14_c_0 a0 a1 a2 a3 a4)))
/-- `main_call14_v16`. -/
def r_main_call14_v16 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call14_v16 : StableHlo.TRef sig ⟨S256x256x10, .i32⟩).toBuf ((subi : (⟨S256x256x10, .i32⟩ : BufTy).Contents (Elt F) → (⟨S256x256x10, .i32⟩ : BufTy).Contents (Elt F) → (⟨S256x256x10, .i32⟩ : BufTy).Contents (Elt F)) ((StableHlo.TRef.of main_call14_v3 : StableHlo.TRef sig ⟨S256x256x10, .i32⟩).ofBuf (r_main_call14_v3 a0 a1 a2 a3 a4)) ((StableHlo.TRef.of main_call14_v15 : StableHlo.TRef sig ⟨S256x256x10, .i32⟩).ofBuf (r_main_call14_v15 a0 a1 a2 a3 a4)))
/-- `main_v81`. -/
def r_main_v81 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_v81 : StableHlo.TRef sig ⟨S256x256x10, .i32⟩).toBuf ((select : (⟨S256x256x10, .i1⟩ : BufTy).Contents (Elt F) → (⟨S256x256x10, .i32⟩ : BufTy).Contents (Elt F) → (⟨S256x256x10, .i32⟩ : BufTy).Contents (Elt F) → (⟨S256x256x10, .i32⟩ : BufTy).Contents (Elt F)) ((StableHlo.TRef.of main_call14_v14 : StableHlo.TRef sig ⟨S256x256x10, .i1⟩).ofBuf (r_main_call14_v14 a0 a1 a2 a3 a4)) ((StableHlo.TRef.of main_call14_v16 : StableHlo.TRef sig ⟨S256x256x10, .i32⟩).ofBuf (r_main_call14_v16 a0 a1 a2 a3 a4)) ((StableHlo.TRef.of main_call14_v3 : StableHlo.TRef sig ⟨S256x256x10, .i32⟩).ofBuf (r_main_call14_v3 a0 a1 a2 a3 a4)))
/-- `main_c_26`. -/
def r_main_c_26 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2#32)
/-- `main_call15_v0`. -/
def r_main_call15_v0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_v0 : StableHlo.TRef sig ⟨S_, .i32⟩).toBuf ((id : (⟨S_, .i32⟩ : BufTy).Contents (Elt F) → (⟨S_, .i32⟩ : BufTy).Contents (Elt F)) ((StableHlo.TRef.of main_c_26 : StableHlo.TRef sig ⟨S_, .i32⟩).ofBuf (r_main_c_26 a0 a1 a2 a3 a4)))
/-- `main_call15_c`. -/
def r_main_call15_c (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c : StableHlo.TRef sig ⟨S_, .i32⟩).toBuf (constantI S_ 32 0#32)
/-- `main_call15_v1`. -/
def r_main_call15_v1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call15_v1 : StableHlo.TRef sig ⟨S_, .i1⟩).toBuf (((cmpi .eq) : (⟨S_, .i32⟩ : BufTy).Contents (Elt F) → (⟨S_, .i32⟩ : BufTy).Contents (Elt F) → (⟨S_, .i1⟩ : BufTy).Contents (Elt F)) ((StableHlo.TRef.of main_call15_v0 : StableHlo.TRef sig ⟨S_, .i32⟩).ofBuf (r_main_call15_v0 a0 a1 a2 a3 a4)) ((StableHlo.TRef.of main_call15_c : StableHlo.TRef sig ⟨S_, .i32⟩).ofBuf (r_main_call15_c a0 a1 a2 a3 a4)))
/-- `main_call15_c_0`. -/
def r_main_call15_c_0 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_0 : StableHlo.TRef sig ⟨S_, .i32⟩).toBuf (constantI S_ 32 1#32)
/-- `main_call15_v2`. -/
def r_main_call15_v2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_v2 : StableHlo.TRef sig ⟨S_, .i32⟩).toBuf ((select : (⟨S_, .i1⟩ : BufTy).Contents (Elt F) → (⟨S_, .i32⟩ : BufTy).Contents (Elt F) → (⟨S_, .i32⟩ : BufTy).Contents (Elt F) → (⟨S_, .i32⟩ : BufTy).Contents (Elt F)) ((StableHlo.TRef.of main_call15_v1 : StableHlo.TRef sig ⟨S_, .i1⟩).ofBuf (r_main_call15_v1 a0 a1 a2 a3 a4)) ((StableHlo.TRef.of main_call15_c_0 : StableHlo.TRef sig ⟨S_, .i32⟩).ofBuf (r_main_call15_c_0 a0 a1 a2 a3 a4)) ((StableHlo.TRef.of main_call15_v0 : StableHlo.TRef sig ⟨S_, .i32⟩).ofBuf (r_main_call15_v0 a0 a1 a2 a3 a4)))
/-- `main_call15_v3`. -/
def r_main_call15_v3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v3 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_v2 : StableHlo.TRef sig ⟨S_, .i32⟩).ofBuf (r_main_call15_v2 a0 a1 a2 a3 a4)))
/-- `main_call15_v4`. -/
def r_main_call15_v4 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v4 : StableHlo.TRef sig ⟨S256x256x10, .i32⟩).toBuf ((Host.remsi : (⟨S256x256x10, .i32⟩ : BufTy).Contents (Elt F) → (⟨S256x256x10, .i32⟩ : BufTy).Contents (Elt F) → (⟨S256x256x10, .i32⟩ : BufTy).Contents (Elt F)) ((StableHlo.TRef.of main_v81 : StableHlo.TRef sig ⟨S256x256x10, .i32⟩).ofBuf (r_main_v81 a0 a1 a2 a3 a4)) ((StableHlo.TRef.of main_call15_v3 : StableHlo.TRef sig ⟨S256x256x10, .i32⟩).ofBuf (r_main_call15_v3 a0 a1 a2 a3 a4)))
/-- `main_call15_c_1`. -/
def r_main_call15_c_1 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_1 : StableHlo.TRef sig ⟨S_, .i32⟩).toBuf (constantI S_ 32 0#32)
/-- `main_call15_v5`. -/
def r_main_call15_v5 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v5 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_c_1 : StableHlo.TRef sig ⟨S_, .i32⟩).ofBuf (r_main_call15_c_1 a0 a1 a2 a3 a4)))
/-- `main_call15_v6`. -/
def r_main_call15_v6 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v6 : StableHlo.TRef sig ⟨S256x256x10, .i1⟩).toBuf (((cmpi .ne) : (⟨S256x256x10, .i32⟩ : BufTy).Contents (Elt F) → (⟨S256x256x10, .i32⟩ : BufTy).Contents (Elt F) → (⟨S256x256x10, .i1⟩ : BufTy).Contents (Elt F)) ((StableHlo.TRef.of main_call15_v4 : StableHlo.TRef sig ⟨S256x256x10, .i32⟩).ofBuf (r_main_call15_v4 a0 a1 a2 a3 a4)) ((StableHlo.TRef.of main_call15_v5 : StableHlo.TRef sig ⟨S256x256x10, .i32⟩).ofBuf (r_main_call15_v5 a0 a1 a2 a3 a4)))
/-- `main_call15_c_2`. -/
def r_main_call15_c_2 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_2 : StableHlo.TRef sig ⟨S_, .i32⟩).toBuf (constantI S_ 32 0#32)
/-- `main_call15_v7`. -/
def r_main_call15_v7 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v7 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_c_2 : StableHlo.TRef sig ⟨S_, .i32⟩).ofBuf (r_main_call15_c_2 a0 a1 a2 a3 a4)))
/-- `main_call15_v8`. -/
def r_main_call15_v8 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v8 : StableHlo.TRef sig ⟨S256x256x10, .i1⟩).toBuf (((cmpi .slt) : (⟨S256x256x10, .i32⟩ : BufTy).Contents (Elt F) → (⟨S256x256x10, .i32⟩ : BufTy).Contents (Elt F) → (⟨S256x256x10, .i1⟩ : BufTy).Contents (Elt F)) ((StableHlo.TRef.of main_call15_v4 : StableHlo.TRef sig ⟨S256x256x10, .i32⟩).ofBuf (r_main_call15_v4 a0 a1 a2 a3 a4)) ((StableHlo.TRef.of main_call15_v7 : StableHlo.TRef sig ⟨S256x256x10, .i32⟩).ofBuf (r_main_call15_v7 a0 a1 a2 a3 a4)))
/-- `main_call15_c_3`. -/
def r_main_call15_c_3 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (StableHlo.TRef.of main_call15_c_3 : StableHlo.TRef sig ⟨S_, .i32⟩).toBuf (constantI S_ 32 0#32)
/-- `main_call15_v9`. -/
def r_main_call15_v9 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i1⟩ : BufTy).Contents (Elt F) :=
  (StableHlo.TRef.of main_call15_v9 : StableHlo.TRef sig ⟨S_, .i1⟩).toBuf (((cmpi .slt) : (⟨S_, .i32⟩ : BufTy).Contents (Elt F) → (⟨S_, .i32⟩ : BufTy).Contents (Elt F) → (⟨S_, .i1⟩ : BufTy).Contents (Elt F)) ((StableHlo.TRef.of main_call15_v2 : StableHlo.TRef sig ⟨S_, .i32⟩).ofBuf (r_main_call15_v2 a0 a1 a2 a3 a4)) ((StableHlo.TRef.of main_call15_c_3 : StableHlo.TRef sig ⟨S_, .i32⟩).ofBuf (r_main_call15_c_3 a0 a1 a2 a3 a4)))
/-- `main_call15_v10`. -/
def r_main_call15_v10 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v10 : StableHlo.TRef sig ⟨S256x256x10, .i1⟩).toBuf (((broadcastInDim S256x256x10 ![] Gen.bcast_S_S256x256x10) : (⟨S_, .i1⟩ : BufTy).Contents (Elt F) → (⟨S256x256x10, .i1⟩ : BufTy).Contents (Elt F)) ((StableHlo.TRef.of main_call15_v9 : StableHlo.TRef sig ⟨S_, .i1⟩).ofBuf (r_main_call15_v9 a0 a1 a2 a3 a4)))
/-- `main_call15_v11`. -/
def r_main_call15_v11 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v11 : StableHlo.TRef sig ⟨S256x256x10, .i1⟩).toBuf (((cmpi .ne) : (⟨S256x256x10, .i1⟩ : BufTy).Contents (Elt F) → (⟨S256x256x10, .i1⟩ : BufTy).Contents (Elt F) → (⟨S256x256x10, .i1⟩ : BufTy).Contents (Elt F)) ((StableHlo.TRef.of main_call15_v8 : StableHlo.TRef sig ⟨S256x256x10, .i1⟩).ofBuf (r_main_call15_v8 a0 a1 a2 a3 a4)) ((StableHlo.TRef.of main_call15_v10 : StableHlo.TRef sig ⟨S256x256x10, .i1⟩).ofBuf (r_main_call15_v10 a0 a1 a2 a3 a4)))
/-- `main_call15_v12`. -/
def r_main_call15_v12 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i1⟩ : BufTy).Contents (Elt F) :=
  (StableHlo.TRef.of main_call15_v12 : StableHlo.TRef sig ⟨S256x256x10, .i1⟩).toBuf ((andi : (⟨S256x256x10, .i1⟩ : BufTy).Contents (Elt F) → (⟨S256x256x10, .i1⟩ : BufTy).Contents (Elt F) → (⟨S256x256x10, .i1⟩ : BufTy).Contents (Elt F)) ((StableHlo.TRef.of main_call15_v11 : StableHlo.TRef sig ⟨S256x256x10, .i1⟩).ofBuf (r_main_call15_v11 a0 a1 a2 a3 a4)) ((StableHlo.TRef.of main_call15_v6 : StableHlo.TRef sig ⟨S256x256x10, .i1⟩).ofBuf (r_main_call15_v6 a0 a1 a2 a3 a4)))
/-- `main_call15_v13`. -/
def r_main_call15_v13 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v13 : StableHlo.TRef sig ⟨S256x256x10, .i32⟩).toBuf (((broadcastInDim S256x256x10 ![] Gen.bcast_S_S256x256x10) : (⟨S_, .i32⟩ : BufTy).Contents (Elt F) → (⟨S256x256x10, .i32⟩ : BufTy).Contents (Elt F)) ((StableHlo.TRef.of main_call15_v2 : StableHlo.TRef sig ⟨S_, .i32⟩).ofBuf (r_main_call15_v2 a0 a1 a2 a3 a4)))
/-- `main_call15_v14`. -/
def r_main_call15_v14 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_call15_v14 : StableHlo.TRef sig ⟨S256x256x10, .i32⟩).toBuf ((addi : (⟨S256x256x10, .i32⟩ : BufTy).Contents (Elt F) → (⟨S256x256x10, .i32⟩ : BufTy).Contents (Elt F) → (⟨S256x256x10, .i32⟩ : BufTy).Contents (Elt F)) ((StableHlo.TRef.of main_call15_v4 : StableHlo.TRef sig ⟨S256x256x10, .i32⟩).ofBuf (r_main_call15_v4 a0 a1 a2 a3 a4)) ((StableHlo.TRef.of main_call15_v13 : StableHlo.TRef sig ⟨S256x256x10, .i32⟩).ofBuf (r_main_call15_v13 a0 a1 a2 a3 a4)))
/-- `main_v82`. -/
def r_main_v82 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .i32⟩ : BufTy).Contents (Elt F) :=
  (StableHlo.TRef.of main_v82 : StableHlo.TRef sig ⟨S256x256x10, .i32⟩).toBuf ((select : (⟨S256x256x10, .i1⟩ : BufTy).Contents (Elt F) → (⟨S256x256x10, .i32⟩ : BufTy).Contents (Elt F) → (⟨S256x256x10, .i32⟩ : BufTy).Contents (Elt F) → (⟨S256x256x10, .i32⟩ : BufTy).Contents (Elt F)) ((StableHlo.TRef.of main_call15_v12 : StableHlo.TRef sig ⟨S256x256x10, .i1⟩).ofBuf (r_main_call15_v12 a0 a1 a2 a3 a4)) ((StableHlo.TRef.of main_call15_v14 : StableHlo.TRef sig ⟨S256x256x10, .i32⟩).ofBuf (r_main_call15_v14 a0 a1 a2 a3 a4)) ((StableHlo.TRef.of main_call15_v4 : StableHlo.TRef sig ⟨S256x256x10, .i32⟩).ofBuf (r_main_call15_v4 a0 a1 a2 a3 a4)))
/-- `main_v83`. -/
def r_main_v83 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256x10, .f32⟩ : BufTy).Contents (Elt F) :=
  (sitofp .f32 : (⟨S256x256x10, .i32⟩ : BufTy).Contents (Elt F) → (⟨S256x256x10, .f32⟩ : BufTy).Contents (Elt F)) (r_main_v82 a0 a1 a2 a3 a4)
/-- `main_v84`. -/
def r_main_v84 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (sitofp .f32 : (⟨S256x256, .i32⟩ : BufTy).Contents (Elt F) → (⟨S256x256, .f32⟩ : BufTy).Contents (Elt F)) (r_main_v21 a0 a1 a2 a3 a4)
/-- `main_c_27`. -/
def r_main_c_27 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .i32⟩ : BufTy).Contents (Elt F) :=
  (constantI S_ 32 2147483648#32)
/-- `main_v85`. -/
def r_main_v85 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256, .i32⟩ : BufTy).Contents (Elt F) :=
  ((fun x v => Host.reduce IntOp.maxsi x v Gen.reducesTo_S256x256_S256_d1 Gen.h_S_) : (⟨S256x256, .i32⟩ : BufTy).Contents (Elt F) → (⟨S_, .i32⟩ : BufTy).Contents (Elt F) → (⟨S256, .i32⟩ : BufTy).Contents (Elt F)) (r_main_v21 a0 a1 a2 a3 a4) (r_main_c_27 a0 a1 a2 a3 a4)
/-- `main_v86`. -/
def r_main_v86 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .i32⟩ : BufTy).Contents (Elt F) :=
  (broadcastInDim S256x1 ![0] Gen.bcast_S256_S256x1_0 : (⟨S256, .i32⟩ : BufTy).Contents (Elt F) → (⟨S256x1, .i32⟩ : BufTy).Contents (Elt F)) (r_main_v85 a0 a1 a2 a3 a4)
/-- `main_v87`. -/
def r_main_v87 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (sitofp .f32 : (⟨S256x1, .i32⟩ : BufTy).Contents (Elt F) → (⟨S256x1, .f32⟩ : BufTy).Contents (Elt F)) (r_main_v86 a0 a1 a2 a3 a4)
/-- `main_cst_28`. -/
def r_main_cst_28 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S_, .f32⟩ : BufTy).Contents (Elt F) :=
  (constant S_ .f32 0x3F800000#32)
/-- `main_v88`. -/
def r_main_v88 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (broadcastInDim S256x1 ![] Gen.bcast_S_S256x1 : (⟨S_, .f32⟩ : BufTy).Contents (Elt F) → (⟨S256x1, .f32⟩ : BufTy).Contents (Elt F)) (r_main_cst_28 a0 a1 a2 a3 a4)
/-- `main_v89`. -/
def r_main_v89 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x1, .f32⟩ : BufTy).Contents (Elt F) :=
  (addf : (⟨S256x1, .f32⟩ : BufTy).Contents (Elt F) → (⟨S256x1, .f32⟩ : BufTy).Contents (Elt F) → (⟨S256x1, .f32⟩ : BufTy).Contents (Elt F)) (r_main_v87 a0 a1 a2 a3 a4) (r_main_v88 a0 a1 a2 a3 a4)
/-- `main_v90`. -/
def r_main_v90 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (broadcastInDim S256x256 ![0, 1] Gen.bcast_S256x1_S256x256_0_1 : (⟨S256x1, .f32⟩ : BufTy).Contents (Elt F) → (⟨S256x256, .f32⟩ : BufTy).Contents (Elt F)) (r_main_v89 a0 a1 a2 a3 a4)
/-- `main_v91`. -/
def r_main_v91 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x256, .f32⟩ : BufTy).Contents (Elt F) :=
  (Host.divf : (⟨S256x256, .f32⟩ : BufTy).Contents (Elt F) → (⟨S256x256, .f32⟩ : BufTy).Contents (Elt F) → (⟨S256x256, .f32⟩ : BufTy).Contents (Elt F)) (r_main_v84 a0 a1 a2 a3 a4) (r_main_v90 a0 a1 a2 a3 a4)
/-- `main_v92`. -/
def r_main_v92 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x32768, .f32⟩ : BufTy).Contents (Elt F) :=
  shapeCast S256x32768 (r_main_v23 a0 a1 a2 a3 a4) Gen.shapeCasts_S256x256x128_S256x32768
/-- `main_v93`. -/
def r_main_v93 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x2560, .f32⟩ : BufTy).Contents (Elt F) :=
  shapeCast S256x2560 (r_main_v83 a0 a1 a2 a3 a4) Gen.shapeCasts_S256x256x10_S256x2560
/-- `main_v94`. -/
def r_main_v94 (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x35840, .f32⟩ : BufTy).Contents (Elt F) :=
  concatenate S256x35840 1 [⟨S256x32768, (r_main_v92 a0 a1 a2 a3 a4)⟩, ⟨S256x2560, (r_main_v93 a0 a1 a2 a3 a4)⟩, ⟨S256x256, (r_main_v91 a0 a1 a2 a3 a4)⟩, ⟨S256x256, (r_main_v24 a0 a1 a2 a3 a4)⟩] Gen.concatenates_S256x32768_S256x2560_S256x256_S256x256_S256x35840_d1

/-- The value the host operations leave in `main_v94`, as a function of the five arguments they read. -/
def stepFn (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : (⟨S256x35840, .f32⟩ : BufTy).Contents (Elt F) := r_main_v94 a0 a1 a2 a3 a4

/-- At the start: the five arguments. -/
structure Inv_start (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
/-- After `surpriseOps`: the arguments, and every buffer written so far that a later operation reads. -/
structure Inv_0 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
/-- After `rollMemOps`: the arguments, and every buffer written so far that a later operation reads. -/
structure Inv_1 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
  h_main_v10 : W (main_v10 : DevRef τ sig) = r_main_v10 a0 a1 a2 a3 a4
/-- After `writeMemOps`: the arguments, and every buffer written so far that a later operation reads. -/
structure Inv_2 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v7 : W (main_v7 : DevRef τ sig) = r_main_v7 a0 a1 a2 a3 a4
  h_main_v9 : W (main_v9 : DevRef τ sig) = r_main_v9 a0 a1 a2 a3 a4
  h_main_v12 : W (main_v12 : DevRef τ sig) = r_main_v12 a0 a1 a2 a3 a4
/-- After `rollTimOps`: the arguments, and every buffer written so far that a later operation reads. -/
structure Inv_3 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v9 : W (main_v9 : DevRef τ sig) = r_main_v9 a0 a1 a2 a3 a4
  h_main_v12 : W (main_v12 : DevRef τ sig) = r_main_v12 a0 a1 a2 a3 a4
  h_main_v13 : W (main_v13 : DevRef τ sig) = r_main_v13 a0 a1 a2 a3 a4
/-- After `writeTimOps`: the arguments, and every buffer written so far that a later operation reads. -/
structure Inv_4 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v9 : W (main_v9 : DevRef τ sig) = r_main_v9 a0 a1 a2 a3 a4
  h_main_v12 : W (main_v12 : DevRef τ sig) = r_main_v12 a0 a1 a2 a3 a4
  h_main_v16 : W (main_v16 : DevRef τ sig) = r_main_v16 a0 a1 a2 a3 a4
/-- After `rollSurpOps`: the arguments, and every buffer written so far that a later operation reads. -/
structure Inv_5 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v5 : W (main_v5 : DevRef τ sig) = r_main_v5 a0 a1 a2 a3 a4
  h_main_v12 : W (main_v12 : DevRef τ sig) = r_main_v12 a0 a1 a2 a3 a4
  h_main_v16 : W (main_v16 : DevRef τ sig) = r_main_v16 a0 a1 a2 a3 a4
  h_main_v17 : W (main_v17 : DevRef τ sig) = r_main_v17 a0 a1 a2 a3 a4
/-- After `writeSurpOps`: the arguments, and every buffer written so far that a later operation reads. -/
structure Inv_6 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v16 : W (main_v16 : DevRef τ sig) = r_main_v16 a0 a1 a2 a3 a4
  h_main_v19 : W (main_v19 : DevRef τ sig) = r_main_v19 a0 a1 a2 a3 a4
/-- After `argsortOps`: the arguments, and every buffer written so far that a later operation reads. -/
structure Inv_7 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v16 : W (main_v16 : DevRef τ sig) = r_main_v16 a0 a1 a2 a3 a4
  h_main_v19 : W (main_v19 : DevRef τ sig) = r_main_v19 a0 a1 a2 a3 a4
  h_main_v20 : W (main_v20 : DevRef τ sig) = r_main_v20 a0 a1 a2 a3 a4
/-- After `takeTimOps`: the arguments, and every buffer written so far that a later operation reads. -/
structure Inv_8 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
/-- After `idxColOps`: the arguments, and every buffer written so far that a later operation reads. -/
structure Inv_9 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v12 : W (main_v12 : DevRef τ sig) = r_main_v12 a0 a1 a2 a3 a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
  h_main_v22 : W (main_v22 : DevRef τ sig) = r_main_v22 a0 a1 a2 a3 a4
/-- After `takeMemOps`: the arguments, and every buffer written so far that a later operation reads. -/
structure Inv_10 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v19 : W (main_v19 : DevRef τ sig) = r_main_v19 a0 a1 a2 a3 a4
  h_main_v20 : W (main_v20 : DevRef τ sig) = r_main_v20 a0 a1 a2 a3 a4
  h_main_v21 : W (main_v21 : DevRef τ sig) = r_main_v21 a0 a1 a2 a3 a4
  h_main_v23 : W (main_v23 : DevRef τ sig) = r_main_v23 a0 a1 a2 a3 a4
/-- After `takeSurpOps`: the arguments, and every buffer written so far that a later operation reads. -/
structure Inv_11 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
/-- After `pow0Ops`: the arguments, and every buffer written so far that a later operation reads. -/
structure Inv_12 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v30 : W (main_v30 : DevRef τ sig) = r_main_v30 a0 a1 a2 a3 a4
  h_main_c_9 : W (main_c_9 : DevRef τ sig) = r_main_c_9 a0 a1 a2 a3 a4
  h_main_c_10 : W (main_c_10 : DevRef τ sig) = r_main_c_10 a0 a1 a2 a3 a4
/-- After `pow0WhereOps`: the arguments, and every buffer written so far that a later operation reads. -/
structure Inv_13 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v31 : W (main_v31 : DevRef τ sig) = r_main_v31 a0 a1 a2 a3 a4
/-- After `pow1Ops`: the arguments, and every buffer written so far that a later operation reads. -/
structure Inv_14 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v31 : W (main_v31 : DevRef τ sig) = r_main_v31 a0 a1 a2 a3 a4
  h_main_v33 : W (main_v33 : DevRef τ sig) = r_main_v33 a0 a1 a2 a3 a4
  h_main_v35 : W (main_v35 : DevRef τ sig) = r_main_v35 a0 a1 a2 a3 a4
/-- After `pow1WhereOps`: the arguments, and every buffer written so far that a later operation reads. -/
structure Inv_15 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v25 : W (main_v25 : DevRef τ sig) = r_main_v25 a0 a1 a2 a3 a4
  h_main_v36 : W (main_v36 : DevRef τ sig) = r_main_v36 a0 a1 a2 a3 a4
/-- After `pow2OpsA`: the arguments, and every buffer written so far that a later operation reads. -/
structure Inv_16 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v36 : W (main_v36 : DevRef τ sig) = r_main_v36 a0 a1 a2 a3 a4
  h_main_v37 : W (main_v37 : DevRef τ sig) = r_main_v37 a0 a1 a2 a3 a4
  h_main_v39 : W (main_v39 : DevRef τ sig) = r_main_v39 a0 a1 a2 a3 a4
  h_main_v40 : W (main_v40 : DevRef τ sig) = r_main_v40 a0 a1 a2 a3 a4
/-- After `pow2OpsB`: the arguments, and every buffer written so far that a later operation reads. -/
structure Inv_17 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v36 : W (main_v36 : DevRef τ sig) = r_main_v36 a0 a1 a2 a3 a4
  h_main_v37 : W (main_v37 : DevRef τ sig) = r_main_v37 a0 a1 a2 a3 a4
  h_main_v39 : W (main_v39 : DevRef τ sig) = r_main_v39 a0 a1 a2 a3 a4
  h_main_v41 : W (main_v41 : DevRef τ sig) = r_main_v41 a0 a1 a2 a3 a4
  h_main_v43 : W (main_v43 : DevRef τ sig) = r_main_v43 a0 a1 a2 a3 a4
/-- After `pow2WhereOps`: the arguments, and every buffer written so far that a later operation reads. -/
structure Inv_18 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v37 : W (main_v37 : DevRef τ sig) = r_main_v37 a0 a1 a2 a3 a4
  h_main_v39 : W (main_v39 : DevRef τ sig) = r_main_v39 a0 a1 a2 a3 a4
  h_main_v44 : W (main_v44 : DevRef τ sig) = r_main_v44 a0 a1 a2 a3 a4
/-- After `pow3Ops`: the arguments, and every buffer written so far that a later operation reads. -/
structure Inv_19 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v44 : W (main_v44 : DevRef τ sig) = r_main_v44 a0 a1 a2 a3 a4
  h_main_v45 : W (main_v45 : DevRef τ sig) = r_main_v45 a0 a1 a2 a3 a4
  h_main_v47 : W (main_v47 : DevRef τ sig) = r_main_v47 a0 a1 a2 a3 a4
  h_main_v49 : W (main_v49 : DevRef τ sig) = r_main_v49 a0 a1 a2 a3 a4
  h_main_v51 : W (main_v51 : DevRef τ sig) = r_main_v51 a0 a1 a2 a3 a4
/-- After `pow3WhereOps`: the arguments, and every buffer written so far that a later operation reads. -/
structure Inv_20 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v45 : W (main_v45 : DevRef τ sig) = r_main_v45 a0 a1 a2 a3 a4
  h_main_v47 : W (main_v47 : DevRef τ sig) = r_main_v47 a0 a1 a2 a3 a4
  h_main_v52 : W (main_v52 : DevRef τ sig) = r_main_v52 a0 a1 a2 a3 a4
/-- After `pow4Ops`: the arguments, and every buffer written so far that a later operation reads. -/
structure Inv_21 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v52 : W (main_v52 : DevRef τ sig) = r_main_v52 a0 a1 a2 a3 a4
  h_main_v53 : W (main_v53 : DevRef τ sig) = r_main_v53 a0 a1 a2 a3 a4
  h_main_v55 : W (main_v55 : DevRef τ sig) = r_main_v55 a0 a1 a2 a3 a4
  h_main_v57 : W (main_v57 : DevRef τ sig) = r_main_v57 a0 a1 a2 a3 a4
  h_main_v59 : W (main_v59 : DevRef τ sig) = r_main_v59 a0 a1 a2 a3 a4
/-- After `pow4WhereOps`: the arguments, and every buffer written so far that a later operation reads. -/
structure Inv_22 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v53 : W (main_v53 : DevRef τ sig) = r_main_v53 a0 a1 a2 a3 a4
  h_main_v55 : W (main_v55 : DevRef τ sig) = r_main_v55 a0 a1 a2 a3 a4
  h_main_v60 : W (main_v60 : DevRef τ sig) = r_main_v60 a0 a1 a2 a3 a4
/-- After `pow5Ops`: the arguments, and every buffer written so far that a later operation reads. -/
structure Inv_23 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v60 : W (main_v60 : DevRef τ sig) = r_main_v60 a0 a1 a2 a3 a4
  h_main_v61 : W (main_v61 : DevRef τ sig) = r_main_v61 a0 a1 a2 a3 a4
  h_main_v63 : W (main_v63 : DevRef τ sig) = r_main_v63 a0 a1 a2 a3 a4
  h_main_v65 : W (main_v65 : DevRef τ sig) = r_main_v65 a0 a1 a2 a3 a4
  h_main_v67 : W (main_v67 : DevRef τ sig) = r_main_v67 a0 a1 a2 a3 a4
/-- After `pow5WhereOps`: the arguments, and every buffer written so far that a later operation reads. -/
structure Inv_24 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v61 : W (main_v61 : DevRef τ sig) = r_main_v61 a0 a1 a2 a3 a4
  h_main_v63 : W (main_v63 : DevRef τ sig) = r_main_v63 a0 a1 a2 a3 a4
  h_main_v68 : W (main_v68 : DevRef τ sig) = r_main_v68 a0 a1 a2 a3 a4
/-- After `pow6Ops`: the arguments, and every buffer written so far that a later operation reads. -/
structure Inv_25 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v68 : W (main_v68 : DevRef τ sig) = r_main_v68 a0 a1 a2 a3 a4
  h_main_v69 : W (main_v69 : DevRef τ sig) = r_main_v69 a0 a1 a2 a3 a4
  h_main_v71 : W (main_v71 : DevRef τ sig) = r_main_v71 a0 a1 a2 a3 a4
  h_main_v73 : W (main_v73 : DevRef τ sig) = r_main_v73 a0 a1 a2 a3 a4
  h_main_v75 : W (main_v75 : DevRef τ sig) = r_main_v75 a0 a1 a2 a3 a4
/-- After `pow6WhereOps`: the arguments, and every buffer written so far that a later operation reads. -/
structure Inv_26 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v69 : W (main_v69 : DevRef τ sig) = r_main_v69 a0 a1 a2 a3 a4
  h_main_v71 : W (main_v71 : DevRef τ sig) = r_main_v71 a0 a1 a2 a3 a4
  h_main_v76 : W (main_v76 : DevRef τ sig) = r_main_v76 a0 a1 a2 a3 a4
/-- After `timColOps`: the arguments, and every buffer written so far that a later operation reads. -/
structure Inv_27 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v76 : W (main_v76 : DevRef τ sig) = r_main_v76 a0 a1 a2 a3 a4
  h_main_v80 : W (main_v80 : DevRef τ sig) = r_main_v80 a0 a1 a2 a3 a4
/-- After `floorDivOps`: the arguments, and every buffer written so far that a later operation reads. -/
structure Inv_28 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v81 : W (main_v81 : DevRef τ sig) = r_main_v81 a0 a1 a2 a3 a4
/-- After `twoOps`: the arguments, and every buffer written so far that a later operation reads. -/
structure Inv_29 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v81 : W (main_v81 : DevRef τ sig) = r_main_v81 a0 a1 a2 a3 a4
  h_main_c_26 : W (main_c_26 : DevRef τ sig) = r_main_c_26 a0 a1 a2 a3 a4
/-- After `remTwoOps`: the arguments, and every buffer written so far that a later operation reads. -/
structure Inv_30 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v21 : W (main_v21 : DevRef τ sig) = r_main_v21 a0 a1 a2 a3 a4
  h_main_v23 : W (main_v23 : DevRef τ sig) = r_main_v23 a0 a1 a2 a3 a4
  h_main_v24 : W (main_v24 : DevRef τ sig) = r_main_v24 a0 a1 a2 a3 a4
  h_main_v82 : W (main_v82 : DevRef τ sig) = r_main_v82 a0 a1 a2 a3 a4
/-- After `normOps`: the arguments, and every buffer written so far that a later operation reads. -/
structure Inv_31 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v23 : W (main_v23 : DevRef τ sig) = r_main_v23 a0 a1 a2 a3 a4
  h_main_v24 : W (main_v24 : DevRef τ sig) = r_main_v24 a0 a1 a2 a3 a4
  h_main_v83 : W (main_v83 : DevRef τ sig) = r_main_v83 a0 a1 a2 a3 a4
  h_main_v84 : W (main_v84 : DevRef τ sig) = r_main_v84 a0 a1 a2 a3 a4
  h_main_v87 : W (main_v87 : DevRef τ sig) = r_main_v87 a0 a1 a2 a3 a4
  h_main_v88 : W (main_v88 : DevRef τ sig) = r_main_v88 a0 a1 a2 a3 a4
/-- After `concatOps`: the arguments, and every buffer written so far that a later operation reads. -/
structure Inv_32 (W : Valuation τ sig (Elt F)) (a0 : (⟨S256x128, .f32⟩ : BufTy).Contents (Elt F)) (a1 : (⟨S256x256x128, .f32⟩ : BufTy).Contents (Elt F)) (a2 : (⟨S256x256, .i32⟩ : BufTy).Contents (Elt F)) (a3 : (⟨S256x256, .f32⟩ : BufTy).Contents (Elt F)) (a4 : (⟨S256x128, .f32⟩ : BufTy).Contents (Elt F)) : Prop where
  h_main_arg0 : W (main_arg0 : DevRef τ sig) = a0
  h_main_arg1 : W (main_arg1 : DevRef τ sig) = a1
  h_main_arg2 : W (main_arg2 : DevRef τ sig) = a2
  h_main_arg3 : W (main_arg3 : DevRef τ sig) = a3
  h_main_arg4 : W (main_arg4 : DevRef τ sig) = a4
  h_main_v94 : W (main_v94 : DevRef τ sig) = r_main_v94 a0 a1 a2 a3 a4

end Cert.ReferenceIdeal.Hand

end
-- ==== Proof.RefValue.lean ====
/-
  The reference's two claims' halves in the words of the certificate's statement: its frame — every weakly fair
  execution of `main` terminates and the eleven argument arrays end as they were — and its value run: at the exact
  values the result `main_v113` ends at the gated projection `refTail` of the prediction input `stepFn` of the
  first five arguments' launch contents and of the six weight and bias arguments' launch contents, given that the
  prefix's fold leaves `stepFn` of the arguments in `main_v94`.
-/
import proofs.«103122_j77446850281992_2_alg».proof.Defs
import proofs.«103122_j77446850281992_2_alg».proof.Proof.Gen.Pre_finite_inputs
import proofs.«103122_j77446850281992_2_alg».proof.Proof.RefTail
import proofs.«103122_j77446850281992_2_alg».proof.Proof.StepTermsR

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's frame: from any memory with zero counters every weakly fair execution of `main` terminates,
    and each of the eleven argument arrays ends as the launch dealt it (the run's fold leaves them: no operation
    writes an argument). -/
theorem frame : Cert.frame_ReferenceIdeal (hReferenceIdeal := Cert.ReferenceIdeal.Gen.facts)
    (hPre_finite_inputs := Cert.Pre_finite_inputs.Gen.facts) :=
  fun m ρ _ => (θ_run defs _ _).mono (fun _ h c =>
    ⟨(h c main_arg0).trans (arg_keep_0 _),
     (h c main_arg1).trans (arg_keep_1 _),
     (h c main_arg2).trans (arg_keep_2 _),
     (h c main_arg3).trans (arg_keep_3 _),
     (h c main_arg4).trans (arg_keep_4 _),
     (h c main_arg5).trans (arg_keep_5 _),
     (h c main_arg6).trans (arg_keep_6 _),
     (h c main_arg7).trans (arg_keep_7 _),
     (h c main_arg8).trans (arg_keep_8 _),
     (h c main_arg9).trans (arg_keep_9 _),
     (h c main_arg10).trans (arg_keep_10 _)⟩)
    (run_main (F := Ideal) m ρ)

/-- The reference's value run. Given that the prefix's fold leaves `stepFn` of the first five arguments in the
    prediction input `main_v94`: every weakly fair execution of `main` terminates with the result `main_v113` at
    `refTail` of `stepFn` of the first five arguments' launch contents and of the other six arguments' launch
    contents, and the eleven argument arrays as the launch dealt them. -/
theorem value_run
    (href : ∀ V : Valuation τ sig (Elt Ideal),
      after (stepOps (F := Ideal)) V (main_v94 : DevRef τ sig)
        = stepFn (V (main_arg0 : DevRef τ sig)) (V (main_arg1 : DevRef τ sig)) (V (main_arg2 : DevRef τ sig))
            (V (main_arg3 : DevRef τ sig)) (V (main_arg4 : DevRef τ sig)))
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v113)
          = Cert.Hand.refTail
              (stepFn (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_v113).trans ((out_eq _).trans
        (congrArg (fun P => Cert.Hand.refTail P _ _ _ _ _ _) ((v94_eq _).trans (href _)))),
     (h c main_arg0).trans (arg_keep_0 _),
     (h c main_arg1).trans (arg_keep_1 _),
     (h c main_arg2).trans (arg_keep_2 _),
     (h c main_arg3).trans (arg_keep_3 _),
     (h c main_arg4).trans (arg_keep_4 _),
     (h c main_arg5).trans (arg_keep_5 _),
     (h c main_arg6).trans (arg_keep_6 _),
     (h c main_arg7).trans (arg_keep_7 _),
     (h c main_arg8).trans (arg_keep_8 _),
     (h c main_arg9).trans (arg_keep_9 _),
     (h c main_arg10).trans (arg_keep_10 _)⟩)
    (run_main (F := Ideal) m ρ)

end Cert.ReferenceIdeal.Hand

end
-- ==== Proof.StepTacK.lean ====
import Idealize.ShloMosaic.Lib.StableHlo.Run

/-! Two tactics for reading a line of host operations at one buffer. -/

namespace Cert.KernelIdeal.Hand

open Idealize.ShloMosaic Idealize.ShloMosaic.StableHlo

/-- The operations' results read off by rewriting, one operation and one buffer at a time: for the stretches that end
    in a concatenation, whose list of pieces the one-pass form does not enter. -/
macro "results_rw" : tactic =>
  `(tactic| repeat (first
      | rw [nullary_result] | rw [unary_result] | rw [binary_result] | rw [ternary_result] | rw [quaternary_result]
      | rw [reshape_result] | rw [nary4_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))

/-- One stretch: every field of the next invariant is the fold of the stretch's operations read at that buffer,
    the operands' contents rewritten by the invariant held before the stretch; what is left says that the buffer's
    term is, by definition, the operation's function of its operands' terms. -/
macro "stretch" : tactic =>
  `(tactic| (constructor <;> (after_results_simp; (try simp only [*]); (try rfl))))

end Cert.KernelIdeal.Hand
-- ==== Proof.StepRunKA.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_0 (h : Inv_start W a0 a1 a2 a3 a4) : Inv_0 (after hostOps0 W) a0 a1 a2 a3 a4 := by
  cases h; stretch
theorem step_1 (h : Inv_0 W a0 a1 a2 a3 a4) : Inv_1 (after hostOps0_1 W) a0 a1 a2 a3 a4 := by
  obtain ⟨h0, h1, h2, h3, h4, h5, h7, h9⟩ := h
  constructor <;> (simp only [after_cons, after_nil]; results_rw; (try rw [h1]); (try simp only [*]); (try rfl))
theorem step_2 (h : Inv_1 W a0 a1 a2 a3 a4) : Inv_2 (after hostOps0_2 W) a0 a1 a2 a3 a4 := by
  cases h; stretch
theorem step_3 (h : Inv_2 W a0 a1 a2 a3 a4) : Inv_3 (after hostOps0_3 W) a0 a1 a2 a3 a4 := by
  obtain ⟨h0, h1, h2, h3, h4, h5, h7, h9, h12⟩ := h
  constructor <;> (simp only [after_cons, after_nil]; results_rw; (try rw [h7]); (try simp only [*]); (try rfl))
theorem step_4 (h : Inv_3 W a0 a1 a2 a3 a4) : Inv_4 (after hostOps0_4 W) a0 a1 a2 a3 a4 := by
  cases h; stretch
theorem step_5 (h : Inv_4 W a0 a1 a2 a3 a4) : Inv_5 (after hostOps0_5 W) a0 a1 a2 a3 a4 := by
  obtain ⟨h0, h1, h2, h3, h4, h5, h9, h12, h16⟩ := h
  constructor <;> (simp only [after_cons, after_nil]; results_rw; (try rw [h9]); (try simp only [*]); (try rfl))
theorem step_6 (h : Inv_5 W a0 a1 a2 a3 a4) : Inv_6 (after hostOps0_6 W) a0 a1 a2 a3 a4 := by
  cases h; stretch
theorem step_7 (h : Inv_6 W a0 a1 a2 a3 a4) : Inv_7 (after hostOps0_7 W) a0 a1 a2 a3 a4 := by
  cases h; stretch

end Cert.KernelIdeal.Hand

end
-- ==== Proof.StepRunKB.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_8 (h : Inv_7 W a0 a1 a2 a3 a4) : Inv_8 (after hostOps0_8 W) a0 a1 a2 a3 a4 := by
  cases h; stretch

end Cert.KernelIdeal.Hand

end
-- ==== Proof.StepRunKC.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_9 (h : Inv_8 W a0 a1 a2 a3 a4) : Inv_9 (after hostOps0_9 W) a0 a1 a2 a3 a4 := by
  cases h; stretch
theorem step_10 (h : Inv_9 W a0 a1 a2 a3 a4) : Inv_10 (after hostOps0_10 W) a0 a1 a2 a3 a4 := by
  cases h; stretch

end Cert.KernelIdeal.Hand

end
-- ==== Proof.StepRunKD.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_11 (h : Inv_10 W a0 a1 a2 a3 a4) : Inv_11 (after hostOps0_11 W) a0 a1 a2 a3 a4 := by
  cases h; stretch

end Cert.KernelIdeal.Hand

end
-- ==== Proof.StepRunKE.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_12 (h : Inv_11 W a0 a1 a2 a3 a4) : Inv_12 (after hostOps0_12 W) a0 a1 a2 a3 a4 := by
  cases h; stretch
theorem step_13 (h : Inv_12 W a0 a1 a2 a3 a4) : Inv_13 (after hostOps0_13 W) a0 a1 a2 a3 a4 := by
  cases h; stretch
theorem step_14 (h : Inv_13 W a0 a1 a2 a3 a4) : Inv_14 (after hostOps0_14 W) a0 a1 a2 a3 a4 := by
  cases h; stretch
theorem step_15 (h : Inv_14 W a0 a1 a2 a3 a4) : Inv_15 (after hostOps0_15 W) a0 a1 a2 a3 a4 := by
  cases h; stretch
theorem step_16 (h : Inv_15 W a0 a1 a2 a3 a4) : Inv_16 (after hostOps0_16 W) a0 a1 a2 a3 a4 := by
  cases h; stretch
theorem step_17 (h : Inv_16 W a0 a1 a2 a3 a4) : Inv_17 (after hostOps0_17 W) a0 a1 a2 a3 a4 := by
  cases h; stretch
theorem step_18 (h : Inv_17 W a0 a1 a2 a3 a4) : Inv_18 (after hostOps0_18 W) a0 a1 a2 a3 a4 := by
  cases h; stretch
theorem step_19 (h : Inv_18 W a0 a1 a2 a3 a4) : Inv_19 (after hostOps0_19 W) a0 a1 a2 a3 a4 := by
  cases h; stretch
theorem step_20 (h : Inv_19 W a0 a1 a2 a3 a4) : Inv_20 (after hostOps0_20 W) a0 a1 a2 a3 a4 := by
  cases h; stretch
theorem step_21 (h : Inv_20 W a0 a1 a2 a3 a4) : Inv_21 (after hostOps0_21 W) a0 a1 a2 a3 a4 := by
  cases h; stretch
theorem step_22 (h : Inv_21 W a0 a1 a2 a3 a4) : Inv_22 (after hostOps0_22 W) a0 a1 a2 a3 a4 := by
  cases h; stretch
theorem step_23 (h : Inv_22 W a0 a1 a2 a3 a4) : Inv_23 (after hostOps0_23 W) a0 a1 a2 a3 a4 := by
  cases h; stretch
theorem step_24 (h : Inv_23 W a0 a1 a2 a3 a4) : Inv_24 (after hostOps0_24 W) a0 a1 a2 a3 a4 := by
  cases h; stretch
theorem step_25 (h : Inv_24 W a0 a1 a2 a3 a4) : Inv_25 (after hostOps0_25 W) a0 a1 a2 a3 a4 := by
  cases h; stretch
theorem step_26 (h : Inv_25 W a0 a1 a2 a3 a4) : Inv_26 (after hostOps0_26 W) a0 a1 a2 a3 a4 := by
  cases h; stretch

end Cert.KernelIdeal.Hand

end
-- ==== Proof.StepRunKG.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_27 (h : Inv_26 W a0 a1 a2 a3 a4) : Inv_27 (after hostOps0_27 W) a0 a1 a2 a3 a4 := by
  cases h; stretch
theorem step_28 (h : Inv_27 W a0 a1 a2 a3 a4) : Inv_28 (after hostOps0_28 W) a0 a1 a2 a3 a4 := by
  cases h; stretch

end Cert.KernelIdeal.Hand

end
-- ==== Proof.StepRunKH.lean ====
import proofs.«103122_j77446850281992_2_alg».proof.Proof.StepTermsK
import proofs.«103122_j77446850281992_2_alg».proof.Proof.StepTacK
import proofs.«103122_j77446850281992_2_alg».proof.Proof.Gen.KernelIdeal.Launch

/-! The stretch theorems: from the invariant before a stretch of host operations to the invariant after it (see StepRunK). -/

set_option maxHeartbeats 1000000

noncomputable section

namespace Cert.KernelIdeal.Hand

open Idealize.ShloMosaic Idealize.ShloMosaic.TcCoe Idealize.ShloMosaic.StableHlo Cert.KernelIdeal Cert.KernelIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_29 (h : Inv_28 W a0 a1 a2 a3 a4) : Inv_29 (after hostOps0_29 W) a0 a1 a2 a3 a4 := by
  cases h; stretch
theorem step_30 (h : Inv_29 W a0 a1 a2 a3 a4) : Inv_30 (after hostOps0_30 W) a0 a1 a2 a3 a4 := by
  obtain ⟨h0, h1, h2, h3, h4, h21, h23, h24, h82⟩ := h
  constructor <;> (simp only [after_cons, after_nil]; results_rw; (try rw [h21]); (try rw [h23]); (try rw [h24]); (try rw [h82]); (try simp only [*]); (try rfl))

end Cert.KernelIdeal.Hand

end
-- ==== Proof.StepRunK.lean ====
import proofs.«103122_j77446850281992_2_alg».proof.Proof.StepRunKA
import proofs.«103122_j77446850281992_2_alg».proof.Proof.StepRunKB
import proofs.«103122_j77446850281992_2_alg».proof.Proof.StepRunKC
import proofs.«103122_j77446850281992_2_alg».proof.Proof.StepRunKD
import proofs.«103122_j77446850281992_2_alg».proof.Proof.StepRunKE
import proofs.«103122_j77446850281992_2_alg».proof.Proof.StepRunKG
import proofs.«103122_j77446850281992_2_alg».proof.Proof.StepRunKH
import proofs.«103122_j77446850281992_2_alg».proof.Proof.GlueKeepI

/-! The host operations before the region leave in `main_v94` the value `stepFn` of the five arguments they read.
    The operations are run stretch by stretch. Before each stretch the valuation holds, at every buffer written so far
    that a later operation reads, that buffer's term (`Inv_J`); the stretch's own operations are read off one
    by one, each result at its own buffer being its function of its operands' contents, every other buffer kept; the
    operands' contents are the terms the invariant names, and the result's term is by definition that function of
    them. The contents of a sort, a gather, a scatter or a reduction are never opened: both sides name the same
    operation applied to the same operands. -/

noncomputable section

namespace Cert.KernelIdeal.Hand

open Idealize.ShloMosaic Idealize.ShloMosaic.TcCoe Idealize.ShloMosaic.StableHlo Cert.KernelIdeal Cert.KernelIdeal.Gen

variable {F : FTy → Type} [FloatOps F]

/-- From any valuation, after the stretches before the last one, the invariant holds at the arguments' contents. -/
theorem glueInit_inv (V : Valuation τ sig (Elt F)) :
    Inv_30 (after glueInit V) (V (main_arg0 : DevRef τ sig)) (V (main_arg1 : DevRef τ sig)) (V (main_arg2 : DevRef τ sig))
      (V (main_arg3 : DevRef τ sig)) (V (main_arg4 : DevRef τ sig)) := by
  have h := step_30 (step_29 (step_28 (step_27 (step_26 (step_25 (step_24 (step_23 (step_22 (step_21 (step_20 (step_19 (step_18 (step_17 (step_16 (step_15 (step_14 (step_13 (step_12 (step_11 (step_10 (step_9 (step_8 (step_7 (step_6 (step_5 (step_4 (step_3 (step_2 (step_1 (step_0 (Inv_start.mk rfl rfl rfl rfl rfl : Inv_start V (V (main_arg0 : DevRef τ sig)) (V (main_arg1 : DevRef τ sig))
      (V (main_arg2 : DevRef τ sig)) (V (main_arg3 : DevRef τ sig)) (V (main_arg4 : DevRef τ sig)))))))))))))))))))))))))))))))))
  simpa only [glueInit, List.flatten_cons, List.flatten_nil, List.append_nil, after_append'] using h

/-- The operations before the region leave in `main_v94` the value `stepFn` of the five arguments' contents: the last
    stretch writes two buffers of its own and keeps `main_v94`. -/
theorem glue_v94 (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31] : List (HloOp τ sig (Elt F))) V (Proc.devRef .tc main_v94)
      = stepFn (V (Proc.devRef .tc main_arg0)) (V (Proc.devRef .tc main_arg1)) (V (Proc.devRef .tc main_arg2))
          (V (Proc.devRef .tc main_arg3)) (V (Proc.devRef .tc main_arg4)) := by
  rw [glue_split, after_append']
  have h := (glueInit_inv V).h_main_v94
  generalize after glueInit V = W' at h
  refine Eq.trans ?_ h
  after_results_simp

end Cert.KernelIdeal.Hand

end
-- ==== Proof.StepRunRTac.lean ====
import Idealize.ShloMosaic.Lib.StableHlo.Run

/-! The two ways a line's fold is read at a buffer: one pass over the whole fold, or one operation and one buffer at
    a time. -/

namespace Cert.ReferenceIdeal.Hand

open Idealize.ShloMosaic Idealize.ShloMosaic.StableHlo

/-- The operations' results read off by rewriting, one operation and one buffer at a time: for the stretches that end
    in a concatenation, whose list of pieces the one-pass form does not enter. -/
macro "results_rw" : tactic =>
  `(tactic| repeat (first
      | rw [nullary_result] | rw [unary_result] | rw [binary_result] | rw [ternary_result] | rw [quaternary_result]
      | rw [reshape_result] | rw [nary4_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))

/-- One stretch: every field of the next invariant is the fold of the stretch's operations read at that buffer,
    the operands' contents rewritten by the invariant held before the stretch; what is left says that the buffer's
    term is, by definition, the operation's function of its operands' terms. -/
macro "stretch" : tactic =>
  `(tactic| (constructor <;> (after_results_simp; (try simp only [*]); (try rfl))))

end Cert.ReferenceIdeal.Hand
-- ==== Proof.StepRunR0.lean ====
import proofs.«103122_j77446850281992_2_alg».proof.Proof.StepTermsR
import proofs.«103122_j77446850281992_2_alg».proof.Proof.RefOps
import proofs.«103122_j77446850281992_2_alg».proof.Proof.StepRunRTac

/-! The reference's operations up to the prediction input leave in `main_v94` the value `stepFn` of the five
    arguments they read. The operations are run line by line. Before each line the valuation holds, at every buffer
    written so far that a later operation reads, that buffer's term (`Inv_J`); the line's own operations are read off
    one by one, each result at its own buffer being its function of its operands' contents, every other buffer kept;
    the operands' contents are the terms the invariant names, and the result's term is by definition that function of
    them. The contents of a sort, a gather, a scatter or a reduction are never opened: both sides name the same
    operation applied to the same operands. -/

set_option maxHeartbeats 1000000
set_option Elab.async false

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_0 (h : Inv_start W a0 a1 a2 a3 a4) : Inv_0 (after surpriseOps W) a0 a1 a2 a3 a4 := by
  cases h; stretch
theorem step_1 (h : Inv_0 W a0 a1 a2 a3 a4) : Inv_1 (after rollMemOps W) a0 a1 a2 a3 a4 := by
  obtain ⟨h0, h1, h2, h3, h4, h5, h7, h9⟩ := h
  constructor <;> (simp only [after_cons, after_nil]; results_rw; (try rw [h1]); (try simp only [*]); (try rfl))
theorem step_2 (h : Inv_1 W a0 a1 a2 a3 a4) : Inv_2 (after writeMemOps W) a0 a1 a2 a3 a4 := by
  cases h; stretch
theorem step_3 (h : Inv_2 W a0 a1 a2 a3 a4) : Inv_3 (after rollTimOps W) a0 a1 a2 a3 a4 := by
  obtain ⟨h0, h1, h2, h3, h4, h5, h7, h9, h12⟩ := h
  constructor <;> (simp only [after_cons, after_nil]; results_rw; (try rw [h7]); (try simp only [*]); (try rfl))
theorem step_4 (h : Inv_3 W a0 a1 a2 a3 a4) : Inv_4 (after writeTimOps W) a0 a1 a2 a3 a4 := by
  cases h; stretch
theorem step_5 (h : Inv_4 W a0 a1 a2 a3 a4) : Inv_5 (after rollSurpOps W) a0 a1 a2 a3 a4 := by
  obtain ⟨h0, h1, h2, h3, h4, h5, h9, h12, h16⟩ := h
  constructor <;> (simp only [after_cons, after_nil]; results_rw; (try rw [h9]); (try simp only [*]); (try rfl))
theorem step_6 (h : Inv_5 W a0 a1 a2 a3 a4) : Inv_6 (after writeSurpOps W) a0 a1 a2 a3 a4 := by
  cases h; stretch
theorem step_7 (h : Inv_6 W a0 a1 a2 a3 a4) : Inv_7 (after argsortOps W) a0 a1 a2 a3 a4 := by
  cases h; stretch
theorem step_8 (h : Inv_7 W a0 a1 a2 a3 a4) : Inv_8 (after takeTimOps W) a0 a1 a2 a3 a4 := by
  cases h; stretch
theorem step_9 (h : Inv_8 W a0 a1 a2 a3 a4) : Inv_9 (after idxColOps W) a0 a1 a2 a3 a4 := by
  cases h; stretch
theorem step_12 (h : Inv_11 W a0 a1 a2 a3 a4) : Inv_12 (after pow0Ops W) a0 a1 a2 a3 a4 := by
  cases h; stretch
theorem step_13 (h : Inv_12 W a0 a1 a2 a3 a4) : Inv_13 (after pow0WhereOps W) a0 a1 a2 a3 a4 := by
  cases h; stretch
theorem step_14 (h : Inv_13 W a0 a1 a2 a3 a4) : Inv_14 (after pow1Ops W) a0 a1 a2 a3 a4 := by
  cases h; stretch
theorem step_15 (h : Inv_14 W a0 a1 a2 a3 a4) : Inv_15 (after pow1WhereOps W) a0 a1 a2 a3 a4 := by
  cases h; stretch
theorem step_16 (h : Inv_15 W a0 a1 a2 a3 a4) : Inv_16 (after pow2OpsA W) a0 a1 a2 a3 a4 := by
  cases h; stretch

end Cert.ReferenceIdeal.Hand

end
-- ==== Proof.StepRunR0g.lean ====
import proofs.«103122_j77446850281992_2_alg».proof.Proof.StepTermsR
import proofs.«103122_j77446850281992_2_alg».proof.Proof.RefOps
import proofs.«103122_j77446850281992_2_alg».proof.Proof.StepRunRTac

/-! The reference's operations up to the prediction input leave in `main_v94` the value `stepFn` of the five
    arguments they read. The operations are run line by line. Before each line the valuation holds, at every buffer
    written so far that a later operation reads, that buffer's term (`Inv_J`); the line's own operations are read off
    one by one, each result at its own buffer being its function of its operands' contents, every other buffer kept;
    the operands' contents are the terms the invariant names, and the result's term is by definition that function of
    them. The contents of a sort, a gather, a scatter or a reduction are never opened: both sides name the same
    operation applied to the same operands. -/

set_option maxHeartbeats 1000000
set_option Elab.async false

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_10 (h : Inv_9 W a0 a1 a2 a3 a4) : Inv_10 (after takeMemOps W) a0 a1 a2 a3 a4 := by
  cases h; stretch
theorem step_11 (h : Inv_10 W a0 a1 a2 a3 a4) : Inv_11 (after takeSurpOps W) a0 a1 a2 a3 a4 := by
  cases h; stretch

end Cert.ReferenceIdeal.Hand

end
-- ==== Proof.StepRunR1.lean ====
import proofs.«103122_j77446850281992_2_alg».proof.Proof.StepTermsR
import proofs.«103122_j77446850281992_2_alg».proof.Proof.RefOps1
import proofs.«103122_j77446850281992_2_alg».proof.Proof.StepRunRTac

/-! The reference's operations up to the prediction input leave in `main_v94` the value `stepFn` of the five
    arguments they read. The operations are run line by line. Before each line the valuation holds, at every buffer
    written so far that a later operation reads, that buffer's term (`Inv_J`); the line's own operations are read off
    one by one, each result at its own buffer being its function of its operands' contents, every other buffer kept;
    the operands' contents are the terms the invariant names, and the result's term is by definition that function of
    them. The contents of a sort, a gather, a scatter or a reduction are never opened: both sides name the same
    operation applied to the same operands. -/

set_option maxHeartbeats 1000000
set_option Elab.async false

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_17 (h : Inv_16 W a0 a1 a2 a3 a4) : Inv_17 (after pow2OpsB W) a0 a1 a2 a3 a4 := by
  cases h; stretch
theorem step_18 (h : Inv_17 W a0 a1 a2 a3 a4) : Inv_18 (after pow2WhereOps W) a0 a1 a2 a3 a4 := by
  cases h; stretch
theorem step_19 (h : Inv_18 W a0 a1 a2 a3 a4) : Inv_19 (after pow3Ops W) a0 a1 a2 a3 a4 := by
  cases h; stretch
theorem step_20 (h : Inv_19 W a0 a1 a2 a3 a4) : Inv_20 (after pow3WhereOps W) a0 a1 a2 a3 a4 := by
  cases h; stretch
theorem step_21 (h : Inv_20 W a0 a1 a2 a3 a4) : Inv_21 (after pow4Ops W) a0 a1 a2 a3 a4 := by
  cases h; stretch
theorem step_22 (h : Inv_21 W a0 a1 a2 a3 a4) : Inv_22 (after pow4WhereOps W) a0 a1 a2 a3 a4 := by
  cases h; stretch
theorem step_23 (h : Inv_22 W a0 a1 a2 a3 a4) : Inv_23 (after pow5Ops W) a0 a1 a2 a3 a4 := by
  cases h; stretch
theorem step_24 (h : Inv_23 W a0 a1 a2 a3 a4) : Inv_24 (after pow5WhereOps W) a0 a1 a2 a3 a4 := by
  cases h; stretch
theorem step_25 (h : Inv_24 W a0 a1 a2 a3 a4) : Inv_25 (after pow6Ops W) a0 a1 a2 a3 a4 := by
  cases h; stretch
theorem step_26 (h : Inv_25 W a0 a1 a2 a3 a4) : Inv_26 (after pow6WhereOps W) a0 a1 a2 a3 a4 := by
  cases h; stretch
theorem step_27 (h : Inv_26 W a0 a1 a2 a3 a4) : Inv_27 (after timColOps W) a0 a1 a2 a3 a4 := by
  cases h; stretch
theorem step_28 (h : Inv_27 W a0 a1 a2 a3 a4) : Inv_28 (after floorDivOps W) a0 a1 a2 a3 a4 := by
  cases h; stretch
theorem step_29 (h : Inv_28 W a0 a1 a2 a3 a4) : Inv_29 (after twoOps W) a0 a1 a2 a3 a4 := by
  cases h; stretch
theorem step_30 (h : Inv_29 W a0 a1 a2 a3 a4) : Inv_30 (after remTwoOps W) a0 a1 a2 a3 a4 := by
  cases h; stretch
theorem step_31 (h : Inv_30 W a0 a1 a2 a3 a4) : Inv_31 (after normOps W) a0 a1 a2 a3 a4 := by
  cases h; stretch

end Cert.ReferenceIdeal.Hand

end
-- ==== Proof.StepRunR2.lean ====
import proofs.«103122_j77446850281992_2_alg».proof.Proof.StepTermsR
import proofs.«103122_j77446850281992_2_alg».proof.Proof.RefOps2
import proofs.«103122_j77446850281992_2_alg».proof.Proof.StepRunRTac

/-! The reference's operations up to the prediction input leave in `main_v94` the value `stepFn` of the five
    arguments they read. The operations are run line by line. Before each line the valuation holds, at every buffer
    written so far that a later operation reads, that buffer's term (`Inv_J`); the line's own operations are read off
    one by one, each result at its own buffer being its function of its operands' contents, every other buffer kept;
    the operands' contents are the terms the invariant names, and the result's term is by definition that function of
    them. The contents of a sort, a gather, a scatter or a reduction are never opened: both sides name the same
    operation applied to the same operands. -/

set_option maxHeartbeats 1000000
set_option Elab.async false

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

attribute [local irreducible] Host.reduce Host.reduceAdd Host.gather Host.scatter Host.sort2 concatenate

variable {W : Valuation τ sig (Elt F)}
variable {a0 : (⟨S256x128, .f32⟩ : BufTy).Contents (Elt F)} {a1 : (⟨S256x256x128, .f32⟩ : BufTy).Contents (Elt F)}
  {a2 : (⟨S256x256, .i32⟩ : BufTy).Contents (Elt F)} {a3 : (⟨S256x256, .f32⟩ : BufTy).Contents (Elt F)}
  {a4 : (⟨S256x128, .f32⟩ : BufTy).Contents (Elt F)}

theorem step_32 (h : Inv_31 W a0 a1 a2 a3 a4) : Inv_32 (after concatOps W) a0 a1 a2 a3 a4 := by
  obtain ⟨h0, h1, h2, h3, h4, h23, h24, h83, h84, h87, h88⟩ := h
  constructor <;> (simp only [after_cons, after_nil]; results_rw; (try rw [h23]); (try rw [h24]); (try rw [h83]); (try rw [h84]); (try rw [h87]); (try rw [h88]); (try simp only [*]); (try rfl))

end Cert.ReferenceIdeal.Hand

end
-- ==== Proof.StepRunR.lean ====
import proofs.«103122_j77446850281992_2_alg».proof.Proof.StepRunR0
import proofs.«103122_j77446850281992_2_alg».proof.Proof.StepRunR0g
import proofs.«103122_j77446850281992_2_alg».proof.Proof.StepRunR1
import proofs.«103122_j77446850281992_2_alg».proof.Proof.StepRunR2
import proofs.«103122_j77446850281992_2_alg».proof.Proof.RefRun

/-! The reference's operations up to the prediction input leave in `main_v94` the value `stepFn` of the five
    arguments they read: the thirty-three lines' steps (`step_0 … step_32`, each carrying the invariant across one
    line) composed in order over the concatenation of the lines. -/

noncomputable section

namespace Cert.ReferenceIdeal.Hand

open Idealize.ShloMosaic Idealize.ShloMosaic.TcCoe Idealize.ShloMosaic.StableHlo Cert.ReferenceIdeal Cert.ReferenceIdeal.Gen

variable {F : FTy → Type} [FloatOps F]

/-- From any valuation, after the thirty-three lines, the invariant holds at the arguments' contents. -/
theorem stepOps_inv (V : Valuation τ sig (Elt F)) :
    Inv_32 (after stepOps V) (V (main_arg0 : DevRef τ sig)) (V (main_arg1 : DevRef τ sig)) (V (main_arg2 : DevRef τ sig))
      (V (main_arg3 : DevRef τ sig)) (V (main_arg4 : DevRef τ sig)) := by
  have h := step_32 (step_31 (step_30 (step_29 (step_28 (step_27 (step_26 (step_25 (step_24 (step_23 (step_22 (step_21 (step_20 (step_19 (step_18 (step_17 (step_16 (step_15 (step_14 (step_13 (step_12 (step_11 (step_10 (step_9 (step_8 (step_7 (step_6 (step_5 (step_4 (step_3 (step_2 (step_1 (step_0 (Inv_start.mk rfl rfl rfl rfl rfl : Inv_start V (V (main_arg0 : DevRef τ sig)) (V (main_arg1 : DevRef τ sig)) (V (main_arg2 : DevRef τ sig)) (V (main_arg3 : DevRef τ sig)) (V (main_arg4 : DevRef τ sig)))))))))))))))))))))))))))))))))))
  simpa only [stepOps, stepSegs, List.flatten_cons, List.flatten_nil, List.append_nil, after_concat] using h

/-- The operations up to the prediction input leave in `main_v94` the value `stepFn` of the five arguments' contents. -/
theorem ref_v94 (V : Valuation τ sig (Elt F)) :
    after stepOps V (main_v94 : DevRef τ sig)
      = stepFn (V (main_arg0 : DevRef τ sig)) (V (main_arg1 : DevRef τ sig)) (V (main_arg2 : DevRef τ sig))
          (V (main_arg3 : DevRef τ sig)) (V (main_arg4 : DevRef τ sig)) :=
  (stepOps_inv V).h_main_v94

end Cert.ReferenceIdeal.Hand

end
-- ==== Proof.StepEq.lean ====
import proofs.«103122_j77446850281992_2_alg».proof.Proof.StepTermsK
import proofs.«103122_j77446850281992_2_alg».proof.Proof.StepTermsR
import Idealize.ShloMosaic.PureOps.Ideal

/-!
# The lines before the region are the same lines in the two programs

Both programs build the network's input from the same five arguments by the same host lines.  Read as pure terms, one
per buffer, the two readings differ only in where the shapes, the dimension records and the shape facts are declared;
those unfold to the same literals, and a fact is a proof.  So buffer by buffer, in the order the lines are written,
the two terms are equal: rewrite the operands by the equalities already shown, and what is left is one operation
applied to the same operands on both sides.  No operation is opened: what a sort, a gather or a reduction computes
plays no part.  Where a line sits inside a called function, its value is carried to and from the buffer's own type
along an equation that holds by computation; on both sides that transport is the identity.
-/

set_option maxHeartbeats 400000

namespace Cert.Hand

open Idealize.ShloMosaic

attribute [local irreducible] Host.reduce Host.reduceAdd Host.gather Host.scatter Host.sort2 concatenate

theorem eq_main_v0 : Cert.KernelIdeal.Hand.r_main_v0 (F := Ideal) = Cert.ReferenceIdeal.Hand.r_main_v0 (F := Ideal) := by
  funext a0 a1 a2 a3 a4
  unfold Cert.KernelIdeal.Hand.r_main_v0 Cert.ReferenceIdeal.Hand.r_main_v0
  rfl
theorem eq_main_cst : Cert.KernelIdeal.Hand.r_main_cst (F := Ideal) = Cert.ReferenceIdeal.Hand.r_main_cst (F := Ideal) := by
  funext a0 a1 a2 a3 a4
  unfold Cert.KernelIdeal.Hand.r_main_cst Cert.ReferenceIdeal.Hand.r_main_cst
  rfl
theorem eq_main_v1 : Cert.KernelIdeal.Hand.r_main_v1 (F := Ideal) = Cert.ReferenceIdeal.Hand.r_main_v1 (F := Ideal) := by
  funext a0 a1 a2 a3 a4
  unfold Cert.KernelIdeal.Hand.r_main_v1 Cert.ReferenceIdeal.Hand.r_main_v1
  rw [eq_main_v0, eq_main_cst] <;> rfl
theorem eq_main_cst_0 : Cert.KernelIdeal.Hand.r_main_cst_0 (F := Ideal) = Cert.ReferenceIdeal.Hand.r_main_cst_0 (F := Ideal) := by
  funext a0 a1 a2 a3 a4
  unfold Cert.KernelIdeal.Hand.r_main_cst_0 Cert.ReferenceIdeal.Hand.r_main_cst_0
  rfl
theorem eq_main_v2 : Cert.KernelIdeal.Hand.r_main_v2 (F := Ideal) = Cert.ReferenceIdeal.Hand.r_main_v2 (F := Ideal) := by
  funext a0 a1 a2 a3 a4
  unfold Cert.KernelIdeal.Hand.r_main_v2 Cert.ReferenceIdeal.Hand.r_main_v2
  rw [eq_main_cst_0] <;> rfl
theorem eq_main_v3 : Cert.KernelIdeal.Hand.r_main_v3 (F := Ideal) = Cert.ReferenceIdeal.Hand.r_main_v3 (F := Ideal) := by
  funext a0 a1 a2 a3 a4
  unfold Cert.KernelIdeal.Hand.r_main_v3 Cert.ReferenceIdeal.Hand.r_main_v3
  rw [eq_main_v1, eq_main_v2] <;> rfl
theorem eq_main_v4 : Cert.KernelIdeal.Hand.r_main_v4 (F := Ideal) = Cert.ReferenceIdeal.Hand.r_main_v4 (F := Ideal) := by
  funext a0 a1 a2 a3 a4
  unfold Cert.KernelIdeal.Hand.r_main_v4 Cert.ReferenceIdeal.Hand.r_main_v4
  rw [eq_main_v3] <;> rfl
theorem eq_main_v5 : Cert.KernelIdeal.Hand.r_main_v5 (F := Ideal) = Cert.ReferenceIdeal.Hand.r_main_v5 (F := Ideal) := by
  funext a0 a1 a2 a3 a4
  unfold Cert.KernelIdeal.Hand.r_main_v5 Cert.ReferenceIdeal.Hand.r_main_v5
  rw [eq_main_v4] <;> rfl
theorem eq_main_c : Cert.KernelIdeal.Hand.r_main_c (F := Ideal) = Cert.ReferenceIdeal.Hand.r_main_c (F := Ideal) := by
  funext a0 a1 a2 a3 a4
  unfold Cert.KernelIdeal.Hand.r_main_c Cert.ReferenceIdeal.Hand.r_main_c
  rfl
theorem eq_main_v6 : Cert.KernelIdeal.Hand.r_main_v6 (F := Ideal) = Cert.ReferenceIdeal.Hand.r_main_v6 (F := Ideal) := by
  funext a0 a1 a2 a3 a4
  unfold Cert.KernelIdeal.Hand.r_main_v6 Cert.ReferenceIdeal.Hand.r_main_v6
  rw [eq_main_c] <;> rfl
theorem eq_main_v7 : Cert.KernelIdeal.Hand.r_main_v7 (F := Ideal) = Cert.ReferenceIdeal.Hand.r_main_v7 (F := Ideal) := by
  funext a0 a1 a2 a3 a4
  unfold Cert.KernelIdeal.Hand.r_main_v7 Cert.ReferenceIdeal.Hand.r_main_v7
  rw [eq_main_v6] <;> rfl
theorem eq_main_cst_1 : Cert.KernelIdeal.Hand.r_main_cst_1 (F := Ideal) = Cert.ReferenceIdeal.Hand.r_main_cst_1 (F := Ideal) := by
  funext a0 a1 a2 a3 a4
  unfold Cert.KernelIdeal.Hand.r_main_cst_1 Cert.ReferenceIdeal.Hand.r_main_cst_1
  rfl
theorem eq_main_v8 : Cert.KernelIdeal.Hand.r_main_v8 (F := Ideal) = Cert.ReferenceIdeal.Hand.r_main_v8 (F := Ideal) := by
  funext a0 a1 a2 a3 a4
  unfold Cert.KernelIdeal.Hand.r_main_v8 Cert.ReferenceIdeal.Hand.r_main_v8
  rw [eq_main_cst_1] <;> rfl
theorem eq_main_v9 : Cert.KernelIdeal.Hand.r_main_v9 (F := Ideal) = Cert.ReferenceIdeal.Hand.r_main_v9 (F := Ideal) := by
  funext a0 a1 a2 a3 a4
  unfold Cert.KernelIdeal.Hand.r_main_v9 Cert.ReferenceIdeal.Hand.r_main_v9
  rw [eq_main_v8] <;> rfl
theorem eq_main_call0_v0 : Cert.KernelIdeal.Hand.r_main_call0_v0 (F := Ideal) = Cert.ReferenceIdeal.Hand.r_main_call0_v0 (F := Ideal) := by
  funext a0 a1 a2 a3 a4
  unfold Cert.KernelIdeal.Hand.r_main_call0_v0 Cert.ReferenceIdeal.Hand.r_main_call0_v0
  rfl
theorem eq_main_call0_v1 : Cert.KernelIdeal.Hand.r_main_call0_v1 (F := Ideal) = Cert.ReferenceIdeal.Hand.r_main_call0_v1 (F := Ideal) := by
  funext a0 a1 a2 a3 a4
  unfold Cert.KernelIdeal.Hand.r_main_call0_v1 Cert.ReferenceIdeal.Hand.r_main_call0_v1
  rfl
theorem eq_main_v10 : Cert.KernelIdeal.Hand.r_main_v10 (F := Ideal) = Cert.ReferenceIdeal.Hand.r_main_v10 (F := Ideal) := by
  funext a0 a1 a2 a3 a4
  unfold Cert.KernelIdeal.Hand.r_main_v10 Cert.ReferenceIdeal.Hand.r_main_v10
  rw [eq_main_call0_v0, eq_main_call0_v1] <;> rfl
theorem eq_main_c_2 : Cert.KernelIdeal.Hand.r_main_c_2 (F := Ideal) = Cert.ReferenceIdeal.Hand.r_main_c_2 (F := Ideal) := by
  funext a0 a1 a2 a3 a4
  unfold Cert.KernelIdeal.Hand.r_main_c_2 Cert.ReferenceIdeal.Hand.r_main_c_2
  rfl
theorem eq_main_v11 : Cert.KernelIdeal.Hand.r_main_v11 (F := Ideal) = Cert.ReferenceIdeal.Hand.r_main_v11 (F := Ideal) := by
  funext a0 a1 a2 a3 a4
  unfold Cert.KernelIdeal.Hand.r_main_v11 Cert.ReferenceIdeal.Hand.r_main_v11
  rw [eq_main_c_2] <;> rfl
theorem eq_main_v12 : Cert.KernelIdeal.Hand.r_main_v12 (F := Ideal) = Cert.ReferenceIdeal.Hand.r_main_v12 (F := Ideal) := by
  funext a0 a1 a2 a3 a4
  unfold Cert.KernelIdeal.Hand.r_main_v12 Cert.ReferenceIdeal.Hand.r_main_v12
  rw [eq_main_v10, eq_main_v11] <;> rfl
theorem eq_main_call1_v0 : Cert.KernelIdeal.Hand.r_main_call1_v0 (F := Ideal) = Cert.ReferenceIdeal.Hand.r_main_call1_v0 (F := Ideal) := by
  funext a0 a1 a2 a3 a4
  unfold Cert.KernelIdeal.Hand.r_main_call1_v0 Cert.ReferenceIdeal.Hand.r_main_call1_v0
  rw [eq_main_v7] <;> rfl
theorem eq_main_call1_v1 : Cert.KernelIdeal.Hand.r_main_call1_v1 (F := Ideal) = Cert.ReferenceIdeal.Hand.r_main_call1_v1 (F := Ideal) := by
  funext a0 a1 a2 a3 a4
  unfold Cert.KernelIdeal.Hand.r_main_call1_v1 Cert.ReferenceIdeal.Hand.r_main_call1_v1
  rw [eq_main_v7] <;> rfl
theorem eq_main_v13 : Cert.KernelIdeal.Hand.r_main_v13 (F := Ideal) = Cert.ReferenceIdeal.Hand.r_main_v13 (F := Ideal) := by
  funext a0 a1 a2 a3 a4
  unfold Cert.KernelIdeal.Hand.r_main_v13 Cert.ReferenceIdeal.Hand.r_main_v13
  rw [eq_main_call1_v0, eq_main_call1_v1] <;> rfl
theorem eq_main_c_3 : Cert.KernelIdeal.Hand.r_main_c_3 (F := Ideal) = Cert.ReferenceIdeal.Hand.r_main_c_3 (F := Ideal) := by
  funext a0 a1 a2 a3 a4
  unfold Cert.KernelIdeal.Hand.r_main_c_3 Cert.ReferenceIdeal.Hand.r_main_c_3
  rfl
theorem eq_main_v14 : Cert.KernelIdeal.Hand.r_main_v14 (F := Ideal) = Cert.ReferenceIdeal.Hand.r_main_v14 (F := Ideal) := by
  funext a0 a1 a2 a3 a4
  unfold Cert.KernelIdeal.Hand.r_main_v14 Cert.ReferenceIdeal.Hand.r_main_v14
  rw [eq_main_c_3] <;> rfl
theorem eq_main_c_4 : Cert.KernelIdeal.Hand.r_main_c_4 (F := Ideal) = Cert.ReferenceIdeal.Hand.r_main_c_4 (F := Ideal) := by
  funext a0 a1 a2 a3 a4
  unfold Cert.KernelIdeal.Hand.r_main_c_4 Cert.ReferenceIdeal.Hand.r_main_c_4
  rfl
theorem eq_main_v15 : Cert.KernelIdeal.Hand.r_main_v15 (F := Ideal) = Cert.ReferenceIdeal.Hand.r_main_v15 (F := Ideal) := by
  funext a0 a1 a2 a3 a4
  unfold Cert.KernelIdeal.Hand.r_main_v15 Cert.ReferenceIdeal.Hand.r_main_v15
  rw [eq_main_c_4] <;> rfl
theorem eq_main_v16 : Cert.KernelIdeal.Hand.r_main_v16 (F := Ideal) = Cert.ReferenceIdeal.Hand.r_main_v16 (F := Ideal) := by
  funext a0 a1 a2 a3 a4
  unfold Cert.KernelIdeal.Hand.r_main_v16 Cert.ReferenceIdeal.Hand.r_main_v16
  rw [eq_main_v13, eq_main_v14, eq_main_v15] <;> rfl
theorem eq_main_call2_v0 : Cert.KernelIdeal.Hand.r_main_call2_v0 (F := Ideal) = Cert.ReferenceIdeal.Hand.r_main_call2_v0 (F := Ideal) := by
  funext a0 a1 a2 a3 a4
  unfold Cert.KernelIdeal.Hand.r_main_call2_v0 Cert.ReferenceIdeal.Hand.r_main_call2_v0
  rw [eq_main_v9] <;> rfl
theorem eq_main_call2_v1 : Cert.KernelIdeal.Hand.r_main_call2_v1 (F := Ideal) = Cert.ReferenceIdeal.Hand.r_main_call2_v1 (F := Ideal) := by
  funext a0 a1 a2 a3 a4
  unfold Cert.KernelIdeal.Hand.r_main_call2_v1 Cert.ReferenceIdeal.Hand.r_main_call2_v1
  rw [eq_main_v9] <;> rfl
theorem eq_main_v17 : Cert.KernelIdeal.Hand.r_main_v17 (F := Ideal) = Cert.ReferenceIdeal.Hand.r_main_v17 (F := Ideal) := by
  funext a0 a1 a2 a3 a4
  unfold Cert.KernelIdeal.Hand.r_main_v17 Cert.ReferenceIdeal.Hand.r_main_v17
  rw [eq_main_call2_v0, eq_main_call2_v1] <;> rfl
theorem eq_main_c_5 : Cert.KernelIdeal.Hand.r_main_c_5 (F := Ideal) = Cert.ReferenceIdeal.Hand.r_main_c_5 (F := Ideal) := by
  funext a0 a1 a2 a3 a4
  unfold Cert.KernelIdeal.Hand.r_main_c_5 Cert.ReferenceIdeal.Hand.r_main_c_5
  rfl
theorem eq_main_v18 : Cert.KernelIdeal.Hand.r_main_v18 (F := Ideal) = Cert.ReferenceIdeal.Hand.r_main_v18 (F := Ideal) := by
  funext a0 a1 a2 a3 a4
  unfold Cert.KernelIdeal.Hand.r_main_v18 Cert.ReferenceIdeal.Hand.r_main_v18
  rw [eq_main_c_5] <;> rfl
theorem eq_main_v19 : Cert.KernelIdeal.Hand.r_main_v19 (F := Ideal) = Cert.ReferenceIdeal.Hand.r_main_v19 (F := Ideal) := by
  funext a0 a1 a2 a3 a4
  unfold Cert.KernelIdeal.Hand.r_main_v19 Cert.ReferenceIdeal.Hand.r_main_v19
  rw [eq_main_v17, eq_main_v18, eq_main_v5] <;> rfl
theorem eq_main_call3_v0 : Cert.KernelIdeal.Hand.r_main_call3_v0 (F := Ideal) = Cert.ReferenceIdeal.Hand.r_main_call3_v0 (F := Ideal) := by
  funext a0 a1 a2 a3 a4
  unfold Cert.KernelIdeal.Hand.r_main_call3_v0 Cert.ReferenceIdeal.Hand.r_main_call3_v0
  rfl
theorem eq_main_call3_v1_0 : Cert.KernelIdeal.Hand.r_main_call3_v1_0 (F := Ideal) = Cert.ReferenceIdeal.Hand.r_main_call3_v1_0 (F := Ideal) := by
  funext a0 a1 a2 a3 a4
  unfold Cert.KernelIdeal.Hand.r_main_call3_v1_0 Cert.ReferenceIdeal.Hand.r_main_call3_v1_0
  rw [eq_main_v16, eq_main_call3_v0] <;> rfl
theorem eq_main_v20 : Cert.KernelIdeal.Hand.r_main_v20 (F := Ideal) = Cert.ReferenceIdeal.Hand.r_main_v20 (F := Ideal) := by
  funext a0 a1 a2 a3 a4
  unfold Cert.KernelIdeal.Hand.r_main_v20 Cert.ReferenceIdeal.Hand.r_main_v20
  rw [eq_main_v16, eq_main_call3_v0] <;> rfl
theorem eq_main_call4_c : Cert.KernelIdeal.Hand.r_main_call4_c (F := Ideal) = Cert.ReferenceIdeal.Hand.r_main_call4_c (F := Ideal) := by
  funext a0 a1 a2 a3 a4
  unfold Cert.KernelIdeal.Hand.r_main_call4_c Cert.ReferenceIdeal.Hand.r_main_call4_c
  rfl
theorem eq_main_call4_v0 : Cert.KernelIdeal.Hand.r_main_call4_v0 (F := Ideal) = Cert.ReferenceIdeal.Hand.r_main_call4_v0 (F := Ideal) := by
  funext a0 a1 a2 a3 a4
  unfold Cert.KernelIdeal.Hand.r_main_call4_v0 Cert.ReferenceIdeal.Hand.r_main_call4_v0
  rw [eq_main_call4_c] <;> rfl
theorem eq_main_call4_v1 : Cert.KernelIdeal.Hand.r_main_call4_v1 (F := Ideal) = Cert.ReferenceIdeal.Hand.r_main_call4_v1 (F := Ideal) := by
  funext a0 a1 a2 a3 a4
  unfold Cert.KernelIdeal.Hand.r_main_call4_v1 Cert.ReferenceIdeal.Hand.r_main_call4_v1
  rw [eq_main_v20, eq_main_call4_v0] <;> rfl
theorem eq_main_call4_c_0 : Cert.KernelIdeal.Hand.r_main_call4_c_0 (F := Ideal) = Cert.ReferenceIdeal.Hand.r_main_call4_c_0 (F := Ideal) := by
  funext a0 a1 a2 a3 a4
  unfold Cert.KernelIdeal.Hand.r_main_call4_c_0 Cert.ReferenceIdeal.Hand.r_main_call4_c_0
  rfl
theorem eq_main_call4_v2 : Cert.KernelIdeal.Hand.r_main_call4_v2 (F := Ideal) = Cert.ReferenceIdeal.Hand.r_main_call4_v2 (F := Ideal) := by
  funext a0 a1 a2 a3 a4
  unfold Cert.KernelIdeal.Hand.r_main_call4_v2 Cert.ReferenceIdeal.Hand.r_main_call4_v2
  rw [eq_main_call4_c_0] <;> rfl
theorem eq_main_call4_v3 : Cert.KernelIdeal.Hand.r_main_call4_v3 (F := Ideal) = Cert.ReferenceIdeal.Hand.r_main_call4_v3 (F := Ideal) := by
  funext a0 a1 a2 a3 a4
  unfold Cert.KernelIdeal.Hand.r_main_call4_v3 Cert.ReferenceIdeal.Hand.r_main_call4_v3
  rw [eq_main_v20, eq_main_call4_v2] <;> rfl
theorem eq_main_call4_v4 : Cert.KernelIdeal.Hand.r_main_call4_v4 (F := Ideal) = Cert.ReferenceIdeal.Hand.r_main_call4_v4 (F := Ideal) := by
  funext a0 a1 a2 a3 a4
  unfold Cert.KernelIdeal.Hand.r_main_call4_v4 Cert.ReferenceIdeal.Hand.r_main_call4_v4
  rw [eq_main_call4_v1, eq_main_call4_v3, eq_main_v20] <;> rfl
theorem eq_main_call4_v5 : Cert.KernelIdeal.Hand.r_main_call4_v5 (F := Ideal) = Cert.ReferenceIdeal.Hand.r_main_call4_v5 (F := Ideal) := by
  funext a0 a1 a2 a3 a4
  unfold Cert.KernelIdeal.Hand.r_main_call4_v5 Cert.ReferenceIdeal.Hand.r_main_call4_v5
  rw [eq_main_call4_v4] <;> rfl
theorem eq_main_call4_c_1 : Cert.KernelIdeal.Hand.r_main_call4_c_1 (F := Ideal) = Cert.ReferenceIdeal.Hand.r_main_call4_c_1 (F := Ideal) := by
  funext a0 a1 a2 a3 a4
  unfold Cert.KernelIdeal.Hand.r_main_call4_c_1 Cert.ReferenceIdeal.Hand.r_main_call4_c_1
  rfl
theorem eq_main_call4_c_2 : Cert.KernelIdeal.Hand.r_main_call4_c_2 (F := Ideal) = Cert.ReferenceIdeal.Hand.r_main_call4_c_2 (F := Ideal) := by
  funext a0 a1 a2 a3 a4
  unfold Cert.KernelIdeal.Hand.r_main_call4_c_2 Cert.ReferenceIdeal.Hand.r_main_call4_c_2
  rfl
theorem eq_main_call4_v6 : Cert.KernelIdeal.Hand.r_main_call4_v6 (F := Ideal) = Cert.ReferenceIdeal.Hand.r_main_call4_v6 (F := Ideal) := by
  funext a0 a1 a2 a3 a4
  unfold Cert.KernelIdeal.Hand.r_main_call4_v6 Cert.ReferenceIdeal.Hand.r_main_call4_v6
  rw [eq_main_call4_c_2] <;> rfl
theorem eq_main_call4_v7 : Cert.KernelIdeal.Hand.r_main_call4_v7 (F := Ideal) = Cert.ReferenceIdeal.Hand.r_main_call4_v7 (F := Ideal) := by
  funext a0 a1 a2 a3 a4
  unfold Cert.KernelIdeal.Hand.r_main_call4_v7 Cert.ReferenceIdeal.Hand.r_main_call4_v7
  rw [eq_main_call4_v5, eq_main_call4_v6] <;> rfl
theorem eq_main_call4_v8 : Cert.KernelIdeal.Hand.r_main_call4_v8 (F := Ideal) = Cert.ReferenceIdeal.Hand.r_main_call4_v8 (F := Ideal) := by
  funext a0 a1 a2 a3 a4
  unfold Cert.KernelIdeal.Hand.r_main_call4_v8 Cert.ReferenceIdeal.Hand.r_main_call4_v8
  rw [eq_main_call4_c_1] <;> rfl
theorem eq_main_call4_v9 : Cert.KernelIdeal.Hand.r_main_call4_v9 (F := Ideal) = Cert.ReferenceIdeal.Hand.r_main_call4_v9 (F := Ideal) := by
  funext a0 a1 a2 a3 a4
  unfold Cert.KernelIdeal.Hand.r_main_call4_v9 Cert.ReferenceIdeal.Hand.r_main_call4_v9
  rw [eq_main_call4_v8] <;> rfl
theorem eq_main_call4_v10 : Cert.KernelIdeal.Hand.r_main_call4_v10 (F := Ideal) = Cert.ReferenceIdeal.Hand.r_main_call4_v10 (F := Ideal) := by
  funext a0 a1 a2 a3 a4
  unfold Cert.KernelIdeal.Hand.r_main_call4_v10 Cert.ReferenceIdeal.Hand.r_main_call4_v10
  rw [eq_main_call4_v5, eq_main_call4_v9] <;> rfl
theorem eq_main_call4_v11 : Cert.KernelIdeal.Hand.r_main_call4_v11 (F := Ideal) = Cert.ReferenceIdeal.Hand.r_main_call4_v11 (F := Ideal) := by
  funext a0 a1 a2 a3 a4
  unfold Cert.KernelIdeal.Hand.r_main_call4_v11 Cert.ReferenceIdeal.Hand.r_main_call4_v11
  rw [eq_main_call4_v7, eq_main_call4_v10] <;> rfl
theorem eq_main_call4_c_3 : Cert.KernelIdeal.Hand.r_main_call4_c_3 (F := Ideal) = Cert.ReferenceIdeal.Hand.r_main_call4_c_3 (F := Ideal) := by
  funext a0 a1 a2 a3 a4
  unfold Cert.KernelIdeal.Hand.r_main_call4_c_3 Cert.ReferenceIdeal.Hand.r_main_call4_c_3
  rfl
theorem eq_main_call4_v12 : Cert.KernelIdeal.Hand.r_main_call4_v12 (F := Ideal) = Cert.ReferenceIdeal.Hand.r_main_call4_v12 (F := Ideal) := by
  funext a0 a1 a2 a3 a4
  unfold Cert.KernelIdeal.Hand.r_main_call4_v12 Cert.ReferenceIdeal.Hand.r_main_call4_v12
  rw [eq_main_call4_v11, eq_main_call4_c_3] <;> rfl
theorem eq_main_call4_v13 : Cert.KernelIdeal.Hand.r_main_call4_v13 (F := Ideal) = Cert.ReferenceIdeal.Hand.r_main_call4_v13 (F := Ideal) := by
  funext a0 a1 a2 a3 a4
  unfold Cert.KernelIdeal.Hand.r_main_call4_v13 Cert.ReferenceIdeal.Hand.r_main_call4_v13
  rw [eq_main_v16, eq_main_call4_v5] <;> rfl
theorem eq_main_call4_c_4 : Cert.KernelIdeal.Hand.r_main_call4_c_4 (F := Ideal) = Cert.ReferenceIdeal.Hand.r_main_call4_c_4 (F := Ideal) := by
  funext a0 a1 a2 a3 a4
  unfold Cert.KernelIdeal.Hand.r_main_call4_c_4 Cert.ReferenceIdeal.Hand.r_main_call4_c_4
  rfl
theorem eq_main_call4_v14 : Cert.KernelIdeal.Hand.r_main_call4_v14 (F := Ideal) = Cert.ReferenceIdeal.Hand.r_main_call4_v14 (F := Ideal) := by
  funext a0 a1 a2 a3 a4
  unfold Cert.KernelIdeal.Hand.r_main_call4_v14 Cert.ReferenceIdeal.Hand.r_main_call4_v14
  rw [eq_main_call4_c_4] <;> rfl
theorem eq_main_v21 : Cert.KernelIdeal.Hand.r_main_v21 (F := Ideal) = Cert.ReferenceIdeal.Hand.r_main_v21 (F := Ideal) := by
  funext a0 a1 a2 a3 a4
  unfold Cert.KernelIdeal.Hand.r_main_v21 Cert.ReferenceIdeal.Hand.r_main_v21
  rw [eq_main_call4_v12, eq_main_call4_v13, eq_main_call4_v14] <;> rfl
theorem eq_main_v22 : Cert.KernelIdeal.Hand.r_main_v22 (F := Ideal) = Cert.ReferenceIdeal.Hand.r_main_v22 (F := Ideal) := by
  funext a0 a1 a2 a3 a4
  unfold Cert.KernelIdeal.Hand.r_main_v22 Cert.ReferenceIdeal.Hand.r_main_v22
  rw [eq_main_v20] <;> rfl
theorem eq_main_call5_c : Cert.KernelIdeal.Hand.r_main_call5_c (F := Ideal) = Cert.ReferenceIdeal.Hand.r_main_call5_c (F := Ideal) := by
  funext a0 a1 a2 a3 a4
  unfold Cert.KernelIdeal.Hand.r_main_call5_c Cert.ReferenceIdeal.Hand.r_main_call5_c
  rfl
theorem eq_main_call5_v0 : Cert.KernelIdeal.Hand.r_main_call5_v0 (F := Ideal) = Cert.ReferenceIdeal.Hand.r_main_call5_v0 (F := Ideal) := by
  funext a0 a1 a2 a3 a4
  unfold Cert.KernelIdeal.Hand.r_main_call5_v0 Cert.ReferenceIdeal.Hand.r_main_call5_v0
  rw [eq_main_call5_c] <;> rfl
theorem eq_main_call5_v1 : Cert.KernelIdeal.Hand.r_main_call5_v1 (F := Ideal) = Cert.ReferenceIdeal.Hand.r_main_call5_v1 (F := Ideal) := by
  funext a0 a1 a2 a3 a4
  unfold Cert.KernelIdeal.Hand.r_main_call5_v1 Cert.ReferenceIdeal.Hand.r_main_call5_v1
  rw [eq_main_v22, eq_main_call5_v0] <;> rfl
theorem eq_main_call5_c_0 : Cert.KernelIdeal.Hand.r_main_call5_c_0 (F := Ideal) = Cert.ReferenceIdeal.Hand.r_main_call5_c_0 (F := Ideal) := by
  funext a0 a1 a2 a3 a4
  unfold Cert.KernelIdeal.Hand.r_main_call5_c_0 Cert.ReferenceIdeal.Hand.r_main_call5_c_0
  rfl
theorem eq_main_call5_v2 : Cert.KernelIdeal.Hand.r_main_call5_v2 (F := Ideal) = Cert.ReferenceIdeal.Hand.r_main_call5_v2 (F := Ideal) := by
  funext a0 a1 a2 a3 a4
  unfold Cert.KernelIdeal.Hand.r_main_call5_v2 Cert.ReferenceIdeal.Hand.r_main_call5_v2
  rw [eq_main_call5_c_0] <;> rfl
theorem eq_main_call5_v3 : Cert.KernelIdeal.Hand.r_main_call5_v3 (F := Ideal) = Cert.ReferenceIdeal.Hand.r_main_call5_v3 (F := Ideal) := by
  funext a0 a1 a2 a3 a4
  unfold Cert.KernelIdeal.Hand.r_main_call5_v3 Cert.ReferenceIdeal.Hand.r_main_call5_v3
  rw [eq_main_v22, eq_main_call5_v2] <;> rfl
theorem eq_main_call5_v4 : Cert.KernelIdeal.Hand.r_main_call5_v4 (F := Ideal) = Cert.ReferenceIdeal.Hand.r_main_call5_v4 (F := Ideal) := by
  funext a0 a1 a2 a3 a4
  unfold Cert.KernelIdeal.Hand.r_main_call5_v4 Cert.ReferenceIdeal.Hand.r_main_call5_v4
  rw [eq_main_call5_v1, eq_main_call5_v3, eq_main_v22] <;> rfl
theorem eq_main_call5_c_1 : Cert.KernelIdeal.Hand.r_main_call5_c_1 (F := Ideal) = Cert.ReferenceIdeal.Hand.r_main_call5_c_1 (F := Ideal) := by
  funext a0 a1 a2 a3 a4
  unfold Cert.KernelIdeal.Hand.r_main_call5_c_1 Cert.ReferenceIdeal.Hand.r_main_call5_c_1
  rfl
theorem eq_main_call5_c_2 : Cert.KernelIdeal.Hand.r_main_call5_c_2 (F := Ideal) = Cert.ReferenceIdeal.Hand.r_main_call5_c_2 (F := Ideal) := by
  funext a0 a1 a2 a3 a4
  unfold Cert.KernelIdeal.Hand.r_main_call5_c_2 Cert.ReferenceIdeal.Hand.r_main_call5_c_2
  rfl
theorem eq_main_call5_v5 : Cert.KernelIdeal.Hand.r_main_call5_v5 (F := Ideal) = Cert.ReferenceIdeal.Hand.r_main_call5_v5 (F := Ideal) := by
  funext a0 a1 a2 a3 a4
  unfold Cert.KernelIdeal.Hand.r_main_call5_v5 Cert.ReferenceIdeal.Hand.r_main_call5_v5
  rw [eq_main_call5_c_2] <;> rfl
theorem eq_main_call5_v6 : Cert.KernelIdeal.Hand.r_main_call5_v6 (F := Ideal) = Cert.ReferenceIdeal.Hand.r_main_call5_v6 (F := Ideal) := by
  funext a0 a1 a2 a3 a4
  unfold Cert.KernelIdeal.Hand.r_main_call5_v6 Cert.ReferenceIdeal.Hand.r_main_call5_v6
  rw [eq_main_call5_v4, eq_main_call5_v5] <;> rfl
theorem eq_main_call5_v7 : Cert.KernelIdeal.Hand.r_main_call5_v7 (F := Ideal) = Cert.ReferenceIdeal.Hand.r_main_call5_v7 (F := Ideal) := by
  funext a0 a1 a2 a3 a4
  unfold Cert.KernelIdeal.Hand.r_main_call5_v7 Cert.ReferenceIdeal.Hand.r_main_call5_v7
  rw [eq_main_call5_c_1] <;> rfl
theorem eq_main_call5_v8 : Cert.KernelIdeal.Hand.r_main_call5_v8 (F := Ideal) = Cert.ReferenceIdeal.Hand.r_main_call5_v8 (F := Ideal) := by
  funext a0 a1 a2 a3 a4
  unfold Cert.KernelIdeal.Hand.r_main_call5_v8 Cert.ReferenceIdeal.Hand.r_main_call5_v8
  rw [eq_main_call5_v7] <;> rfl
theorem eq_main_call5_v9 : Cert.KernelIdeal.Hand.r_main_call5_v9 (F := Ideal) = Cert.ReferenceIdeal.Hand.r_main_call5_v9 (F := Ideal) := by
  funext a0 a1 a2 a3 a4
  unfold Cert.KernelIdeal.Hand.r_main_call5_v9 Cert.ReferenceIdeal.Hand.r_main_call5_v9
  rw [eq_main_call5_v4, eq_main_call5_v8] <;> rfl
theorem eq_main_call5_v10 : Cert.KernelIdeal.Hand.r_main_call5_v10 (F := Ideal) = Cert.ReferenceIdeal.Hand.r_main_call5_v10 (F := Ideal) := by
  funext a0 a1 a2 a3 a4
  unfold Cert.KernelIdeal.Hand.r_main_call5_v10 Cert.ReferenceIdeal.Hand.r_main_call5_v10
  rw [eq_main_call5_v6, eq_main_call5_v9] <;> rfl
theorem eq_main_call5_c_3 : Cert.KernelIdeal.Hand.r_main_call5_c_3 (F := Ideal) = Cert.ReferenceIdeal.Hand.r_main_call5_c_3 (F := Ideal) := by
  funext a0 a1 a2 a3 a4
  unfold Cert.KernelIdeal.Hand.r_main_call5_c_3 Cert.ReferenceIdeal.Hand.r_main_call5_c_3
  rfl
theorem eq_main_call5_v11 : Cert.KernelIdeal.Hand.r_main_call5_v11 (F := Ideal) = Cert.ReferenceIdeal.Hand.r_main_call5_v11 (F := Ideal) := by
  funext a0 a1 a2 a3 a4
  unfold Cert.KernelIdeal.Hand.r_main_call5_v11 Cert.ReferenceIdeal.Hand.r_main_call5_v11
  rw [eq_main_call5_v10, eq_main_call5_c_3] <;> rfl
theorem eq_main_call5_v12 : Cert.KernelIdeal.Hand.r_main_call5_v12 (F := Ideal) = Cert.ReferenceIdeal.Hand.r_main_call5_v12 (F := Ideal) := by
  funext a0 a1 a2 a3 a4
  unfold Cert.KernelIdeal.Hand.r_main_call5_v12 Cert.ReferenceIdeal.Hand.r_main_call5_v12
  rw [eq_main_v12, eq_main_call5_v4] <;> rfl
theorem eq_main_call5_v13 : Cert.KernelIdeal.Hand.r_main_call5_v13 (F := Ideal) = Cert.ReferenceIdeal.Hand.r_main_call5_v13 (F := Ideal) := by
  funext a0 a1 a2 a3 a4
  unfold Cert.KernelIdeal.Hand.r_main_call5_v13 Cert.ReferenceIdeal.Hand.r_main_call5_v13
  rw [eq_main_call5_v11] <;> rfl
theorem eq_main_call5_cst : Cert.KernelIdeal.Hand.r_main_call5_cst (F := Ideal) = Cert.ReferenceIdeal.Hand.r_main_call5_cst (F := Ideal) := by
  funext a0 a1 a2 a3 a4
  unfold Cert.KernelIdeal.Hand.r_main_call5_cst Cert.ReferenceIdeal.Hand.r_main_call5_cst
  rfl
theorem eq_main_call5_v14 : Cert.KernelIdeal.Hand.r_main_call5_v14 (F := Ideal) = Cert.ReferenceIdeal.Hand.r_main_call5_v14 (F := Ideal) := by
  funext a0 a1 a2 a3 a4
  unfold Cert.KernelIdeal.Hand.r_main_call5_v14 Cert.ReferenceIdeal.Hand.r_main_call5_v14
  rw [eq_main_call5_cst] <;> rfl
theorem eq_main_v23 : Cert.KernelIdeal.Hand.r_main_v23 (F := Ideal) = Cert.ReferenceIdeal.Hand.r_main_v23 (F := Ideal) := by
  funext a0 a1 a2 a3 a4
  unfold Cert.KernelIdeal.Hand.r_main_v23 Cert.ReferenceIdeal.Hand.r_main_v23
  rw [eq_main_call5_v13, eq_main_call5_v12, eq_main_call5_v14] <;> rfl
theorem eq_main_call6_c : Cert.KernelIdeal.Hand.r_main_call6_c (F := Ideal) = Cert.ReferenceIdeal.Hand.r_main_call6_c (F := Ideal) := by
  funext a0 a1 a2 a3 a4
  unfold Cert.KernelIdeal.Hand.r_main_call6_c Cert.ReferenceIdeal.Hand.r_main_call6_c
  rfl
theorem eq_main_call6_v0 : Cert.KernelIdeal.Hand.r_main_call6_v0 (F := Ideal) = Cert.ReferenceIdeal.Hand.r_main_call6_v0 (F := Ideal) := by
  funext a0 a1 a2 a3 a4
  unfold Cert.KernelIdeal.Hand.r_main_call6_v0 Cert.ReferenceIdeal.Hand.r_main_call6_v0
  rw [eq_main_call6_c] <;> rfl
theorem eq_main_call6_v1 : Cert.KernelIdeal.Hand.r_main_call6_v1 (F := Ideal) = Cert.ReferenceIdeal.Hand.r_main_call6_v1 (F := Ideal) := by
  funext a0 a1 a2 a3 a4
  unfold Cert.KernelIdeal.Hand.r_main_call6_v1 Cert.ReferenceIdeal.Hand.r_main_call6_v1
  rw [eq_main_v20, eq_main_call6_v0] <;> rfl
theorem eq_main_call6_c_0 : Cert.KernelIdeal.Hand.r_main_call6_c_0 (F := Ideal) = Cert.ReferenceIdeal.Hand.r_main_call6_c_0 (F := Ideal) := by
  funext a0 a1 a2 a3 a4
  unfold Cert.KernelIdeal.Hand.r_main_call6_c_0 Cert.ReferenceIdeal.Hand.r_main_call6_c_0
  rfl
theorem eq_main_call6_v2 : Cert.KernelIdeal.Hand.r_main_call6_v2 (F := Ideal) = Cert.ReferenceIdeal.Hand.r_main_call6_v2 (F := Ideal) := by
  funext a0 a1 a2 a3 a4
  unfold Cert.KernelIdeal.Hand.r_main_call6_v2 Cert.ReferenceIdeal.Hand.r_main_call6_v2
  rw [eq_main_call6_c_0] <;> rfl
theorem eq_main_call6_v3 : Cert.KernelIdeal.Hand.r_main_call6_v3 (F := Ideal) = Cert.ReferenceIdeal.Hand.r_main_call6_v3 (F := Ideal) := by
  funext a0 a1 a2 a3 a4
  unfold Cert.KernelIdeal.Hand.r_main_call6_v3 Cert.ReferenceIdeal.Hand.r_main_call6_v3
  rw [eq_main_v20, eq_main_call6_v2] <;> rfl
theorem eq_main_call6_v4 : Cert.KernelIdeal.Hand.r_main_call6_v4 (F := Ideal) = Cert.ReferenceIdeal.Hand.r_main_call6_v4 (F := Ideal) := by
  funext a0 a1 a2 a3 a4
  unfold Cert.KernelIdeal.Hand.r_main_call6_v4 Cert.ReferenceIdeal.Hand.r_main_call6_v4
  rw [eq_main_call6_v1, eq_main_call6_v3, eq_main_v20] <;> rfl
theorem eq_main_call6_v5 : Cert.KernelIdeal.Hand.r_main_call6_v5 (F := Ideal) = Cert.ReferenceIdeal.Hand.r_main_call6_v5 (F := Ideal) := by
  funext a0 a1 a2 a3 a4
  unfold Cert.KernelIdeal.Hand.r_main_call6_v5 Cert.ReferenceIdeal.Hand.r_main_call6_v5
  rw [eq_main_call6_v4] <;> rfl
theorem eq_main_call6_c_1 : Cert.KernelIdeal.Hand.r_main_call6_c_1 (F := Ideal) = Cert.ReferenceIdeal.Hand.r_main_call6_c_1 (F := Ideal) := by
  funext a0 a1 a2 a3 a4
  unfold Cert.KernelIdeal.Hand.r_main_call6_c_1 Cert.ReferenceIdeal.Hand.r_main_call6_c_1
  rfl
theorem eq_main_call6_c_2 : Cert.KernelIdeal.Hand.r_main_call6_c_2 (F := Ideal) = Cert.ReferenceIdeal.Hand.r_main_call6_c_2 (F := Ideal) := by
  funext a0 a1 a2 a3 a4
  unfold Cert.KernelIdeal.Hand.r_main_call6_c_2 Cert.ReferenceIdeal.Hand.r_main_call6_c_2
  rfl
theorem eq_main_call6_v6 : Cert.KernelIdeal.Hand.r_main_call6_v6 (F := Ideal) = Cert.ReferenceIdeal.Hand.r_main_call6_v6 (F := Ideal) := by
  funext a0 a1 a2 a3 a4
  unfold Cert.KernelIdeal.Hand.r_main_call6_v6 Cert.ReferenceIdeal.Hand.r_main_call6_v6
  rw [eq_main_call6_c_2] <;> rfl
theorem eq_main_call6_v7 : Cert.KernelIdeal.Hand.r_main_call6_v7 (F := Ideal) = Cert.ReferenceIdeal.Hand.r_main_call6_v7 (F := Ideal) := by
  funext a0 a1 a2 a3 a4
  unfold Cert.KernelIdeal.Hand.r_main_call6_v7 Cert.ReferenceIdeal.Hand.r_main_call6_v7
  rw [eq_main_call6_v5, eq_main_call6_v6] <;> rfl
theorem eq_main_call6_v8 : Cert.KernelIdeal.Hand.r_main_call6_v8 (F := Ideal) = Cert.ReferenceIdeal.Hand.r_main_call6_v8 (F := Ideal) := by
  funext a0 a1 a2 a3 a4
  unfold Cert.KernelIdeal.Hand.r_main_call6_v8 Cert.ReferenceIdeal.Hand.r_main_call6_v8
  rw [eq_main_call6_c_1] <;> rfl
theorem eq_main_call6_v9 : Cert.KernelIdeal.Hand.r_main_call6_v9 (F := Ideal) = Cert.ReferenceIdeal.Hand.r_main_call6_v9 (F := Ideal) := by
  funext a0 a1 a2 a3 a4
  unfold Cert.KernelIdeal.Hand.r_main_call6_v9 Cert.ReferenceIdeal.Hand.r_main_call6_v9
  rw [eq_main_call6_v8] <;> rfl
theorem eq_main_call6_v10 : Cert.KernelIdeal.Hand.r_main_call6_v10 (F := Ideal) = Cert.ReferenceIdeal.Hand.r_main_call6_v10 (F := Ideal) := by
  funext a0 a1 a2 a3 a4
  unfold Cert.KernelIdeal.Hand.r_main_call6_v10 Cert.ReferenceIdeal.Hand.r_main_call6_v10
  rw [eq_main_call6_v5, eq_main_call6_v9] <;> rfl
theorem eq_main_call6_v11 : Cert.KernelIdeal.Hand.r_main_call6_v11 (F := Ideal) = Cert.ReferenceIdeal.Hand.r_main_call6_v11 (F := Ideal) := by
  funext a0 a1 a2 a3 a4
  unfold Cert.KernelIdeal.Hand.r_main_call6_v11 Cert.ReferenceIdeal.Hand.r_main_call6_v11
  rw [eq_main_call6_v7, eq_main_call6_v10] <;> rfl
theorem eq_main_call6_c_3 : Cert.KernelIdeal.Hand.r_main_call6_c_3 (F := Ideal) = Cert.ReferenceIdeal.Hand.r_main_call6_c_3 (F := Ideal) := by
  funext a0 a1 a2 a3 a4
  unfold Cert.KernelIdeal.Hand.r_main_call6_c_3 Cert.ReferenceIdeal.Hand.r_main_call6_c_3
  rfl
theorem eq_main_call6_v12 : Cert.KernelIdeal.Hand.r_main_call6_v12 (F := Ideal) = Cert.ReferenceIdeal.Hand.r_main_call6_v12 (F := Ideal) := by
  funext a0 a1 a2 a3 a4
  unfold Cert.KernelIdeal.Hand.r_main_call6_v12 Cert.ReferenceIdeal.Hand.r_main_call6_v12
  rw [eq_main_call6_v11, eq_main_call6_c_3] <;> rfl
theorem eq_main_call6_v13 : Cert.KernelIdeal.Hand.r_main_call6_v13 (F := Ideal) = Cert.ReferenceIdeal.Hand.r_main_call6_v13 (F := Ideal) := by
  funext a0 a1 a2 a3 a4
  unfold Cert.KernelIdeal.Hand.r_main_call6_v13 Cert.ReferenceIdeal.Hand.r_main_call6_v13
  rw [eq_main_v19, eq_main_call6_v5] <;> rfl
theorem eq_main_call6_cst : Cert.KernelIdeal.Hand.r_main_call6_cst (F := Ideal) = Cert.ReferenceIdeal.Hand.r_main_call6_cst (F := Ideal) := by
  funext a0 a1 a2 a3 a4
  unfold Cert.KernelIdeal.Hand.r_main_call6_cst Cert.ReferenceIdeal.Hand.r_main_call6_cst
  rfl
theorem eq_main_call6_v14 : Cert.KernelIdeal.Hand.r_main_call6_v14 (F := Ideal) = Cert.ReferenceIdeal.Hand.r_main_call6_v14 (F := Ideal) := by
  funext a0 a1 a2 a3 a4
  unfold Cert.KernelIdeal.Hand.r_main_call6_v14 Cert.ReferenceIdeal.Hand.r_main_call6_v14
  rw [eq_main_call6_cst] <;> rfl
theorem eq_main_v24 : Cert.KernelIdeal.Hand.r_main_v24 (F := Ideal) = Cert.ReferenceIdeal.Hand.r_main_v24 (F := Ideal) := by
  funext a0 a1 a2 a3 a4
  unfold Cert.KernelIdeal.Hand.r_main_v24 Cert.ReferenceIdeal.Hand.r_main_v24
  rw [eq_main_call6_v12, eq_main_call6_v13, eq_main_call6_v14] <;> rfl
theorem eq_main_v25 : Cert.KernelIdeal.Hand.r_main_v25 (F := Ideal) = Cert.ReferenceIdeal.Hand.r_main_v25 (F := Ideal) := by
  funext a0 a1 a2 a3 a4
  unfold Cert.KernelIdeal.Hand.r_main_v25 Cert.ReferenceIdeal.Hand.r_main_v25
  rfl
theorem eq_main_c_6 : Cert.KernelIdeal.Hand.r_main_c_6 (F := Ideal) = Cert.ReferenceIdeal.Hand.r_main_c_6 (F := Ideal) := by
  funext a0 a1 a2 a3 a4
  unfold Cert.KernelIdeal.Hand.r_main_c_6 Cert.ReferenceIdeal.Hand.r_main_c_6
  rfl
theorem eq_main_c_7 : Cert.KernelIdeal.Hand.r_main_c_7 (F := Ideal) = Cert.ReferenceIdeal.Hand.r_main_c_7 (F := Ideal) := by
  funext a0 a1 a2 a3 a4
  unfold Cert.KernelIdeal.Hand.r_main_c_7 Cert.ReferenceIdeal.Hand.r_main_c_7
  rfl
theorem eq_main_v26 : Cert.KernelIdeal.Hand.r_main_v26 (F := Ideal) = Cert.ReferenceIdeal.Hand.r_main_v26 (F := Ideal) := by
  funext a0 a1 a2 a3 a4
  unfold Cert.KernelIdeal.Hand.r_main_v26 Cert.ReferenceIdeal.Hand.r_main_v26
  rw [eq_main_c_6, eq_main_c_7] <;> rfl
theorem eq_main_c_8 : Cert.KernelIdeal.Hand.r_main_c_8 (F := Ideal) = Cert.ReferenceIdeal.Hand.r_main_c_8 (F := Ideal) := by
  funext a0 a1 a2 a3 a4
  unfold Cert.KernelIdeal.Hand.r_main_c_8 Cert.ReferenceIdeal.Hand.r_main_c_8
  rfl
theorem eq_main_v27 : Cert.KernelIdeal.Hand.r_main_v27 (F := Ideal) = Cert.ReferenceIdeal.Hand.r_main_v27 (F := Ideal) := by
  funext a0 a1 a2 a3 a4
  unfold Cert.KernelIdeal.Hand.r_main_v27 Cert.ReferenceIdeal.Hand.r_main_v27
  rw [eq_main_c_8] <;> rfl
theorem eq_main_v28 : Cert.KernelIdeal.Hand.r_main_v28 (F := Ideal) = Cert.ReferenceIdeal.Hand.r_main_v28 (F := Ideal) := by
  funext a0 a1 a2 a3 a4
  unfold Cert.KernelIdeal.Hand.r_main_v28 Cert.ReferenceIdeal.Hand.r_main_v28
  rw [eq_main_v25, eq_main_v27] <;> rfl
theorem eq_main_v29 : Cert.KernelIdeal.Hand.r_main_v29 (F := Ideal) = Cert.ReferenceIdeal.Hand.r_main_v29 (F := Ideal) := by
  funext a0 a1 a2 a3 a4
  unfold Cert.KernelIdeal.Hand.r_main_v29 Cert.ReferenceIdeal.Hand.r_main_v29
  rw [eq_main_v26] <;> rfl
theorem eq_main_v30 : Cert.KernelIdeal.Hand.r_main_v30 (F := Ideal) = Cert.ReferenceIdeal.Hand.r_main_v30 (F := Ideal) := by
  funext a0 a1 a2 a3 a4
  unfold Cert.KernelIdeal.Hand.r_main_v30 Cert.ReferenceIdeal.Hand.r_main_v30
  rw [eq_main_v29, eq_main_v28] <;> rfl
theorem eq_main_c_9 : Cert.KernelIdeal.Hand.r_main_c_9 (F := Ideal) = Cert.ReferenceIdeal.Hand.r_main_c_9 (F := Ideal) := by
  funext a0 a1 a2 a3 a4
  unfold Cert.KernelIdeal.Hand.r_main_c_9 Cert.ReferenceIdeal.Hand.r_main_c_9
  rfl
theorem eq_main_c_10 : Cert.KernelIdeal.Hand.r_main_c_10 (F := Ideal) = Cert.ReferenceIdeal.Hand.r_main_c_10 (F := Ideal) := by
  funext a0 a1 a2 a3 a4
  unfold Cert.KernelIdeal.Hand.r_main_c_10 Cert.ReferenceIdeal.Hand.r_main_c_10
  rfl
theorem eq_main_call7_v0 : Cert.KernelIdeal.Hand.r_main_call7_v0 (F := Ideal) = Cert.ReferenceIdeal.Hand.r_main_call7_v0 (F := Ideal) := by
  funext a0 a1 a2 a3 a4
  unfold Cert.KernelIdeal.Hand.r_main_call7_v0 Cert.ReferenceIdeal.Hand.r_main_call7_v0
  rw [eq_main_c_9] <;> rfl
theorem eq_main_call7_v1 : Cert.KernelIdeal.Hand.r_main_call7_v1 (F := Ideal) = Cert.ReferenceIdeal.Hand.r_main_call7_v1 (F := Ideal) := by
  funext a0 a1 a2 a3 a4
  unfold Cert.KernelIdeal.Hand.r_main_call7_v1 Cert.ReferenceIdeal.Hand.r_main_call7_v1
  rw [eq_main_c_10] <;> rfl
theorem eq_main_v31 : Cert.KernelIdeal.Hand.r_main_v31 (F := Ideal) = Cert.ReferenceIdeal.Hand.r_main_v31 (F := Ideal) := by
  funext a0 a1 a2 a3 a4
  unfold Cert.KernelIdeal.Hand.r_main_v31 Cert.ReferenceIdeal.Hand.r_main_v31
  rw [eq_main_v30, eq_main_call7_v0, eq_main_call7_v1] <;> rfl
theorem eq_main_c_11 : Cert.KernelIdeal.Hand.r_main_c_11 (F := Ideal) = Cert.ReferenceIdeal.Hand.r_main_c_11 (F := Ideal) := by
  funext a0 a1 a2 a3 a4
  unfold Cert.KernelIdeal.Hand.r_main_c_11 Cert.ReferenceIdeal.Hand.r_main_c_11
  rfl
theorem eq_main_v32 : Cert.KernelIdeal.Hand.r_main_v32 (F := Ideal) = Cert.ReferenceIdeal.Hand.r_main_v32 (F := Ideal) := by
  funext a0 a1 a2 a3 a4
  unfold Cert.KernelIdeal.Hand.r_main_v32 Cert.ReferenceIdeal.Hand.r_main_v32
  rw [eq_main_c_11] <;> rfl
theorem eq_main_v33 : Cert.KernelIdeal.Hand.r_main_v33 (F := Ideal) = Cert.ReferenceIdeal.Hand.r_main_v33 (F := Ideal) := by
  funext a0 a1 a2 a3 a4
  unfold Cert.KernelIdeal.Hand.r_main_v33 Cert.ReferenceIdeal.Hand.r_main_v33
  rw [eq_main_v25, eq_main_v32] <;> rfl
theorem eq_main_c_12 : Cert.KernelIdeal.Hand.r_main_c_12 (F := Ideal) = Cert.ReferenceIdeal.Hand.r_main_c_12 (F := Ideal) := by
  funext a0 a1 a2 a3 a4
  unfold Cert.KernelIdeal.Hand.r_main_c_12 Cert.ReferenceIdeal.Hand.r_main_c_12
  rfl
theorem eq_main_v34 : Cert.KernelIdeal.Hand.r_main_v34 (F := Ideal) = Cert.ReferenceIdeal.Hand.r_main_v34 (F := Ideal) := by
  funext a0 a1 a2 a3 a4
  unfold Cert.KernelIdeal.Hand.r_main_v34 Cert.ReferenceIdeal.Hand.r_main_v34
  rw [eq_main_c_12] <;> rfl
theorem eq_main_v35 : Cert.KernelIdeal.Hand.r_main_v35 (F := Ideal) = Cert.ReferenceIdeal.Hand.r_main_v35 (F := Ideal) := by
  funext a0 a1 a2 a3 a4
  unfold Cert.KernelIdeal.Hand.r_main_v35 Cert.ReferenceIdeal.Hand.r_main_v35
  rw [eq_main_v31, eq_main_v34] <;> rfl
theorem eq_main_call8_c : Cert.KernelIdeal.Hand.r_main_call8_c (F := Ideal) = Cert.ReferenceIdeal.Hand.r_main_call8_c (F := Ideal) := by
  funext a0 a1 a2 a3 a4
  unfold Cert.KernelIdeal.Hand.r_main_call8_c Cert.ReferenceIdeal.Hand.r_main_call8_c
  rfl
theorem eq_main_call8_v0 : Cert.KernelIdeal.Hand.r_main_call8_v0 (F := Ideal) = Cert.ReferenceIdeal.Hand.r_main_call8_v0 (F := Ideal) := by
  funext a0 a1 a2 a3 a4
  unfold Cert.KernelIdeal.Hand.r_main_call8_v0 Cert.ReferenceIdeal.Hand.r_main_call8_v0
  rw [eq_main_call8_c] <;> rfl
theorem eq_main_call8_v1 : Cert.KernelIdeal.Hand.r_main_call8_v1 (F := Ideal) = Cert.ReferenceIdeal.Hand.r_main_call8_v1 (F := Ideal) := by
  funext a0 a1 a2 a3 a4
  unfold Cert.KernelIdeal.Hand.r_main_call8_v1 Cert.ReferenceIdeal.Hand.r_main_call8_v1
  rw [eq_main_v33, eq_main_call8_v0] <;> rfl
theorem eq_main_v36 : Cert.KernelIdeal.Hand.r_main_v36 (F := Ideal) = Cert.ReferenceIdeal.Hand.r_main_v36 (F := Ideal) := by
  funext a0 a1 a2 a3 a4
  unfold Cert.KernelIdeal.Hand.r_main_v36 Cert.ReferenceIdeal.Hand.r_main_v36
  rw [eq_main_call8_v1, eq_main_v35, eq_main_v31] <;> rfl
theorem eq_main_c_13 : Cert.KernelIdeal.Hand.r_main_c_13 (F := Ideal) = Cert.ReferenceIdeal.Hand.r_main_c_13 (F := Ideal) := by
  funext a0 a1 a2 a3 a4
  unfold Cert.KernelIdeal.Hand.r_main_c_13 Cert.ReferenceIdeal.Hand.r_main_c_13
  rfl
theorem eq_main_c_14 : Cert.KernelIdeal.Hand.r_main_c_14 (F := Ideal) = Cert.ReferenceIdeal.Hand.r_main_c_14 (F := Ideal) := by
  funext a0 a1 a2 a3 a4
  unfold Cert.KernelIdeal.Hand.r_main_c_14 Cert.ReferenceIdeal.Hand.r_main_c_14
  rfl
theorem eq_main_v37 : Cert.KernelIdeal.Hand.r_main_v37 (F := Ideal) = Cert.ReferenceIdeal.Hand.r_main_v37 (F := Ideal) := by
  funext a0 a1 a2 a3 a4
  unfold Cert.KernelIdeal.Hand.r_main_v37 Cert.ReferenceIdeal.Hand.r_main_v37
  rw [eq_main_c_13, eq_main_c_14] <;> rfl
theorem eq_main_c_15 : Cert.KernelIdeal.Hand.r_main_c_15 (F := Ideal) = Cert.ReferenceIdeal.Hand.r_main_c_15 (F := Ideal) := by
  funext a0 a1 a2 a3 a4
  unfold Cert.KernelIdeal.Hand.r_main_c_15 Cert.ReferenceIdeal.Hand.r_main_c_15
  rfl
theorem eq_main_v38 : Cert.KernelIdeal.Hand.r_main_v38 (F := Ideal) = Cert.ReferenceIdeal.Hand.r_main_v38 (F := Ideal) := by
  funext a0 a1 a2 a3 a4
  unfold Cert.KernelIdeal.Hand.r_main_v38 Cert.ReferenceIdeal.Hand.r_main_v38
  rw [eq_main_c_15] <;> rfl
theorem eq_main_v39 : Cert.KernelIdeal.Hand.r_main_v39 (F := Ideal) = Cert.ReferenceIdeal.Hand.r_main_v39 (F := Ideal) := by
  funext a0 a1 a2 a3 a4
  unfold Cert.KernelIdeal.Hand.r_main_v39 Cert.ReferenceIdeal.Hand.r_main_v39
  rw [eq_main_v25, eq_main_v38] <;> rfl
theorem eq_main_c_16 : Cert.KernelIdeal.Hand.r_main_c_16 (F := Ideal) = Cert.ReferenceIdeal.Hand.r_main_c_16 (F := Ideal) := by
  funext a0 a1 a2 a3 a4
  unfold Cert.KernelIdeal.Hand.r_main_c_16 Cert.ReferenceIdeal.Hand.r_main_c_16
  rfl
theorem eq_main_v40 : Cert.KernelIdeal.Hand.r_main_v40 (F := Ideal) = Cert.ReferenceIdeal.Hand.r_main_v40 (F := Ideal) := by
  funext a0 a1 a2 a3 a4
  unfold Cert.KernelIdeal.Hand.r_main_v40 Cert.ReferenceIdeal.Hand.r_main_v40
  rw [eq_main_c_16] <;> rfl
theorem eq_main_v41 : Cert.KernelIdeal.Hand.r_main_v41 (F := Ideal) = Cert.ReferenceIdeal.Hand.r_main_v41 (F := Ideal) := by
  funext a0 a1 a2 a3 a4
  unfold Cert.KernelIdeal.Hand.r_main_v41 Cert.ReferenceIdeal.Hand.r_main_v41
  rw [eq_main_v39, eq_main_v40] <;> rfl
theorem eq_main_v42 : Cert.KernelIdeal.Hand.r_main_v42 (F := Ideal) = Cert.ReferenceIdeal.Hand.r_main_v42 (F := Ideal) := by
  funext a0 a1 a2 a3 a4
  unfold Cert.KernelIdeal.Hand.r_main_v42 Cert.ReferenceIdeal.Hand.r_main_v42
  rw [eq_main_v37] <;> rfl
theorem eq_main_v43 : Cert.KernelIdeal.Hand.r_main_v43 (F := Ideal) = Cert.ReferenceIdeal.Hand.r_main_v43 (F := Ideal) := by
  funext a0 a1 a2 a3 a4
  unfold Cert.KernelIdeal.Hand.r_main_v43 Cert.ReferenceIdeal.Hand.r_main_v43
  rw [eq_main_v36, eq_main_v42] <;> rfl
theorem eq_main_call9_c : Cert.KernelIdeal.Hand.r_main_call9_c (F := Ideal) = Cert.ReferenceIdeal.Hand.r_main_call9_c (F := Ideal) := by
  funext a0 a1 a2 a3 a4
  unfold Cert.KernelIdeal.Hand.r_main_call9_c Cert.ReferenceIdeal.Hand.r_main_call9_c
  rfl
theorem eq_main_call9_v0 : Cert.KernelIdeal.Hand.r_main_call9_v0 (F := Ideal) = Cert.ReferenceIdeal.Hand.r_main_call9_v0 (F := Ideal) := by
  funext a0 a1 a2 a3 a4
  unfold Cert.KernelIdeal.Hand.r_main_call9_v0 Cert.ReferenceIdeal.Hand.r_main_call9_v0
  rw [eq_main_call9_c] <;> rfl
theorem eq_main_call9_v1 : Cert.KernelIdeal.Hand.r_main_call9_v1 (F := Ideal) = Cert.ReferenceIdeal.Hand.r_main_call9_v1 (F := Ideal) := by
  funext a0 a1 a2 a3 a4
  unfold Cert.KernelIdeal.Hand.r_main_call9_v1 Cert.ReferenceIdeal.Hand.r_main_call9_v1
  rw [eq_main_v41, eq_main_call9_v0] <;> rfl
theorem eq_main_v44 : Cert.KernelIdeal.Hand.r_main_v44 (F := Ideal) = Cert.ReferenceIdeal.Hand.r_main_v44 (F := Ideal) := by
  funext a0 a1 a2 a3 a4
  unfold Cert.KernelIdeal.Hand.r_main_v44 Cert.ReferenceIdeal.Hand.r_main_v44
  rw [eq_main_call9_v1, eq_main_v43, eq_main_v36] <;> rfl
theorem eq_main_v45 : Cert.KernelIdeal.Hand.r_main_v45 (F := Ideal) = Cert.ReferenceIdeal.Hand.r_main_v45 (F := Ideal) := by
  funext a0 a1 a2 a3 a4
  unfold Cert.KernelIdeal.Hand.r_main_v45 Cert.ReferenceIdeal.Hand.r_main_v45
  rw [eq_main_v37] <;> rfl
theorem eq_main_c_17 : Cert.KernelIdeal.Hand.r_main_c_17 (F := Ideal) = Cert.ReferenceIdeal.Hand.r_main_c_17 (F := Ideal) := by
  funext a0 a1 a2 a3 a4
  unfold Cert.KernelIdeal.Hand.r_main_c_17 Cert.ReferenceIdeal.Hand.r_main_c_17
  rfl
theorem eq_main_v46 : Cert.KernelIdeal.Hand.r_main_v46 (F := Ideal) = Cert.ReferenceIdeal.Hand.r_main_v46 (F := Ideal) := by
  funext a0 a1 a2 a3 a4
  unfold Cert.KernelIdeal.Hand.r_main_v46 Cert.ReferenceIdeal.Hand.r_main_v46
  rw [eq_main_c_17] <;> rfl
theorem eq_main_v47 : Cert.KernelIdeal.Hand.r_main_v47 (F := Ideal) = Cert.ReferenceIdeal.Hand.r_main_v47 (F := Ideal) := by
  funext a0 a1 a2 a3 a4
  unfold Cert.KernelIdeal.Hand.r_main_v47 Cert.ReferenceIdeal.Hand.r_main_v47
  rw [eq_main_v39, eq_main_v46] <;> rfl
theorem eq_main_c_18 : Cert.KernelIdeal.Hand.r_main_c_18 (F := Ideal) = Cert.ReferenceIdeal.Hand.r_main_c_18 (F := Ideal) := by
  funext a0 a1 a2 a3 a4
  unfold Cert.KernelIdeal.Hand.r_main_c_18 Cert.ReferenceIdeal.Hand.r_main_c_18
  rfl
theorem eq_main_v48 : Cert.KernelIdeal.Hand.r_main_v48 (F := Ideal) = Cert.ReferenceIdeal.Hand.r_main_v48 (F := Ideal) := by
  funext a0 a1 a2 a3 a4
  unfold Cert.KernelIdeal.Hand.r_main_v48 Cert.ReferenceIdeal.Hand.r_main_v48
  rw [eq_main_c_18] <;> rfl
theorem eq_main_v49 : Cert.KernelIdeal.Hand.r_main_v49 (F := Ideal) = Cert.ReferenceIdeal.Hand.r_main_v49 (F := Ideal) := by
  funext a0 a1 a2 a3 a4
  unfold Cert.KernelIdeal.Hand.r_main_v49 Cert.ReferenceIdeal.Hand.r_main_v49
  rw [eq_main_v47, eq_main_v48] <;> rfl
theorem eq_main_v50 : Cert.KernelIdeal.Hand.r_main_v50 (F := Ideal) = Cert.ReferenceIdeal.Hand.r_main_v50 (F := Ideal) := by
  funext a0 a1 a2 a3 a4
  unfold Cert.KernelIdeal.Hand.r_main_v50 Cert.ReferenceIdeal.Hand.r_main_v50
  rw [eq_main_v45] <;> rfl
theorem eq_main_v51 : Cert.KernelIdeal.Hand.r_main_v51 (F := Ideal) = Cert.ReferenceIdeal.Hand.r_main_v51 (F := Ideal) := by
  funext a0 a1 a2 a3 a4
  unfold Cert.KernelIdeal.Hand.r_main_v51 Cert.ReferenceIdeal.Hand.r_main_v51
  rw [eq_main_v44, eq_main_v50] <;> rfl
theorem eq_main_call10_c : Cert.KernelIdeal.Hand.r_main_call10_c (F := Ideal) = Cert.ReferenceIdeal.Hand.r_main_call10_c (F := Ideal) := by
  funext a0 a1 a2 a3 a4
  unfold Cert.KernelIdeal.Hand.r_main_call10_c Cert.ReferenceIdeal.Hand.r_main_call10_c
  rfl
theorem eq_main_call10_v0 : Cert.KernelIdeal.Hand.r_main_call10_v0 (F := Ideal) = Cert.ReferenceIdeal.Hand.r_main_call10_v0 (F := Ideal) := by
  funext a0 a1 a2 a3 a4
  unfold Cert.KernelIdeal.Hand.r_main_call10_v0 Cert.ReferenceIdeal.Hand.r_main_call10_v0
  rw [eq_main_call10_c] <;> rfl
theorem eq_main_call10_v1 : Cert.KernelIdeal.Hand.r_main_call10_v1 (F := Ideal) = Cert.ReferenceIdeal.Hand.r_main_call10_v1 (F := Ideal) := by
  funext a0 a1 a2 a3 a4
  unfold Cert.KernelIdeal.Hand.r_main_call10_v1 Cert.ReferenceIdeal.Hand.r_main_call10_v1
  rw [eq_main_v49, eq_main_call10_v0] <;> rfl
theorem eq_main_v52 : Cert.KernelIdeal.Hand.r_main_v52 (F := Ideal) = Cert.ReferenceIdeal.Hand.r_main_v52 (F := Ideal) := by
  funext a0 a1 a2 a3 a4
  unfold Cert.KernelIdeal.Hand.r_main_v52 Cert.ReferenceIdeal.Hand.r_main_v52
  rw [eq_main_call10_v1, eq_main_v51, eq_main_v44] <;> rfl
theorem eq_main_v53 : Cert.KernelIdeal.Hand.r_main_v53 (F := Ideal) = Cert.ReferenceIdeal.Hand.r_main_v53 (F := Ideal) := by
  funext a0 a1 a2 a3 a4
  unfold Cert.KernelIdeal.Hand.r_main_v53 Cert.ReferenceIdeal.Hand.r_main_v53
  rw [eq_main_v45] <;> rfl
theorem eq_main_c_19 : Cert.KernelIdeal.Hand.r_main_c_19 (F := Ideal) = Cert.ReferenceIdeal.Hand.r_main_c_19 (F := Ideal) := by
  funext a0 a1 a2 a3 a4
  unfold Cert.KernelIdeal.Hand.r_main_c_19 Cert.ReferenceIdeal.Hand.r_main_c_19
  rfl
theorem eq_main_v54 : Cert.KernelIdeal.Hand.r_main_v54 (F := Ideal) = Cert.ReferenceIdeal.Hand.r_main_v54 (F := Ideal) := by
  funext a0 a1 a2 a3 a4
  unfold Cert.KernelIdeal.Hand.r_main_v54 Cert.ReferenceIdeal.Hand.r_main_v54
  rw [eq_main_c_19] <;> rfl
theorem eq_main_v55 : Cert.KernelIdeal.Hand.r_main_v55 (F := Ideal) = Cert.ReferenceIdeal.Hand.r_main_v55 (F := Ideal) := by
  funext a0 a1 a2 a3 a4
  unfold Cert.KernelIdeal.Hand.r_main_v55 Cert.ReferenceIdeal.Hand.r_main_v55
  rw [eq_main_v47, eq_main_v54] <;> rfl
theorem eq_main_c_20 : Cert.KernelIdeal.Hand.r_main_c_20 (F := Ideal) = Cert.ReferenceIdeal.Hand.r_main_c_20 (F := Ideal) := by
  funext a0 a1 a2 a3 a4
  unfold Cert.KernelIdeal.Hand.r_main_c_20 Cert.ReferenceIdeal.Hand.r_main_c_20
  rfl
theorem eq_main_v56 : Cert.KernelIdeal.Hand.r_main_v56 (F := Ideal) = Cert.ReferenceIdeal.Hand.r_main_v56 (F := Ideal) := by
  funext a0 a1 a2 a3 a4
  unfold Cert.KernelIdeal.Hand.r_main_v56 Cert.ReferenceIdeal.Hand.r_main_v56
  rw [eq_main_c_20] <;> rfl
theorem eq_main_v57 : Cert.KernelIdeal.Hand.r_main_v57 (F := Ideal) = Cert.ReferenceIdeal.Hand.r_main_v57 (F := Ideal) := by
  funext a0 a1 a2 a3 a4
  unfold Cert.KernelIdeal.Hand.r_main_v57 Cert.ReferenceIdeal.Hand.r_main_v57
  rw [eq_main_v55, eq_main_v56] <;> rfl
theorem eq_main_v58 : Cert.KernelIdeal.Hand.r_main_v58 (F := Ideal) = Cert.ReferenceIdeal.Hand.r_main_v58 (F := Ideal) := by
  funext a0 a1 a2 a3 a4
  unfold Cert.KernelIdeal.Hand.r_main_v58 Cert.ReferenceIdeal.Hand.r_main_v58
  rw [eq_main_v53] <;> rfl
theorem eq_main_v59 : Cert.KernelIdeal.Hand.r_main_v59 (F := Ideal) = Cert.ReferenceIdeal.Hand.r_main_v59 (F := Ideal) := by
  funext a0 a1 a2 a3 a4
  unfold Cert.KernelIdeal.Hand.r_main_v59 Cert.ReferenceIdeal.Hand.r_main_v59
  rw [eq_main_v52, eq_main_v58] <;> rfl
theorem eq_main_call11_c : Cert.KernelIdeal.Hand.r_main_call11_c (F := Ideal) = Cert.ReferenceIdeal.Hand.r_main_call11_c (F := Ideal) := by
  funext a0 a1 a2 a3 a4
  unfold Cert.KernelIdeal.Hand.r_main_call11_c Cert.ReferenceIdeal.Hand.r_main_call11_c
  rfl
theorem eq_main_call11_v0 : Cert.KernelIdeal.Hand.r_main_call11_v0 (F := Ideal) = Cert.ReferenceIdeal.Hand.r_main_call11_v0 (F := Ideal) := by
  funext a0 a1 a2 a3 a4
  unfold Cert.KernelIdeal.Hand.r_main_call11_v0 Cert.ReferenceIdeal.Hand.r_main_call11_v0
  rw [eq_main_call11_c] <;> rfl
theorem eq_main_call11_v1 : Cert.KernelIdeal.Hand.r_main_call11_v1 (F := Ideal) = Cert.ReferenceIdeal.Hand.r_main_call11_v1 (F := Ideal) := by
  funext a0 a1 a2 a3 a4
  unfold Cert.KernelIdeal.Hand.r_main_call11_v1 Cert.ReferenceIdeal.Hand.r_main_call11_v1
  rw [eq_main_v57, eq_main_call11_v0] <;> rfl
theorem eq_main_v60 : Cert.KernelIdeal.Hand.r_main_v60 (F := Ideal) = Cert.ReferenceIdeal.Hand.r_main_v60 (F := Ideal) := by
  funext a0 a1 a2 a3 a4
  unfold Cert.KernelIdeal.Hand.r_main_v60 Cert.ReferenceIdeal.Hand.r_main_v60
  rw [eq_main_call11_v1, eq_main_v59, eq_main_v52] <;> rfl
theorem eq_main_v61 : Cert.KernelIdeal.Hand.r_main_v61 (F := Ideal) = Cert.ReferenceIdeal.Hand.r_main_v61 (F := Ideal) := by
  funext a0 a1 a2 a3 a4
  unfold Cert.KernelIdeal.Hand.r_main_v61 Cert.ReferenceIdeal.Hand.r_main_v61
  rw [eq_main_v53] <;> rfl
theorem eq_main_c_21 : Cert.KernelIdeal.Hand.r_main_c_21 (F := Ideal) = Cert.ReferenceIdeal.Hand.r_main_c_21 (F := Ideal) := by
  funext a0 a1 a2 a3 a4
  unfold Cert.KernelIdeal.Hand.r_main_c_21 Cert.ReferenceIdeal.Hand.r_main_c_21
  rfl
theorem eq_main_v62 : Cert.KernelIdeal.Hand.r_main_v62 (F := Ideal) = Cert.ReferenceIdeal.Hand.r_main_v62 (F := Ideal) := by
  funext a0 a1 a2 a3 a4
  unfold Cert.KernelIdeal.Hand.r_main_v62 Cert.ReferenceIdeal.Hand.r_main_v62
  rw [eq_main_c_21] <;> rfl
theorem eq_main_v63 : Cert.KernelIdeal.Hand.r_main_v63 (F := Ideal) = Cert.ReferenceIdeal.Hand.r_main_v63 (F := Ideal) := by
  funext a0 a1 a2 a3 a4
  unfold Cert.KernelIdeal.Hand.r_main_v63 Cert.ReferenceIdeal.Hand.r_main_v63
  rw [eq_main_v55, eq_main_v62] <;> rfl
theorem eq_main_c_22 : Cert.KernelIdeal.Hand.r_main_c_22 (F := Ideal) = Cert.ReferenceIdeal.Hand.r_main_c_22 (F := Ideal) := by
  funext a0 a1 a2 a3 a4
  unfold Cert.KernelIdeal.Hand.r_main_c_22 Cert.ReferenceIdeal.Hand.r_main_c_22
  rfl
theorem eq_main_v64 : Cert.KernelIdeal.Hand.r_main_v64 (F := Ideal) = Cert.ReferenceIdeal.Hand.r_main_v64 (F := Ideal) := by
  funext a0 a1 a2 a3 a4
  unfold Cert.KernelIdeal.Hand.r_main_v64 Cert.ReferenceIdeal.Hand.r_main_v64
  rw [eq_main_c_22] <;> rfl
theorem eq_main_v65 : Cert.KernelIdeal.Hand.r_main_v65 (F := Ideal) = Cert.ReferenceIdeal.Hand.r_main_v65 (F := Ideal) := by
  funext a0 a1 a2 a3 a4
  unfold Cert.KernelIdeal.Hand.r_main_v65 Cert.ReferenceIdeal.Hand.r_main_v65
  rw [eq_main_v63, eq_main_v64] <;> rfl
theorem eq_main_v66 : Cert.KernelIdeal.Hand.r_main_v66 (F := Ideal) = Cert.ReferenceIdeal.Hand.r_main_v66 (F := Ideal) := by
  funext a0 a1 a2 a3 a4
  unfold Cert.KernelIdeal.Hand.r_main_v66 Cert.ReferenceIdeal.Hand.r_main_v66
  rw [eq_main_v61] <;> rfl
theorem eq_main_v67 : Cert.KernelIdeal.Hand.r_main_v67 (F := Ideal) = Cert.ReferenceIdeal.Hand.r_main_v67 (F := Ideal) := by
  funext a0 a1 a2 a3 a4
  unfold Cert.KernelIdeal.Hand.r_main_v67 Cert.ReferenceIdeal.Hand.r_main_v67
  rw [eq_main_v60, eq_main_v66] <;> rfl
theorem eq_main_call12_c : Cert.KernelIdeal.Hand.r_main_call12_c (F := Ideal) = Cert.ReferenceIdeal.Hand.r_main_call12_c (F := Ideal) := by
  funext a0 a1 a2 a3 a4
  unfold Cert.KernelIdeal.Hand.r_main_call12_c Cert.ReferenceIdeal.Hand.r_main_call12_c
  rfl
theorem eq_main_call12_v0 : Cert.KernelIdeal.Hand.r_main_call12_v0 (F := Ideal) = Cert.ReferenceIdeal.Hand.r_main_call12_v0 (F := Ideal) := by
  funext a0 a1 a2 a3 a4
  unfold Cert.KernelIdeal.Hand.r_main_call12_v0 Cert.ReferenceIdeal.Hand.r_main_call12_v0
  rw [eq_main_call12_c] <;> rfl
theorem eq_main_call12_v1 : Cert.KernelIdeal.Hand.r_main_call12_v1 (F := Ideal) = Cert.ReferenceIdeal.Hand.r_main_call12_v1 (F := Ideal) := by
  funext a0 a1 a2 a3 a4
  unfold Cert.KernelIdeal.Hand.r_main_call12_v1 Cert.ReferenceIdeal.Hand.r_main_call12_v1
  rw [eq_main_v65, eq_main_call12_v0] <;> rfl
theorem eq_main_v68 : Cert.KernelIdeal.Hand.r_main_v68 (F := Ideal) = Cert.ReferenceIdeal.Hand.r_main_v68 (F := Ideal) := by
  funext a0 a1 a2 a3 a4
  unfold Cert.KernelIdeal.Hand.r_main_v68 Cert.ReferenceIdeal.Hand.r_main_v68
  rw [eq_main_call12_v1, eq_main_v67, eq_main_v60] <;> rfl
theorem eq_main_v69 : Cert.KernelIdeal.Hand.r_main_v69 (F := Ideal) = Cert.ReferenceIdeal.Hand.r_main_v69 (F := Ideal) := by
  funext a0 a1 a2 a3 a4
  unfold Cert.KernelIdeal.Hand.r_main_v69 Cert.ReferenceIdeal.Hand.r_main_v69
  rw [eq_main_v61] <;> rfl
theorem eq_main_c_23 : Cert.KernelIdeal.Hand.r_main_c_23 (F := Ideal) = Cert.ReferenceIdeal.Hand.r_main_c_23 (F := Ideal) := by
  funext a0 a1 a2 a3 a4
  unfold Cert.KernelIdeal.Hand.r_main_c_23 Cert.ReferenceIdeal.Hand.r_main_c_23
  rfl
theorem eq_main_v70 : Cert.KernelIdeal.Hand.r_main_v70 (F := Ideal) = Cert.ReferenceIdeal.Hand.r_main_v70 (F := Ideal) := by
  funext a0 a1 a2 a3 a4
  unfold Cert.KernelIdeal.Hand.r_main_v70 Cert.ReferenceIdeal.Hand.r_main_v70
  rw [eq_main_c_23] <;> rfl
theorem eq_main_v71 : Cert.KernelIdeal.Hand.r_main_v71 (F := Ideal) = Cert.ReferenceIdeal.Hand.r_main_v71 (F := Ideal) := by
  funext a0 a1 a2 a3 a4
  unfold Cert.KernelIdeal.Hand.r_main_v71 Cert.ReferenceIdeal.Hand.r_main_v71
  rw [eq_main_v63, eq_main_v70] <;> rfl
theorem eq_main_c_24 : Cert.KernelIdeal.Hand.r_main_c_24 (F := Ideal) = Cert.ReferenceIdeal.Hand.r_main_c_24 (F := Ideal) := by
  funext a0 a1 a2 a3 a4
  unfold Cert.KernelIdeal.Hand.r_main_c_24 Cert.ReferenceIdeal.Hand.r_main_c_24
  rfl
theorem eq_main_v72 : Cert.KernelIdeal.Hand.r_main_v72 (F := Ideal) = Cert.ReferenceIdeal.Hand.r_main_v72 (F := Ideal) := by
  funext a0 a1 a2 a3 a4
  unfold Cert.KernelIdeal.Hand.r_main_v72 Cert.ReferenceIdeal.Hand.r_main_v72
  rw [eq_main_c_24] <;> rfl
theorem eq_main_v73 : Cert.KernelIdeal.Hand.r_main_v73 (F := Ideal) = Cert.ReferenceIdeal.Hand.r_main_v73 (F := Ideal) := by
  funext a0 a1 a2 a3 a4
  unfold Cert.KernelIdeal.Hand.r_main_v73 Cert.ReferenceIdeal.Hand.r_main_v73
  rw [eq_main_v71, eq_main_v72] <;> rfl
theorem eq_main_v74 : Cert.KernelIdeal.Hand.r_main_v74 (F := Ideal) = Cert.ReferenceIdeal.Hand.r_main_v74 (F := Ideal) := by
  funext a0 a1 a2 a3 a4
  unfold Cert.KernelIdeal.Hand.r_main_v74 Cert.ReferenceIdeal.Hand.r_main_v74
  rw [eq_main_v69] <;> rfl
theorem eq_main_v75 : Cert.KernelIdeal.Hand.r_main_v75 (F := Ideal) = Cert.ReferenceIdeal.Hand.r_main_v75 (F := Ideal) := by
  funext a0 a1 a2 a3 a4
  unfold Cert.KernelIdeal.Hand.r_main_v75 Cert.ReferenceIdeal.Hand.r_main_v75
  rw [eq_main_v68, eq_main_v74] <;> rfl
theorem eq_main_call13_c : Cert.KernelIdeal.Hand.r_main_call13_c (F := Ideal) = Cert.ReferenceIdeal.Hand.r_main_call13_c (F := Ideal) := by
  funext a0 a1 a2 a3 a4
  unfold Cert.KernelIdeal.Hand.r_main_call13_c Cert.ReferenceIdeal.Hand.r_main_call13_c
  rfl
theorem eq_main_call13_v0 : Cert.KernelIdeal.Hand.r_main_call13_v0 (F := Ideal) = Cert.ReferenceIdeal.Hand.r_main_call13_v0 (F := Ideal) := by
  funext a0 a1 a2 a3 a4
  unfold Cert.KernelIdeal.Hand.r_main_call13_v0 Cert.ReferenceIdeal.Hand.r_main_call13_v0
  rw [eq_main_call13_c] <;> rfl
theorem eq_main_call13_v1 : Cert.KernelIdeal.Hand.r_main_call13_v1 (F := Ideal) = Cert.ReferenceIdeal.Hand.r_main_call13_v1 (F := Ideal) := by
  funext a0 a1 a2 a3 a4
  unfold Cert.KernelIdeal.Hand.r_main_call13_v1 Cert.ReferenceIdeal.Hand.r_main_call13_v1
  rw [eq_main_v73, eq_main_call13_v0] <;> rfl
theorem eq_main_v76 : Cert.KernelIdeal.Hand.r_main_v76 (F := Ideal) = Cert.ReferenceIdeal.Hand.r_main_v76 (F := Ideal) := by
  funext a0 a1 a2 a3 a4
  unfold Cert.KernelIdeal.Hand.r_main_v76 Cert.ReferenceIdeal.Hand.r_main_v76
  rw [eq_main_call13_v1, eq_main_v75, eq_main_v68] <;> rfl
theorem eq_main_v77 : Cert.KernelIdeal.Hand.r_main_v77 (F := Ideal) = Cert.ReferenceIdeal.Hand.r_main_v77 (F := Ideal) := by
  funext a0 a1 a2 a3 a4
  unfold Cert.KernelIdeal.Hand.r_main_v77 Cert.ReferenceIdeal.Hand.r_main_v77
  rw [eq_main_v69] <;> rfl
theorem eq_main_c_25 : Cert.KernelIdeal.Hand.r_main_c_25 (F := Ideal) = Cert.ReferenceIdeal.Hand.r_main_c_25 (F := Ideal) := by
  funext a0 a1 a2 a3 a4
  unfold Cert.KernelIdeal.Hand.r_main_c_25 Cert.ReferenceIdeal.Hand.r_main_c_25
  rfl
theorem eq_main_v78 : Cert.KernelIdeal.Hand.r_main_v78 (F := Ideal) = Cert.ReferenceIdeal.Hand.r_main_v78 (F := Ideal) := by
  funext a0 a1 a2 a3 a4
  unfold Cert.KernelIdeal.Hand.r_main_v78 Cert.ReferenceIdeal.Hand.r_main_v78
  rw [eq_main_c_25] <;> rfl
theorem eq_main_v79 : Cert.KernelIdeal.Hand.r_main_v79 (F := Ideal) = Cert.ReferenceIdeal.Hand.r_main_v79 (F := Ideal) := by
  funext a0 a1 a2 a3 a4
  unfold Cert.KernelIdeal.Hand.r_main_v79 Cert.ReferenceIdeal.Hand.r_main_v79
  rw [eq_main_v71, eq_main_v78] <;> rfl
theorem eq_main_v80 : Cert.KernelIdeal.Hand.r_main_v80 (F := Ideal) = Cert.ReferenceIdeal.Hand.r_main_v80 (F := Ideal) := by
  funext a0 a1 a2 a3 a4
  unfold Cert.KernelIdeal.Hand.r_main_v80 Cert.ReferenceIdeal.Hand.r_main_v80
  rw [eq_main_v21] <;> rfl
theorem eq_main_call14_v0 : Cert.KernelIdeal.Hand.r_main_call14_v0 (F := Ideal) = Cert.ReferenceIdeal.Hand.r_main_call14_v0 (F := Ideal) := by
  funext a0 a1 a2 a3 a4
  unfold Cert.KernelIdeal.Hand.r_main_call14_v0 Cert.ReferenceIdeal.Hand.r_main_call14_v0
  rw [eq_main_v76] <;> rfl
theorem eq_main_call14_v1 : Cert.KernelIdeal.Hand.r_main_call14_v1 (F := Ideal) = Cert.ReferenceIdeal.Hand.r_main_call14_v1 (F := Ideal) := by
  funext a0 a1 a2 a3 a4
  unfold Cert.KernelIdeal.Hand.r_main_call14_v1 Cert.ReferenceIdeal.Hand.r_main_call14_v1
  rw [eq_main_v80] <;> rfl
theorem eq_main_call14_v2 : Cert.KernelIdeal.Hand.r_main_call14_v2 (F := Ideal) = Cert.ReferenceIdeal.Hand.r_main_call14_v2 (F := Ideal) := by
  funext a0 a1 a2 a3 a4
  unfold Cert.KernelIdeal.Hand.r_main_call14_v2 Cert.ReferenceIdeal.Hand.r_main_call14_v2
  rw [eq_main_call14_v0] <;> rfl
theorem eq_main_call14_v3 : Cert.KernelIdeal.Hand.r_main_call14_v3 (F := Ideal) = Cert.ReferenceIdeal.Hand.r_main_call14_v3 (F := Ideal) := by
  funext a0 a1 a2 a3 a4
  unfold Cert.KernelIdeal.Hand.r_main_call14_v3 Cert.ReferenceIdeal.Hand.r_main_call14_v3
  rw [eq_main_call14_v1, eq_main_call14_v2] <;> rfl
theorem eq_main_call14_v4 : Cert.KernelIdeal.Hand.r_main_call14_v4 (F := Ideal) = Cert.ReferenceIdeal.Hand.r_main_call14_v4 (F := Ideal) := by
  funext a0 a1 a2 a3 a4
  unfold Cert.KernelIdeal.Hand.r_main_call14_v4 Cert.ReferenceIdeal.Hand.r_main_call14_v4
  rw [eq_main_v80] <;> rfl
theorem eq_main_call14_v5 : Cert.KernelIdeal.Hand.r_main_call14_v5 (F := Ideal) = Cert.ReferenceIdeal.Hand.r_main_call14_v5 (F := Ideal) := by
  funext a0 a1 a2 a3 a4
  unfold Cert.KernelIdeal.Hand.r_main_call14_v5 Cert.ReferenceIdeal.Hand.r_main_call14_v5
  rw [eq_main_call14_v0] <;> rfl
theorem eq_main_call14_v6 : Cert.KernelIdeal.Hand.r_main_call14_v6 (F := Ideal) = Cert.ReferenceIdeal.Hand.r_main_call14_v6 (F := Ideal) := by
  funext a0 a1 a2 a3 a4
  unfold Cert.KernelIdeal.Hand.r_main_call14_v6 Cert.ReferenceIdeal.Hand.r_main_call14_v6
  rw [eq_main_call14_v4] <;> rfl
theorem eq_main_call14_v7 : Cert.KernelIdeal.Hand.r_main_call14_v7 (F := Ideal) = Cert.ReferenceIdeal.Hand.r_main_call14_v7 (F := Ideal) := by
  funext a0 a1 a2 a3 a4
  unfold Cert.KernelIdeal.Hand.r_main_call14_v7 Cert.ReferenceIdeal.Hand.r_main_call14_v7
  rw [eq_main_call14_v5] <;> rfl
theorem eq_main_call14_v8 : Cert.KernelIdeal.Hand.r_main_call14_v8 (F := Ideal) = Cert.ReferenceIdeal.Hand.r_main_call14_v8 (F := Ideal) := by
  funext a0 a1 a2 a3 a4
  unfold Cert.KernelIdeal.Hand.r_main_call14_v8 Cert.ReferenceIdeal.Hand.r_main_call14_v8
  rw [eq_main_call14_v6, eq_main_call14_v7] <;> rfl
theorem eq_main_call14_v9 : Cert.KernelIdeal.Hand.r_main_call14_v9 (F := Ideal) = Cert.ReferenceIdeal.Hand.r_main_call14_v9 (F := Ideal) := by
  funext a0 a1 a2 a3 a4
  unfold Cert.KernelIdeal.Hand.r_main_call14_v9 Cert.ReferenceIdeal.Hand.r_main_call14_v9
  rw [eq_main_v80] <;> rfl
theorem eq_main_call14_v10 : Cert.KernelIdeal.Hand.r_main_call14_v10 (F := Ideal) = Cert.ReferenceIdeal.Hand.r_main_call14_v10 (F := Ideal) := by
  funext a0 a1 a2 a3 a4
  unfold Cert.KernelIdeal.Hand.r_main_call14_v10 Cert.ReferenceIdeal.Hand.r_main_call14_v10
  rw [eq_main_call14_v0] <;> rfl
theorem eq_main_call14_v11 : Cert.KernelIdeal.Hand.r_main_call14_v11 (F := Ideal) = Cert.ReferenceIdeal.Hand.r_main_call14_v11 (F := Ideal) := by
  funext a0 a1 a2 a3 a4
  unfold Cert.KernelIdeal.Hand.r_main_call14_v11 Cert.ReferenceIdeal.Hand.r_main_call14_v11
  rw [eq_main_call14_v9, eq_main_call14_v10] <;> rfl
theorem eq_main_call14_c : Cert.KernelIdeal.Hand.r_main_call14_c (F := Ideal) = Cert.ReferenceIdeal.Hand.r_main_call14_c (F := Ideal) := by
  funext a0 a1 a2 a3 a4
  unfold Cert.KernelIdeal.Hand.r_main_call14_c Cert.ReferenceIdeal.Hand.r_main_call14_c
  rfl
theorem eq_main_call14_v12 : Cert.KernelIdeal.Hand.r_main_call14_v12 (F := Ideal) = Cert.ReferenceIdeal.Hand.r_main_call14_v12 (F := Ideal) := by
  funext a0 a1 a2 a3 a4
  unfold Cert.KernelIdeal.Hand.r_main_call14_v12 Cert.ReferenceIdeal.Hand.r_main_call14_v12
  rw [eq_main_call14_c] <;> rfl
theorem eq_main_call14_v13 : Cert.KernelIdeal.Hand.r_main_call14_v13 (F := Ideal) = Cert.ReferenceIdeal.Hand.r_main_call14_v13 (F := Ideal) := by
  funext a0 a1 a2 a3 a4
  unfold Cert.KernelIdeal.Hand.r_main_call14_v13 Cert.ReferenceIdeal.Hand.r_main_call14_v13
  rw [eq_main_call14_v11, eq_main_call14_v12] <;> rfl
theorem eq_main_call14_v14 : Cert.KernelIdeal.Hand.r_main_call14_v14 (F := Ideal) = Cert.ReferenceIdeal.Hand.r_main_call14_v14 (F := Ideal) := by
  funext a0 a1 a2 a3 a4
  unfold Cert.KernelIdeal.Hand.r_main_call14_v14 Cert.ReferenceIdeal.Hand.r_main_call14_v14
  rw [eq_main_call14_v8, eq_main_call14_v13] <;> rfl
theorem eq_main_call14_c_0 : Cert.KernelIdeal.Hand.r_main_call14_c_0 (F := Ideal) = Cert.ReferenceIdeal.Hand.r_main_call14_c_0 (F := Ideal) := by
  funext a0 a1 a2 a3 a4
  unfold Cert.KernelIdeal.Hand.r_main_call14_c_0 Cert.ReferenceIdeal.Hand.r_main_call14_c_0
  rfl
theorem eq_main_call14_v15 : Cert.KernelIdeal.Hand.r_main_call14_v15 (F := Ideal) = Cert.ReferenceIdeal.Hand.r_main_call14_v15 (F := Ideal) := by
  funext a0 a1 a2 a3 a4
  unfold Cert.KernelIdeal.Hand.r_main_call14_v15 Cert.ReferenceIdeal.Hand.r_main_call14_v15
  rw [eq_main_call14_c_0] <;> rfl
theorem eq_main_call14_v16 : Cert.KernelIdeal.Hand.r_main_call14_v16 (F := Ideal) = Cert.ReferenceIdeal.Hand.r_main_call14_v16 (F := Ideal) := by
  funext a0 a1 a2 a3 a4
  unfold Cert.KernelIdeal.Hand.r_main_call14_v16 Cert.ReferenceIdeal.Hand.r_main_call14_v16
  rw [eq_main_call14_v3, eq_main_call14_v15] <;> rfl
theorem eq_main_v81 : Cert.KernelIdeal.Hand.r_main_v81 (F := Ideal) = Cert.ReferenceIdeal.Hand.r_main_v81 (F := Ideal) := by
  funext a0 a1 a2 a3 a4
  unfold Cert.KernelIdeal.Hand.r_main_v81 Cert.ReferenceIdeal.Hand.r_main_v81
  rw [eq_main_call14_v14, eq_main_call14_v16, eq_main_call14_v3] <;> rfl
theorem eq_main_c_26 : Cert.KernelIdeal.Hand.r_main_c_26 (F := Ideal) = Cert.ReferenceIdeal.Hand.r_main_c_26 (F := Ideal) := by
  funext a0 a1 a2 a3 a4
  unfold Cert.KernelIdeal.Hand.r_main_c_26 Cert.ReferenceIdeal.Hand.r_main_c_26
  rfl
theorem eq_main_call15_v0 : Cert.KernelIdeal.Hand.r_main_call15_v0 (F := Ideal) = Cert.ReferenceIdeal.Hand.r_main_call15_v0 (F := Ideal) := by
  funext a0 a1 a2 a3 a4
  unfold Cert.KernelIdeal.Hand.r_main_call15_v0 Cert.ReferenceIdeal.Hand.r_main_call15_v0
  rw [eq_main_c_26] <;> rfl
theorem eq_main_call15_c : Cert.KernelIdeal.Hand.r_main_call15_c (F := Ideal) = Cert.ReferenceIdeal.Hand.r_main_call15_c (F := Ideal) := by
  funext a0 a1 a2 a3 a4
  unfold Cert.KernelIdeal.Hand.r_main_call15_c Cert.ReferenceIdeal.Hand.r_main_call15_c
  rfl
theorem eq_main_call15_v1 : Cert.KernelIdeal.Hand.r_main_call15_v1 (F := Ideal) = Cert.ReferenceIdeal.Hand.r_main_call15_v1 (F := Ideal) := by
  funext a0 a1 a2 a3 a4
  unfold Cert.KernelIdeal.Hand.r_main_call15_v1 Cert.ReferenceIdeal.Hand.r_main_call15_v1
  rw [eq_main_call15_v0, eq_main_call15_c] <;> rfl
theorem eq_main_call15_c_0 : Cert.KernelIdeal.Hand.r_main_call15_c_0 (F := Ideal) = Cert.ReferenceIdeal.Hand.r_main_call15_c_0 (F := Ideal) := by
  funext a0 a1 a2 a3 a4
  unfold Cert.KernelIdeal.Hand.r_main_call15_c_0 Cert.ReferenceIdeal.Hand.r_main_call15_c_0
  rfl
theorem eq_main_call15_v2 : Cert.KernelIdeal.Hand.r_main_call15_v2 (F := Ideal) = Cert.ReferenceIdeal.Hand.r_main_call15_v2 (F := Ideal) := by
  funext a0 a1 a2 a3 a4
  unfold Cert.KernelIdeal.Hand.r_main_call15_v2 Cert.ReferenceIdeal.Hand.r_main_call15_v2
  rw [eq_main_call15_v1, eq_main_call15_c_0, eq_main_call15_v0] <;> rfl
theorem eq_main_call15_v3 : Cert.KernelIdeal.Hand.r_main_call15_v3 (F := Ideal) = Cert.ReferenceIdeal.Hand.r_main_call15_v3 (F := Ideal) := by
  funext a0 a1 a2 a3 a4
  unfold Cert.KernelIdeal.Hand.r_main_call15_v3 Cert.ReferenceIdeal.Hand.r_main_call15_v3
  rw [eq_main_call15_v2] <;> rfl
theorem eq_main_call15_v4 : Cert.KernelIdeal.Hand.r_main_call15_v4 (F := Ideal) = Cert.ReferenceIdeal.Hand.r_main_call15_v4 (F := Ideal) := by
  funext a0 a1 a2 a3 a4
  unfold Cert.KernelIdeal.Hand.r_main_call15_v4 Cert.ReferenceIdeal.Hand.r_main_call15_v4
  rw [eq_main_v81, eq_main_call15_v3] <;> rfl
theorem eq_main_call15_c_1 : Cert.KernelIdeal.Hand.r_main_call15_c_1 (F := Ideal) = Cert.ReferenceIdeal.Hand.r_main_call15_c_1 (F := Ideal) := by
  funext a0 a1 a2 a3 a4
  unfold Cert.KernelIdeal.Hand.r_main_call15_c_1 Cert.ReferenceIdeal.Hand.r_main_call15_c_1
  rfl
theorem eq_main_call15_v5 : Cert.KernelIdeal.Hand.r_main_call15_v5 (F := Ideal) = Cert.ReferenceIdeal.Hand.r_main_call15_v5 (F := Ideal) := by
  funext a0 a1 a2 a3 a4
  unfold Cert.KernelIdeal.Hand.r_main_call15_v5 Cert.ReferenceIdeal.Hand.r_main_call15_v5
  rw [eq_main_call15_c_1] <;> rfl
theorem eq_main_call15_v6 : Cert.KernelIdeal.Hand.r_main_call15_v6 (F := Ideal) = Cert.ReferenceIdeal.Hand.r_main_call15_v6 (F := Ideal) := by
  funext a0 a1 a2 a3 a4
  unfold Cert.KernelIdeal.Hand.r_main_call15_v6 Cert.ReferenceIdeal.Hand.r_main_call15_v6
  rw [eq_main_call15_v4, eq_main_call15_v5] <;> rfl
theorem eq_main_call15_c_2 : Cert.KernelIdeal.Hand.r_main_call15_c_2 (F := Ideal) = Cert.ReferenceIdeal.Hand.r_main_call15_c_2 (F := Ideal) := by
  funext a0 a1 a2 a3 a4
  unfold Cert.KernelIdeal.Hand.r_main_call15_c_2 Cert.ReferenceIdeal.Hand.r_main_call15_c_2
  rfl
theorem eq_main_call15_v7 : Cert.KernelIdeal.Hand.r_main_call15_v7 (F := Ideal) = Cert.ReferenceIdeal.Hand.r_main_call15_v7 (F := Ideal) := by
  funext a0 a1 a2 a3 a4
  unfold Cert.KernelIdeal.Hand.r_main_call15_v7 Cert.ReferenceIdeal.Hand.r_main_call15_v7
  rw [eq_main_call15_c_2] <;> rfl
theorem eq_main_call15_v8 : Cert.KernelIdeal.Hand.r_main_call15_v8 (F := Ideal) = Cert.ReferenceIdeal.Hand.r_main_call15_v8 (F := Ideal) := by
  funext a0 a1 a2 a3 a4
  unfold Cert.KernelIdeal.Hand.r_main_call15_v8 Cert.ReferenceIdeal.Hand.r_main_call15_v8
  rw [eq_main_call15_v4, eq_main_call15_v7] <;> rfl
theorem eq_main_call15_c_3 : Cert.KernelIdeal.Hand.r_main_call15_c_3 (F := Ideal) = Cert.ReferenceIdeal.Hand.r_main_call15_c_3 (F := Ideal) := by
  funext a0 a1 a2 a3 a4
  unfold Cert.KernelIdeal.Hand.r_main_call15_c_3 Cert.ReferenceIdeal.Hand.r_main_call15_c_3
  rfl
theorem eq_main_call15_v9 : Cert.KernelIdeal.Hand.r_main_call15_v9 (F := Ideal) = Cert.ReferenceIdeal.Hand.r_main_call15_v9 (F := Ideal) := by
  funext a0 a1 a2 a3 a4
  unfold Cert.KernelIdeal.Hand.r_main_call15_v9 Cert.ReferenceIdeal.Hand.r_main_call15_v9
  rw [eq_main_call15_v2, eq_main_call15_c_3] <;> rfl
theorem eq_main_call15_v10 : Cert.KernelIdeal.Hand.r_main_call15_v10 (F := Ideal) = Cert.ReferenceIdeal.Hand.r_main_call15_v10 (F := Ideal) := by
  funext a0 a1 a2 a3 a4
  unfold Cert.KernelIdeal.Hand.r_main_call15_v10 Cert.ReferenceIdeal.Hand.r_main_call15_v10
  rw [eq_main_call15_v9] <;> rfl
theorem eq_main_call15_v11 : Cert.KernelIdeal.Hand.r_main_call15_v11 (F := Ideal) = Cert.ReferenceIdeal.Hand.r_main_call15_v11 (F := Ideal) := by
  funext a0 a1 a2 a3 a4
  unfold Cert.KernelIdeal.Hand.r_main_call15_v11 Cert.ReferenceIdeal.Hand.r_main_call15_v11
  rw [eq_main_call15_v8, eq_main_call15_v10] <;> rfl
theorem eq_main_call15_v12 : Cert.KernelIdeal.Hand.r_main_call15_v12 (F := Ideal) = Cert.ReferenceIdeal.Hand.r_main_call15_v12 (F := Ideal) := by
  funext a0 a1 a2 a3 a4
  unfold Cert.KernelIdeal.Hand.r_main_call15_v12 Cert.ReferenceIdeal.Hand.r_main_call15_v12
  rw [eq_main_call15_v11, eq_main_call15_v6] <;> rfl
theorem eq_main_call15_v13 : Cert.KernelIdeal.Hand.r_main_call15_v13 (F := Ideal) = Cert.ReferenceIdeal.Hand.r_main_call15_v13 (F := Ideal) := by
  funext a0 a1 a2 a3 a4
  unfold Cert.KernelIdeal.Hand.r_main_call15_v13 Cert.ReferenceIdeal.Hand.r_main_call15_v13
  rw [eq_main_call15_v2] <;> rfl
theorem eq_main_call15_v14 : Cert.KernelIdeal.Hand.r_main_call15_v14 (F := Ideal) = Cert.ReferenceIdeal.Hand.r_main_call15_v14 (F := Ideal) := by
  funext a0 a1 a2 a3 a4
  unfold Cert.KernelIdeal.Hand.r_main_call15_v14 Cert.ReferenceIdeal.Hand.r_main_call15_v14
  rw [eq_main_call15_v4, eq_main_call15_v13] <;> rfl
theorem eq_main_v82 : Cert.KernelIdeal.Hand.r_main_v82 (F := Ideal) = Cert.ReferenceIdeal.Hand.r_main_v82 (F := Ideal) := by
  funext a0 a1 a2 a3 a4
  unfold Cert.KernelIdeal.Hand.r_main_v82 Cert.ReferenceIdeal.Hand.r_main_v82
  rw [eq_main_call15_v12, eq_main_call15_v14, eq_main_call15_v4] <;> rfl
theorem eq_main_v83 : Cert.KernelIdeal.Hand.r_main_v83 (F := Ideal) = Cert.ReferenceIdeal.Hand.r_main_v83 (F := Ideal) := by
  funext a0 a1 a2 a3 a4
  unfold Cert.KernelIdeal.Hand.r_main_v83 Cert.ReferenceIdeal.Hand.r_main_v83
  rw [eq_main_v82] <;> rfl
theorem eq_main_v84 : Cert.KernelIdeal.Hand.r_main_v84 (F := Ideal) = Cert.ReferenceIdeal.Hand.r_main_v84 (F := Ideal) := by
  funext a0 a1 a2 a3 a4
  unfold Cert.KernelIdeal.Hand.r_main_v84 Cert.ReferenceIdeal.Hand.r_main_v84
  rw [eq_main_v21] <;> rfl
theorem eq_main_c_27 : Cert.KernelIdeal.Hand.r_main_c_27 (F := Ideal) = Cert.ReferenceIdeal.Hand.r_main_c_27 (F := Ideal) := by
  funext a0 a1 a2 a3 a4
  unfold Cert.KernelIdeal.Hand.r_main_c_27 Cert.ReferenceIdeal.Hand.r_main_c_27
  rfl
theorem eq_main_v85 : Cert.KernelIdeal.Hand.r_main_v85 (F := Ideal) = Cert.ReferenceIdeal.Hand.r_main_v85 (F := Ideal) := by
  funext a0 a1 a2 a3 a4
  unfold Cert.KernelIdeal.Hand.r_main_v85 Cert.ReferenceIdeal.Hand.r_main_v85
  rw [eq_main_v21, eq_main_c_27] <;> rfl
theorem eq_main_v86 : Cert.KernelIdeal.Hand.r_main_v86 (F := Ideal) = Cert.ReferenceIdeal.Hand.r_main_v86 (F := Ideal) := by
  funext a0 a1 a2 a3 a4
  unfold Cert.KernelIdeal.Hand.r_main_v86 Cert.ReferenceIdeal.Hand.r_main_v86
  rw [eq_main_v85] <;> rfl
theorem eq_main_v87 : Cert.KernelIdeal.Hand.r_main_v87 (F := Ideal) = Cert.ReferenceIdeal.Hand.r_main_v87 (F := Ideal) := by
  funext a0 a1 a2 a3 a4
  unfold Cert.KernelIdeal.Hand.r_main_v87 Cert.ReferenceIdeal.Hand.r_main_v87
  rw [eq_main_v86] <;> rfl
theorem eq_main_cst_28 : Cert.KernelIdeal.Hand.r_main_cst_28 (F := Ideal) = Cert.ReferenceIdeal.Hand.r_main_cst_28 (F := Ideal) := by
  funext a0 a1 a2 a3 a4
  unfold Cert.KernelIdeal.Hand.r_main_cst_28 Cert.ReferenceIdeal.Hand.r_main_cst_28
  rfl
theorem eq_main_v88 : Cert.KernelIdeal.Hand.r_main_v88 (F := Ideal) = Cert.ReferenceIdeal.Hand.r_main_v88 (F := Ideal) := by
  funext a0 a1 a2 a3 a4
  unfold Cert.KernelIdeal.Hand.r_main_v88 Cert.ReferenceIdeal.Hand.r_main_v88
  rw [eq_main_cst_28] <;> rfl
theorem eq_main_v89 : Cert.KernelIdeal.Hand.r_main_v89 (F := Ideal) = Cert.ReferenceIdeal.Hand.r_main_v89 (F := Ideal) := by
  funext a0 a1 a2 a3 a4
  unfold Cert.KernelIdeal.Hand.r_main_v89 Cert.ReferenceIdeal.Hand.r_main_v89
  rw [eq_main_v87, eq_main_v88] <;> rfl
theorem eq_main_v90 : Cert.KernelIdeal.Hand.r_main_v90 (F := Ideal) = Cert.ReferenceIdeal.Hand.r_main_v90 (F := Ideal) := by
  funext a0 a1 a2 a3 a4
  unfold Cert.KernelIdeal.Hand.r_main_v90 Cert.ReferenceIdeal.Hand.r_main_v90
  rw [eq_main_v89] <;> rfl
theorem eq_main_v91 : Cert.KernelIdeal.Hand.r_main_v91 (F := Ideal) = Cert.ReferenceIdeal.Hand.r_main_v91 (F := Ideal) := by
  funext a0 a1 a2 a3 a4
  unfold Cert.KernelIdeal.Hand.r_main_v91 Cert.ReferenceIdeal.Hand.r_main_v91
  rw [eq_main_v84, eq_main_v90] <;> rfl
theorem eq_main_v92 : Cert.KernelIdeal.Hand.r_main_v92 (F := Ideal) = Cert.ReferenceIdeal.Hand.r_main_v92 (F := Ideal) := by
  funext a0 a1 a2 a3 a4
  unfold Cert.KernelIdeal.Hand.r_main_v92 Cert.ReferenceIdeal.Hand.r_main_v92
  rw [eq_main_v23] <;> rfl
theorem eq_main_v93 : Cert.KernelIdeal.Hand.r_main_v93 (F := Ideal) = Cert.ReferenceIdeal.Hand.r_main_v93 (F := Ideal) := by
  funext a0 a1 a2 a3 a4
  unfold Cert.KernelIdeal.Hand.r_main_v93 Cert.ReferenceIdeal.Hand.r_main_v93
  rw [eq_main_v83] <;> rfl
theorem eq_main_v94 : Cert.KernelIdeal.Hand.r_main_v94 (F := Ideal) = Cert.ReferenceIdeal.Hand.r_main_v94 (F := Ideal) := by
  funext a0 a1 a2 a3 a4
  unfold Cert.KernelIdeal.Hand.r_main_v94 Cert.ReferenceIdeal.Hand.r_main_v94
  rw [eq_main_v92, eq_main_v93, eq_main_v91, eq_main_v24] <;> rfl

/-- The network's input is the same function of the five arguments in the two programs. -/
theorem step_eq : Cert.KernelIdeal.Hand.stepFn (F := Ideal) = Cert.ReferenceIdeal.Hand.stepFn (F := Ideal) := by
  funext a0 a1 a2 a3 a4
  unfold Cert.KernelIdeal.Hand.stepFn Cert.ReferenceIdeal.Hand.stepFn
  rw [eq_main_v94]

end Cert.Hand
-- ==== Proof.BridgeSums.lean ====
import Idealize.ShloMosaic.Lib.ValueIdx
import Idealize.ShloMosaic.PureOps.Ideal.Laws

/-!
# Regrouping finite sums

Two facts about sums in a commutative additive monoid, with nothing about the programs in them.

* A sum over `Fin N`, `N = n * m`, is the sum over the `n` blocks of the sums inside each block,
  where position `j` of block `t` is `t * m + j`.
* A contraction with one contracted axis — rows times columns — read at the output position `(b, j)`
  is `∑ t, l (b, t) * r (t, j)` over the coordinate `t` of the contracted axis.
-/

open scoped BigOperators

namespace Cert.Hand

open Idealize.ShloMosaic Idealize.ShloMosaic.ValueIdx

/-- A sum over `Fin N` with `N = n * m`, block by block: position `j` of block `t` is `t * m + j`. -/
theorem sum_fin_blocks {M : Type*} [AddCommMonoid M] (n m N : ℕ) (h : n * m = N) (f : Fin N → M) :
    ∑ x : Fin N, f x
      = ∑ t : Fin n, ∑ j : Fin m, f ⟨t.val * m + j.val, by
          have ht := t.isLt; have hj := j.isLt
          calc t.val * m + j.val < t.val * m + m := by omega
            _ = (t.val + 1) * m := by ring
            _ ≤ n * m := Nat.mul_le_mul_right m ht
            _ = N := h⟩ := by
  subst h
  rw [← Equiv.sum_comp finProdFinEquiv f, Fintype.sum_prod_type]
  refine Finset.sum_congr rfl fun t _ => Finset.sum_congr rfl fun j _ => congrArg f (Fin.ext ?_)
  show j.val + m * t.val = t.val * m + j.val
  rw [Nat.mul_comm, Nat.add_comm]

/-- A one-axis contraction of a `[M, K]` array with a `[K, N]` array, read at the output position `(b, j)`: the sum
    over the contracted coordinate `t` of `l (b, t) * r (t, j)`.  The four hypotheses say which coordinate of each
    operand index comes from the output position and which from the contraction position. -/
theorem contraction_ix2 {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal) (b : Fin M) (j : Fin N) :
    ∑ q : D.contr.Idx, l (D.lhsIdx (ix2 b j) q) * r (D.rhsIdx (ix2 b j) q) = ∑ t : Fin K, l (ix2 b t) * r (ix2 t j) := by
  rw [← Equiv.sum_comp (contrEquiv1 D K hr hs).symm]
  refine Finset.sum_congr rfl fun t _ => ?_
  have el : D.lhsIdx (ix2 b j) ((contrEquiv1 D K hr hs).symm t) = ix2 b t := by
    funext a
    refine Fin.ext ?_
    match a with
    | ⟨0, _⟩ => exact hl0 _ _
    | ⟨1, _⟩ => exact (hl1 _ _).trans (contrEquiv1_symm_val D K hr hs t)
  have er : D.rhsIdx (ix2 b j) ((contrEquiv1 D K hr hs).symm t) = ix2 t j := by
    funext a
    refine Fin.ext ?_
    match a with
    | ⟨0, _⟩ => exact (hr0 _ _).trans (contrEquiv1_symm_val D K hr hs t)
    | ⟨1, _⟩ => exact hr1 _ _
  rw [el, er]

/-- The bit pattern of the single-precision one is the extended real `1`. -/
theorem ofBits_one_f32 : Ideal.ofBits .f32 0x3F800000#32 = 1 :=
  IdealRules.sign_bit.ideal_onePat .f32

end Cert.Hand
-- ==== Proof.BridgePayload.lean ====
import proofs.«103122_j77446850281992_2_alg».proof.Proof.Spec
import proofs.«103122_j77446850281992_2_alg».proof.Proof.BridgeSums
import Idealize.ShloMosaic.Lib.ValueLayout

/-!
# One grid step's arithmetic, read at an index

On the extended reals a change of float format is the identity and a matrix product into a zero accumulator is the plain
sum of products.  So, entry by entry:

* the accumulators start at `0`;
* one step adds to the accumulator at `(b, j)` the sum over the 1280 positions `t` of the block of
  `x (b, t) * w (t, j)`;
* the last step's output at `(b, v)` is the sum over the 512 positions `j` of the half of
  `((a (b, j) + β (j)) * logistic (g (b, j) + γ (j))) * w2 (j, v)`.
-/

open scoped BigOperators

namespace Cert.Hand

open Idealize.ShloMosaic Idealize.ShloMosaic.ValueIdx
open Cert.KernelIdeal (S256x128 S1x256x128 S256x1280 S1280x512 S512x128 S1x512 S256x512)
open Cert.KernelIdeal.Gen (k0_pay1 k0_pay2 k0_pay3 k0_pay4 k0_pay5 k0_pay6)

/-- The product of a `[256, 1280]` block with a `[1280, 512]` block into a zero accumulator, at `(b, j)`. -/
theorem matmul_1280_apply (l : FVec Ideal S256x1280 .bf16) (r : FVec Ideal S1280x512 .bf16) (b : Fin 256) (j : Fin 512) :
    matmul Cert.KernelIdeal.dot_S256x1280_S1280x512_S256x512_1_0_0_1_n_n none l r (constant S256x512 .f32 0x00000000#32) (ix2 b j)
      = ∑ t : Fin 1280, l (ix2 b t) * r (ix2 t j) :=
  (Ideal.matmul_constant_zero_apply Cert.KernelIdeal.dot_S256x1280_S1280x512_S256x512_1_0_0_1_n_n none l r (ix2 b j)).trans
    (contraction_ix2 Cert.KernelIdeal.dot_S256x1280_S1280x512_S256x512_1_0_0_1_n_n rfl rfl
      (fun _ _ => rfl) (fun _ _ => rfl) (fun _ _ => rfl) (fun _ _ => rfl) l r b j)

/-- The product of a `[256, 512]` block with a `[512, 128]` block into a zero accumulator, at `(b, v)`. -/
theorem matmul_512_apply (l : FVec Ideal S256x512 .bf16) (r : FVec Ideal S512x128 .bf16) (b : Fin 256) (v : Fin 128) :
    matmul Cert.KernelIdeal.dot_S256x512_S512x128_S256x128_1_0_0_1_n_n none l r (constant S256x128 .f32 0x00000000#32) (ix2 b v)
      = ∑ j : Fin 512, l (ix2 b j) * r (ix2 j v) :=
  (Ideal.matmul_constant_zero_apply Cert.KernelIdeal.dot_S256x512_S512x128_S256x128_1_0_0_1_n_n none l r (ix2 b v)).trans
    (contraction_ix2 Cert.KernelIdeal.dot_S256x512_S512x128_S256x128_1_0_0_1_n_n rfl rfl
      (fun _ _ => rfl) (fun _ _ => rfl) (fun _ _ => rfl) (fun _ _ => rfl) l r b v)

/-- The value accumulator starts at zero. -/
theorem pay1_apply (i : S256x512.Idx) : k0_pay1 (F := Ideal) i = 0 := by
  unfold k0_pay1
  rw [shapeCast_self]
  exact Ideal.ofBits_zero_f32

/-- The gate accumulator starts at zero. -/
theorem pay2_apply (i : S256x512.Idx) : k0_pay2 (F := Ideal) i = 0 := by
  unfold k0_pay2
  rw [shapeCast_self]
  exact Ideal.ofBits_zero_f32

/-- One step of the value accumulator at `(b, j)`. -/
theorem pay4_apply (x : Vec Ideal S256x1280 .f32) (w : Vec Ideal S1280x512 .f32) (a : Vec Ideal S256x512 .f32)
    (b : Fin 256) (j : Fin 512) :
    k0_pay4 (F := Ideal) x w a (ix2 b j) = a (ix2 b j) + ∑ t : Fin 1280, x (ix2 b t) * w (ix2 t j) := by
  unfold k0_pay4 k0_pay3
  rw [shapeCast_self, shapeCast_self]
  exact congrArg (a (ix2 b j) + ·) (matmul_1280_apply _ _ b j)

/-- One step of the gate accumulator at `(b, j)`. -/
theorem pay5_apply (x : Vec Ideal S256x1280 .f32) (w : Vec Ideal S1280x512 .f32) (a : Vec Ideal S256x512 .f32)
    (b : Fin 256) (j : Fin 512) :
    k0_pay5 (F := Ideal) x w a (ix2 b j) = a (ix2 b j) + ∑ t : Fin 1280, x (ix2 b t) * w (ix2 t j) := by
  unfold k0_pay5 k0_pay3
  rw [shapeCast_self, shapeCast_self]
  exact congrArg (a (ix2 b j) + ·) (matmul_1280_apply _ _ b j)

/-- The last step's output at `(u, b, v)`: the gated half times the block of the second weight. -/
theorem pay6_apply (a : Vec Ideal S256x512 .f32) (β : Vec Ideal S1x512 .f32) (g : Vec Ideal S256x512 .f32)
    (γ : Vec Ideal S1x512 .f32) (w2 : Vec Ideal S512x128 .f32) (u : Fin 1) (b : Fin 256) (v : Fin 128) :
    k0_pay6 (F := Ideal) a β g γ w2 (ix3 u b v)
      = ∑ j : Fin 512, ((a (ix2 b j) + β (ix2 (0 : Fin 1) j)) * Ideal.logistic (g (ix2 b j) + γ (ix2 (0 : Fin 1) j)))
          * w2 (ix2 j v) := by
  unfold k0_pay6
  rw [shapeCast_self, shapeCast_self]
  refine (shapeCast_ab_1ab_apply _ _ u b v).trans ?_
  refine (matmul_512_apply _ _ b v).trans ?_
  refine Finset.sum_congr rfl fun j _ => ?_
  show ((a (ix2 b j) + broadcastTo S256x512 β _ (ix2 b j)) * Ideal.logistic (g (ix2 b j) + broadcastTo S256x512 γ _ (ix2 b j)))
      * w2 (ix2 j v) = _
  rw [broadcastTo_1b_ab_apply, broadcastTo_1b_ab_apply]

end Cert.Hand
-- ==== Proof.BridgeAcc.lean ====
import proofs.«103122_j77446850281992_2_alg».proof.Proof.BridgePayload

/-!
# The accumulators in closed form

After the blocks `0 … k` an accumulator of half `c` holds, at `(b, j)`, the sum over those blocks of each block's
sum of products.  After block 27 the 28 blocks of 1280 exhaust the contracted axis of 35840, and the accumulator is the
whole contraction: `∑ x, P (b, x) * W (x, 512 c + j)`.  Only the grouping of a finite sum changes.
-/

noncomputable section

open scoped BigOperators

namespace Cert.Hand

open Idealize.ShloMosaic Idealize.ShloMosaic.ValueIdx
open Cert.KernelIdeal (S256x35840 S35840x1024 S256x1280 S1280x512 S256x512)

/-- Block `t`'s contribution at `(b, j)` of half `c`: the sum over the block's 1280 positions. -/
def blockSum (P : S256x35840.Idx → Ideal .f32) (W : S35840x1024.Idx → Ideal .f32) (c : Fin 2) (b : Fin 256) (j : Fin 512)
    (t : Fin 28) : EReal :=
  ∑ s : Fin 1280, pBlk P t (ix2 b s) * wBlk W t c (ix2 s j)

/-- Column `512 c + j` of the `[35840, 1024]` weights. -/
abbrev col (c : Fin 2) (j : Fin 512) : Fin 1024 := ⟨c.val * 512 + j.val, by have := c.isLt; have := j.isLt; omega⟩

/-- The whole contraction of row `b` of `P` with column `y` of `W`. -/
def dotRow (P : S256x35840.Idx → Ideal .f32) (W : S35840x1024.Idx → Ideal .f32) (b : Fin 256) (y : Fin 1024) : EReal :=
  ∑ x : Fin 35840, P (ix2 b x) * W (ix2 x y)

/-- Entry `(b, y)` of the gated hidden layer: `(P·W1 + b1) * logistic (P·Wg + bg)`. -/
def hidden (P : S256x35840.Idx → Ideal .f32) (W1 : S35840x1024.Idx → Ideal .f32) (b1 : Cert.KernelIdeal.S1024.Idx → Ideal .f32)
    (Wg : S35840x1024.Idx → Ideal .f32) (bg : Cert.KernelIdeal.S1024.Idx → Ideal .f32) (b : Fin 256) (y : Fin 1024) : EReal :=
  (dotRow P W1 b y + b1 (ix1 y)) * Ideal.logistic (dotRow P Wg b y + bg (ix1 y))

/-- The 28 blocks' contributions add up to the whole contraction. -/
theorem sum_blockSum (P : S256x35840.Idx → Ideal .f32) (W : S35840x1024.Idx → Ideal .f32) (c : Fin 2) (b : Fin 256)
    (j : Fin 512) : ∑ t : Fin 28, blockSum P W c b j t = dotRow P W b (col c j) := by
  unfold dotRow
  rw [sum_fin_blocks 28 1280 35840 rfl]
  rfl

/-- The value accumulator after blocks `0 … k`. -/
theorem acc1_apply (P : S256x35840.Idx → Ideal .f32) (W1 : S35840x1024.Idx → Ideal .f32) (c : Fin 2) (b : Fin 256)
    (j : Fin 512) : ∀ (k : ℕ) (hk : k < 28),
    acc1 P W1 c k hk (ix2 b j) = ∑ t : Fin (k + 1), blockSum P W1 c b j ⟨t.val, by have := t.isLt; omega⟩
  | 0, hk => by
    show Cert.KernelIdeal.Gen.k0_pay4 (F := Ideal) (pBlk P ⟨0, hk⟩) (wBlk W1 ⟨0, hk⟩ c) (Cert.KernelIdeal.Gen.k0_pay1 (F := Ideal)) (ix2 b j) = _
    rw [pay4_apply, pay1_apply, zero_add, Fin.sum_univ_one]
    rfl
  | k + 1, hk => by
    show Cert.KernelIdeal.Gen.k0_pay4 (F := Ideal) (pBlk P ⟨k + 1, hk⟩) (wBlk W1 ⟨k + 1, hk⟩ c)
      (acc1 P W1 c k (Nat.lt_of_succ_lt hk)) (ix2 b j) = _
    rw [pay4_apply, acc1_apply P W1 c b j k (Nat.lt_of_succ_lt hk)]
    refine Eq.symm ((Fin.sum_univ_castSucc _).trans ?_)
    rfl

/-- The gate accumulator after blocks `0 … k`. -/
theorem accg_apply (P : S256x35840.Idx → Ideal .f32) (Wg : S35840x1024.Idx → Ideal .f32) (c : Fin 2) (b : Fin 256)
    (j : Fin 512) : ∀ (k : ℕ) (hk : k < 28),
    accg P Wg c k hk (ix2 b j) = ∑ t : Fin (k + 1), blockSum P Wg c b j ⟨t.val, by have := t.isLt; omega⟩
  | 0, hk => by
    show Cert.KernelIdeal.Gen.k0_pay5 (F := Ideal) (pBlk P ⟨0, hk⟩) (wBlk Wg ⟨0, hk⟩ c) (Cert.KernelIdeal.Gen.k0_pay2 (F := Ideal)) (ix2 b j) = _
    rw [pay5_apply, pay2_apply, zero_add, Fin.sum_univ_one]
    rfl
  | k + 1, hk => by
    show Cert.KernelIdeal.Gen.k0_pay5 (F := Ideal) (pBlk P ⟨k + 1, hk⟩) (wBlk Wg ⟨k + 1, hk⟩ c)
      (accg P Wg c k (Nat.lt_of_succ_lt hk)) (ix2 b j) = _
    rw [pay5_apply, accg_apply P Wg c b j k (Nat.lt_of_succ_lt hk)]
    refine Eq.symm ((Fin.sum_univ_castSucc _).trans ?_)
    rfl

/-- After the last block the value accumulator is the whole contraction. -/
theorem acc1_last (P : S256x35840.Idx → Ideal .f32) (W1 : S35840x1024.Idx → Ideal .f32) (c : Fin 2) (b : Fin 256)
    (j : Fin 512) (h : 27 < 28) : acc1 P W1 c 27 h (ix2 b j) = dotRow P W1 b (col c j) :=
  (acc1_apply P W1 c b j 27 h).trans (sum_blockSum P W1 c b j)

/-- After the last block the gate accumulator is the whole contraction. -/
theorem accg_last (P : S256x35840.Idx → Ideal .f32) (Wg : S35840x1024.Idx → Ideal .f32) (c : Fin 2) (b : Fin 256)
    (j : Fin 512) (h : 27 < 28) : accg P Wg c 27 h (ix2 b j) = dotRow P Wg b (col c j) :=
  (accg_apply P Wg c b j 27 h).trans (sum_blockSum P Wg c b j)

end Cert.Hand

end
-- ==== Proof.BridgeKernel.lean ====
import proofs.«103122_j77446850281992_2_alg».proof.Proof.BridgeAcc

/-!
# The blocked side, entry by entry

Half `c` of the output at `(b, v)` is the sum over the 512 hidden positions `j` of the half of
`hidden (b, 512 c + j) * W2 (512 c + j, v)`; the stacked array's slab `c` is that half; and the tail adds slab 0,
slab 1 and `b2 v`.
-/

noncomputable section

open scoped BigOperators

namespace Cert.Hand

open Idealize.ShloMosaic Idealize.ShloMosaic.ValueIdx
open Cert.KernelIdeal (S256x35840 S35840x1024 S1024 S1x1024 S1024x128 S128 S1x128 S256x128 S2x256x128 S1x256x128)

/-- A bias laid out as one row reads, at `(u, y)`, the bias at `y`. -/
theorem b1r_apply (β : S1024.Idx → Ideal .f32) (u : Fin 1) (y : Fin 1024) : b1r β (ix2 u y) = β (ix1 y) :=
  shapeCast_a_1a_apply β _ u y

/-- Half `c` of the output at `(u, b, v)`. -/
theorem outBlk_apply (P : S256x35840.Idx → Ideal .f32) (W1 : S35840x1024.Idx → Ideal .f32) (b1 : S1024.Idx → Ideal .f32)
    (Wg : S35840x1024.Idx → Ideal .f32) (bg : S1024.Idx → Ideal .f32) (W2 : S1024x128.Idx → Ideal .f32)
    (c : Fin 2) (u : Fin 1) (b : Fin 256) (v : Fin 128) :
    outBlk P W1 (b1r b1) Wg (b1r bg) W2 c (ix3 u b v)
      = ∑ j : Fin 512, hidden P W1 b1 Wg bg b (col c j) * W2 (ix2 (col c j) v) := by
  unfold outBlk
  rw [pay6_apply]
  refine Finset.sum_congr rfl fun j _ => ?_
  rw [acc1_last, accg_last]
  show ((dotRow P W1 b (col c j) + b1r b1 (ix2 (0 : Fin 1) (col c j)))
      * Ideal.logistic (dotRow P Wg b (col c j) + b1r bg (ix2 (0 : Fin 1) (col c j)))) * W2 (ix2 (col c j) v) = _
  rw [b1r_apply, b1r_apply]
  rfl

/-- Slab `c` of the stacked array is half `c`. -/
theorem kerOut_apply (P : S256x35840.Idx → Ideal .f32) (W1 : S35840x1024.Idx → Ideal .f32) (b1row : S1x1024.Idx → Ideal .f32)
    (Wg : S35840x1024.Idx → Ideal .f32) (bgrow : S1x1024.Idx → Ideal .f32) (W2 : S1024x128.Idx → Ideal .f32)
    (c : Fin 2) (b : Fin 256) (v : Fin 128) :
    kerOut P W1 b1row Wg bgrow W2 (ix3 c b v) = outBlk P W1 b1row Wg bgrow W2 c (ix3 (0 : Fin 1) b v) := rfl

/-- The tail at `(b, v)`: slab 0 plus slab 1 plus the output bias. -/
theorem kerTail_apply (O : S2x256x128.Idx → Ideal .f32) (b2 : S128.Idx → Ideal .f32) (b : Fin 256) (v : Fin 128) :
    kerTail O b2 (ix2 b v) = O (ix3 (0 : Fin 2) b v) + O (ix3 (1 : Fin 2) b v) + b2 (ix1 v) := by
  unfold kerTail
  show (shapeCast S256x128 _ _ (ix2 b v) + shapeCast S256x128 _ _ (ix2 b v))
      + broadcastInDim (s := S1x128) S256x128 ![0, 1] _ _ (ix2 b v) = _
  rw [shapeCast_1ab_ab_apply, shapeCast_1ab_ab_apply]
  rw [extractStridedSlice_apply ![0, 0, 0] O _ (ix3 (0 : Fin 1) b v) (ix3 (0 : Fin 2) b v)
      (fun a => match a with
        | ⟨0, _⟩ => rfl
        | ⟨1, _⟩ => (Nat.zero_add _).symm
        | ⟨2, _⟩ => (Nat.zero_add _).symm),
    extractStridedSlice_apply ![1, 0, 0] O _ (ix3 (0 : Fin 1) b v) (ix3 (1 : Fin 2) b v)
      (fun a => match a with
        | ⟨0, _⟩ => rfl
        | ⟨1, _⟩ => (Nat.zero_add _).symm
        | ⟨2, _⟩ => (Nat.zero_add _).symm)]
  rw [broadcastInDim_apply ![0, 1] _ _ (ix2 b v) (ix2 (0 : Fin 1) v)
      (fun a => match a with
        | ⟨0, _⟩ => rfl
        | ⟨1, _⟩ => rfl),
    shapeCast_a_1a_apply]

/-- The blocked side at `(b, v)`: the two halves of the hidden axis, then the output bias. -/
theorem kernel_apply (P : S256x35840.Idx → Ideal .f32) (W1 : S35840x1024.Idx → Ideal .f32) (b1 : S1024.Idx → Ideal .f32)
    (Wg : S35840x1024.Idx → Ideal .f32) (bg : S1024.Idx → Ideal .f32) (W2 : S1024x128.Idx → Ideal .f32)
    (b2 : S128.Idx → Ideal .f32) (b : Fin 256) (v : Fin 128) :
    kerTail (kerOut P W1 (b1r b1) Wg (b1r bg) W2) b2 (ix2 b v)
      = (∑ j : Fin 512, hidden P W1 b1 Wg bg b (col 0 j) * W2 (ix2 (col 0 j) v))
        + (∑ j : Fin 512, hidden P W1 b1 Wg bg b (col 1 j) * W2 (ix2 (col 1 j) v)) + b2 (ix1 v) := by
  rw [kerTail_apply, kerOut_apply, kerOut_apply, outBlk_apply, outBlk_apply]

end Cert.Hand

end
-- ==== Proof.BridgeRef.lean ====
import proofs.«103122_j77446850281992_2_alg».proof.Proof.BridgeAcc

/-!
# The whole-array side, entry by entry

Each host contraction read at an index is the plain sum of products; a bias `[n]` broadcast to one row and then to
every row reads the bias at the column; the splat of the single-precision one is `1`.  So the whole-array result at
`(b, v)` is `∑ y, hidden (b, y) * W2 (y, v) + b2 v` over all 1024 hidden positions.
-/

noncomputable section

open scoped BigOperators

namespace Cert.Hand

open Idealize.ShloMosaic Idealize.ShloMosaic.ValueIdx
open Cert.KernelIdeal (S256x35840 S35840x1024 S1024 S1x1024 S1024x128 S128 S1x128 S256x128)

/-- The `[256, 35840] × [35840, 1024]` contraction at `(b, y)`. -/
theorem dot_first_apply (l : FVec Ideal Cert.ReferenceIdeal.S256x35840 .f32) (r : FVec Ideal Cert.ReferenceIdeal.S35840x1024 .f32)
    (b : Fin 256) (y : Fin 1024) :
    Host.dotGeneral (F := Ideal) Cert.ReferenceIdeal.dot_S256x35840_S35840x1024_S256x1024_1_0_0_1_n_n none l r (ix2 b y)
      = ∑ x : Fin 35840, l (ix2 b x) * r (ix2 x y) :=
  (Ideal.dotGeneral_apply Cert.ReferenceIdeal.dot_S256x35840_S35840x1024_S256x1024_1_0_0_1_n_n none .single l r (ix2 b y)).trans
    (contraction_ix2 Cert.ReferenceIdeal.dot_S256x35840_S35840x1024_S256x1024_1_0_0_1_n_n rfl rfl
      (fun _ _ => rfl) (fun _ _ => rfl) (fun _ _ => rfl) (fun _ _ => rfl) l r b y)

/-- The `[256, 1024] × [1024, 128]` contraction at `(b, v)`. -/
theorem dot_second_apply (l : FVec Ideal Cert.ReferenceIdeal.S256x1024 .f32) (r : FVec Ideal Cert.ReferenceIdeal.S1024x128 .f32)
    (b : Fin 256) (v : Fin 128) :
    Host.dotGeneral (F := Ideal) Cert.ReferenceIdeal.dot_S256x1024_S1024x128_S256x128_1_0_0_1_n_n none l r (ix2 b v)
      = ∑ y : Fin 1024, l (ix2 b y) * r (ix2 y v) :=
  (Ideal.dotGeneral_apply Cert.ReferenceIdeal.dot_S256x1024_S1024x128_S256x128_1_0_0_1_n_n none .single l r (ix2 b v)).trans
    (contraction_ix2 Cert.ReferenceIdeal.dot_S256x1024_S1024x128_S256x128_1_0_0_1_n_n rfl rfl
      (fun _ _ => rfl) (fun _ _ => rfl) (fun _ _ => rfl) (fun _ _ => rfl) l r b v)

/-- A bias `[1024]` broadcast to one row and then to 256 rows reads, at `(b, y)`, the bias at `y`. -/
theorem bias_hidden_apply (β : S1024.Idx → Ideal .f32) (b : Fin 256) (y : Fin 1024) :
    broadcastInDim Cert.ReferenceIdeal.S256x1024 ![0, 1] Cert.ReferenceIdeal.Gen.bcast_S1x1024_S256x1024_0_1
        (broadcastInDim Cert.ReferenceIdeal.S1x1024 ![1] Cert.ReferenceIdeal.Gen.bcast_S1024_S1x1024_1 β) (ix2 b y)
      = β (ix1 y) :=
  (broadcastInDim_apply ![0, 1] _ _ (ix2 b y) (ix2 (0 : Fin 1) y)
      (fun a => match a with
        | ⟨0, _⟩ => rfl
        | ⟨1, _⟩ => rfl)).trans
    (broadcastInDim_apply ![1] _ β (ix2 (0 : Fin 1) y) (ix1 y)
      (fun a => match a with
        | ⟨0, _⟩ => rfl))

/-- A bias `[128]` broadcast to one row and then to 256 rows reads, at `(b, v)`, the bias at `v`. -/
theorem bias_out_apply (β : S128.Idx → Ideal .f32) (b : Fin 256) (v : Fin 128) :
    broadcastInDim Cert.ReferenceIdeal.S256x128 ![0, 1] Cert.ReferenceIdeal.Gen.bcast_S1x128_S256x128_0_1
        (broadcastInDim Cert.ReferenceIdeal.S1x128 ![1] Cert.ReferenceIdeal.Gen.bcast_S128_S1x128_1 β) (ix2 b v)
      = β (ix1 v) :=
  (broadcastInDim_apply ![0, 1] _ _ (ix2 b v) (ix2 (0 : Fin 1) v)
      (fun a => match a with
        | ⟨0, _⟩ => rfl
        | ⟨1, _⟩ => rfl)).trans
    (broadcastInDim_apply ![1] _ β (ix2 (0 : Fin 1) v) (ix1 v)
      (fun a => match a with
        | ⟨0, _⟩ => rfl))

/-- The host's division, exponential and negation at an index, and a broadcast scalar constant. -/
theorem hostDivf_apply {s : Shape} (x y : FVec Ideal s .f32) (i : s.Idx) : Host.divf x y i = Ideal.div (x i) (y i) := rfl
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem splat_apply (w : BitVec 32) (i : Cert.ReferenceIdeal.S256x1024.Idx) :
    broadcastInDim Cert.ReferenceIdeal.S256x1024 ![] Cert.ReferenceIdeal.Gen.bcast_S_S256x1024
      (constant (F := Ideal) Cert.ReferenceIdeal.S_ .f32 w) i = Ideal.ofBits .f32 w := rfl

/-- The whole-array side at `(b, v)`. -/
theorem ref_apply (P : S256x35840.Idx → Ideal .f32) (W1 : S35840x1024.Idx → Ideal .f32) (b1 : S1024.Idx → Ideal .f32)
    (Wg : S35840x1024.Idx → Ideal .f32) (bg : S1024.Idx → Ideal .f32) (W2 : S1024x128.Idx → Ideal .f32)
    (b2 : S128.Idx → Ideal .f32) (b : Fin 256) (v : Fin 128) :
    refTail P W1 b1 Wg bg W2 b2 (ix2 b v) = (∑ y : Fin 1024, hidden P W1 b1 Wg bg b y * W2 (ix2 y v)) + b2 (ix1 v) := by
  unfold refTail
  dsimp only
  rw [addf_apply, dot_second_apply, bias_out_apply]
  refine congrArg (· + b2 (ix1 v)) (Finset.sum_congr rfl fun y _ => congrArg (· * W2 (ix2 y v)) ?_)
  rw [mulf_apply, addf_apply, hostDivf_apply, addf_apply, hostExp_apply, hostNegf_apply, addf_apply, splat_apply,
    dot_first_apply, dot_first_apply, bias_hidden_apply, bias_hidden_apply, ofBits_one_f32]
  rfl

end Cert.Hand

end
-- ==== Proof.Bridge.lean ====
import proofs.«103122_j77446850281992_2_alg».proof.Proof.BridgeKernel
import proofs.«103122_j77446850281992_2_alg».proof.Proof.BridgeRef

/-!
# The blocked side is the whole-array side

At every output position both sides are `∑ hidden (b, y) * W2 (y, v) + b2 v`; the blocked side takes the sum over the
1024 hidden positions as the sum over the first 512 plus the sum over the last 512.  Nothing but the grouping of finite
sums in the extended reals' commutative additive monoid is used: no term is distributed, cancelled or moved across a
product, so the equality holds for all extended-real arrays, infinite entries included.
-/

open scoped BigOperators

namespace Cert.Hand

open Idealize.ShloMosaic Idealize.ShloMosaic.ValueIdx
open Cert.KernelIdeal (S256x35840 S35840x1024 S1024 S1024x128 S128 S256x128)

/-- The sum of the two stored halves plus the bias is the whole gated projection. -/
theorem bridge (P : S256x35840.Idx → Ideal .f32) (W1 : S35840x1024.Idx → Ideal .f32) (b1 : S1024.Idx → Ideal .f32)
    (Wg : S35840x1024.Idx → Ideal .f32) (bg : S1024.Idx → Ideal .f32) (W2 : S1024x128.Idx → Ideal .f32)
    (b2 : S128.Idx → Ideal .f32) :
    kerTail (kerOut P W1 (b1r b1) Wg (b1r bg) W2) b2 = refTail P W1 b1 Wg bg W2 b2 := by
  funext i
  obtain ⟨b, v, rfl⟩ : ∃ (b : Fin 256) (v : Fin 128), i = ix2 b v := ⟨i 0, i 1, eq_ix2 i⟩
  rw [kernel_apply, ref_apply, sum_fin_blocks 2 512 1024 rfl, Fin.sum_univ_two]

end Cert.Hand
-- ==== Proof.lean ====
/-
  A gated two-layer network on a sorted ring buffer: the blocked kernel against the whole-array reference.

  Both programs first build the network's input P = pred_input ∈ f32[256, 35840] from the five state arguments by
  the same host lines (a ring-buffer roll, a stable sort by age, gathers, the ages' binary digits, a normalised
  age, one concatenation); nothing here opens what those lines mean: the two programs' values of P are one
  function of the five arguments, term for term.  Then, with W1, Wg ∈ f32[35840, 1024], b1, bg ∈ f32[1024],
  W2 ∈ f32[1024, 128], b2 ∈ f32[128], both compute

      ((P·W1 + b1) * (1 / (1 + exp (−(P·Wg + bg))))) · W2 + b2 .

  The reference takes each product as one contraction.  The kernel cuts the contraction over 35840 into 28 blocks
  of 1280 and the 1024 hidden units into two halves of 512: on the grid (q, k) ∈ 2 × 28 two accumulators, zeroed
  at k = 0, gain at every k the product of P's column block k with the block (k, q) of W1 (of Wg); at k = 27 the
  gated half (the kernel's logistic is 1 / (1 + exp (−x)) at the extended reals) is multiplied by row block q of
  W2 into half q of a [2, 256, 128] array, whose two halves and b2 are then added on the host.  At the extended
  reals every change of float format is the identity, a product into a zero accumulator is a plain sum, and the
  two sides differ only by regrouping finite sums — Σ over 35840 = Σ_{k<28} Σ over 1280, Σ over 1024 =
  Σ_{q<2} Σ over 512, 0 + x = x — in a commutative monoid: no distributing, no cancelling, so the precondition
  (every float input finite) is never opened.

  The frames: the kernel program's (at the word level and idealized) from the region's run — the body run once per
  case of k (first, inside, last), the accumulators carried by the region's invariant — and the reference's from its
  host lines run in order; every argument is written by no line.  The idealization rewrote nothing, so the
  preservation conjunct is `True`.
-/
import proofs.«103122_j77446850281992_2_alg».proof.Defs
import proofs.«103122_j77446850281992_2_alg».proof.Proof.Gen.Kernel
import proofs.«103122_j77446850281992_2_alg».proof.Proof.Gen.KernelIdeal
import proofs.«103122_j77446850281992_2_alg».proof.Proof.Gen.ReferenceIdeal
import proofs.«103122_j77446850281992_2_alg».proof.Proof.Gen.Pre_finite_inputs
import proofs.«103122_j77446850281992_2_alg».proof.Proof.FrameB
import proofs.«103122_j77446850281992_2_alg».proof.Proof.ValueI
import proofs.«103122_j77446850281992_2_alg».proof.Proof.RefValue
import proofs.«103122_j77446850281992_2_alg».proof.Proof.StepRunK
import proofs.«103122_j77446850281992_2_alg».proof.Proof.StepRunR
import proofs.«103122_j77446850281992_2_alg».proof.Proof.StepEq
import proofs.«103122_j77446850281992_2_alg».proof.Proof.Bridge

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host lines only: its run leaves every buffer at the lines' fold over the launch memory, and no
    line writes an argument. -/
theorem frame_reference : Cert.frame_ReferenceIdeal (hReferenceIdeal := Cert.ReferenceIdeal.Gen.facts) (hPre_finite_inputs := Cert.Pre_finite_inputs.Gen.facts) :=
  Cert.ReferenceIdeal.Hand.frame

theorem preserves : Cert.preserves_Kernel_KernelIdeal := trivial

/-- From memories agreeing on the eleven arguments both programs end at one result: the kernel's, `kerResult` of the
    arguments; the reference's, the whole-array formula of its own value of P and the six weight and bias arguments —
    P the same function of the five state arguments on both sides, and the blocked formula the whole-array one. -/
theorem algebraic  : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.kerResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.value_run m ρ (fun V => Cert.KernelIdeal.Hand.glue_v94 V), ?_⟩
  refine (θ_run Cert.ReferenceIdeal.defs _ _).mono (fun _ h c => ⟨?_, (h c).2⟩)
    (Cert.ReferenceIdeal.Hand.value_run (fun V => Cert.ReferenceIdeal.Hand.ref_v94 V) m' ρ')
  obtain ⟨e0, e1, e2, e3, e4, e5, e6, e7, e8, e9, e10⟩ := hagree c
  rw [(h c).1, e0, e1, e2, e3, e4, e5, e6, e7, e8, e9, e10]
  unfold Cert.KernelIdeal.Hand.kerResult
  rw [Cert.Hand.step_eq]
  exact (Cert.Hand.bridge _ _ _ _ _ _ _).symm

theorem claim  : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
